-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)) →
    ∃ (v0 : (c : Dev Cert.KernelIdeal.nD) → Buf (Elt Ideal) ((c.tc : Thread Cert.KernelIdeal.nD Cert.KernelIdeal.τ).loc Cert.KernelIdeal.main_v73_0)) (v1 : (c : Dev Cert.KernelIdeal.nD) → Buf (Elt Ideal) ((c.tc : Thread Cert.KernelIdeal.nD Cert.KernelIdeal.τ).loc Cert.KernelIdeal.main_v73_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v73_0) = v0 c
          ∧ r.2.mem ((c.tc : Thread Cert.KernelIdeal.nD Cert.KernelIdeal.τ).loc Cert.KernelIdeal.main_v73_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v147) = v0 c
          ∧ r.2.mem ((c.tc : Thread Cert.ReferenceIdeal.nD Cert.ReferenceIdeal.τ).loc Cert.ReferenceIdeal.main_v159) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S51200x200 : Shape := ⟨2, ![51200, 200]⟩
abbrev S2x1638400 : Shape := ⟨2, ![2, 1638400]⟩
abbrev S1638400 : Shape := ⟨1, ![1638400]⟩
abbrev S200x128 : Shape := ⟨2, ![200, 128]⟩
abbrev S128 : Shape := ⟨1, ![128]⟩
abbrev S128x64 : Shape := ⟨2, ![128, 64]⟩
abbrev S64 : Shape := ⟨1, ![64]⟩
abbrev S64x8 : Shape := ⟨2, ![64, 8]⟩
abbrev S8 : Shape := ⟨1, ![8]⟩
abbrev S1600x200 : Shape := ⟨2, ![1600, 200]⟩
abbrev S200 : Shape := ⟨1, ![200]⟩
abbrev S200x2 : Shape := ⟨2, ![200, 2]⟩
abbrev S2 : Shape := ⟨1, ![2]⟩
abbrev S200x64 : Shape := ⟨2, ![200, 64]⟩
abbrev S64x6 : Shape := ⟨2, ![64, 6]⟩
abbrev S6 : Shape := ⟨1, ![6]⟩
abbrev S_ : Shape := ⟨0, ![]⟩

class Facts : Prop where
  bcast_S_S51200x200 : S_.BroadcastsInDim S51200x200 (![] : Fin 0 → Fin S51200x200.rank)
  reducesTo_S51200x200_S_d0_1 : S51200x200.ReducesTo [0, 1] S_
  h_S_ : 0 < S_.numel
  bcast_S_S1638400 : S_.BroadcastsInDim S1638400 (![] : Fin 0 → Fin S1638400.rank)
  reducesTo_S1638400_S_d0 : S1638400.ReducesTo [0] S_
  bcast_S_S200x128 : S_.BroadcastsInDim S200x128 (![] : Fin 0 → Fin S200x128.rank)
  reducesTo_S200x128_S_d0_1 : S200x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x8 : S_.BroadcastsInDim S64x8 (![] : Fin 0 → Fin S64x8.rank)
  reducesTo_S64x8_S_d0_1 : S64x8.ReducesTo [0, 1] S_
  bcast_S_S8 : S_.BroadcastsInDim S8 (![] : Fin 0 → Fin S8.rank)
  reducesTo_S8_S_d0 : S8.ReducesTo [0] S_
  bcast_S_S1600x200 : S_.BroadcastsInDim S1600x200 (![] : Fin 0 → Fin S1600x200.rank)
  reducesTo_S1600x200_S_d0_1 : S1600x200.ReducesTo [0, 1] S_
  bcast_S_S200 : S_.BroadcastsInDim S200 (![] : Fin 0 → Fin S200.rank)
  reducesTo_S200_S_d0 : S200.ReducesTo [0] S_
  bcast_S_S200x2 : S_.BroadcastsInDim S200x2 (![] : Fin 0 → Fin S200x2.rank)
  reducesTo_S200x2_S_d0_1 : S200x2.ReducesTo [0, 1] S_
  bcast_S_S2 : S_.BroadcastsInDim S2 (![] : Fin 0 → Fin S2.rank)
  reducesTo_S2_S_d0 : S2.ReducesTo [0] S_
  bcast_S_S200x64 : S_.BroadcastsInDim S200x64 (![] : Fin 0 → Fin S200x64.rank)
  reducesTo_S200x64_S_d0_1 : S200x64.ReducesTo [0, 1] S_
  bcast_S_S64x6 : S_.BroadcastsInDim S64x6 (![] : Fin 0 → Fin S64x6.rank)
  reducesTo_S64x6_S_d0_1 : S64x6.ReducesTo [0, 1] S_
  bcast_S_S6 : S_.BroadcastsInDim S6 (![] : Fin 0 → Fin S6.rank)
  reducesTo_S6_S_d0 : S6.ReducesTo [0] S_

variable [Facts]

def fn_part5 {F : FTy → Type} [FloatOps F] (main_v83 : IVec S_ 1) (main_v84 : FVec F S6 .f32) (main_cst_32 : FVec F S_ .f32) : IVec S_ 1 :=
  let main_v85 : FVec F S6 .f32 := broadcastInDim S6 ![] bcast_S_S6 main_cst_32
  let main_v86 : IVec S6 1 := cmpf .olt main_v84 main_v85
  let main_c_33 : IVec S_ 1 := constantI S_ 1 1#1
  let main_v87 : IVec S_ 1 := (fun x v => Host.reduce IntOp.andi x v reducesTo_S6_S_d0 h_S_) main_v86 main_c_33
  let main_v88 : IVec S_ 1 := andi main_v83 main_v87
  main_v88

def fn_part4 {F : FTy → Type} [FloatOps F] (main_arg15 : FVec F S200x64 .f32) (main_arg16 : FVec F S64 .f32) (main_arg17 : FVec F S64x6 .f32) (main_arg18 : FVec F S6 .f32) (main_v63 : IVec S_ 1) (main_v67 : IVec S_ 1) : IVec S_ 1 :=
  let main_v68 : IVec S_ 1 := andi main_v63 main_v67
  let main_v69 : FVec F S200x64 .f32 := Host.absf main_arg15
  let main_cst_26 : FVec F S_ .f32 := constant S_ .f32 0x7F800000#32
  let main_v70 : FVec F S200x64 .f32 := broadcastInDim S200x64 ![] bcast_S_S200x64 main_cst_26
  let main_v71 : IVec S200x64 1 := cmpf .olt main_v69 main_v70
  let main_c_27 : IVec S_ 1 := constantI S_ 1 1#1
  let main_v72 : IVec S_ 1 := (fun x v => Host.reduce IntOp.andi x v reducesTo_S200x64_S_d0_1 h_S_) main_v71 main_c_27
  let main_v73 : IVec S_ 1 := andi main_v68 main_v72
  let main_v74 : FVec F S64 .f32 := Host.absf main_arg16
  let main_cst_28 : FVec F S_ .f32 := constant S_ .f32 0x7F800000#32
  let main_v75 : FVec F S64 .f32 := broadcastInDim S64 ![] bcast_S_S64 main_cst_28
  let main_v76 : IVec S64 1 := cmpf .olt main_v74 main_v75
  let main_c_29 : IVec S_ 1 := constantI S_ 1 1#1
  let main_v77 : IVec S_ 1 := (fun x v => Host.reduce IntOp.andi x v reducesTo_S64_S_d0 h_S_) main_v76 main_c_29
  let main_v78 : IVec S_ 1 := andi main_v73 main_v77
  let main_v79 : FVec F S64x6 .f32 := Host.absf main_arg17
  let main_cst_30 : FVec F S_ .f32 := constant S_ .f32 0x7F800000#32
  let main_v80 : FVec F S64x6 .f32 := broadcastInDim S64x6 ![] bcast_S_S64x6 main_cst_30
  let main_v81 : IVec S64x6 1 := cmpf .olt main_v79 main_v80
  let main_c_31 : IVec S_ 1 := constantI S_ 1 1#1
  let main_v82 : IVec S_ 1 := (fun x v => Host.reduce IntOp.andi x v reducesTo_S64x6_S_d0_1 h_S_) main_v81 main_c_31
  let main_v83 : IVec S_ 1 := andi main_v78 main_v82
  let main_v84 : FVec F S6 .f32 := Host.absf main_arg18
  let main_cst_32 : FVec F S_ .f32 := constant S_ .f32 0x7F800000#32
  fn_part5 (F := F) main_v83 main_v84 main_cst_32

def fn_part3 {F : FTy → Type} [FloatOps F] (main_arg12 : FVec F S200 .f32) (main_arg13 : FVec F S200x2 .f32) (main_arg14 : FVec F S2 .f32) (main_arg15 : FVec F S200x64 .f32) (main_arg16 : FVec F S64 .f32) (main_arg17 : FVec F S64x6 .f32) (main_arg18 : FVec F S6 .f32) (main_v48 : IVec S_ 1) (main_v49 : FVec F S200 .f32) (main_v50 : FVec F S200 .f32) : IVec S_ 1 :=
  let main_v51 : IVec S200 1 := cmpf .olt main_v49 main_v50
  let main_c_19 : IVec S_ 1 := constantI S_ 1 1#1
  let main_v52 : IVec S_ 1 := (fun x v => Host.reduce IntOp.andi x v reducesTo_S200_S_d0 h_S_) main_v51 main_c_19
  let main_v53 : IVec S_ 1 := andi main_v48 main_v52
  let main_v54 : FVec F S200 .f32 := Host.absf main_arg12
  let main_cst_20 : FVec F S_ .f32 := constant S_ .f32 0x7F800000#32
  let main_v55 : FVec F S200 .f32 := broadcastInDim S200 ![] bcast_S_S200 main_cst_20
  let main_v56 : IVec S200 1 := cmpf .olt main_v54 main_v55
  let main_c_21 : IVec S_ 1 := constantI S_ 1 1#1
  let main_v57 : IVec S_ 1 := (fun x v => Host.reduce IntOp.andi x v reducesTo_S200_S_d0 h_S_) main_v56 main_c_21
  let main_v58 : IVec S_ 1 := andi main_v53 main_v57
  let main_v59 : FVec F S200x2 .f32 := Host.absf main_arg13
  let main_cst_22 : FVec F S_ .f32 := constant S_ .f32 0x7F800000#32
  let main_v60 : FVec F S200x2 .f32 := broadcastInDim S200x2 ![] bcast_S_S200x2 main_cst_22
  let main_v61 : IVec S200x2 1 := cmpf .olt main_v59 main_v60
  let main_c_23 : IVec S_ 1 := constantI S_ 1 1#1
  let main_v62 : IVec S_ 1 := (fun x v => Host.reduce IntOp.andi x v reducesTo_S200x2_S_d0_1 h_S_) main_v61 main_c_23
  let main_v63 : IVec S_ 1 := andi main_v58 main_v62
  let main_v64 : FVec F S2 .f32 := Host.absf main_arg14
  let main_cst_24 : FVec F S_ .f32 := constant S_ .f32 0x7F800000#32
  let main_v65 : FVec F S2 .f32 := broadcastInDim S2 ![] bcast_S_S2 main_cst_24
  let main_v66 : IVec S2 1 := cmpf .olt main_v64 main_v65
  let main_c_25 : IVec S_ 1 := constantI S_ 1 1#1
  let main_v67 : IVec S_ 1 := (fun x v => Host.reduce IntOp.andi x v reducesTo_S2_S_d0 h_S_) main_v66 main_c_25
  fn_part4 (F := F) main_arg15 main_arg16 main_arg17 main_arg18 main_v63 main_v67

def fn_part2 {F : FTy → Type} [FloatOps F] (main_arg8 : FVec F S8 .f32) (main_arg9 : FVec F S1600x200 .f32) (main_arg10 : FVec F S200 .f32) (main_arg11 : FVec F S200 .f32) (main_arg12 : FVec F S200 .f32) (main_arg13 : FVec F S200x2 .f32) (main_arg14 : FVec F S2 .f32) (main_arg15 : FVec F S200x64 .f32) (main_arg16 : FVec F S64 .f32) (main_arg17 : FVec F S64x6 .f32) (main_arg18 : FVec F S6 .f32) (main_v33 : IVec S_ 1) : IVec S_ 1 :=
  let main_v34 : FVec F S8 .f32 := Host.absf main_arg8
  let main_cst_12 : FVec F S_ .f32 := constant S_ .f32 0x7F800000#32
  let main_v35 : FVec F S8 .f32 := broadcastInDim S8 ![] bcast_S_S8 main_cst_12
  let main_v36 : IVec S8 1 := cmpf .olt main_v34 main_v35
  let main_c_13 : IVec S_ 1 := constantI S_ 1 1#1
  let main_v37 : IVec S_ 1 := (fun x v => Host.reduce IntOp.andi x v reducesTo_S8_S_d0 h_S_) main_v36 main_c_13
  let main_v38 : IVec S_ 1 := andi main_v33 main_v37
  let main_v39 : FVec F S1600x200 .f32 := Host.absf main_arg9
  let main_cst_14 : FVec F S_ .f32 := constant S_ .f32 0x7F800000#32
  let main_v40 : FVec F S1600x200 .f32 := broadcastInDim S1600x200 ![] bcast_S_S1600x200 main_cst_14
  let main_v41 : IVec S1600x200 1 := cmpf .olt main_v39 main_v40
  let main_c_15 : IVec S_ 1 := constantI S_ 1 1#1
  let main_v42 : IVec S_ 1 := (fun x v => Host.reduce IntOp.andi x v reducesTo_S1600x200_S_d0_1 h_S_) main_v41 main_c_15
  let main_v43 : IVec S_ 1 := andi main_v38 main_v42
  let main_v44 : FVec F S200 .f32 := Host.absf main_arg10
  let main_cst_16 : FVec F S_ .f32 := constant S_ .f32 0x7F800000#32
  let main_v45 : FVec F S200 .f32 := broadcastInDim S200 ![] bcast_S_S200 main_cst_16
  let main_v46 : IVec S200 1 := cmpf .olt main_v44 main_v45
  let main_c_17 : IVec S_ 1 := constantI S_ 1 1#1
  let main_v47 : IVec S_ 1 := (fun x v => Host.reduce IntOp.andi x v reducesTo_S200_S_d0 h_S_) main_v46 main_c_17
  let main_v48 : IVec S_ 1 := andi main_v43 main_v47
  let main_v49 : FVec F S200 .f32 := Host.absf main_arg11
  let main_cst_18 : FVec F S_ .f32 := constant S_ .f32 0x7F800000#32
  let main_v50 : FVec F S200 .f32 := broadcastInDim S200 ![] bcast_S_S200 main_cst_18
  fn_part3 (F := F) main_arg12 main_arg13 main_arg14 main_arg15 main_arg16 main_arg17 main_arg18 main_v48 main_v49 main_v50

def fn_part1 {F : FTy → Type} [FloatOps F] (main_arg5 : FVec F S128x64 .f32) (main_arg6 : FVec F S64 .f32) (main_arg7 : FVec F S64x8 .f32) (main_arg8 : FVec F S8 .f32) (main_arg9 : FVec F S1600x200 .f32) (main_arg10 : FVec F S200 .f32) (main_arg11 : FVec F S200 .f32) (main_arg12 : FVec F S200 .f32) (main_arg13 : FVec F S200x2 .f32) (main_arg14 : FVec F S2 .f32) (main_arg15 : FVec F S200x64 .f32) (main_arg16 : FVec F S64 .f32) (main_arg17 : FVec F S64x6 .f32) (main_arg18 : FVec F S6 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x64 .f32 := Host.absf main_arg5
  let main_cst_6 : FVec F S_ .f32 := constant S_ .f32 0x7F800000#32
  let main_v20 : FVec F S128x64 .f32 := broadcastInDim S128x64 ![] bcast_S_S128x64 main_cst_6
  let main_v21 : IVec S128x64 1 := cmpf .olt main_v19 main_v20
  let main_c_7 : IVec S_ 1 := constantI S_ 1 1#1
  let main_v22 : IVec S_ 1 := (fun x v => Host.reduce IntOp.andi x v reducesTo_S128x64_S_d0_1 h_S_) main_v21 main_c_7
  let main_v23 : IVec S_ 1 := andi main_v18 main_v22
  let main_v24 : FVec F S64 .f32 := Host.absf main_arg6
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64x8 .f32 := Host.absf main_arg7
  let main_cst_10 : FVec F S_ .f32 := constant S_ .f32 0x7F800000#32
  let main_v30 : FVec F S64x8 .f32 := broadcastInDim S64x8 ![] bcast_S_S64x8 main_cst_10
  let main_v31 : IVec S64x8 1 := cmpf .olt main_v29 main_v30
  let main_c_11 : IVec S_ 1 := constantI S_ 1 1#1
  let main_v32 : IVec S_ 1 := (fun x v => Host.reduce IntOp.andi x v reducesTo_S64x8_S_d0_1 h_S_) main_v31 main_c_11
  let main_v33 : IVec S_ 1 := andi main_v28 main_v32
  fn_part2 (F := F) main_arg8 main_arg9 main_arg10 main_arg11 main_arg12 main_arg13 main_arg14 main_arg15 main_arg16 main_arg17 main_arg18 main_v33

def fn {F : FTy → Type} [FloatOps F] (main_arg0 : FVec F S51200x200 .f32) (main_arg1 : IVec S2x1638400 32) (main_arg2 : FVec F S1638400 .f32) (main_arg3 : FVec F S200x128 .f32) (main_arg4 : FVec F S128 .f32) (main_arg5 : FVec F S128x64 .f32) (main_arg6 : FVec F S64 .f32) (main_arg7 : FVec F S64x8 .f32) (main_arg8 : FVec F S8 .f32) (main_arg9 : FVec F S1600x200 .f32) (main_arg10 : FVec F S200 .f32) (main_arg11 : FVec F S200 .f32) (main_arg12 : FVec F S200 .f32) (main_arg13 : FVec F S200x2 .f32) (main_arg14 : FVec F S2 .f32) (main_arg15 : FVec F S200x64 .f32) (main_arg16 : FVec F S64 .f32) (main_arg17 : FVec F S64x6 .f32) (main_arg18 : FVec F S6 .f32) : IVec S_ 1 :=
  let main_v0 : FVec F S51200x200 .f32 := Host.absf main_arg0
  let main_cst : FVec F S_ .f32 := constant S_ .f32 0x7F800000#32
  let main_v1 : FVec F S51200x200 .f32 := broadcastInDim S51200x200 ![] bcast_S_S51200x200 main_cst
  let main_v2 : IVec S51200x200 1 := cmpf .olt main_v0 main_v1
  let main_c : IVec S_ 1 := constantI S_ 1 1#1
  let main_v3 : IVec S_ 1 := (fun x v => Host.reduce IntOp.andi x v reducesTo_S51200x200_S_d0_1 h_S_) main_v2 main_c
  let main_v4 : FVec F S1638400 .f32 := Host.absf main_arg2
  let main_cst_0 : FVec F S_ .f32 := constant S_ .f32 0x7F800000#32
  let main_v5 : FVec F S1638400 .f32 := broadcastInDim S1638400 ![] bcast_S_S1638400 main_cst_0
  let main_v6 : IVec S1638400 1 := cmpf .olt main_v4 main_v5
  let main_c_1 : IVec S_ 1 := constantI S_ 1 1#1
  let main_v7 : IVec S_ 1 := (fun x v => Host.reduce IntOp.andi x v reducesTo_S1638400_S_d0 h_S_) main_v6 main_c_1
  let main_v8 : IVec S_ 1 := andi main_v3 main_v7
  let main_v9 : FVec F S200x128 .f32 := Host.absf main_arg3
  let main_cst_2 : FVec F S_ .f32 := constant S_ .f32 0x7F800000#32
  let main_v10 : FVec F S200x128 .f32 := broadcastInDim S200x128 ![] bcast_S_S200x128 main_cst_2
  let main_v11 : IVec S200x128 1 := cmpf .olt main_v9 main_v10
  let main_c_3 : IVec S_ 1 := constantI S_ 1 1#1
  let main_v12 : IVec S_ 1 := (fun x v => Host.reduce IntOp.andi x v reducesTo_S200x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_arg7 main_arg8 main_arg9 main_arg10 main_arg11 main_arg12 main_arg13 main_arg14 main_arg15 main_arg16 main_arg17 main_arg18 main_v13 main_v16
-- ==== Kernel.lean ====
abbrev S51200x200 : Shape := ⟨2, ![51200, 200]⟩
abbrev S2x1638400 : Shape := ⟨2, ![2, 1638400]⟩
abbrev S1638400 : Shape := ⟨1, ![1638400]⟩
abbrev S200x128 : Shape := ⟨2, ![200, 128]⟩
abbrev S128 : Shape := ⟨1, ![128]⟩
abbrev S128x64 : Shape := ⟨2, ![128, 64]⟩
abbrev S64 : Shape := ⟨1, ![64]⟩
abbrev S64x8 : Shape := ⟨2, ![64, 8]⟩
abbrev S8 : Shape := ⟨1, ![8]⟩
abbrev S1600x200 : Shape := ⟨2, ![1600, 200]⟩
abbrev S200 : Shape := ⟨1, ![200]⟩
abbrev S200x2 : Shape := ⟨2, ![200, 2]⟩
abbrev S2 : Shape := ⟨1, ![2]⟩
abbrev S200x64 : Shape := ⟨2, ![200, 64]⟩
abbrev S64x6 : Shape := ⟨2, ![64, 6]⟩
abbrev S6 : Shape := ⟨1, ![6]⟩
abbrev S1x1638400 : Shape := ⟨2, ![1, 1638400]⟩
abbrev S51200 : Shape := ⟨1, ![51200]⟩
abbrev S1689600 : Shape := ⟨1, ![1689600]⟩
abbrev S_ : Shape := ⟨0, ![]⟩
abbrev S1689600x1 : Shape := ⟨2, ![1689600, 1]⟩
abbrev S51200x128 : Shape := ⟨2, ![51200, 128]⟩
abbrev S6400x200 : Shape := ⟨2, ![6400, 200]⟩
abbrev S6400x128 : Shape := ⟨2, ![6400, 128]⟩
abbrev S1689600x128 : Shape := ⟨2, ![1689600, 128]⟩
abbrev S1x128 : Shape := ⟨2, ![1, 128]⟩
abbrev S51200x64 : Shape := ⟨2, ![51200, 64]⟩
abbrev S6400x64 : Shape := ⟨2, ![6400, 64]⟩
abbrev S1689600x64 : Shape := ⟨2, ![1689600, 64]⟩
abbrev S1x64 : Shape := ⟨2, ![1, 64]⟩
abbrev S1x8 : Shape := ⟨2, ![1, 8]⟩
abbrev S51200x8 : Shape := ⟨2, ![51200, 8]⟩
abbrev S6400x8 : Shape := ⟨2, ![6400, 8]⟩
abbrev S256x1600 : Shape := ⟨2, ![256, 1600]⟩
abbrev S1x200 : Shape := ⟨2, ![1, 200]⟩
abbrev S1x2 : Shape := ⟨2, ![1, 2]⟩
abbrev S1x6 : Shape := ⟨2, ![1, 6]⟩
abbrev S256x2 : Shape := ⟨2, ![256, 2]⟩
abbrev S256x6 : Shape := ⟨2, ![256, 6]⟩
abbrev S256x200 : Shape := ⟨2, ![256, 200]⟩
abbrev S256x64 : Shape := ⟨2, ![256, 64]⟩

abbrev nBuf : Space → Nat
  | .hbm => 110
  | .vmem => 39
  | .smem => 0
  | _ => 0

abbrev bufTy : (tb : Table) → Fin (tcTables nBuf tb) → BufTy
  | .hbm, ⟨0, _⟩ => ⟨S51200x200, .f32⟩
  | .hbm, ⟨1, _⟩ => ⟨S2x1638400, .i32⟩
  | .hbm, ⟨2, _⟩ => ⟨S1638400, .f32⟩
  | .hbm, ⟨3, _⟩ => ⟨S200x128, .f32⟩
  | .hbm, ⟨4, _⟩ => ⟨S128, .f32⟩
  | .hbm, ⟨5, _⟩ => ⟨S128x64, .f32⟩
  | .hbm, ⟨6, _⟩ => ⟨S64, .f32⟩
  | .hbm, ⟨7, _⟩ => ⟨S64x8, .f32⟩
  | .hbm, ⟨8, _⟩ => ⟨S8, .f32⟩
  | .hbm, ⟨9, _⟩ => ⟨S1600x200, .f32⟩
  | .hbm, ⟨10, _⟩ => ⟨S200, .f32⟩
  | .hbm, ⟨11, _⟩ => ⟨S200, .f32⟩
  | .hbm, ⟨12, _⟩ => ⟨S200, .f32⟩
  | .hbm, ⟨13, _⟩ => ⟨S200x2, .f32⟩
  | .hbm, ⟨14, _⟩ => ⟨S2, .f32⟩
  | .hbm, ⟨15, _⟩ => ⟨S200x64, .f32⟩
  | .hbm, ⟨16, _⟩ => ⟨S64, .f32⟩
  | .hbm, ⟨17, _⟩ => ⟨S64x6, .f32⟩
  | .hbm, ⟨18, _⟩ => ⟨S6, .f32⟩
  | .hbm, ⟨19, _⟩ => ⟨S1x1638400, .i32⟩
  | .hbm, ⟨20, _⟩ => ⟨S1638400, .i32⟩
  | .hbm, ⟨21, _⟩ => ⟨S1x1638400, .i32⟩
  | .hbm, ⟨22, _⟩ => ⟨S1638400, .i32⟩
  | .hbm, ⟨23, _⟩ => ⟨S51200, .i32⟩
  | .hbm, ⟨24, _⟩ => ⟨S1689600, .i32⟩
  | .hbm, ⟨25, _⟩ => ⟨S1689600, .i32⟩
  | .hbm, ⟨26, _⟩ => ⟨S_, .f32⟩
  | .hbm, ⟨27, _⟩ => ⟨S51200, .f32⟩
  | .hbm, ⟨28, _⟩ => ⟨S1689600, .f32⟩
  | .hbm, ⟨29, _⟩ => ⟨S_, .f32⟩
  | .hbm, ⟨30, _⟩ => ⟨S51200, .f32⟩
  | .hbm, ⟨31, _⟩ => ⟨S1689600x1, .i32⟩
  | .hbm, ⟨32, _⟩ => ⟨S51200, .f32⟩
  | .hbm, ⟨33, _⟩ => ⟨S_, .f32⟩
  | .hbm, ⟨34, _⟩ => ⟨S51200, .f32⟩
  | .hbm, ⟨35, _⟩ => ⟨S51200, .i1⟩
  | .hbm, ⟨36, _⟩ => ⟨S51200, .f32⟩
  | .hbm, ⟨37, _⟩ => ⟨S_, .f32⟩
  | .hbm, ⟨38, _⟩ => ⟨S_, .f32⟩
  | .hbm, ⟨39, _⟩ => ⟨S51200, .f32⟩
  | .hbm, ⟨40, _⟩ => ⟨S51200, .f32⟩
  | .hbm, ⟨41, _⟩ => ⟨S_, .i32⟩
  | .hbm, ⟨42, _⟩ => ⟨S1689600, .i32⟩
  | .hbm, ⟨43, _⟩ => ⟨S1689600, .i1⟩
  | .hbm, ⟨44, _⟩ => ⟨S_, .i32⟩
  | .hbm, ⟨45, _⟩ => ⟨S1689600, .i32⟩
  | .hbm, ⟨46, _⟩ => ⟨S1689600, .i32⟩
  | .hbm, ⟨47, _⟩ => ⟨S1689600, .i32⟩
  | .hbm, ⟨48, _⟩ => ⟨S1689600x1, .i32⟩
  | .hbm, ⟨49, _⟩ => ⟨S1689600, .f32⟩
  | .hbm, ⟨50, _⟩ => ⟨S1689600, .f32⟩
  | .hbm, ⟨51, _⟩ => ⟨S_, .i32⟩
  | .hbm, ⟨52, _⟩ => ⟨S1689600, .i32⟩
  | .hbm, ⟨53, _⟩ => ⟨S1689600, .i1⟩
  | .hbm, ⟨54, _⟩ => ⟨S_, .i32⟩
  | .hbm, ⟨55, _⟩ => ⟨S1689600, .i32⟩
  | .hbm, ⟨56, _⟩ => ⟨S1689600, .i32⟩
  | .hbm, ⟨57, _⟩ => ⟨S1689600, .i32⟩
  | .hbm, ⟨58, _⟩ => ⟨S1689600x1, .i32⟩
  | .hbm, ⟨59, _⟩ => ⟨S1689600, .f32⟩
  | .hbm, ⟨60, _⟩ => ⟨S1689600, .f32⟩
  | .hbm, ⟨61, _⟩ => ⟨S51200x128, .f32⟩
  | .hbm, ⟨62, _⟩ => ⟨S_, .i32⟩
  | .hbm, ⟨63, _⟩ => ⟨S1689600, .i32⟩
  | .hbm, ⟨64, _⟩ => ⟨S1689600, .i1⟩
  | .hbm, ⟨65, _⟩ => ⟨S_, .i32⟩
  | .hbm, ⟨66, _⟩ => ⟨S1689600, .i32⟩
  | .hbm, ⟨67, _⟩ => ⟨S1689600, .i32⟩
  | .hbm, ⟨68, _⟩ => ⟨S1689600, .i32⟩
  | .hbm, ⟨69, _⟩ => ⟨S1689600x1, .i32⟩
  | .hbm, ⟨70, _⟩ => ⟨S1689600x128, .f32⟩
  | .hbm, ⟨71, _⟩ => ⟨S1689600x1, .f32⟩
  | .hbm, ⟨72, _⟩ => ⟨S1689600x128, .f32⟩
  | .hbm, ⟨73, _⟩ => ⟨S1689600x128, .f32⟩
  | .hbm, ⟨74, _⟩ => ⟨S_, .f32⟩
  | .hbm, ⟨75, _⟩ => ⟨S51200x128, .f32⟩
  | .hbm, ⟨76, _⟩ => ⟨S1689600x1, .i32⟩
  | .hbm, ⟨77, _⟩ => ⟨S51200x128, .f32⟩
  | .hbm, ⟨78, _⟩ => ⟨S1x128, .f32⟩
  | .hbm, ⟨79, _⟩ => ⟨S51200x128, .f32⟩
  | .hbm, ⟨80, _⟩ => ⟨S51200x64, .f32⟩
  | .hbm, ⟨81, _⟩ => ⟨S_, .i32⟩
  | .hbm, ⟨82, _⟩ => ⟨S1689600, .i32⟩
  | .hbm, ⟨83, _⟩ => ⟨S1689600, .i1⟩
  | .hbm, ⟨84, _⟩ => ⟨S_, .i32⟩
  | .hbm, ⟨85, _⟩ => ⟨S1689600, .i32⟩
  | .hbm, ⟨86, _⟩ => ⟨S1689600, .i32⟩
  | .hbm, ⟨87, _⟩ => ⟨S1689600, .i32⟩
  | .hbm, ⟨88, _⟩ => ⟨S1689600x1, .i32⟩
  | .hbm, ⟨89, _⟩ => ⟨S1689600x64, .f32⟩
  | .hbm, ⟨90, _⟩ => ⟨S1689600x1, .f32⟩
  | .hbm, ⟨91, _⟩ => ⟨S1689600x64, .f32⟩
  | .hbm, ⟨92, _⟩ => ⟨S1689600x64, .f32⟩
  | .hbm, ⟨93, _⟩ => ⟨S_, .f32⟩
  | .hbm, ⟨94, _⟩ => ⟨S51200x64, .f32⟩
  | .hbm, ⟨95, _⟩ => ⟨S1689600x1, .i32⟩
  | .hbm, ⟨96, _⟩ => ⟨S51200x64, .f32⟩
  | .hbm, ⟨97, _⟩ => ⟨S1x64, .f32⟩
  | .hbm, ⟨98, _⟩ => ⟨S51200x64, .f32⟩
  | .hbm, ⟨99, _⟩ => ⟨S1x8, .f32⟩
  | .hbm, ⟨100, _⟩ => ⟨S51200x8, .f32⟩
  | .hbm, ⟨101, _⟩ => ⟨S256x1600, .f32⟩
  | .hbm, ⟨102, _⟩ => ⟨S1x200, .f32⟩
  | .hbm, ⟨103, _⟩ => ⟨S1x200, .f32⟩
  | .hbm, ⟨104, _⟩ => ⟨S1x200, .f32⟩
  | .hbm, ⟨105, _⟩ => ⟨S1x2, .f32⟩
  | .hbm, ⟨106, _⟩ => ⟨S1x64, .f32⟩
  | .hbm, ⟨107, _⟩ => ⟨S1x6, .f32⟩
  | .hbm, ⟨108, _⟩ => ⟨S256x2, .f32⟩
  | .hbm, ⟨109, _⟩ => ⟨S256x6, .f32⟩
  | .local _ .vmem, ⟨0, _⟩ => ⟨S6400x200, .f32⟩
  | .local _ .vmem, ⟨1, _⟩ => ⟨S6400x200, .f32⟩
  | .local _ .vmem, ⟨2, _⟩ => ⟨S200x128, .f32⟩
  | .local _ .vmem, ⟨3, _⟩ => ⟨S6400x128, .f32⟩
  | .local _ .vmem, ⟨4, _⟩ => ⟨S6400x128, .f32⟩
  | .local _ .vmem, ⟨5, _⟩ => ⟨S6400x128, .f32⟩
  | .local _ .vmem, ⟨6, _⟩ => ⟨S6400x128, .f32⟩
  | .local _ .vmem, ⟨7, _⟩ => ⟨S1x128, .f32⟩
  | .local _ .vmem, ⟨8, _⟩ => ⟨S6400x128, .f32⟩
  | .local _ .vmem, ⟨9, _⟩ => ⟨S6400x128, .f32⟩
  | .local _ .vmem, ⟨10, _⟩ => ⟨S6400x128, .f32⟩
  | .local _ .vmem, ⟨11, _⟩ => ⟨S6400x128, .f32⟩
  | .local _ .vmem, ⟨12, _⟩ => ⟨S128x64, .f32⟩
  | .local _ .vmem, ⟨13, _⟩ => ⟨S6400x64, .f32⟩
  | .local _ .vmem, ⟨14, _⟩ => ⟨S6400x64, .f32⟩
  | .local _ .vmem, ⟨15, _⟩ => ⟨S6400x64, .f32⟩
  | .local _ .vmem, ⟨16, _⟩ => ⟨S6400x64, .f32⟩
  | .local _ .vmem, ⟨17, _⟩ => ⟨S1x64, .f32⟩
  | .local _ .vmem, ⟨18, _⟩ => ⟨S6400x64, .f32⟩
  | .local _ .vmem, ⟨19, _⟩ => ⟨S6400x64, .f32⟩
  | .local _ .vmem, ⟨20, _⟩ => ⟨S6400x64, .f32⟩
  | .local _ .vmem, ⟨21, _⟩ => ⟨S6400x64, .f32⟩
  | .local _ .vmem, ⟨22, _⟩ => ⟨S64x8, .f32⟩
  | .local _ .vmem, ⟨23, _⟩ => ⟨S1x8, .f32⟩
  | .local _ .vmem, ⟨24, _⟩ => ⟨S6400x8, .f32⟩
  | .local _ .vmem, ⟨25, _⟩ => ⟨S6400x8, .f32⟩
  | .local _ .vmem, ⟨26, _⟩ => ⟨S256x1600, .f32⟩
  | .local _ .vmem, ⟨27, _⟩ => ⟨S1600x200, .f32⟩
  | .local _ .vmem, ⟨28, _⟩ => ⟨S1x200, .f32⟩
  | .local _ .vmem, ⟨29, _⟩ => ⟨S1x200, .f32⟩
  | .local _ .vmem, ⟨30, _⟩ => ⟨S1x200, .f32⟩
  | .local _ .vmem, ⟨31, _⟩ => ⟨S200x2, .f32⟩
  | .local _ .vmem, ⟨32, _⟩ => ⟨S1x2, .f32⟩
  | .local _ .vmem, ⟨33, _⟩ => ⟨S200x64, .f32⟩
  | .local _ .vmem, ⟨34, _⟩ => ⟨S1x64, .f32⟩
  | .local _ .vmem, ⟨35, _⟩ => ⟨S64x6, .f32⟩
  | .local _ .vmem, ⟨36, _⟩ => ⟨S1x6, .f32⟩
  | .local _ .vmem, ⟨37, _⟩ => ⟨S256x2, .f32⟩
  | .local _ .vmem, ⟨38, _⟩ => ⟨S256x6, .f32⟩
  | _, _ => ⟨S51200x200, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | _, _ => false

abbrev semScoped : Fin 0 → Bool
  | ⟨_, h⟩ => absurd h (Nat.not_lt_zero _)

abbrev dmaSemScoped : Fin 39 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | _ => false

abbrev sig : RefSig :=
  ofTc nBuf bufTy 0 39 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_cst : Ref sig .tc := ⟨.hbm, 26, rfl⟩
abbrev main_v7 : Ref sig .tc := ⟨.hbm, 27, rfl⟩
abbrev main_v8 : Ref sig .tc := ⟨.hbm, 28, rfl⟩
abbrev main_cst_0 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_cst_1 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_cst_2 : Ref sig .tc := ⟨.hbm, 37, rfl⟩
abbrev main_call0_v0 : Ref sig .tc := ⟨.hbm, 38, rfl⟩
abbrev main_call0_v1 : Ref sig .tc := ⟨.hbm, 39, rfl⟩
abbrev main_v15 : Ref sig .tc := ⟨.hbm, 40, rfl⟩
abbrev main_c : Ref sig .tc := ⟨.hbm, 41, rfl⟩
abbrev main_v16 : Ref sig .tc := ⟨.hbm, 42, rfl⟩
abbrev main_v17 : Ref sig .tc := ⟨.hbm, 43, rfl⟩
abbrev main_c_3 : Ref sig .tc := ⟨.hbm, 44, rfl⟩
abbrev main_v18 : Ref sig .tc := ⟨.hbm, 45, rfl⟩
abbrev main_v19 : Ref sig .tc := ⟨.hbm, 46, rfl⟩
abbrev main_v20 : Ref sig .tc := ⟨.hbm, 47, rfl⟩
abbrev main_v21 : Ref sig .tc := ⟨.hbm, 48, rfl⟩
abbrev main_v22 : Ref sig .tc := ⟨.hbm, 49, rfl⟩
abbrev main_v23 : Ref sig .tc := ⟨.hbm, 50, rfl⟩
abbrev main_c_4 : Ref sig .tc := ⟨.hbm, 51, rfl⟩
abbrev main_v24 : Ref sig .tc := ⟨.hbm, 52, rfl⟩
abbrev main_v25 : Ref sig .tc := ⟨.hbm, 53, rfl⟩
abbrev main_c_5 : Ref sig .tc := ⟨.hbm, 54, rfl⟩
abbrev main_v26 : Ref sig .tc := ⟨.hbm, 55, rfl⟩
abbrev main_v27 : Ref sig .tc := ⟨.hbm, 56, rfl⟩
abbrev main_v28 : Ref sig .tc := ⟨.hbm, 57, rfl⟩
abbrev main_v29 : Ref sig .tc := ⟨.hbm, 58, rfl⟩
abbrev main_v30 : Ref sig .tc := ⟨.hbm, 59, rfl⟩
abbrev main_v31 : Ref sig .tc := ⟨.hbm, 60, rfl⟩
abbrev main_v32 : Ref sig .tc := ⟨.hbm, 61, rfl⟩
abbrev main_c_6 : Ref sig .tc := ⟨.hbm, 62, rfl⟩
abbrev main_v33 : Ref sig .tc := ⟨.hbm, 63, rfl⟩
abbrev main_v34 : Ref sig .tc := ⟨.hbm, 64, rfl⟩
abbrev main_c_7 : Ref sig .tc := ⟨.hbm, 65, rfl⟩
abbrev main_v35 : Ref sig .tc := ⟨.hbm, 66, rfl⟩
abbrev main_v36 : Ref sig .tc := ⟨.hbm, 67, rfl⟩
abbrev main_v37 : Ref sig .tc := ⟨.hbm, 68, rfl⟩
abbrev main_v38 : Ref sig .tc := ⟨.hbm, 69, rfl⟩
abbrev main_v39 : Ref sig .tc := ⟨.hbm, 70, rfl⟩
abbrev main_v40 : Ref sig .tc := ⟨.hbm, 71, rfl⟩
abbrev main_v41 : Ref sig .tc := ⟨.hbm, 72, rfl⟩
abbrev main_v42 : Ref sig .tc := ⟨.hbm, 73, rfl⟩
abbrev main_cst_8 : Ref sig .tc := ⟨.hbm, 74, rfl⟩
abbrev main_v43 : Ref sig .tc := ⟨.hbm, 75, rfl⟩
abbrev main_v44 : Ref sig .tc := ⟨.hbm, 76, rfl⟩
abbrev main_v45 : Ref sig .tc := ⟨.hbm, 77, rfl⟩
abbrev main_v46 : Ref sig .tc := ⟨.hbm, 78, rfl⟩
abbrev main_v47 : Ref sig .tc := ⟨.hbm, 79, rfl⟩
abbrev main_v48 : Ref sig .tc := ⟨.hbm, 80, rfl⟩
abbrev main_c_9 : Ref sig .tc := ⟨.hbm, 81, rfl⟩
abbrev main_v49 : Ref sig .tc := ⟨.hbm, 82, rfl⟩
abbrev main_v50 : Ref sig .tc := ⟨.hbm, 83, rfl⟩
abbrev main_c_10 : Ref sig .tc := ⟨.hbm, 84, rfl⟩
abbrev main_v51 : Ref sig .tc := ⟨.hbm, 85, rfl⟩
abbrev main_v52 : Ref sig .tc := ⟨.hbm, 86, rfl⟩
abbrev main_v53 : Ref sig .tc := ⟨.hbm, 87, rfl⟩
abbrev main_v54 : Ref sig .tc := ⟨.hbm, 88, rfl⟩
abbrev main_v55 : Ref sig .tc := ⟨.hbm, 89, rfl⟩
abbrev main_v56 : Ref sig .tc := ⟨.hbm, 90, rfl⟩
abbrev main_v57 : Ref sig .tc := ⟨.hbm, 91, rfl⟩
abbrev main_v58 : Ref sig .tc := ⟨.hbm, 92, rfl⟩
abbrev main_cst_11 : Ref sig .tc := ⟨.hbm, 93, rfl⟩
abbrev main_v59 : Ref sig .tc := ⟨.hbm, 94, rfl⟩
abbrev main_v60 : Ref sig .tc := ⟨.hbm, 95, rfl⟩
abbrev main_v61 : Ref sig .tc := ⟨.hbm, 96, rfl⟩
abbrev main_v62 : Ref sig .tc := ⟨.hbm, 97, rfl⟩
abbrev main_v63 : Ref sig .tc := ⟨.hbm, 98, rfl⟩
abbrev main_v64 : Ref sig .tc := ⟨.hbm, 99, rfl⟩
abbrev main_v65 : Ref sig .tc := ⟨.hbm, 100, rfl⟩
abbrev main_v66 : Ref sig .tc := ⟨.hbm, 101, rfl⟩
abbrev main_v67 : Ref sig .tc := ⟨.hbm, 102, rfl⟩
abbrev main_v68 : Ref sig .tc := ⟨.hbm, 103, rfl⟩
abbrev main_v69 : Ref sig .tc := ⟨.hbm, 104, rfl⟩
abbrev main_v70 : Ref sig .tc := ⟨.hbm, 105, rfl⟩
abbrev main_v71 : Ref sig .tc := ⟨.hbm, 106, rfl⟩
abbrev main_v72 : Ref sig .tc := ⟨.hbm, 107, rfl⟩
abbrev main_v73_0 : Ref sig .tc := ⟨.hbm, 108, rfl⟩
abbrev main_v73_1 : Ref sig .tc := ⟨.hbm, 109, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc4_stg0_0 : Ref sig .tc := ⟨.vmem, 20, rfl⟩
abbrev cc4_stg0_1 : Ref sig .tc := ⟨.vmem, 21, rfl⟩
abbrev cc4_stg1_0 : Ref sig .tc := ⟨.vmem, 22, rfl⟩
abbrev cc4_stg2_0 : Ref sig .tc := ⟨.vmem, 23, rfl⟩
abbrev cc4_stg3_0 : Ref sig .tc := ⟨.vmem, 24, rfl⟩
abbrev cc4_stg3_1 : Ref sig .tc := ⟨.vmem, 25, rfl⟩
abbrev cc5_stg0_0 : Ref sig .tc := ⟨.vmem, 26, rfl⟩
abbrev cc5_stg1_0 : Ref sig .tc := ⟨.vmem, 27, rfl⟩
abbrev cc5_stg2_0 : Ref sig .tc := ⟨.vmem, 28, rfl⟩
abbrev cc5_stg3_0 : Ref sig .tc := ⟨.vmem, 29, rfl⟩
abbrev cc5_stg4_0 : Ref sig .tc := ⟨.vmem, 30, rfl⟩
abbrev cc5_stg5_0 : Ref sig .tc := ⟨.vmem, 31, rfl⟩
abbrev cc5_stg6_0 : Ref sig .tc := ⟨.vmem, 32, rfl⟩
abbrev cc5_stg7_0 : Ref sig .tc := ⟨.vmem, 33, rfl⟩
abbrev cc5_stg8_0 : Ref sig .tc := ⟨.vmem, 34, rfl⟩
abbrev cc5_stg9_0 : Ref sig .tc := ⟨.vmem, 35, rfl⟩
abbrev cc5_stg10_0 : Ref sig .tc := ⟨.vmem, 36, rfl⟩
abbrev cc5_stg11_0 : Ref sig .tc := ⟨.vmem, 37, rfl⟩
abbrev cc5_stg12_0 : Ref sig .tc := ⟨.vmem, 38, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19
abbrev cc4_sem0_0 : DmaSem sig := 20
abbrev cc4_sem0_1 : DmaSem sig := 21
abbrev cc4_sem1_0 : DmaSem sig := 22
abbrev cc4_sem2_0 : DmaSem sig := 23
abbrev cc4_sem3_0 : DmaSem sig := 24
abbrev cc4_sem3_1 : DmaSem sig := 25
abbrev cc5_sem0_0 : DmaSem sig := 26
abbrev cc5_sem1_0 : DmaSem sig := 27
abbrev cc5_sem2_0 : DmaSem sig := 28
abbrev cc5_sem3_0 : DmaSem sig := 29
abbrev cc5_sem4_0 : DmaSem sig := 30
abbrev cc5_sem5_0 : DmaSem sig := 31
abbrev cc5_sem6_0 : DmaSem sig := 32
abbrev cc5_sem7_0 : DmaSem sig := 33
abbrev cc5_sem8_0 : DmaSem sig := 34
abbrev cc5_sem9_0 : DmaSem sig := 35
abbrev cc5_sem10_0 : DmaSem sig := 36
abbrev cc5_sem11_0 : DmaSem sig := 37
abbrev cc5_sem12_0 : DmaSem sig := 38

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S6400x200 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S200x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S6400x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S6400x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S6400x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![8], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S6400x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S6400x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![8], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S6400x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S6400x64 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![8], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S6400x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S64x8 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x8 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S6400x8 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev grid5 : Pipeline.Grid := ⟨1, ![1], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_6 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_7 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_8 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_9 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_10 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_11 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_12 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage5_0 : Fin 1 → Memref sig .tc .vmem S256x1600 .f32 := fun | 0 => Memref.whole cc5_stg0_0 | ⟨_ + 1, h⟩ => absurd h (Nat.not_lt.2 (Nat.le_add_left _ _))
abbrev sem5_0 : Fin 1 → DmaSem sig := fun | 0 => cc5_sem0_0 | ⟨_ + 1, h⟩ => absurd h (Nat.not_lt.2 (Nat.le_add_left _ _))
abbrev reads5_0 : Fin grid5.rank → Bool := ![false]

abbrev stage5_1 : Fin 1 → Memref sig .tc .vmem S1600x200 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x200 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S1x200 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1x200 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 1 → Memref sig .tc .vmem S200x2 .f32 := fun | 0 => Memref.whole cc5_stg5_0 | ⟨_ + 1, h⟩ => absurd h (Nat.not_lt.2 (Nat.le_add_left _ _))
abbrev sem5_5 : Fin 1 → DmaSem sig := fun | 0 => cc5_sem5_0 | ⟨_ + 1, h⟩ => absurd h (Nat.not_lt.2 (Nat.le_add_left _ _))
abbrev reads5_5 : Fin grid5.rank → Bool := ![false]

abbrev stage5_6 : Fin 1 → Memref sig .tc .vmem S1x2 .f32 := fun | 0 => Memref.whole cc5_stg6_0 | ⟨_ + 1, h⟩ => absurd h (Nat.not_lt.2 (Nat.le_add_left _ _))
abbrev sem5_6 : Fin 1 → DmaSem sig := fun | 0 => cc5_sem6_0 | ⟨_ + 1, h⟩ => absurd h (Nat.not_lt.2 (Nat.le_add_left _ _))
abbrev reads5_6 : Fin grid5.rank → Bool := ![false]

abbrev stage5_7 : Fin 1 → Memref sig .tc .vmem S200x64 .f32 := fun | 0 => Memref.whole cc5_stg7_0 | ⟨_ + 1, h⟩ => absurd h (Nat.not_lt.2 (Nat.le_add_left _ _))
abbrev sem5_7 : Fin 1 → DmaSem sig := fun | 0 => cc5_sem7_0 | ⟨_ + 1, h⟩ => absurd h (Nat.not_lt.2 (Nat.le_add_left _ _))
abbrev reads5_7 : Fin grid5.rank → Bool := ![false]

abbrev stage5_8 : Fin 1 → Memref sig .tc .vmem S1x64 .f32 := fun | 0 => Memref.whole cc5_stg8_0 | ⟨_ + 1, h⟩ => absurd h (Nat.not_lt.2 (Nat.le_add_left _ _))
abbrev sem5_8 : Fin 1 → DmaSem sig := fun | 0 => cc5_sem8_0 | ⟨_ + 1, h⟩ => absurd h (Nat.not_lt.2 (Nat.le_add_left _ _))
abbrev reads5_8 : Fin grid5.rank → Bool := ![false]

abbrev stage5_9 : Fin 1 → Memref sig .tc .vmem S64x6 .f32 := fun | 0 => Memref.whole cc5_stg9_0 | ⟨_ + 1, h⟩ => absurd h (Nat.not_lt.2 (Nat.le_add_left _ _))
abbrev sem5_9 : Fin 1 → DmaSem sig := fun | 0 => cc5_sem9_0 | ⟨_ + 1, h⟩ => absurd h (Nat.not_lt.2 (Nat.le_add_left _ _))
abbrev reads5_9 : Fin grid5.rank → Bool := ![false]

abbrev stage5_10 : Fin 1 → Memref sig .tc .vmem S1x6 .f32 := fun | 0 => Memref.whole cc5_stg10_0 | ⟨_ + 1, h⟩ => absurd h (Nat.not_lt.2 (Nat.le_add_left _ _))
abbrev sem5_10 : Fin 1 → DmaSem sig := fun | 0 => cc5_sem10_0 | ⟨_ + 1, h⟩ => absurd h (Nat.not_lt.2 (Nat.le_add_left _ _))
abbrev reads5_10 : Fin grid5.rank → Bool := ![false]

abbrev stage5_11 : Fin 1 → Memref sig .tc .vmem S256x2 .f32 := fun | 0 => Memref.whole cc5_stg11_0 | ⟨_ + 1, h⟩ => absurd h (Nat.not_lt.2 (Nat.le_add_left _ _))
abbrev sem5_11 : Fin 1 → DmaSem sig := fun | 0 => cc5_sem11_0 | ⟨_ + 1, h⟩ => absurd h (Nat.not_lt.2 (Nat.le_add_left _ _))
abbrev reads5_11 : Fin grid5.rank → Bool := ![false]

abbrev stage5_12 : Fin 1 → Memref sig .tc .vmem S256x6 .f32 := fun | 0 => Memref.whole cc5_stg12_0 | ⟨_ + 1, h⟩ => absurd h (Nat.not_lt.2 (Nat.le_add_left _ _))
abbrev sem5_12 : Fin 1 → DmaSem sig := fun | 0 => cc5_sem12_0 | ⟨_ + 1, h⟩ => absurd h (Nat.not_lt.2 (Nat.le_add_left _ _))
abbrev reads5_12 : Fin grid5.rank → Bool := ![false]

class Facts₀ : Prop where
  slices_S2x1638400_S1x1638400_0_0 : S2x1638400.Slices ![0, 0] S1x1638400
  shapeCasts_S1x1638400_S1638400 : S1x1638400.ShapeCasts S1638400
  slices_S2x1638400_S1x1638400_1_0 : S2x1638400.Slices ![1, 0] S1x1638400
  concatenates_S1638400_S51200_S1689600_d0 : Shape.Concatenates [S1638400, S51200] S1689600 0
  bcast_S_S51200 : S_.BroadcastsInDim S51200 (![] : Fin 0 → Fin S51200.rank)
  bcast_S1689600_S1689600x1_0 : S1689600.BroadcastsInDim S1689600x1 (![0] : Fin 1 → Fin S1689600x1.rank)
  bcast_S_S1689600 : S_.BroadcastsInDim S1689600 (![] : Fin 0 → Fin S1689600.rank)
  inb_S6400x200_S6400x200_0_0 : ∀ a, (![0, 0] : Fin 2 → Nat) a + S6400x200.size a ≤ S6400x200.size a
  h_S6400x200 : 0 < S6400x200.numel
  inb_S200x128_S200x128_0_0 : ∀ a, (![0, 0] : Fin 2 → Nat) a + S200x128.size a ≤ S200x128.size a
  h_S200x128 : 0 < S200x128.numel
  inb_S6400x128_S6400x128_0_0 : ∀ a, (![0, 0] : Fin 2 → Nat) a + S6400x128.size a ≤ S6400x128.size a
  h_S6400x128 : 0 < S6400x128.numel
  bcast_S1689600x1_S1689600x128_0_1 : S1689600x1.BroadcastsInDim S1689600x128 (![0, 1] : Fin 2 → Fin S1689600x128.rank)
  bcast_S_S51200x128 : S_.BroadcastsInDim S51200x128 (![] : Fin 0 → Fin S51200x128.rank)
  shapeCasts_S128_S1x128 : S128.ShapeCasts S1x128
  shapeCasts_S6400x128_S6400x128 : S6400x128.ShapeCasts S6400x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S6400x128 : S1x128.Broadcasts S6400x128
  inb_S128x64_S128x64_0_0 : ∀ a, (![0, 0] : Fin 2 → Nat) a + S128x64.size a ≤ S128x64.size a
  h_S128x64 : 0 < S128x64.numel
  inb_S6400x64_S6400x64_0_0 : ∀ a, (![0, 0] : Fin 2 → Nat) a + S6400x64.size a ≤ S6400x64.size a
  h_S6400x64 : 0 < S6400x64.numel
  bcast_S1689600x1_S1689600x64_0_1 : S1689600x1.BroadcastsInDim S1689600x64 (![0, 1] : Fin 2 → Fin S1689600x64.rank)
  bcast_S_S51200x64 : S_.BroadcastsInDim S51200x64 (![] : Fin 0 → Fin S51200x64.rank)
  shapeCasts_S64_S1x64 : S64.ShapeCasts S1x64
  shapeCasts_S6400x64_S6400x64 : S6400x64.ShapeCasts S6400x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S6400x64 : S1x64.Broadcasts S6400x64
  shapeCasts_S8_S1x8 : S8.ShapeCasts S1x8
  inb_S64x8_S64x8_0_0 : ∀ a, (![0, 0] : Fin 2 → Nat) a + S64x8.size a ≤ S64x8.size a
  h_S64x8 : 0 < S64x8.numel
  inb_S1x8_S1x8_0_0 : ∀ a, (![0, 0] : Fin 2 → Nat) a + S1x8.size a ≤ S1x8.size a
  h_S1x8 : 0 < S1x8.numel
  shapeCasts_S1x8_S1x8 : S1x8.ShapeCasts S1x8
  broadcasts_S1x8_S6400x8 : S1x8.Broadcasts S6400x8
  inb_S6400x8_S6400x8_0_0 : ∀ a, (![0, 0] : Fin 2 → Nat) a + S6400x8.size a ≤ S6400x8.size a
  h_S6400x8 : 0 < S6400x8.numel
  shapeCasts_S51200x8_S256x1600 : S51200x8.ShapeCasts S256x1600
  shapeCasts_S200_S1x200 : S200.ShapeCasts S1x200
  shapeCasts_S2_S1x2 : S2.ShapeCasts S1x2
  shapeCasts_S6_S1x6 : S6.ShapeCasts S1x6
  inb_S256x1600_S256x1600_0_0 : ∀ a, (![0, 0] : Fin 2 → Nat) a + S256x1600.size a ≤ S256x1600.size a
  h_S256x1600 : 0 < S256x1600.numel
  shapeCasts_S256x1600_S256x1600 : S256x1600.ShapeCasts S256x1600
  inb_S1600x200_S1600x200_0_0 : ∀ a, (![0, 0] : Fin 2 → Nat) a + S1600x200.size a ≤ S1600x200.size a
  h_S1600x200 : 0 < S1600x200.numel
  inb_S1x200_S1x200_0_0 : ∀ a, (![0, 0] : Fin 2 → Nat) a + S1x200.size a ≤ S1x200.size a
  h_S1x200 : 0 < S1x200.numel
  shapeCasts_S1x200_S1x200 : S1x200.ShapeCasts S1x200
  broadcasts_S1x200_S256x200 : S1x200.Broadcasts S256x200
  reduces_S256x200_S200 : S256x200.Reduces [0] S200
  inb_S200x2_S200x2_0_0 : ∀ a, (![0, 0] : Fin 2 → Nat) a + S200x2.size a ≤ S200x2.size a
  h_S200x2 : 0 < S200x2.numel
  inb_S1x2_S1x2_0_0 : ∀ a, (![0, 0] : Fin 2 → Nat) a + S1x2.size a ≤ S1x2.size a
  h_S1x2 : 0 < S1x2.numel
  shapeCasts_S1x2_S1x2 : S1x2.ShapeCasts S1x2
  broadcasts_S1x2_S256x2 : S1x2.Broadcasts S256x2
  inb_S256x2_S256x2_0_0 : ∀ a, (![0, 0] : Fin 2 → Nat) a + S256x2.size a ≤ S256x2.size a
  h_S256x2 : 0 < S256x2.numel
  inb_S200x64_S200x64_0_0 : ∀ a, (![0, 0] : Fin 2 → Nat) a + S200x64.size a ≤ S200x64.size a
  h_S200x64 : 0 < S200x64.numel
  broadcasts_S1x64_S256x64 : S1x64.Broadcasts S256x64
  inb_S64x6_S64x6_0_0 : ∀ a, (![0, 0] : Fin 2 → Nat) a + S64x6.size a ≤ S64x6.size a
  h_S64x6 : 0 < S64x6.numel
  inb_S1x6_S1x6_0_0 : ∀ a, (![0, 0] : Fin 2 → Nat) a + S1x6.size a ≤ S1x6.size a
  h_S1x6 : 0 < S1x6.numel
  shapeCasts_S1x6_S1x6 : S1x6.ShapeCasts S1x6
  broadcasts_S1x6_S256x6 : S1x6.Broadcasts S256x6
  inb_S256x6_S256x6_0_0 : ∀ a, (![0, 0] : Fin 2 → Nat) a + S256x6.size a ≤ S256x6.size a
  h_S256x6 : 0 < S256x6.numel
  scatter_S51200_S1689600x1_S1689600_n_0_0_1_wf : ScatterDims.WF S51200 S1689600x1 S1689600 [] [0] [0] 1
  gather_S51200_S1689600x1_S1689600_n_0_n_n_0_1_1_wf : GatherDims.WF S51200 S1689600x1 S1689600 [] [0] [] [0] [] 1 ![1]
  dot_S6400x200_S200x128_S6400x128_1_0_0_1_n_n_wf : DotDims.WF S6400x200 S200x128 S6400x128 [1] [0] [0] [1] [] []
  gather_S51200x128_S1689600x1_S1689600x128_1_0_n_n_0_1_1128_wf : GatherDims.WF S51200x128 S1689600x1 S1689600x128 [1] [0] [] [0] [] 1 ![1, 128]
  scatter_S51200x128_S1689600x1_S1689600x128_1_0_0_1_wf : ScatterDims.WF S51200x128 S1689600x1 S1689600x128 [1] [0] [0] 1
  dot_S6400x128_S128x64_S6400x64_1_0_0_1_n_n_wf : DotDims.WF S6400x128 S128x64 S6400x64 [1] [0] [0] [1] [] []
  gather_S51200x64_S1689600x1_S1689600x64_1_0_n_n_0_1_164_wf : GatherDims.WF S51200x64 S1689600x1 S1689600x64 [1] [0] [] [0] [] 1 ![1, 64]
  scatter_S51200x64_S1689600x1_S1689600x64_1_0_0_1_wf : ScatterDims.WF S51200x64 S1689600x1 S1689600x64 [1] [0] [0] 1
  dot_S6400x64_S64x8_S6400x8_1_0_0_1_n_n_wf : DotDims.WF S6400x64 S64x8 S6400x8 [1] [0] [0] [1] [] []
  dot_S256x1600_S1600x200_S256x200_1_0_0_1_n_n_wf : DotDims.WF S256x1600 S1600x200 S256x200 [1] [0] [0] [1] [] []
  dot_S256x200_S200x2_S256x2_1_0_0_1_n_n_wf : DotDims.WF S256x200 S200x2 S256x2 [1] [0] [0] [1] [] []
  dot_S256x200_S200x64_S256x64_1_0_0_1_n_n_wf : DotDims.WF S256x200 S200x64 S256x64 [1] [0] [0] [1] [] []
  dot_S256x64_S64x6_S256x6_1_0_0_1_n_n_wf : DotDims.WF S256x64 S64x6 S256x6 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S6400x200.size a ≤ S51200x200.size a
  hwx0_0 : ∀ i : grid0.Coords, EltTy.bits .f32 = 32 ∨ (Rect.block (s := S51200x200) S6400x200.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S200x128.size a ≤ S200x128.size a
  hwx0_1 : ∀ i : grid0.Coords, EltTy.bits .f32 = 32 ∨ (Rect.block (s := S200x128) S200x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S6400x128.size a ≤ S51200x128.size a
  hwx0_2 : ∀ i : grid0.Coords, EltTy.bits .f32 = 32 ∨ (Rect.block (s := S51200x128) S6400x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S6400x128.size a ≤ S51200x128.size a
  hwx1_0 : ∀ i : grid1.Coords, EltTy.bits .f32 = 32 ∨ (Rect.block (s := S51200x128) S6400x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S6400x128.size a ≤ S51200x128.size a
  hwx1_2 : ∀ i : grid1.Coords, EltTy.bits .f32 = 32 ∨ (Rect.block (s := S51200x128) S6400x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S6400x128.size a ≤ S51200x128.size a
  hwx2_0 : ∀ i : grid2.Coords, EltTy.bits .f32 = 32 ∨ (Rect.block (s := S51200x128) S6400x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x64.size a ≤ S128x64.size a
  hwx2_1 : ∀ i : grid2.Coords, EltTy.bits .f32 = 32 ∨ (Rect.block (s := S128x64) S128x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S6400x64.size a ≤ S51200x64.size a
  hwx2_2 : ∀ i : grid2.Coords, EltTy.bits .f32 = 32 ∨ (Rect.block (s := S51200x64) S6400x64.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S6400x64.size a ≤ S51200x64.size a
  hwx3_0 : ∀ i : grid3.Coords, EltTy.bits .f32 = 32 ∨ (Rect.block (s := S51200x64) S6400x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x64.size a ≤ S1x64.size a
  hwx3_1 : ∀ i : grid3.Coords, EltTy.bits .f32 = 32 ∨ (Rect.block (s := S1x64) S1x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S6400x64.size a ≤ S51200x64.size a
  hwx3_2 : ∀ i : grid3.Coords, EltTy.bits .f32 = 32 ∨ (Rect.block (s := S51200x64) S6400x64.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S6400x64.size a ≤ S51200x64.size a
  hwx4_0 : ∀ i : grid4.Coords, EltTy.bits .f32 = 32 ∨ (Rect.block (s := S51200x64) S6400x64.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S64x8.size a ≤ S64x8.size a
  hwx4_1 : ∀ i : grid4.Coords, EltTy.bits .f32 = 32 ∨ (Rect.block (s := S64x8) S64x8.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x8.size a ≤ S1x8.size a
  hwx4_2 : ∀ i : grid4.Coords, EltTy.bits .f32 = 32 ∨ (Rect.block (s := S1x8) S1x8.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S6400x8.size a ≤ S51200x8.size a
  hwx4_3 : ∀ i : grid4.Coords, EltTy.bits .f32 = 32 ∨ (Rect.block (s := S51200x8) S6400x8.size (cc4_transform_3 i) (hinb4_3 i)).WholeWords (EltTy.packing .f32)
  hrank5 : 0 < grid5.rank
  hstage5_0 : ∀ j, (stage5_0 j).IsWhole
  nbuf5_0 : grid5.bufCount reads5_0 true = 1
  hreads5_0 : ∀ i i' : grid5.Coords, (∀ a, reads5_0 a = true → i a = i' a) → cc5_transform_0 i = cc5_transform_0 i'
  hinb5_0 : ∀ (i : grid5.Coords) a, (cc5_transform_0 i a + 1) * S256x1600.size a ≤ S256x1600.size a
  hwx5_0 : ∀ i : grid5.Coords, EltTy.bits .f32 = 32 ∨ (Rect.block (s := S256x1600) S256x1600.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1600x200.size a ≤ S1600x200.size a
  hwx5_1 : ∀ i : grid5.Coords, EltTy.bits .f32 = 32 ∨ (Rect.block (s := S1600x200) S1600x200.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x200.size a ≤ S1x200.size a
  hwx5_2 : ∀ i : grid5.Coords, EltTy.bits .f32 = 32 ∨ (Rect.block (s := S1x200) S1x200.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x200.size a ≤ S1x200.size a
  hwx5_3 : ∀ i : grid5.Coords, EltTy.bits .f32 = 32 ∨ (Rect.block (s := S1x200) S1x200.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x200.size a ≤ S1x200.size a
  hwx5_4 : ∀ i : grid5.Coords, EltTy.bits .f32 = 32 ∨ (Rect.block (s := S1x200) S1x200.size (cc5_transform_4 i) (hinb5_4 i)).WholeWords (EltTy.packing .f32)
  hstage5_5 : ∀ j, (stage5_5 j).IsWhole
  nbuf5_5 : grid5.bufCount reads5_5 true = 1
  hreads5_5 : ∀ i i' : grid5.Coords, (∀ a, reads5_5 a = true → i a = i' a) → cc5_transform_5 i = cc5_transform_5 i'
  hinb5_5 : ∀ (i : grid5.Coords) a, (cc5_transform_5 i a + 1) * S200x2.size a ≤ S200x2.size a
  hwx5_5 : ∀ i : grid5.Coords, EltTy.bits .f32 = 32 ∨ (Rect.block (s := S200x2) S200x2.size (cc5_transform_5 i) (hinb5_5 i)).WholeWords (EltTy.packing .f32)
  hstage5_6 : ∀ j, (stage5_6 j).IsWhole
  nbuf5_6 : grid5.bufCount reads5_6 true = 1
  hreads5_6 : ∀ i i' : grid5.Coords, (∀ a, reads5_6 a = true → i a = i' a) → cc5_transform_6 i = cc5_transform_6 i'
  hinb5_6 : ∀ (i : grid5.Coords) a, (cc5_transform_6 i a + 1) * S1x2.size a ≤ S1x2.size a
  hwx5_6 : ∀ i : grid5.Coords, EltTy.bits .f32 = 32 ∨ (Rect.block (s := S1x2) S1x2.size (cc5_transform_6 i) (hinb5_6 i)).WholeWords (EltTy.packing .f32)
  hstage5_7 : ∀ j, (stage5_7 j).IsWhole
  nbuf5_7 : grid5.bufCount reads5_7 true = 1
  hreads5_7 : ∀ i i' : grid5.Coords, (∀ a, reads5_7 a = true → i a = i' a) → cc5_transform_7 i = cc5_transform_7 i'
  hinb5_7 : ∀ (i : grid5.Coords) a, (cc5_transform_7 i a + 1) * S200x64.size a ≤ S200x64.size a
  hwx5_7 : ∀ i : grid5.Coords, EltTy.bits .f32 = 32 ∨ (Rect.block (s := S200x64) S200x64.size (cc5_transform_7 i) (hinb5_7 i)).WholeWords (EltTy.packing .f32)
  hstage5_8 : ∀ j, (stage5_8 j).IsWhole
  nbuf5_8 : grid5.bufCount reads5_8 true = 1
  hreads5_8 : ∀ i i' : grid5.Coords, (∀ a, reads5_8 a = true → i a = i' a) → cc5_transform_8 i = cc5_transform_8 i'
  hinb5_8 : ∀ (i : grid5.Coords) a, (cc5_transform_8 i a + 1) * S1x64.size a ≤ S1x64.size a
  hwx5_8 : ∀ i : grid5.Coords, EltTy.bits .f32 = 32 ∨ (Rect.block (s := S1x64) S1x64.size (cc5_transform_8 i) (hinb5_8 i)).WholeWords (EltTy.packing .f32)
  hstage5_9 : ∀ j, (stage5_9 j).IsWhole
  nbuf5_9 : grid5.bufCount reads5_9 true = 1
  hreads5_9 : ∀ i i' : grid5.Coords, (∀ a, reads5_9 a = true → i a = i' a) → cc5_transform_9 i = cc5_transform_9 i'
  hinb5_9 : ∀ (i : grid5.Coords) a, (cc5_transform_9 i a + 1) * S64x6.size a ≤ S64x6.size a
  hwx5_9 : ∀ i : grid5.Coords, EltTy.bits .f32 = 32 ∨ (Rect.block (s := S64x6) S64x6.size (cc5_transform_9 i) (hinb5_9 i)).WholeWords (EltTy.packing .f32)
  hstage5_10 : ∀ j, (stage5_10 j).IsWhole
  nbuf5_10 : grid5.bufCount reads5_10 true = 1
  hreads5_10 : ∀ i i' : grid5.Coords, (∀ a, reads5_10 a = true → i a = i' a) → cc5_transform_10 i = cc5_transform_10 i'
  hinb5_10 : ∀ (i : grid5.Coords) a, (cc5_transform_10 i a + 1) * S1x6.size a ≤ S1x6.size a
  hwx5_10 : ∀ i : grid5.Coords, EltTy.bits .f32 = 32 ∨ (Rect.block (s := S1x6) S1x6.size (cc5_transform_10 i) (hinb5_10 i)).WholeWords (EltTy.packing .f32)
  hstage5_11 : ∀ j, (stage5_11 j).IsWhole
  nbuf5_11 : grid5.bufCount reads5_11 true = 1
  hreads5_11 : ∀ i i' : grid5.Coords, (∀ a, reads5_11 a = true → i a = i' a) → cc5_transform_11 i = cc5_transform_11 i'
  hinb5_11 : ∀ (i : grid5.Coords) a, (cc5_transform_11 i a + 1) * S256x2.size a ≤ S256x2.size a
  hwx5_11 : ∀ i : grid5.Coords, EltTy.bits .f32 = 32 ∨ (Rect.block (s := S256x2) S256x2.size (cc5_transform_11 i) (hinb5_11 i)).WholeWords (EltTy.packing .f32)
  hstage5_12 : ∀ j, (stage5_12 j).IsWhole
  nbuf5_12 : grid5.bufCount reads5_12 true = 1
  hreads5_12 : ∀ i i' : grid5.Coords, (∀ a, reads5_12 a = true → i a = i' a) → cc5_transform_12 i = cc5_transform_12 i'
  hinb5_12 : ∀ (i : grid5.Coords) a, (cc5_transform_12 i a + 1) * S256x6.size a ≤ S256x6.size a
  hwx5_12 : ∀ i : grid5.Coords, EltTy.bits .f32 = 32 ∨ (Rect.block (s := S256x6) S256x6.size (cc5_transform_12 i) (hinb5_12 i)).WholeWords (EltTy.packing .f32)

variable [Facts₀]

def scatter_S51200_S1689600x1_S1689600_n_0_0_1 : ScatterDims S51200 S1689600x1 S1689600 where
  updateWindowDims := []
  insertedWindowDims := [0]
  scatterDimsToOperandDims := [0]
  indexVectorDim := 1
  wf := scatter_S51200_S1689600x1_S1689600_n_0_0_1_wf
def gather_S51200_S1689600x1_S1689600_n_0_n_n_0_1_1 : GatherDims S51200 S1689600x1 S1689600 where
  offsetDims := []
  collapsedSliceDims := [0]
  operandBatchingDims := []
  startIndicesBatchingDims := []
  startIndexMap := [0]
  indexVectorDim := 1
  sliceSizes := ![1]
  wf := gather_S51200_S1689600x1_S1689600_n_0_n_n_0_1_1_wf
def dot_S6400x200_S200x128_S6400x128_1_0_0_1_n_n : DotDims S6400x200 S200x128 S6400x128 where
  lhsContracting := [1]
  rhsContracting := [0]
  lhsNonContracting := [0]
  rhsNonContracting := [1]
  lhsBatch := []
  rhsBatch := []
  wf := dot_S6400x200_S200x128_S6400x128_1_0_0_1_n_n_wf
def gather_S51200x128_S1689600x1_S1689600x128_1_0_n_n_0_1_1128 : GatherDims S51200x128 S1689600x1 S1689600x128 where
  offsetDims := [1]
  collapsedSliceDims := [0]
  operandBatchingDims := []
  startIndicesBatchingDims := []
  startIndexMap := [0]
  indexVectorDim := 1
  sliceSizes := ![1, 128]
  wf := gather_S51200x128_S1689600x1_S1689600x128_1_0_n_n_0_1_1128_wf
def scatter_S51200x128_S1689600x1_S1689600x128_1_0_0_1 : ScatterDims S51200x128 S1689600x1 S1689600x128 where
  updateWindowDims := [1]
  insertedWindowDims := [0]
  scatterDimsToOperandDims := [0]
  indexVectorDim := 1
  wf := scatter_S51200x128_S1689600x1_S1689600x128_1_0_0_1_wf
def dot_S6400x128_S128x64_S6400x64_1_0_0_1_n_n : DotDims S6400x128 S128x64 S6400x64 where
  lhsContracting := [1]
  rhsContracting := [0]
  lhsNonContracting := [0]
  rhsNonContracting := [1]
  lhsBatch := []
  rhsBatch := []
  wf := dot_S6400x128_S128x64_S6400x64_1_0_0_1_n_n_wf
def gather_S51200x64_S1689600x1_S1689600x64_1_0_n_n_0_1_164 : GatherDims S51200x64 S1689600x1 S1689600x64 where
  offsetDims := [1]
  collapsedSliceDims := [0]
  operandBatchingDims := []
  startIndicesBatchingDims := []
  startIndexMap := [0]
  indexVectorDim := 1
  sliceSizes := ![1, 64]
  wf := gather_S51200x64_S1689600x1_S1689600x64_1_0_n_n_0_1_164_wf
def scatter_S51200x64_S1689600x1_S1689600x64_1_0_0_1 : ScatterDims S51200x64 S1689600x1 S1689600x64 where
  updateWindowDims := [1]
  insertedWindowDims := [0]
  scatterDimsToOperandDims := [0]
  indexVectorDim := 1
  wf := scatter_S51200x64_S1689600x1_S1689600x64_1_0_0_1_wf
def dot_S6400x64_S64x8_S6400x8_1_0_0_1_n_n : DotDims S6400x64 S64x8 S6400x8 where
  lhsContracting := [1]
  rhsContracting := [0]
  lhsNonContracting := [0]
  rhsNonContracting := [1]
  lhsBatch := []
  rhsBatch := []
  wf := dot_S6400x64_S64x8_S6400x8_1_0_0_1_n_n_wf
def dot_S256x1600_S1600x200_S256x200_1_0_0_1_n_n : DotDims S256x1600 S1600x200 S256x200 where
  lhsContracting := [1]
  rhsContracting := [0]
  lhsNonContracting := [0]
  rhsNonContracting := [1]
  lhsBatch := []
  rhsBatch := []
  wf := dot_S256x1600_S1600x200_S256x200_1_0_0_1_n_n_wf
def dot_S256x200_S200x2_S256x2_1_0_0_1_n_n : DotDims S256x200 S200x2 S256x2 where
  lhsContracting := [1]
  rhsContracting := [0]
  lhsNonContracting := [0]
  rhsNonContracting := [1]
  lhsBatch := []
  rhsBatch := []
  wf := dot_S256x200_S200x2_S256x2_1_0_0_1_n_n_wf
def dot_S256x200_S200x64_S256x64_1_0_0_1_n_n : DotDims S256x200 S200x64 S256x64 where
  lhsContracting := [1]
  rhsContracting := [0]
  lhsNonContracting := [0]
  rhsNonContracting := [1]
  lhsBatch := []
  rhsBatch := []
  wf := dot_S256x200_S200x64_S256x64_1_0_0_1_n_n_wf
def dot_S256x64_S64x6_S256x6_1_0_0_1_n_n : DotDims S256x64 S64x6 S256x6 where
  lhsContracting := [1]
  rhsContracting := [0]
  lhsNonContracting := [0]
  rhsNonContracting := [1]
  lhsBatch := []
  rhsBatch := []
  wf := dot_S256x64_S64x6_S256x6_1_0_0_1_n_n_wf

abbrev win0_0 : Pipeline.Window sig grid0 :=
  Pipeline.Window.ofSpec (Memref.whole main_arg0) S6400x200.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S200x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v32) S6400x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v45) S6400x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v46) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v47) S6400x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v47) S6400x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg5) S128x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v48) S6400x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v61) S6400x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v62) S1x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v63) S6400x64.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v63) S6400x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg7) S64x8.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v64) S1x8.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v65) S6400x8.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

abbrev win5_0 : Pipeline.Window sig grid5 :=
  Pipeline.Window.ofSpec (Memref.whole main_v66) S256x1600.size cc5_transform_0 reads5_0 false true 1 stage5_0 sem5_0
    hrank5 hreads5_0 hinb5_0 nbuf5_0 (Memref.isWhole_whole _) hwx5_0 hstage5_0

abbrev win5_1 : Pipeline.Window sig grid5 :=
  Pipeline.Window.ofSpec (Memref.whole main_arg9) S1600x200.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v67) S1x200.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v68) S1x200.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v69) S1x200.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_arg13) S200x2.size cc5_transform_5 reads5_5 false true 1 stage5_5 sem5_5
    hrank5 hreads5_5 hinb5_5 nbuf5_5 (Memref.isWhole_whole _) hwx5_5 hstage5_5

abbrev win5_6 : Pipeline.Window sig grid5 :=
  Pipeline.Window.ofSpec (Memref.whole main_v70) S1x2.size cc5_transform_6 reads5_6 false true 1 stage5_6 sem5_6
    hrank5 hreads5_6 hinb5_6 nbuf5_6 (Memref.isWhole_whole _) hwx5_6 hstage5_6

abbrev win5_7 : Pipeline.Window sig grid5 :=
  Pipeline.Window.ofSpec (Memref.whole main_arg15) S200x64.size cc5_transform_7 reads5_7 false true 1 stage5_7 sem5_7
    hrank5 hreads5_7 hinb5_7 nbuf5_7 (Memref.isWhole_whole _) hwx5_7 hstage5_7

abbrev win5_8 : Pipeline.Window sig grid5 :=
  Pipeline.Window.ofSpec (Memref.whole main_v71) S1x64.size cc5_transform_8 reads5_8 false true 1 stage5_8 sem5_8
    hrank5 hreads5_8 hinb5_8 nbuf5_8 (Memref.isWhole_whole _) hwx5_8 hstage5_8

abbrev win5_9 : Pipeline.Window sig grid5 :=
  Pipeline.Window.ofSpec (Memref.whole main_arg17) S64x6.size cc5_transform_9 reads5_9 false true 1 stage5_9 sem5_9
    hrank5 hreads5_9 hinb5_9 nbuf5_9 (Memref.isWhole_whole _) hwx5_9 hstage5_9

abbrev win5_10 : Pipeline.Window sig grid5 :=
  Pipeline.Window.ofSpec (Memref.whole main_v72) S1x6.size cc5_transform_10 reads5_10 false true 1 stage5_10 sem5_10
    hrank5 hreads5_10 hinb5_10 nbuf5_10 (Memref.isWhole_whole _) hwx5_10 hstage5_10

abbrev win5_11 : Pipeline.Window sig grid5 :=
  Pipeline.Window.ofSpec (Memref.whole main_v73_0) S256x2.size cc5_transform_11 reads5_11 true true 1 stage5_11 sem5_11
    hrank5 hreads5_11 hinb5_11 nbuf5_11 (Memref.isWhole_whole _) hwx5_11 hstage5_11

abbrev win5_12 : Pipeline.Window sig grid5 :=
  Pipeline.Window.ofSpec (Memref.whole main_v73_1) S256x6.size cc5_transform_12 reads5_12 true true 1 stage5_12 sem5_12
    hrank5 hreads5_12 hinb5_12 nbuf5_12 (Memref.isWhole_whole _) hwx5_12 hstage5_12

abbrev win5 : Fin 13 → Pipeline.Window sig grid5 := fun | 0 => win5_0 | 1 => win5_1 | 2 => win5_2 | 3 => win5_3 | 4 => win5_4 | 5 => win5_5 | 6 => win5_6 | 7 => win5_7 | 8 => win5_8 | 9 => win5_9 | 10 => win5_10 | 11 => win5_11 | 12 => win5_12 | ⟨_ + 13, h⟩ => absurd h (Nat.not_lt.2 (Nat.le_add_left _ _))
abbrev spec5 : Fin 13 → Pipeline.WinSpec sig grid5.rank := fun w => (win5 w).toWinSpec

class Facts : Prop extends Facts₀ where

variable [Facts]
-- ==== ReferenceIdeal.lean ====
abbrev S51200x200 : Shape := ⟨2, ![51200, 200]⟩
abbrev S2x1638400 : Shape := ⟨2, ![2, 1638400]⟩
abbrev S1638400 : Shape := ⟨1, ![1638400]⟩
abbrev S200x128 : Shape := ⟨2, ![200, 128]⟩
abbrev S128 : Shape := ⟨1, ![128]⟩
abbrev S128x64 : Shape := ⟨2, ![128, 64]⟩
abbrev S64 : Shape := ⟨1, ![64]⟩
abbrev S64x8 : Shape := ⟨2, ![64, 8]⟩
abbrev S8 : Shape := ⟨1, ![8]⟩
abbrev S1600x200 : Shape := ⟨2, ![1600, 200]⟩
abbrev S200 : Shape := ⟨1, ![200]⟩
abbrev S200x2 : Shape := ⟨2, ![200, 2]⟩
abbrev S2 : Shape := ⟨1, ![2]⟩
abbrev S200x64 : Shape := ⟨2, ![200, 64]⟩
abbrev S64x6 : Shape := ⟨2, ![64, 6]⟩
abbrev S6 : Shape := ⟨1, ![6]⟩
abbrev S1x1638400 : Shape := ⟨2, ![1, 1638400]⟩
abbrev S51200 : Shape := ⟨1, ![51200]⟩
abbrev S1689600 : Shape := ⟨1, ![1689600]⟩
abbrev S_ : Shape := ⟨0, ![]⟩
abbrev S1689600x1 : Shape := ⟨2, ![1689600, 1]⟩
abbrev S51200x128 : Shape := ⟨2, ![51200, 128]⟩
abbrev S1689600x128 : Shape := ⟨2, ![1689600, 128]⟩
abbrev S1x128 : Shape := ⟨2, ![1, 128]⟩
abbrev S51200x64 : Shape := ⟨2, ![51200, 64]⟩
abbrev S1689600x64 : Shape := ⟨2, ![1689600, 64]⟩
abbrev S1x64 : Shape := ⟨2, ![1, 64]⟩
abbrev S51200x8 : Shape := ⟨2, ![51200, 8]⟩
abbrev S1x8 : Shape := ⟨2, ![1, 8]⟩
abbrev S256x1600 : Shape := ⟨2, ![256, 1600]⟩
abbrev S256x200 : Shape := ⟨2, ![256, 200]⟩
abbrev S1x200 : Shape := ⟨2, ![1, 200]⟩
abbrev S256x2 : Shape := ⟨2, ![256, 2]⟩
abbrev S1x2 : Shape := ⟨2, ![1, 2]⟩
abbrev S256x64 : Shape := ⟨2, ![256, 64]⟩
abbrev S256x6 : Shape := ⟨2, ![256, 6]⟩
abbrev S1x6 : Shape := ⟨2, ![1, 6]⟩

abbrev nBuf : Space → Nat
  | .hbm => 265
  | .vmem => 0
  | .smem => 0
  | _ => 0

abbrev hbmTy0_0 (i : Nat) : BufTy := match i % 128 with
  | 0 => ⟨S51200x200, .f32⟩
  | 1 => ⟨S2x1638400, .i32⟩
  | 2 => ⟨S1638400, .f32⟩
  | 3 => ⟨S200x128, .f32⟩
  | 4 => ⟨S128, .f32⟩
  | 5 => ⟨S128x64, .f32⟩
  | 6 => ⟨S64, .f32⟩
  | 7 => ⟨S64x8, .f32⟩
  | 8 => ⟨S8, .f32⟩
  | 9 => ⟨S1600x200, .f32⟩
  | 10 => ⟨S200, .f32⟩
  | 11 => ⟨S200, .f32⟩
  | 12 => ⟨S200, .f32⟩
  | 13 => ⟨S200x2, .f32⟩
  | 14 => ⟨S2, .f32⟩
  | 15 => ⟨S200x64, .f32⟩
  | 16 => ⟨S64, .f32⟩
  | 17 => ⟨S64x6, .f32⟩
  | 18 => ⟨S6, .f32⟩
  | 19 => ⟨S1x1638400, .i32⟩
  | 20 => ⟨S1638400, .i32⟩
  | 21 => ⟨S1x1638400, .i32⟩
  | 22 => ⟨S1638400, .i32⟩
  | 23 => ⟨S51200, .i32⟩
  | 24 => ⟨S1689600, .i32⟩
  | 25 => ⟨S1689600, .i32⟩
  | 26 => ⟨S_, .f32⟩
  | 27 => ⟨S51200, .f32⟩
  | 28 => ⟨S1689600, .f32⟩
  | 29 => ⟨S_, .f32⟩
  | 30 => ⟨S51200, .f32⟩
  | 31 => ⟨S1689600x1, .i32⟩
  | 32 => ⟨S51200, .f32⟩
  | 33 => ⟨S_, .f32⟩
  | 34 => ⟨S51200, .f32⟩
  | 35 => ⟨S51200, .i1⟩
  | 36 => ⟨S51200, .f32⟩
  | 37 => ⟨S_, .f32⟩
  | 38 => ⟨S_, .f32⟩
  | 39 => ⟨S51200, .f32⟩
  | 40 => ⟨S51200, .f32⟩
  | 41 => ⟨S_, .i32⟩
  | 42 => ⟨S1689600, .i32⟩
  | 43 => ⟨S1689600, .i1⟩
  | 44 => ⟨S_, .i32⟩
  | 45 => ⟨S1689600, .i32⟩
  | 46 => ⟨S1689600, .i32⟩
  | 47 => ⟨S1689600, .i32⟩
  | 48 => ⟨S1689600x1, .i32⟩
  | 49 => ⟨S1689600, .f32⟩
  | 50 => ⟨S1689600, .f32⟩
  | 51 => ⟨S_, .i32⟩
  | 52 => ⟨S1689600, .i32⟩
  | 53 => ⟨S1689600, .i1⟩
  | 54 => ⟨S_, .i32⟩
  | 55 => ⟨S1689600, .i32⟩
  | 56 => ⟨S1689600, .i32⟩
  | 57 => ⟨S1689600, .i32⟩
  | 58 => ⟨S1689600x1, .i32⟩
  | 59 => ⟨S1689600, .f32⟩
  | 60 => ⟨S1689600, .f32⟩
  | 61 => ⟨S51200x128, .f32⟩
  | 62 => ⟨S_, .i32⟩
  | 63 => ⟨S1689600, .i32⟩
  | 64 => ⟨S1689600, .i1⟩
  | 65 => ⟨S_, .i32⟩
  | 66 => ⟨S1689600, .i32⟩
  | 67 => ⟨S1689600, .i32⟩
  | 68 => ⟨S1689600, .i32⟩
  | 69 => ⟨S1689600x1, .i32⟩
  | 70 => ⟨S1689600x128, .f32⟩
  | 71 => ⟨S1689600x1, .f32⟩
  | 72 => ⟨S1689600x128, .f32⟩
  | 73 => ⟨S1689600x128, .f32⟩
  | 74 => ⟨S_, .f32⟩
  | 75 => ⟨S51200x128, .f32⟩
  | 76 => ⟨S1689600x1, .i32⟩
  | 77 => ⟨S51200x128, .f32⟩
  | 78 => ⟨S1x128, .f32⟩
  | 79 => ⟨S51200x128, .f32⟩
  | 80 => ⟨S51200x128, .f32⟩
  | 81 => ⟨S_, .f32⟩
  | 82 => ⟨S51200x128, .f32⟩
  | 83 => ⟨S51200x128, .f32⟩
  | 84 => ⟨S51200x128, .f32⟩
  | 85 => ⟨S51200x128, .f32⟩
  | 86 => ⟨S51200x128, .i1⟩
  | 87 => ⟨S51200x128, .f32⟩
  | 88 => ⟨S51200x128, .f32⟩
  | 89 => ⟨S51200x128, .f32⟩
  | 90 => ⟨S51200x128, .f32⟩
  | 91 => ⟨S51200x128, .f32⟩
  | 92 => ⟨S51200x128, .f32⟩
  | 93 => ⟨S51200x128, .f32⟩
  | 94 => ⟨S51200x128, .f32⟩
  | 95 => ⟨S51200x128, .f32⟩
  | 96 => ⟨S51200x128, .f32⟩
  | 97 => ⟨S1x1638400, .i32⟩
  | 98 => ⟨S1638400, .i32⟩
  | 99 => ⟨S1x1638400, .i32⟩
  | 100 => ⟨S1638400, .i32⟩
  | 101 => ⟨S51200, .i32⟩
  | 102 => ⟨S1689600, .i32⟩
  | 103 => ⟨S1689600, .i32⟩
  | 104 => ⟨S_, .f32⟩
  | 105 => ⟨S51200, .f32⟩
  | 106 => ⟨S1689600, .f32⟩
  | 107 => ⟨S_, .f32⟩
  | 108 => ⟨S51200, .f32⟩
  | 109 => ⟨S1689600x1, .i32⟩
  | 110 => ⟨S51200, .f32⟩
  | 111 => ⟨S_, .f32⟩
  | 112 => ⟨S51200, .f32⟩
  | 113 => ⟨S51200, .i1⟩
  | 114 => ⟨S51200, .f32⟩
  | 115 => ⟨S_, .f32⟩
  | 116 => ⟨S_, .f32⟩
  | 117 => ⟨S51200, .f32⟩
  | 118 => ⟨S51200, .f32⟩
  | 119 => ⟨S_, .i32⟩
  | 120 => ⟨S1689600, .i32⟩
  | 121 => ⟨S1689600, .i1⟩
  | 122 => ⟨S_, .i32⟩
  | 123 => ⟨S1689600, .i32⟩
  | 124 => ⟨S1689600, .i32⟩
  | 125 => ⟨S1689600, .i32⟩
  | 126 => ⟨S1689600x1, .i32⟩
  | 127 => ⟨S1689600, .f32⟩
  | _ => ⟨S51200x200, .f32⟩

abbrev hbmTy0_1 (i : Nat) : BufTy := match i % 128 with
  | 0 => ⟨S1689600, .f32⟩
  | 1 => ⟨S_, .i32⟩
  | 2 => ⟨S1689600, .i32⟩
  | 3 => ⟨S1689600, .i1⟩
  | 4 => ⟨S_, .i32⟩
  | 5 => ⟨S1689600, .i32⟩
  | 6 => ⟨S1689600, .i32⟩
  | 7 => ⟨S1689600, .i32⟩
  | 8 => ⟨S1689600x1, .i32⟩
  | 9 => ⟨S1689600, .f32⟩
  | 10 => ⟨S1689600, .f32⟩
  | 11 => ⟨S51200x64, .f32⟩
  | 12 => ⟨S_, .i32⟩
  | 13 => ⟨S1689600, .i32⟩
  | 14 => ⟨S1689600, .i1⟩
  | 15 => ⟨S_, .i32⟩
  | 16 => ⟨S1689600, .i32⟩
  | 17 => ⟨S1689600, .i32⟩
  | 18 => ⟨S1689600, .i32⟩
  | 19 => ⟨S1689600x1, .i32⟩
  | 20 => ⟨S1689600x64, .f32⟩
  | 21 => ⟨S1689600x1, .f32⟩
  | 22 => ⟨S1689600x64, .f32⟩
  | 23 => ⟨S1689600x64, .f32⟩
  | 24 => ⟨S_, .f32⟩
  | 25 => ⟨S51200x64, .f32⟩
  | 26 => ⟨S1689600x1, .i32⟩
  | 27 => ⟨S51200x64, .f32⟩
  | 28 => ⟨S1x64, .f32⟩
  | 29 => ⟨S51200x64, .f32⟩
  | 30 => ⟨S51200x64, .f32⟩
  | 31 => ⟨S_, .f32⟩
  | 32 => ⟨S51200x64, .f32⟩
  | 33 => ⟨S51200x64, .f32⟩
  | 34 => ⟨S51200x64, .f32⟩
  | 35 => ⟨S51200x64, .f32⟩
  | 36 => ⟨S51200x64, .i1⟩
  | 37 => ⟨S51200x64, .f32⟩
  | 38 => ⟨S51200x64, .f32⟩
  | 39 => ⟨S51200x64, .f32⟩
  | 40 => ⟨S51200x64, .f32⟩
  | 41 => ⟨S51200x64, .f32⟩
  | 42 => ⟨S51200x64, .f32⟩
  | 43 => ⟨S51200x64, .f32⟩
  | 44 => ⟨S51200x64, .f32⟩
  | 45 => ⟨S51200x64, .f32⟩
  | 46 => ⟨S51200x64, .f32⟩
  | 47 => ⟨S51200x8, .f32⟩
  | 48 => ⟨S1x8, .f32⟩
  | 49 => ⟨S51200x8, .f32⟩
  | 50 => ⟨S51200x8, .f32⟩
  | 51 => ⟨S_, .f32⟩
  | 52 => ⟨S51200x8, .f32⟩
  | 53 => ⟨S51200x8, .f32⟩
  | 54 => ⟨S51200x8, .f32⟩
  | 55 => ⟨S51200x8, .f32⟩
  | 56 => ⟨S51200x8, .i1⟩
  | 57 => ⟨S51200x8, .f32⟩
  | 58 => ⟨S51200x8, .f32⟩
  | 59 => ⟨S51200x8, .f32⟩
  | 60 => ⟨S51200x8, .f32⟩
  | 61 => ⟨S51200x8, .f32⟩
  | 62 => ⟨S51200x8, .f32⟩
  | 63 => ⟨S51200x8, .f32⟩
  | 64 => ⟨S51200x8, .f32⟩
  | 65 => ⟨S51200x8, .f32⟩
  | 66 => ⟨S51200x8, .f32⟩
  | 67 => ⟨S256x1600, .f32⟩
  | 68 => ⟨S256x200, .f32⟩
  | 69 => ⟨S1x200, .f32⟩
  | 70 => ⟨S256x200, .f32⟩
  | 71 => ⟨S256x200, .f32⟩
  | 72 => ⟨S_, .f32⟩
  | 73 => ⟨S200, .f32⟩
  | 74 => ⟨S_, .f32⟩
  | 75 => ⟨S200, .f32⟩
  | 76 => ⟨S200, .f32⟩
  | 77 => ⟨S1x200, .f32⟩
  | 78 => ⟨S256x200, .f32⟩
  | 79 => ⟨S256x200, .f32⟩
  | 80 => ⟨S256x200, .f32⟩
  | 81 => ⟨S_, .f32⟩
  | 82 => ⟨S200, .f32⟩
  | 83 => ⟨S_, .f32⟩
  | 84 => ⟨S200, .f32⟩
  | 85 => ⟨S200, .f32⟩
  | 86 => ⟨S1x200, .f32⟩
  | 87 => ⟨S256x200, .f32⟩
  | 88 => ⟨S256x200, .f32⟩
  | 89 => ⟨S_, .f32⟩
  | 90 => ⟨S200, .f32⟩
  | 91 => ⟨S200, .f32⟩
  | 92 => ⟨S200, .f32⟩
  | 93 => ⟨S1x200, .f32⟩
  | 94 => ⟨S256x200, .f32⟩
  | 95 => ⟨S256x200, .f32⟩
  | 96 => ⟨S1x200, .f32⟩
  | 97 => ⟨S256x200, .f32⟩
  | 98 => ⟨S256x200, .f32⟩
  | 99 => ⟨S1x200, .f32⟩
  | 100 => ⟨S256x200, .f32⟩
  | 101 => ⟨S256x200, .f32⟩
  | 102 => ⟨S_, .f32⟩
  | 103 => ⟨S256x200, .f32⟩
  | 104 => ⟨S256x200, .f32⟩
  | 105 => ⟨S256x200, .f32⟩
  | 106 => ⟨S256x200, .f32⟩
  | 107 => ⟨S256x200, .i1⟩
  | 108 => ⟨S256x200, .f32⟩
  | 109 => ⟨S256x200, .f32⟩
  | 110 => ⟨S256x200, .f32⟩
  | 111 => ⟨S256x200, .f32⟩
  | 112 => ⟨S256x200, .f32⟩
  | 113 => ⟨S256x200, .f32⟩
  | 114 => ⟨S256x200, .f32⟩
  | 115 => ⟨S256x200, .f32⟩
  | 116 => ⟨S256x200, .f32⟩
  | 117 => ⟨S256x200, .f32⟩
  | 118 => ⟨S256x2, .f32⟩
  | 119 => ⟨S1x2, .f32⟩
  | 120 => ⟨S256x2, .f32⟩
  | 121 => ⟨S256x2, .f32⟩
  | 122 => ⟨S_, .f32⟩
  | 123 => ⟨S256x200, .f32⟩
  | 124 => ⟨S256x200, .f32⟩
  | 125 => ⟨S256x200, .f32⟩
  | 126 => ⟨S256x64, .f32⟩
  | 127 => ⟨S1x64, .f32⟩
  | _ => ⟨S51200x200, .f32⟩

abbrev hbmTy0_2 (i : Nat) : BufTy := match i % 128 with
  | 0 => ⟨S256x64, .f32⟩
  | 1 => ⟨S256x64, .f32⟩
  | 2 => ⟨S_, .f32⟩
  | 3 => ⟨S256x64, .f32⟩
  | 4 => ⟨S256x64, .f32⟩
  | 5 => ⟨S256x6, .f32⟩
  | 6 => ⟨S1x6, .f32⟩
  | 7 => ⟨S256x6, .f32⟩
  | 8 => ⟨S256x6, .f32⟩
  | _ => ⟨S51200x200, .f32⟩

abbrev hbmTy (i : Nat) : BufTy := match i / 128 with
  | 0 => hbmTy0_0 i
  | 1 => hbmTy0_1 i
  | 2 => hbmTy0_2 i
  | _ => ⟨S51200x200, .f32⟩

abbrev bufTy : (tb : Table) → Fin (tcTables nBuf tb) → BufTy
  | .hbm, ⟨i, _⟩ => hbmTy i
  | _, _ => ⟨S51200x200, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_cst : Ref sig .tc := ⟨.hbm, 26, rfl⟩
abbrev main_v7 : Ref sig .tc := ⟨.hbm, 27, rfl⟩
abbrev main_v8 : Ref sig .tc := ⟨.hbm, 28, rfl⟩
abbrev main_cst_0 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_cst_1 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_cst_2 : Ref sig .tc := ⟨.hbm, 37, rfl⟩
abbrev main_call0_v0 : Ref sig .tc := ⟨.hbm, 38, rfl⟩
abbrev main_call0_v1 : Ref sig .tc := ⟨.hbm, 39, rfl⟩
abbrev main_v15 : Ref sig .tc := ⟨.hbm, 40, rfl⟩
abbrev main_c : Ref sig .tc := ⟨.hbm, 41, rfl⟩
abbrev main_v16 : Ref sig .tc := ⟨.hbm, 42, rfl⟩
abbrev main_v17 : Ref sig .tc := ⟨.hbm, 43, rfl⟩
abbrev main_c_3 : Ref sig .tc := ⟨.hbm, 44, rfl⟩
abbrev main_v18 : Ref sig .tc := ⟨.hbm, 45, rfl⟩
abbrev main_v19 : Ref sig .tc := ⟨.hbm, 46, rfl⟩
abbrev main_v20 : Ref sig .tc := ⟨.hbm, 47, rfl⟩
abbrev main_v21 : Ref sig .tc := ⟨.hbm, 48, rfl⟩
abbrev main_v22 : Ref sig .tc := ⟨.hbm, 49, rfl⟩
abbrev main_v23 : Ref sig .tc := ⟨.hbm, 50, rfl⟩
abbrev main_c_4 : Ref sig .tc := ⟨.hbm, 51, rfl⟩
abbrev main_v24 : Ref sig .tc := ⟨.hbm, 52, rfl⟩
abbrev main_v25 : Ref sig .tc := ⟨.hbm, 53, rfl⟩
abbrev main_c_5 : Ref sig .tc := ⟨.hbm, 54, rfl⟩
abbrev main_v26 : Ref sig .tc := ⟨.hbm, 55, rfl⟩
abbrev main_v27 : Ref sig .tc := ⟨.hbm, 56, rfl⟩
abbrev main_v28 : Ref sig .tc := ⟨.hbm, 57, rfl⟩
abbrev main_v29 : Ref sig .tc := ⟨.hbm, 58, rfl⟩
abbrev main_v30 : Ref sig .tc := ⟨.hbm, 59, rfl⟩
abbrev main_v31 : Ref sig .tc := ⟨.hbm, 60, rfl⟩
abbrev main_v32 : Ref sig .tc := ⟨.hbm, 61, rfl⟩
abbrev main_c_6 : Ref sig .tc := ⟨.hbm, 62, rfl⟩
abbrev main_v33 : Ref sig .tc := ⟨.hbm, 63, rfl⟩
abbrev main_v34 : Ref sig .tc := ⟨.hbm, 64, rfl⟩
abbrev main_c_7 : Ref sig .tc := ⟨.hbm, 65, rfl⟩
abbrev main_v35 : Ref sig .tc := ⟨.hbm, 66, rfl⟩
abbrev main_v36 : Ref sig .tc := ⟨.hbm, 67, rfl⟩
abbrev main_v37 : Ref sig .tc := ⟨.hbm, 68, rfl⟩
abbrev main_v38 : Ref sig .tc := ⟨.hbm, 69, rfl⟩
abbrev main_v39 : Ref sig .tc := ⟨.hbm, 70, rfl⟩
abbrev main_v40 : Ref sig .tc := ⟨.hbm, 71, rfl⟩
abbrev main_v41 : Ref sig .tc := ⟨.hbm, 72, rfl⟩
abbrev main_v42 : Ref sig .tc := ⟨.hbm, 73, rfl⟩
abbrev main_cst_8 : Ref sig .tc := ⟨.hbm, 74, rfl⟩
abbrev main_v43 : Ref sig .tc := ⟨.hbm, 75, rfl⟩
abbrev main_v44 : Ref sig .tc := ⟨.hbm, 76, rfl⟩
abbrev main_v45 : Ref sig .tc := ⟨.hbm, 77, rfl⟩
abbrev main_v46 : Ref sig .tc := ⟨.hbm, 78, rfl⟩
abbrev main_v47 : Ref sig .tc := ⟨.hbm, 79, rfl⟩
abbrev main_v48 : Ref sig .tc := ⟨.hbm, 80, rfl⟩
abbrev main_call1_cst : Ref sig .tc := ⟨.hbm, 81, rfl⟩
abbrev main_call1_v0 : Ref sig .tc := ⟨.hbm, 82, rfl⟩
abbrev main_call1_v1 : Ref sig .tc := ⟨.hbm, 83, rfl⟩
abbrev main_call1_v2 : Ref sig .tc := ⟨.hbm, 84, rfl⟩
abbrev main_call1_v3 : Ref sig .tc := ⟨.hbm, 85, rfl⟩
abbrev main_call1_v4 : Ref sig .tc := ⟨.hbm, 86, rfl⟩
abbrev main_call1_v5 : Ref sig .tc := ⟨.hbm, 87, rfl⟩
abbrev main_call1_v6 : Ref sig .tc := ⟨.hbm, 88, rfl⟩
abbrev main_call1_v7 : Ref sig .tc := ⟨.hbm, 89, rfl⟩
abbrev main_call1_v8 : Ref sig .tc := ⟨.hbm, 90, rfl⟩
abbrev main_call1_v9 : Ref sig .tc := ⟨.hbm, 91, rfl⟩
abbrev main_call1_v10 : Ref sig .tc := ⟨.hbm, 92, rfl⟩
abbrev main_call1_v11 : Ref sig .tc := ⟨.hbm, 93, rfl⟩
abbrev main_v49 : Ref sig .tc := ⟨.hbm, 94, rfl⟩
abbrev main_v50 : Ref sig .tc := ⟨.hbm, 95, rfl⟩
abbrev main_v51 : Ref sig .tc := ⟨.hbm, 96, rfl⟩
abbrev main_v52 : Ref sig .tc := ⟨.hbm, 97, rfl⟩
abbrev main_v53 : Ref sig .tc := ⟨.hbm, 98, rfl⟩
abbrev main_v54 : Ref sig .tc := ⟨.hbm, 99, rfl⟩
abbrev main_v55 : Ref sig .tc := ⟨.hbm, 100, rfl⟩
abbrev main_v56 : Ref sig .tc := ⟨.hbm, 101, rfl⟩
abbrev main_v57 : Ref sig .tc := ⟨.hbm, 102, rfl⟩
abbrev main_v58 : Ref sig .tc := ⟨.hbm, 103, rfl⟩
abbrev main_cst_9 : Ref sig .tc := ⟨.hbm, 104, rfl⟩
abbrev main_v59 : Ref sig .tc := ⟨.hbm, 105, rfl⟩
abbrev main_v60 : Ref sig .tc := ⟨.hbm, 106, rfl⟩
abbrev main_cst_10 : Ref sig .tc := ⟨.hbm, 107, rfl⟩
abbrev main_v61 : Ref sig .tc := ⟨.hbm, 108, rfl⟩
abbrev main_v62 : Ref sig .tc := ⟨.hbm, 109, rfl⟩
abbrev main_v63 : Ref sig .tc := ⟨.hbm, 110, rfl⟩
abbrev main_cst_11 : Ref sig .tc := ⟨.hbm, 111, rfl⟩
abbrev main_v64 : Ref sig .tc := ⟨.hbm, 112, rfl⟩
abbrev main_v65 : Ref sig .tc := ⟨.hbm, 113, rfl⟩
abbrev main_v66 : Ref sig .tc := ⟨.hbm, 114, rfl⟩
abbrev main_cst_12 : Ref sig .tc := ⟨.hbm, 115, rfl⟩
abbrev main_call2_v0 : Ref sig .tc := ⟨.hbm, 116, rfl⟩
abbrev main_call2_v1 : Ref sig .tc := ⟨.hbm, 117, rfl⟩
abbrev main_v67 : Ref sig .tc := ⟨.hbm, 118, rfl⟩
abbrev main_c_13 : Ref sig .tc := ⟨.hbm, 119, rfl⟩
abbrev main_v68 : Ref sig .tc := ⟨.hbm, 120, rfl⟩
abbrev main_v69 : Ref sig .tc := ⟨.hbm, 121, rfl⟩
abbrev main_c_14 : Ref sig .tc := ⟨.hbm, 122, rfl⟩
abbrev main_v70 : Ref sig .tc := ⟨.hbm, 123, rfl⟩
abbrev main_v71 : Ref sig .tc := ⟨.hbm, 124, rfl⟩
abbrev main_v72 : Ref sig .tc := ⟨.hbm, 125, rfl⟩
abbrev main_v73 : Ref sig .tc := ⟨.hbm, 126, rfl⟩
abbrev main_v74 : Ref sig .tc := ⟨.hbm, 127, rfl⟩
abbrev main_v75 : Ref sig .tc := ⟨.hbm, 128, rfl⟩
abbrev main_c_15 : Ref sig .tc := ⟨.hbm, 129, rfl⟩
abbrev main_v76 : Ref sig .tc := ⟨.hbm, 130, rfl⟩
abbrev main_v77 : Ref sig .tc := ⟨.hbm, 131, rfl⟩
abbrev main_c_16 : Ref sig .tc := ⟨.hbm, 132, rfl⟩
abbrev main_v78 : Ref sig .tc := ⟨.hbm, 133, rfl⟩
abbrev main_v79 : Ref sig .tc := ⟨.hbm, 134, rfl⟩
abbrev main_v80 : Ref sig .tc := ⟨.hbm, 135, rfl⟩
abbrev main_v81 : Ref sig .tc := ⟨.hbm, 136, rfl⟩
abbrev main_v82 : Ref sig .tc := ⟨.hbm, 137, rfl⟩
abbrev main_v83 : Ref sig .tc := ⟨.hbm, 138, rfl⟩
abbrev main_v84 : Ref sig .tc := ⟨.hbm, 139, rfl⟩
abbrev main_c_17 : Ref sig .tc := ⟨.hbm, 140, rfl⟩
abbrev main_v85 : Ref sig .tc := ⟨.hbm, 141, rfl⟩
abbrev main_v86 : Ref sig .tc := ⟨.hbm, 142, rfl⟩
abbrev main_c_18 : Ref sig .tc := ⟨.hbm, 143, rfl⟩
abbrev main_v87 : Ref sig .tc := ⟨.hbm, 144, rfl⟩
abbrev main_v88 : Ref sig .tc := ⟨.hbm, 145, rfl⟩
abbrev main_v89 : Ref sig .tc := ⟨.hbm, 146, rfl⟩
abbrev main_v90 : Ref sig .tc := ⟨.hbm, 147, rfl⟩
abbrev main_v91 : Ref sig .tc := ⟨.hbm, 148, rfl⟩
abbrev main_v92 : Ref sig .tc := ⟨.hbm, 149, rfl⟩
abbrev main_v93 : Ref sig .tc := ⟨.hbm, 150, rfl⟩
abbrev main_v94 : Ref sig .tc := ⟨.hbm, 151, rfl⟩
abbrev main_cst_19 : Ref sig .tc := ⟨.hbm, 152, rfl⟩
abbrev main_v95 : Ref sig .tc := ⟨.hbm, 153, rfl⟩
abbrev main_v96 : Ref sig .tc := ⟨.hbm, 154, rfl⟩
abbrev main_v97 : Ref sig .tc := ⟨.hbm, 155, rfl⟩
abbrev main_v98 : Ref sig .tc := ⟨.hbm, 156, rfl⟩
abbrev main_v99 : Ref sig .tc := ⟨.hbm, 157, rfl⟩
abbrev main_v100 : Ref sig .tc := ⟨.hbm, 158, rfl⟩
abbrev main_call3_cst : Ref sig .tc := ⟨.hbm, 159, rfl⟩
abbrev main_call3_v0 : Ref sig .tc := ⟨.hbm, 160, rfl⟩
abbrev main_call3_v1 : Ref sig .tc := ⟨.hbm, 161, rfl⟩
abbrev main_call3_v2 : Ref sig .tc := ⟨.hbm, 162, rfl⟩
abbrev main_call3_v3 : Ref sig .tc := ⟨.hbm, 163, rfl⟩
abbrev main_call3_v4 : Ref sig .tc := ⟨.hbm, 164, rfl⟩
abbrev main_call3_v5 : Ref sig .tc := ⟨.hbm, 165, rfl⟩
abbrev main_call3_v6 : Ref sig .tc := ⟨.hbm, 166, rfl⟩
abbrev main_call3_v7 : Ref sig .tc := ⟨.hbm, 167, rfl⟩
abbrev main_call3_v8 : Ref sig .tc := ⟨.hbm, 168, rfl⟩
abbrev main_call3_v9 : Ref sig .tc := ⟨.hbm, 169, rfl⟩
abbrev main_call3_v10 : Ref sig .tc := ⟨.hbm, 170, rfl⟩
abbrev main_call3_v11 : Ref sig .tc := ⟨.hbm, 171, rfl⟩
abbrev main_v101 : Ref sig .tc := ⟨.hbm, 172, rfl⟩
abbrev main_v102 : Ref sig .tc := ⟨.hbm, 173, rfl⟩
abbrev main_v103 : Ref sig .tc := ⟨.hbm, 174, rfl⟩
abbrev main_v104 : Ref sig .tc := ⟨.hbm, 175, rfl⟩
abbrev main_v105 : Ref sig .tc := ⟨.hbm, 176, rfl⟩
abbrev main_v106 : Ref sig .tc := ⟨.hbm, 177, rfl⟩
abbrev main_v107 : Ref sig .tc := ⟨.hbm, 178, rfl⟩
abbrev main_call4_cst : Ref sig .tc := ⟨.hbm, 179, rfl⟩
abbrev main_call4_v0 : Ref sig .tc := ⟨.hbm, 180, rfl⟩
abbrev main_call4_v1 : Ref sig .tc := ⟨.hbm, 181, rfl⟩
abbrev main_call4_v2 : Ref sig .tc := ⟨.hbm, 182, rfl⟩
abbrev main_call4_v3 : Ref sig .tc := ⟨.hbm, 183, rfl⟩
abbrev main_call4_v4 : Ref sig .tc := ⟨.hbm, 184, rfl⟩
abbrev main_call4_v5 : Ref sig .tc := ⟨.hbm, 185, rfl⟩
abbrev main_call4_v6 : Ref sig .tc := ⟨.hbm, 186, rfl⟩
abbrev main_call4_v7 : Ref sig .tc := ⟨.hbm, 187, rfl⟩
abbrev main_call4_v8 : Ref sig .tc := ⟨.hbm, 188, rfl⟩
abbrev main_call4_v9 : Ref sig .tc := ⟨.hbm, 189, rfl⟩
abbrev main_call4_v10 : Ref sig .tc := ⟨.hbm, 190, rfl⟩
abbrev main_call4_v11 : Ref sig .tc := ⟨.hbm, 191, rfl⟩
abbrev main_v108 : Ref sig .tc := ⟨.hbm, 192, rfl⟩
abbrev main_v109 : Ref sig .tc := ⟨.hbm, 193, rfl⟩
abbrev main_v110 : Ref sig .tc := ⟨.hbm, 194, rfl⟩
abbrev main_v111 : Ref sig .tc := ⟨.hbm, 195, rfl⟩
abbrev main_v112 : Ref sig .tc := ⟨.hbm, 196, rfl⟩
abbrev main_v113 : Ref sig .tc := ⟨.hbm, 197, rfl⟩
abbrev main_v114 : Ref sig .tc := ⟨.hbm, 198, rfl⟩
abbrev main_v115 : Ref sig .tc := ⟨.hbm, 199, rfl⟩
abbrev main_cst_20 : Ref sig .tc := ⟨.hbm, 200, rfl⟩
abbrev main_v116 : Ref sig .tc := ⟨.hbm, 201, rfl⟩
abbrev main_cst_21 : Ref sig .tc := ⟨.hbm, 202, rfl⟩
abbrev main_v117 : Ref sig .tc := ⟨.hbm, 203, rfl⟩
abbrev main_v118 : Ref sig .tc := ⟨.hbm, 204, rfl⟩
abbrev main_v119 : Ref sig .tc := ⟨.hbm, 205, rfl⟩
abbrev main_v120 : Ref sig .tc := ⟨.hbm, 206, rfl⟩
abbrev main_v121 : Ref sig .tc := ⟨.hbm, 207, rfl⟩
abbrev main_v122 : Ref sig .tc := ⟨.hbm, 208, rfl⟩
abbrev main_cst_22 : Ref sig .tc := ⟨.hbm, 209, rfl⟩
abbrev main_v123 : Ref sig .tc := ⟨.hbm, 210, rfl⟩
abbrev main_cst_23 : Ref sig .tc := ⟨.hbm, 211, rfl⟩
abbrev main_v124 : Ref sig .tc := ⟨.hbm, 212, rfl⟩
abbrev main_v125 : Ref sig .tc := ⟨.hbm, 213, rfl⟩
abbrev main_v126 : Ref sig .tc := ⟨.hbm, 214, rfl⟩
abbrev main_v127 : Ref sig .tc := ⟨.hbm, 215, rfl⟩
abbrev main_v128 : Ref sig .tc := ⟨.hbm, 216, rfl⟩
abbrev main_cst_24 : Ref sig .tc := ⟨.hbm, 217, rfl⟩
abbrev main_v129 : Ref sig .tc := ⟨.hbm, 218, rfl⟩
abbrev main_v130 : Ref sig .tc := ⟨.hbm, 219, rfl⟩
abbrev main_v131 : Ref sig .tc := ⟨.hbm, 220, rfl⟩
abbrev main_v132 : Ref sig .tc := ⟨.hbm, 221, rfl⟩
abbrev main_v133 : Ref sig .tc := ⟨.hbm, 222, rfl⟩
abbrev main_v134 : Ref sig .tc := ⟨.hbm, 223, rfl⟩
abbrev main_v135 : Ref sig .tc := ⟨.hbm, 224, rfl⟩
abbrev main_v136 : Ref sig .tc := ⟨.hbm, 225, rfl⟩
abbrev main_v137 : Ref sig .tc := ⟨.hbm, 226, rfl⟩
abbrev main_v138 : Ref sig .tc := ⟨.hbm, 227, rfl⟩
abbrev main_v139 : Ref sig .tc := ⟨.hbm, 228, rfl⟩
abbrev main_v140 : Ref sig .tc := ⟨.hbm, 229, rfl⟩
abbrev main_call5_cst : Ref sig .tc := ⟨.hbm, 230, rfl⟩
abbrev main_call5_v0 : Ref sig .tc := ⟨.hbm, 231, rfl⟩
abbrev main_call5_v1 : Ref sig .tc := ⟨.hbm, 232, rfl⟩
abbrev main_call5_v2 : Ref sig .tc := ⟨.hbm, 233, rfl⟩
abbrev main_call5_v3 : Ref sig .tc := ⟨.hbm, 234, rfl⟩
abbrev main_call5_v4 : Ref sig .tc := ⟨.hbm, 235, rfl⟩
abbrev main_call5_v5 : Ref sig .tc := ⟨.hbm, 236, rfl⟩
abbrev main_call5_v6 : Ref sig .tc := ⟨.hbm, 237, rfl⟩
abbrev main_call5_v7 : Ref sig .tc := ⟨.hbm, 238, rfl⟩
abbrev main_call5_v8 : Ref sig .tc := ⟨.hbm, 239, rfl⟩
abbrev main_call5_v9 : Ref sig .tc := ⟨.hbm, 240, rfl⟩
abbrev main_call5_v10 : Ref sig .tc := ⟨.hbm, 241, rfl⟩
abbrev main_call5_v11 : Ref sig .tc := ⟨.hbm, 242, rfl⟩
abbrev main_v141 : Ref sig .tc := ⟨.hbm, 243, rfl⟩
abbrev main_v142 : Ref sig .tc := ⟨.hbm, 244, rfl⟩
abbrev main_v143 : Ref sig .tc := ⟨.hbm, 245, rfl⟩
abbrev main_v144 : Ref sig .tc := ⟨.hbm, 246, rfl⟩
abbrev main_v145 : Ref sig .tc := ⟨.hbm, 247, rfl⟩
abbrev main_v146 : Ref sig .tc := ⟨.hbm, 248, rfl⟩
abbrev main_v147 : Ref sig .tc := ⟨.hbm, 249, rfl⟩
abbrev main_cst_25 : Ref sig .tc := ⟨.hbm, 250, rfl⟩
abbrev main_v148 : Ref sig .tc := ⟨.hbm, 251, rfl⟩
abbrev main_v149 : Ref sig .tc := ⟨.hbm, 252, rfl⟩
abbrev main_v150 : Ref sig .tc := ⟨.hbm, 253, rfl⟩
abbrev main_v151 : Ref sig .tc := ⟨.hbm, 254, rfl⟩
abbrev main_v152 : Ref sig .tc := ⟨.hbm, 255, rfl⟩
abbrev main_v153 : Ref sig .tc := ⟨.hbm, 256, rfl⟩
abbrev main_v154 : Ref sig .tc := ⟨.hbm, 257, rfl⟩
abbrev main_call6_cst : Ref sig .tc := ⟨.hbm, 258, rfl⟩
abbrev main_call6_v0 : Ref sig .tc := ⟨.hbm, 259, rfl⟩
abbrev main_v155 : Ref sig .tc := ⟨.hbm, 260, rfl⟩
abbrev main_v156 : Ref sig .tc := ⟨.hbm, 261, rfl⟩
abbrev main_v157 : Ref sig .tc := ⟨.hbm, 262, rfl⟩
abbrev main_v158 : Ref sig .tc := ⟨.hbm, 263, rfl⟩
abbrev main_v159 : Ref sig .tc := ⟨.hbm, 264, rfl⟩

abbrev nD : Nat := 1
abbrev τ : Topo := Topo.v7x

variable {F : FTy → Type} [FloatOps F]

class Facts₀ : Prop where
  slices_S2x1638400_S1x1638400_0_0 : S2x1638400.Slices ![0, 0] S1x1638400
  shapeCasts_S1x1638400_S1638400 : S1x1638400.ShapeCasts S1638400
  slices_S2x1638400_S1x1638400_1_0 : S2x1638400.Slices ![1, 0] S1x1638400
  concatenates_S1638400_S51200_S1689600_d0 : Shape.Concatenates [S1638400, S51200] S1689600 0
  bcast_S_S51200 : S_.BroadcastsInDim S51200 (![] : Fin 0 → Fin S51200.rank)
  bcast_S1689600_S1689600x1_0 : S1689600.BroadcastsInDim S1689600x1 (![0] : Fin 1 → Fin S1689600x1.rank)
  bcast_S_S1689600 : S_.BroadcastsInDim S1689600 (![] : Fin 0 → Fin S1689600.rank)
  bcast_S1689600x1_S1689600x128_0_1 : S1689600x1.BroadcastsInDim S1689600x128 (![0, 1] : Fin 2 → Fin S1689600x128.rank)
  bcast_S_S51200x128 : S_.BroadcastsInDim S51200x128 (![] : Fin 0 → Fin S51200x128.rank)
  bcast_S128_S1x128_1 : S128.BroadcastsInDim S1x128 (![1] : Fin 1 → Fin S1x128.rank)
  bcast_S1x128_S51200x128_0_1 : S1x128.BroadcastsInDim S51200x128 (![0, 1] : Fin 2 → Fin S51200x128.rank)
  bcast_S1689600x1_S1689600x64_0_1 : S1689600x1.BroadcastsInDim S1689600x64 (![0, 1] : Fin 2 → Fin S1689600x64.rank)
  bcast_S_S51200x64 : S_.BroadcastsInDim S51200x64 (![] : Fin 0 → Fin S51200x64.rank)
  bcast_S64_S1x64_1 : S64.BroadcastsInDim S1x64 (![1] : Fin 1 → Fin S1x64.rank)
  bcast_S1x64_S51200x64_0_1 : S1x64.BroadcastsInDim S51200x64 (![0, 1] : Fin 2 → Fin S51200x64.rank)
  bcast_S8_S1x8_1 : S8.BroadcastsInDim S1x8 (![1] : Fin 1 → Fin S1x8.rank)
  bcast_S1x8_S51200x8_0_1 : S1x8.BroadcastsInDim S51200x8 (![0, 1] : Fin 2 → Fin S51200x8.rank)
  bcast_S_S51200x8 : S_.BroadcastsInDim S51200x8 (![] : Fin 0 → Fin S51200x8.rank)
  shapeCasts_S51200x8_S256x1600 : S51200x8.ShapeCasts S256x1600
  bcast_S200_S1x200_1 : S200.BroadcastsInDim S1x200 (![1] : Fin 1 → Fin S1x200.rank)
  bcast_S1x200_S256x200_0_1 : S1x200.BroadcastsInDim S256x200 (![0, 1] : Fin 2 → Fin S256x200.rank)
  reducesTo_S256x200_S200_d0 : S256x200.ReducesTo [0] S200
  h_S_ : 0 < S_.numel
  bcast_S_S200 : S_.BroadcastsInDim S200 (![] : Fin 0 → Fin S200.rank)
  bcast_S_S256x200 : S_.BroadcastsInDim S256x200 (![] : Fin 0 → Fin S256x200.rank)
  bcast_S2_S1x2_1 : S2.BroadcastsInDim S1x2 (![1] : Fin 1 → Fin S1x2.rank)
  bcast_S1x2_S256x2_0_1 : S1x2.BroadcastsInDim S256x2 (![0, 1] : Fin 2 → Fin S256x2.rank)
  bcast_S1x64_S256x64_0_1 : S1x64.BroadcastsInDim S256x64 (![0, 1] : Fin 2 → Fin S256x64.rank)
  bcast_S_S256x64 : S_.BroadcastsInDim S256x64 (![] : Fin 0 → Fin S256x64.rank)
  bcast_S6_S1x6_1 : S6.BroadcastsInDim S1x6 (![1] : Fin 1 → Fin S1x6.rank)
  bcast_S1x6_S256x6_0_1 : S1x6.BroadcastsInDim S256x6 (![0, 1] : Fin 2 → Fin S256x6.rank)
  scatter_S51200_S1689600x1_S1689600_n_0_0_1_wf : ScatterDims.WF S51200 S1689600x1 S1689600 [] [0] [0] 1
  gather_S51200_S1689600x1_S1689600_n_0_n_n_0_1_1_wf : GatherDims.WF S51200 S1689600x1 S1689600 [] [0] [] [0] [] 1 ![1]
  dot_S51200x200_S200x128_S51200x128_1_0_0_1_n_n_wf : DotDims.WF S51200x200 S200x128 S51200x128 [1] [0] [0] [1] [] []
  gather_S51200x128_S1689600x1_S1689600x128_1_0_n_n_0_1_1128_wf : GatherDims.WF S51200x128 S1689600x1 S1689600x128 [1] [0] [] [0] [] 1 ![1, 128]
  scatter_S51200x128_S1689600x1_S1689600x128_1_0_0_1_wf : ScatterDims.WF S51200x128 S1689600x1 S1689600x128 [1] [0] [0] 1
  dot_S51200x128_S128x64_S51200x64_1_0_0_1_n_n_wf : DotDims.WF S51200x128 S128x64 S51200x64 [1] [0] [0] [1] [] []
  gather_S51200x64_S1689600x1_S1689600x64_1_0_n_n_0_1_164_wf : GatherDims.WF S51200x64 S1689600x1 S1689600x64 [1] [0] [] [0] [] 1 ![1, 64]
  scatter_S51200x64_S1689600x1_S1689600x64_1_0_0_1_wf : ScatterDims.WF S51200x64 S1689600x1 S1689600x64 [1] [0] [0] 1
  dot_S51200x64_S64x8_S51200x8_1_0_0_1_n_n_wf : DotDims.WF S51200x64 S64x8 S51200x8 [1] [0] [0] [1] [] []
  dot_S256x1600_S1600x200_S256x200_1_0_0_1_n_n_wf : DotDims.WF S256x1600 S1600x200 S256x200 [1] [0] [0] [1] [] []
  dot_S256x200_S200x2_S256x2_1_0_0_1_n_n_wf : DotDims.WF S256x200 S200x2 S256x2 [1] [0] [0] [1] [] []
  dot_S256x200_S200x64_S256x64_1_0_0_1_n_n_wf : DotDims.WF S256x200 S200x64 S256x64 [1] [0] [0] [1] [] []
  dot_S256x64_S64x6_S256x6_1_0_0_1_n_n_wf : DotDims.WF S256x64 S64x6 S256x6 [1] [0] [0] [1] [] []

variable [Facts₀]

def scatter_S51200_S1689600x1_S1689600_n_0_0_1 : ScatterDims S51200 S1689600x1 S1689600 where
  updateWindowDims := []
  insertedWindowDims := [0]
  scatterDimsToOperandDims := [0]
  indexVectorDim := 1
  wf := scatter_S51200_S1689600x1_S1689600_n_0_0_1_wf
def gather_S51200_S1689600x1_S1689600_n_0_n_n_0_1_1 : GatherDims S51200 S1689600x1 S1689600 where
  offsetDims := []
  collapsedSliceDims := [0]
  operandBatchingDims := []
  startIndicesBatchingDims := []
  startIndexMap := [0]
  indexVectorDim := 1
  sliceSizes := ![1]
  wf := gather_S51200_S1689600x1_S1689600_n_0_n_n_0_1_1_wf
def dot_S51200x200_S200x128_S51200x128_1_0_0_1_n_n : DotDims S51200x200 S200x128 S51200x128 where
  lhsContracting := [1]
  rhsContracting := [0]
  lhsNonContracting := [0]
  rhsNonContracting := [1]
  lhsBatch := []
  rhsBatch := []
  wf := dot_S51200x200_S200x128_S51200x128_1_0_0_1_n_n_wf
def gather_S51200x128_S1689600x1_S1689600x128_1_0_n_n_0_1_1128 : GatherDims S51200x128 S1689600x1 S1689600x128 where
  offsetDims := [1]
  collapsedSliceDims := [0]
  operandBatchingDims := []
  startIndicesBatchingDims := []
  startIndexMap := [0]
  indexVectorDim := 1
  sliceSizes := ![1, 128]
  wf := gather_S51200x128_S1689600x1_S1689600x128_1_0_n_n_0_1_1128_wf
def scatter_S51200x128_S1689600x1_S1689600x128_1_0_0_1 : ScatterDims S51200x128 S1689600x1 S1689600x128 where
  updateWindowDims := [1]
  insertedWindowDims := [0]
  scatterDimsToOperandDims := [0]
  indexVectorDim := 1
  wf := scatter_S51200x128_S1689600x1_S1689600x128_1_0_0_1_wf
def dot_S51200x128_S128x64_S51200x64_1_0_0_1_n_n : DotDims S51200x128 S128x64 S51200x64 where
  lhsContracting := [1]
  rhsContracting := [0]
  lhsNonContracting := [0]
  rhsNonContracting := [1]
  lhsBatch := []
  rhsBatch := []
  wf := dot_S51200x128_S128x64_S51200x64_1_0_0_1_n_n_wf
def gather_S51200x64_S1689600x1_S1689600x64_1_0_n_n_0_1_164 : GatherDims S51200x64 S1689600x1 S1689600x64 where
  offsetDims := [1]
  collapsedSliceDims := [0]
  operandBatchingDims := []
  startIndicesBatchingDims := []
  startIndexMap := [0]
  indexVectorDim := 1
  sliceSizes := ![1, 64]
  wf := gather_S51200x64_S1689600x1_S1689600x64_1_0_n_n_0_1_164_wf
def scatter_S51200x64_S1689600x1_S1689600x64_1_0_0_1 : ScatterDims S51200x64 S1689600x1 S1689600x64 where
  updateWindowDims := [1]
  insertedWindowDims := [0]
  scatterDimsToOperandDims := [0]
  indexVectorDim := 1
  wf := scatter_S51200x64_S1689600x1_S1689600x64_1_0_0_1_wf
def dot_S51200x64_S64x8_S51200x8_1_0_0_1_n_n : DotDims S51200x64 S64x8 S51200x8 where
  lhsContracting := [1]
  rhsContracting := [0]
  lhsNonContracting := [0]
  rhsNonContracting := [1]
  lhsBatch := []
  rhsBatch := []
  wf := dot_S51200x64_S64x8_S51200x8_1_0_0_1_n_n_wf
def dot_S256x1600_S1600x200_S256x200_1_0_0_1_n_n : DotDims S256x1600 S1600x200 S256x200 where
  lhsContracting := [1]
  rhsContracting := [0]
  lhsNonContracting := [0]
  rhsNonContracting := [1]
  lhsBatch := []
  rhsBatch := []
  wf := dot_S256x1600_S1600x200_S256x200_1_0_0_1_n_n_wf
def dot_S256x200_S200x2_S256x2_1_0_0_1_n_n : DotDims S256x200 S200x2 S256x2 where
  lhsContracting := [1]
  rhsContracting := [0]
  lhsNonContracting := [0]
  rhsNonContracting := [1]
  lhsBatch := []
  rhsBatch := []
  wf := dot_S256x200_S200x2_S256x2_1_0_0_1_n_n_wf
def dot_S256x200_S200x64_S256x64_1_0_0_1_n_n : DotDims S256x200 S200x64 S256x64 where
  lhsContracting := [1]
  rhsContracting := [0]
  lhsNonContracting := [0]
  rhsNonContracting := [1]
  lhsBatch := []
  rhsBatch := []
  wf := dot_S256x200_S200x64_S256x64_1_0_0_1_n_n_wf
def dot_S256x64_S64x6_S256x6_1_0_0_1_n_n : DotDims S256x64 S64x6 S256x6 where
  lhsContracting := [1]
  rhsContracting := [0]
  lhsNonContracting := [0]
  rhsNonContracting := [1]
  lhsBatch := []
  rhsBatch := []
  wf := dot_S256x64_S64x6_S256x6_1_0_0_1_n_n_wf

class Facts : Prop extends Facts₀ where

variable [Facts]
-- ==== Proof.RefOpsTable.lean ====
/-
  The reference program's operations, in order, cut into sixteen consecutive stretches where its mathematics cuts.
  Each entry is the program's own line: the builder, the buffers, the function with its types; an outlined
  function's operations stand in its call's place, over the call's buffers. After each stretch: every buffer its
  operations touch is a TensorCore buffer, by the builder's own lemma, operation by operation.
-/
import proofs.«105513_j41961830482650_1_alg».proof.Proof.Gen.ReferenceIdeal
import Idealize.ShloMosaic.Lib.StableHlo.Run

noncomputable section

namespace Cert.ReferenceIdeal.Stages

open Cert.ReferenceIdeal Cert.ReferenceIdeal.Gen Idealize.ShloMosaic Idealize.ShloMosaic.TcCoe Idealize.SL.Sem Idealize.ShloMosaic.StableHlo

variable {F : FTy → Type} [FloatOps F]

/-- Graph normalisation, first layer: the edge endpoints with the self loops appended, the weights with ones appended, the weighted in-degree (a scatter-add over the target endpoints), its inverse square root where the degree is positive and zero elsewhere, and the edge coefficient  d(row)^(-1/2) · w · d(col)^(-1/2). (42 operations.) -/
abbrev ops1 : List (HloOp τ sig (Elt F)) :=
  [ unary main_arg1 main_v0 ((extractStridedSlice S1x1638400 ![0, 0] · slices_S2x1638400_S1x1638400_0_0) : (⟨S2x1638400, .i32⟩ : BufTy).Contents (Elt F) → (⟨S1x1638400, .i32⟩ : BufTy).Contents (Elt F)),
    reshape main_v0 main_v1 rfl shapeCasts_S1x1638400_S1638400,
    unary main_arg1 main_v2 ((extractStridedSlice S1x1638400 ![1, 0] · slices_S2x1638400_S1x1638400_1_0) : (⟨S2x1638400, .i32⟩ : BufTy).Contents (Elt F) → (⟨S1x1638400, .i32⟩ : BufTy).Contents (Elt F)),
    reshape main_v2 main_v3 rfl shapeCasts_S1x1638400_S1638400,
    nullary main_v4 (iotaInDim S51200 32 0),
    binary main_v1 main_v4 main_v5 ((fun a b => concatenate S1689600 0 [⟨S1638400, a⟩, ⟨S51200, b⟩] concatenates_S1638400_S51200_S1689600_d0) : (⟨S1638400, .i32⟩ : BufTy).Contents (Elt F) → (⟨S51200, .i32⟩ : BufTy).Contents (Elt F) → (⟨S1689600, .i32⟩ : BufTy).Contents (Elt F)),
    binary main_v3 main_v4 main_v6 ((fun a b => concatenate S1689600 0 [⟨S1638400, a⟩, ⟨S51200, b⟩] concatenates_S1638400_S51200_S1689600_d0) : (⟨S1638400, .i32⟩ : BufTy).Contents (Elt F) → (⟨S51200, .i32⟩ : BufTy).Contents (Elt F) → (⟨S1689600, .i32⟩ : BufTy).Contents (Elt F)),
    nullary main_cst (constant S_ .f32 0x3F800000#32),
    unary main_cst main_v7 (broadcastInDim S51200 ![] bcast_S_S51200 : (⟨S_, .f32⟩ : BufTy).Contents (Elt F) → (⟨S51200, .f32⟩ : BufTy).Contents (Elt F)),
    binary main_arg2 main_v7 main_v8 ((fun a b => concatenate S1689600 0 [⟨S1638400, a⟩, ⟨S51200, b⟩] concatenates_S1638400_S51200_S1689600_d0) : (⟨S1638400, .f32⟩ : BufTy).Contents (Elt F) → (⟨S51200, .f32⟩ : BufTy).Contents (Elt F) → (⟨S1689600, .f32⟩ : BufTy).Contents (Elt F)),
    nullary main_cst_0 (constant S_ .f32 0x00000000#32),
    unary main_cst_0 main_v9 (broadcastInDim S51200 ![] bcast_S_S51200 : (⟨S_, .f32⟩ : BufTy).Contents (Elt F) → (⟨S51200, .f32⟩ : BufTy).Contents (Elt F)),
    unary main_v6 main_v10 (broadcastInDim S1689600x1 ![0] bcast_S1689600_S1689600x1_0 : (⟨S1689600, .i32⟩ : BufTy).Contents (Elt F) → (⟨S1689600x1, .i32⟩ : BufTy).Contents (Elt F)),
    ternary main_v9 main_v10 main_v8 main_v11 ((fun x i u => Host.scatterAdd scatter_S51200_S1689600x1_S1689600_n_0_0_1 x i u) : (⟨S51200, .f32⟩ : BufTy).Contents (Elt F) → (⟨S1689600x1, .i32⟩ : BufTy).Contents (Elt F) → (⟨S1689600, .f32⟩ : BufTy).Contents (Elt F) → (⟨S51200, .f32⟩ : BufTy).Contents (Elt F)),
    nullary main_cst_1 (constant S_ .f32 0x00000000#32),
    unary main_cst_1 main_v12 (broadcastInDim S51200 ![] bcast_S_S51200 : (⟨S_, .f32⟩ : BufTy).Contents (Elt F) → (⟨S51200, .f32⟩ : BufTy).Contents (Elt F)),
    binary main_v11 main_v12 main_v13 (cmpf .ogt : (⟨S51200, .f32⟩ : BufTy).Contents (Elt F) → (⟨S51200, .f32⟩ : BufTy).Contents (Elt F) → (⟨S51200, .i1⟩ : BufTy).Contents (Elt F)),
    unary main_v11 main_v14 (Host.rsqrt : (⟨S51200, .f32⟩ : BufTy).Contents (Elt F) → (⟨S51200, .f32⟩ : BufTy).Contents (Elt F)),
    nullary main_cst_2 (constant S_ .f32 0x00000000#32),
    TRef.unary (TRef.of main_cst_2 : TRef sig ⟨S_, .f32⟩) main_call0.v0 id,
    TRef.unary main_call0.v0 main_call0.v1 (broadcastInDim S51200 ![] bcast_S_S51200),
    TRef.ternary (TRef.of main_v13 : TRef sig ⟨S51200, .i1⟩) (TRef.of main_v14 : TRef sig ⟨S51200, .f32⟩) main_call0.v1 main_call0.v2 select,
    nullary main_c (constantI S_ 32 0#32),
    unary main_c main_v16 (broadcastInDim S1689600 ![] bcast_S_S1689600 : (⟨S_, .i32⟩ : BufTy).Contents (Elt F) → (⟨S1689600, .i32⟩ : BufTy).Contents (Elt F)),
    binary main_v5 main_v16 main_v17 (cmpi .slt : (⟨S1689600, .i32⟩ : BufTy).Contents (Elt F) → (⟨S1689600, .i32⟩ : BufTy).Contents (Elt F) → (⟨S1689600, .i1⟩ : BufTy).Contents (Elt F)),
    nullary main_c_3 (constantI S_ 32 51200#32),
    unary main_c_3 main_v18 (broadcastInDim S1689600 ![] bcast_S_S1689600 : (⟨S_, .i32⟩ : BufTy).Contents (Elt F) → (⟨S1689600, .i32⟩ : BufTy).Contents (Elt F)),
    binary main_v5 main_v18 main_v19 (addi : (⟨S1689600, .i32⟩ : BufTy).Contents (Elt F) → (⟨S1689600, .i32⟩ : BufTy).Contents (Elt F) → (⟨S1689600, .i32⟩ : BufTy).Contents (Elt F)),
    ternary main_v17 main_v19 main_v5 main_v20 (select : (⟨S1689600, .i1⟩ : BufTy).Contents (Elt F) → (⟨S1689600, .i32⟩ : BufTy).Contents (Elt F) → (⟨S1689600, .i32⟩ : BufTy).Contents (Elt F) → (⟨S1689600, .i32⟩ : BufTy).Contents (Elt F)),
    unary main_v20 main_v21 (broadcastInDim S1689600x1 ![0] bcast_S1689600_S1689600x1_0 : (⟨S1689600, .i32⟩ : BufTy).Contents (Elt F) → (⟨S1689600x1, .i32⟩ : BufTy).Contents (Elt F)),
    binary main_v15 main_v21 main_v22 ((fun x i => Host.gather gather_S51200_S1689600x1_S1689600_n_0_n_n_0_1_1 x i) : (⟨S51200, .f32⟩ : BufTy).Contents (Elt F) → (⟨S1689600x1, .i32⟩ : BufTy).Contents (Elt F) → (⟨S1689600, .f32⟩ : BufTy).Contents (Elt F)),
    binary main_v22 main_v8 main_v23 (mulf : (⟨S1689600, .f32⟩ : BufTy).Contents (Elt F) → (⟨S1689600, .f32⟩ : BufTy).Contents (Elt F) → (⟨S1689600, .f32⟩ : BufTy).Contents (Elt F)),
    nullary main_c_4 (constantI S_ 32 0#32),
    unary main_c_4 main_v24 (broadcastInDim S1689600 ![] bcast_S_S1689600 : (⟨S_, .i32⟩ : BufTy).Contents (Elt F) → (⟨S1689600, .i32⟩ : BufTy).Contents (Elt F)),
    binary main_v6 main_v24 main_v25 (cmpi .slt : (⟨S1689600, .i32⟩ : BufTy).Contents (Elt F) → (⟨S1689600, .i32⟩ : BufTy).Contents (Elt F) → (⟨S1689600, .i1⟩ : BufTy).Contents (Elt F)),
    nullary main_c_5 (constantI S_ 32 51200#32),
    unary main_c_5 main_v26 (broadcastInDim S1689600 ![] bcast_S_S1689600 : (⟨S_, .i32⟩ : BufTy).Contents (Elt F) → (⟨S1689600, .i32⟩ : BufTy).Contents (Elt F)),
    binary main_v6 main_v26 main_v27 (addi : (⟨S1689600, .i32⟩ : BufTy).Contents (Elt F) → (⟨S1689600, .i32⟩ : BufTy).Contents (Elt F) → (⟨S1689600, .i32⟩ : BufTy).Contents (Elt F)),
    ternary main_v25 main_v27 main_v6 main_v28 (select : (⟨S1689600, .i1⟩ : BufTy).Contents (Elt F) → (⟨S1689600, .i32⟩ : BufTy).Contents (Elt F) → (⟨S1689600, .i32⟩ : BufTy).Contents (Elt F) → (⟨S1689600, .i32⟩ : BufTy).Contents (Elt F)),
    unary main_v28 main_v29 (broadcastInDim S1689600x1 ![0] bcast_S1689600_S1689600x1_0 : (⟨S1689600, .i32⟩ : BufTy).Contents (Elt F) → (⟨S1689600x1, .i32⟩ : BufTy).Contents (Elt F)),
    binary main_v15 main_v29 main_v30 ((fun x i => Host.gather gather_S51200_S1689600x1_S1689600_n_0_n_n_0_1_1 x i) : (⟨S51200, .f32⟩ : BufTy).Contents (Elt F) → (⟨S1689600x1, .i32⟩ : BufTy).Contents (Elt F) → (⟨S1689600, .f32⟩ : BufTy).Contents (Elt F)),
    binary main_v23 main_v30 main_v31 (mulf : (⟨S1689600, .f32⟩ : BufTy).Contents (Elt F) → (⟨S1689600, .f32⟩ : BufTy).Contents (Elt F) → (⟨S1689600, .f32⟩ : BufTy).Contents (Elt F)) ]
set_option maxRecDepth 8192 in
theorem ops1_sub : (ops1 : List (HloOp τ sig (Elt F))).Forall fun op => op.bufs ⊆ tcRefs τ sig :=
  ⟨unary_bufs_sub .., reshape_bufs_sub .., unary_bufs_sub .., reshape_bufs_sub .., nullary_bufs_sub .., binary_bufs_sub ..,
   binary_bufs_sub .., nullary_bufs_sub .., unary_bufs_sub .., binary_bufs_sub .., nullary_bufs_sub .., unary_bufs_sub ..,
   unary_bufs_sub .., ternary_bufs_sub .., nullary_bufs_sub .., unary_bufs_sub .., binary_bufs_sub .., unary_bufs_sub ..,
   nullary_bufs_sub .., unary_bufs_sub .., unary_bufs_sub .., ternary_bufs_sub .., nullary_bufs_sub .., unary_bufs_sub ..,
   binary_bufs_sub .., nullary_bufs_sub .., unary_bufs_sub .., binary_bufs_sub .., ternary_bufs_sub .., unary_bufs_sub ..,
   binary_bufs_sub .., binary_bufs_sub .., nullary_bufs_sub .., unary_bufs_sub .., binary_bufs_sub .., nullary_bufs_sub ..,
   unary_bufs_sub .., binary_bufs_sub .., ternary_bufs_sub .., unary_bufs_sub .., binary_bufs_sub .., binary_bufs_sub ..⟩

/-- The first layer's feature product  x W1. (One operation.) -/
abbrev ops2 : List (HloOp τ sig (Elt F)) :=
  [ binary main_arg0 main_arg3 main_v32 ((fun l r => Host.dotGeneral dot_S51200x200_S200x128_S51200x128_1_0_0_1_n_n none l r) : (⟨S51200x200, .f32⟩ : BufTy).Contents (Elt F) → (⟨S200x128, .f32⟩ : BufTy).Contents (Elt F) → (⟨S51200x128, .f32⟩ : BufTy).Contents (Elt F)) ]
set_option maxRecDepth 8192 in
theorem ops2_sub : (ops2 : List (HloOp τ sig (Elt F))).Forall fun op => op.bufs ⊆ tcRefs τ sig :=
  (binary_bufs_sub ..)

/-- The first aggregation: the rows of  x W1  gathered at the source endpoints, scaled by the edge coefficient, and scatter-added at the target endpoints into zeros. (16 operations.) -/
abbrev ops3 : List (HloOp τ sig (Elt F)) :=
  [ nullary main_c_6 (constantI S_ 32 0#32),
    unary main_c_6 main_v33 (broadcastInDim S1689600 ![] bcast_S_S1689600 : (⟨S_, .i32⟩ : BufTy).Contents (Elt F) → (⟨S1689600, .i32⟩ : BufTy).Contents (Elt F)),
    binary main_v5 main_v33 main_v34 (cmpi .slt : (⟨S1689600, .i32⟩ : BufTy).Contents (Elt F) → (⟨S1689600, .i32⟩ : BufTy).Contents (Elt F) → (⟨S1689600, .i1⟩ : BufTy).Contents (Elt F)),
    nullary main_c_7 (constantI S_ 32 51200#32),
    unary main_c_7 main_v35 (broadcastInDim S1689600 ![] bcast_S_S1689600 : (⟨S_, .i32⟩ : BufTy).Contents (Elt F) → (⟨S1689600, .i32⟩ : BufTy).Contents (Elt F)),
    binary main_v5 main_v35 main_v36 (addi : (⟨S1689600, .i32⟩ : BufTy).Contents (Elt F) → (⟨S1689600, .i32⟩ : BufTy).Contents (Elt F) → (⟨S1689600, .i32⟩ : BufTy).Contents (Elt F)),
    ternary main_v34 main_v36 main_v5 main_v37 (select : (⟨S1689600, .i1⟩ : BufTy).Contents (Elt F) → (⟨S1689600, .i32⟩ : BufTy).Contents (Elt F) → (⟨S1689600, .i32⟩ : BufTy).Contents (Elt F) → (⟨S1689600, .i32⟩ : BufTy).Contents (Elt F)),
    unary main_v37 main_v38 (broadcastInDim S1689600x1 ![0] bcast_S1689600_S1689600x1_0 : (⟨S1689600, .i32⟩ : BufTy).Contents (Elt F) → (⟨S1689600x1, .i32⟩ : BufTy).Contents (Elt F)),
    binary main_v32 main_v38 main_v39 ((fun x i => Host.gather gather_S51200x128_S1689600x1_S1689600x128_1_0_n_n_0_1_1128 x i) : (⟨S51200x128, .f32⟩ : BufTy).Contents (Elt F) → (⟨S1689600x1, .i32⟩ : BufTy).Contents (Elt F) → (⟨S1689600x128, .f32⟩ : BufTy).Contents (Elt F)),
    unary main_v31 main_v40 (broadcastInDim S1689600x1 ![0] bcast_S1689600_S1689600x1_0 : (⟨S1689600, .f32⟩ : BufTy).Contents (Elt F) → (⟨S1689600x1, .f32⟩ : BufTy).Contents (Elt F)),
    unary main_v40 main_v41 (broadcastInDim S1689600x128 ![0, 1] bcast_S1689600x1_S1689600x128_0_1 : (⟨S1689600x1, .f32⟩ : BufTy).Contents (Elt F) → (⟨S1689600x128, .f32⟩ : BufTy).Contents (Elt F)),
    binary main_v39 main_v41 main_v42 (mulf : (⟨S1689600x128, .f32⟩ : BufTy).Contents (Elt F) → (⟨S1689600x128, .f32⟩ : BufTy).Contents (Elt F) → (⟨S1689600x128, .f32⟩ : BufTy).Contents (Elt F)),
    nullary main_cst_8 (constant S_ .f32 0x00000000#32),
    unary main_cst_8 main_v43 (broadcastInDim S51200x128 ![] bcast_S_S51200x128 : (⟨S_, .f32⟩ : BufTy).Contents (Elt F) → (⟨S51200x128, .f32⟩ : BufTy).Contents (Elt F)),
    unary main_v6 main_v44 (broadcastInDim S1689600x1 ![0] bcast_S1689600_S1689600x1_0 : (⟨S1689600, .i32⟩ : BufTy).Contents (Elt F) → (⟨S1689600x1, .i32⟩ : BufTy).Contents (Elt F)),
    ternary main_v43 main_v44 main_v42 main_v45 ((fun x i u => Host.scatterAdd scatter_S51200x128_S1689600x1_S1689600x128_1_0_0_1 x i u) : (⟨S51200x128, .f32⟩ : BufTy).Contents (Elt F) → (⟨S1689600x1, .i32⟩ : BufTy).Contents (Elt F) → (⟨S1689600x128, .f32⟩ : BufTy).Contents (Elt F) → (⟨S51200x128, .f32⟩ : BufTy).Contents (Elt F)) ]
set_option maxRecDepth 8192 in
theorem ops3_sub : (ops3 : List (HloOp τ sig (Elt F))).Forall fun op => op.bufs ⊆ tcRefs τ sig :=
  ⟨nullary_bufs_sub .., unary_bufs_sub .., binary_bufs_sub .., nullary_bufs_sub .., unary_bufs_sub .., binary_bufs_sub ..,
   ternary_bufs_sub .., unary_bufs_sub .., binary_bufs_sub .., unary_bufs_sub .., unary_bufs_sub .., binary_bufs_sub ..,
   nullary_bufs_sub .., unary_bufs_sub .., unary_bufs_sub .., ternary_bufs_sub ..⟩

/-- The first layer's bias, added to every row. (3 operations.) -/
abbrev ops4 : List (HloOp τ sig (Elt F)) :=
  [ unary main_arg4 main_v46 (broadcastInDim S1x128 ![1] bcast_S128_S1x128_1 : (⟨S128, .f32⟩ : BufTy).Contents (Elt F) → (⟨S1x128, .f32⟩ : BufTy).Contents (Elt F)),
    unary main_v46 main_v47 (broadcastInDim S51200x128 ![0, 1] bcast_S1x128_S51200x128_0_1 : (⟨S1x128, .f32⟩ : BufTy).Contents (Elt F) → (⟨S51200x128, .f32⟩ : BufTy).Contents (Elt F)),
    binary main_v45 main_v47 main_v48 (addf : (⟨S51200x128, .f32⟩ : BufTy).Contents (Elt F) → (⟨S51200x128, .f32⟩ : BufTy).Contents (Elt F) → (⟨S51200x128, .f32⟩ : BufTy).Contents (Elt F)) ]
set_option maxRecDepth 8192 in
theorem ops4_sub : (ops4 : List (HloOp τ sig (Elt F))).Forall fun op => op.bufs ⊆ tcRefs τ sig :=
  ⟨unary_bufs_sub .., unary_bufs_sub .., binary_bufs_sub ..⟩

/-- mish after the first layer:  z · tanh (softplus z). (16 operations.) -/
abbrev ops5 : List (HloOp τ sig (Elt F)) :=
  [ TRef.nullary main_call1.cst (constant S_ .f32 0x00000000#32),
    TRef.unary main_call1.cst main_call1.v0 (broadcastInDim S51200x128 ![] bcast_S_S51200x128),
    TRef.binary (TRef.of main_v48 : TRef sig ⟨S51200x128, .f32⟩) main_call1.v0 main_call1.v1 maximumf,
    TRef.unary main_call1.cst main_call1.v2 (broadcastInDim S51200x128 ![] bcast_S_S51200x128),
    TRef.binary (TRef.of main_v48 : TRef sig ⟨S51200x128, .f32⟩) main_call1.v2 main_call1.v3 subf,
    TRef.binary main_call1.v3 main_call1.v3 main_call1.v4 (cmpf .une),
    TRef.unary main_call1.cst main_call1.v5 (broadcastInDim S51200x128 ![] bcast_S_S51200x128),
    TRef.binary (TRef.of main_v48 : TRef sig ⟨S51200x128, .f32⟩) main_call1.v5 main_call1.v6 addf,
    TRef.unary main_call1.v3 main_call1.v7 Host.absf,
    TRef.unary main_call1.v7 main_call1.v8 Host.negf,
    TRef.unary main_call1.v8 main_call1.v9 Host.exp,
    TRef.unary main_call1.v9 main_call1.v10 Host.log1p,
    TRef.binary main_call1.v1 main_call1.v10 main_call1.v11 addf,
    TRef.ternary main_call1.v4 main_call1.v6 main_call1.v11 main_call1.v12 select,
    unary main_v49 main_v50 (Host.tanh : (⟨S51200x128, .f32⟩ : BufTy).Contents (Elt F) → (⟨S51200x128, .f32⟩ : BufTy).Contents (Elt F)),
    binary main_v48 main_v50 main_v51 (mulf : (⟨S51200x128, .f32⟩ : BufTy).Contents (Elt F) → (⟨S51200x128, .f32⟩ : BufTy).Contents (Elt F) → (⟨S51200x128, .f32⟩ : BufTy).Contents (Elt F)) ]
set_option maxRecDepth 8192 in
theorem ops5_sub : (ops5 : List (HloOp τ sig (Elt F))).Forall fun op => op.bufs ⊆ tcRefs τ sig :=
  ⟨nullary_bufs_sub .., unary_bufs_sub .., binary_bufs_sub .., unary_bufs_sub .., binary_bufs_sub .., binary_bufs_sub ..,
   unary_bufs_sub .., binary_bufs_sub .., unary_bufs_sub .., unary_bufs_sub .., unary_bufs_sub .., unary_bufs_sub ..,
   binary_bufs_sub .., ternary_bufs_sub .., unary_bufs_sub .., binary_bufs_sub ..⟩

/-- Graph normalisation, second layer (the same computation from the same arguments). (42 operations.) -/
abbrev ops6 : List (HloOp τ sig (Elt F)) :=
  [ unary main_arg1 main_v52 ((extractStridedSlice S1x1638400 ![0, 0] · slices_S2x1638400_S1x1638400_0_0) : (⟨S2x1638400, .i32⟩ : BufTy).Contents (Elt F) → (⟨S1x1638400, .i32⟩ : BufTy).Contents (Elt F)),
    reshape main_v52 main_v53 rfl shapeCasts_S1x1638400_S1638400,
    unary main_arg1 main_v54 ((extractStridedSlice S1x1638400 ![1, 0] · slices_S2x1638400_S1x1638400_1_0) : (⟨S2x1638400, .i32⟩ : BufTy).Contents (Elt F) → (⟨S1x1638400, .i32⟩ : BufTy).Contents (Elt F)),
    reshape main_v54 main_v55 rfl shapeCasts_S1x1638400_S1638400,
    nullary main_v56 (iotaInDim S51200 32 0),
    binary main_v53 main_v56 main_v57 ((fun a b => concatenate S1689600 0 [⟨S1638400, a⟩, ⟨S51200, b⟩] concatenates_S1638400_S51200_S1689600_d0) : (⟨S1638400, .i32⟩ : BufTy).Contents (Elt F) → (⟨S51200, .i32⟩ : BufTy).Contents (Elt F) → (⟨S1689600, .i32⟩ : BufTy).Contents (Elt F)),
    binary main_v55 main_v56 main_v58 ((fun a b => concatenate S1689600 0 [⟨S1638400, a⟩, ⟨S51200, b⟩] concatenates_S1638400_S51200_S1689600_d0) : (⟨S1638400, .i32⟩ : BufTy).Contents (Elt F) → (⟨S51200, .i32⟩ : BufTy).Contents (Elt F) → (⟨S1689600, .i32⟩ : BufTy).Contents (Elt F)),
    nullary main_cst_9 (constant S_ .f32 0x3F800000#32),
    unary main_cst_9 main_v59 (broadcastInDim S51200 ![] bcast_S_S51200 : (⟨S_, .f32⟩ : BufTy).Contents (Elt F) → (⟨S51200, .f32⟩ : BufTy).Contents (Elt F)),
    binary main_arg2 main_v59 main_v60 ((fun a b => concatenate S1689600 0 [⟨S1638400, a⟩, ⟨S51200, b⟩] concatenates_S1638400_S51200_S1689600_d0) : (⟨S1638400, .f32⟩ : BufTy).Contents (Elt F) → (⟨S51200, .f32⟩ : BufTy).Contents (Elt F) → (⟨S1689600, .f32⟩ : BufTy).Contents (Elt F)),
    nullary main_cst_10 (constant S_ .f32 0x00000000#32),
    unary main_cst_10 main_v61 (broadcastInDim S51200 ![] bcast_S_S51200 : (⟨S_, .f32⟩ : BufTy).Contents (Elt F) → (⟨S51200, .f32⟩ : BufTy).Contents (Elt F)),
    unary main_v58 main_v62 (broadcastInDim S1689600x1 ![0] bcast_S1689600_S1689600x1_0 : (⟨S1689600, .i32⟩ : BufTy).Contents (Elt F) → (⟨S1689600x1, .i32⟩ : BufTy).Contents (Elt F)),
    ternary main_v61 main_v62 main_v60 main_v63 ((fun x i u => Host.scatterAdd scatter_S51200_S1689600x1_S1689600_n_0_0_1 x i u) : (⟨S51200, .f32⟩ : BufTy).Contents (Elt F) → (⟨S1689600x1, .i32⟩ : BufTy).Contents (Elt F) → (⟨S1689600, .f32⟩ : BufTy).Contents (Elt F) → (⟨S51200, .f32⟩ : BufTy).Contents (Elt F)),
    nullary main_cst_11 (constant S_ .f32 0x00000000#32),
    unary main_cst_11 main_v64 (broadcastInDim S51200 ![] bcast_S_S51200 : (⟨S_, .f32⟩ : BufTy).Contents (Elt F) → (⟨S51200, .f32⟩ : BufTy).Contents (Elt F)),
    binary main_v63 main_v64 main_v65 (cmpf .ogt : (⟨S51200, .f32⟩ : BufTy).Contents (Elt F) → (⟨S51200, .f32⟩ : BufTy).Contents (Elt F) → (⟨S51200, .i1⟩ : BufTy).Contents (Elt F)),
    unary main_v63 main_v66 (Host.rsqrt : (⟨S51200, .f32⟩ : BufTy).Contents (Elt F) → (⟨S51200, .f32⟩ : BufTy).Contents (Elt F)),
    nullary main_cst_12 (constant S_ .f32 0x00000000#32),
    TRef.unary (TRef.of main_cst_12 : TRef sig ⟨S_, .f32⟩) main_call2.v0 id,
    TRef.unary main_call2.v0 main_call2.v1 (broadcastInDim S51200 ![] bcast_S_S51200),
    TRef.ternary (TRef.of main_v65 : TRef sig ⟨S51200, .i1⟩) (TRef.of main_v66 : TRef sig ⟨S51200, .f32⟩) main_call2.v1 main_call2.v2 select,
    nullary main_c_13 (constantI S_ 32 0#32),
    unary main_c_13 main_v68 (broadcastInDim S1689600 ![] bcast_S_S1689600 : (⟨S_, .i32⟩ : BufTy).Contents (Elt F) → (⟨S1689600, .i32⟩ : BufTy).Contents (Elt F)),
    binary main_v57 main_v68 main_v69 (cmpi .slt : (⟨S1689600, .i32⟩ : BufTy).Contents (Elt F) → (⟨S1689600, .i32⟩ : BufTy).Contents (Elt F) → (⟨S1689600, .i1⟩ : BufTy).Contents (Elt F)),
    nullary main_c_14 (constantI S_ 32 51200#32),
    unary main_c_14 main_v70 (broadcastInDim S1689600 ![] bcast_S_S1689600 : (⟨S_, .i32⟩ : BufTy).Contents (Elt F) → (⟨S1689600, .i32⟩ : BufTy).Contents (Elt F)),
    binary main_v57 main_v70 main_v71 (addi : (⟨S1689600, .i32⟩ : BufTy).Contents (Elt F) → (⟨S1689600, .i32⟩ : BufTy).Contents (Elt F) → (⟨S1689600, .i32⟩ : BufTy).Contents (Elt F)),
    ternary main_v69 main_v71 main_v57 main_v72 (select : (⟨S1689600, .i1⟩ : BufTy).Contents (Elt F) → (⟨S1689600, .i32⟩ : BufTy).Contents (Elt F) → (⟨S1689600, .i32⟩ : BufTy).Contents (Elt F) → (⟨S1689600, .i32⟩ : BufTy).Contents (Elt F)),
    unary main_v72 main_v73 (broadcastInDim S1689600x1 ![0] bcast_S1689600_S1689600x1_0 : (⟨S1689600, .i32⟩ : BufTy).Contents (Elt F) → (⟨S1689600x1, .i32⟩ : BufTy).Contents (Elt F)),
    binary main_v67 main_v73 main_v74 ((fun x i => Host.gather gather_S51200_S1689600x1_S1689600_n_0_n_n_0_1_1 x i) : (⟨S51200, .f32⟩ : BufTy).Contents (Elt F) → (⟨S1689600x1, .i32⟩ : BufTy).Contents (Elt F) → (⟨S1689600, .f32⟩ : BufTy).Contents (Elt F)),
    binary main_v74 main_v60 main_v75 (mulf : (⟨S1689600, .f32⟩ : BufTy).Contents (Elt F) → (⟨S1689600, .f32⟩ : BufTy).Contents (Elt F) → (⟨S1689600, .f32⟩ : BufTy).Contents (Elt F)),
    nullary main_c_15 (constantI S_ 32 0#32),
    unary main_c_15 main_v76 (broadcastInDim S1689600 ![] bcast_S_S1689600 : (⟨S_, .i32⟩ : BufTy).Contents (Elt F) → (⟨S1689600, .i32⟩ : BufTy).Contents (Elt F)),
    binary main_v58 main_v76 main_v77 (cmpi .slt : (⟨S1689600, .i32⟩ : BufTy).Contents (Elt F) → (⟨S1689600, .i32⟩ : BufTy).Contents (Elt F) → (⟨S1689600, .i1⟩ : BufTy).Contents (Elt F)),
    nullary main_c_16 (constantI S_ 32 51200#32),
    unary main_c_16 main_v78 (broadcastInDim S1689600 ![] bcast_S_S1689600 : (⟨S_, .i32⟩ : BufTy).Contents (Elt F) → (⟨S1689600, .i32⟩ : BufTy).Contents (Elt F)),
    binary main_v58 main_v78 main_v79 (addi : (⟨S1689600, .i32⟩ : BufTy).Contents (Elt F) → (⟨S1689600, .i32⟩ : BufTy).Contents (Elt F) → (⟨S1689600, .i32⟩ : BufTy).Contents (Elt F)),
    ternary main_v77 main_v79 main_v58 main_v80 (select : (⟨S1689600, .i1⟩ : BufTy).Contents (Elt F) → (⟨S1689600, .i32⟩ : BufTy).Contents (Elt F) → (⟨S1689600, .i32⟩ : BufTy).Contents (Elt F) → (⟨S1689600, .i32⟩ : BufTy).Contents (Elt F)),
    unary main_v80 main_v81 (broadcastInDim S1689600x1 ![0] bcast_S1689600_S1689600x1_0 : (⟨S1689600, .i32⟩ : BufTy).Contents (Elt F) → (⟨S1689600x1, .i32⟩ : BufTy).Contents (Elt F)),
    binary main_v67 main_v81 main_v82 ((fun x i => Host.gather gather_S51200_S1689600x1_S1689600_n_0_n_n_0_1_1 x i) : (⟨S51200, .f32⟩ : BufTy).Contents (Elt F) → (⟨S1689600x1, .i32⟩ : BufTy).Contents (Elt F) → (⟨S1689600, .f32⟩ : BufTy).Contents (Elt F)),
    binary main_v75 main_v82 main_v83 (mulf : (⟨S1689600, .f32⟩ : BufTy).Contents (Elt F) → (⟨S1689600, .f32⟩ : BufTy).Contents (Elt F) → (⟨S1689600, .f32⟩ : BufTy).Contents (Elt F)) ]
set_option maxRecDepth 8192 in
theorem ops6_sub : (ops6 : List (HloOp τ sig (Elt F))).Forall fun op => op.bufs ⊆ tcRefs τ sig :=
  ⟨unary_bufs_sub .., reshape_bufs_sub .., unary_bufs_sub .., reshape_bufs_sub .., nullary_bufs_sub .., binary_bufs_sub ..,
   binary_bufs_sub .., nullary_bufs_sub .., unary_bufs_sub .., binary_bufs_sub .., nullary_bufs_sub .., unary_bufs_sub ..,
   unary_bufs_sub .., ternary_bufs_sub .., nullary_bufs_sub .., unary_bufs_sub .., binary_bufs_sub .., unary_bufs_sub ..,
   nullary_bufs_sub .., unary_bufs_sub .., unary_bufs_sub .., ternary_bufs_sub .., nullary_bufs_sub .., unary_bufs_sub ..,
   binary_bufs_sub .., nullary_bufs_sub .., unary_bufs_sub .., binary_bufs_sub .., ternary_bufs_sub .., unary_bufs_sub ..,
   binary_bufs_sub .., binary_bufs_sub .., nullary_bufs_sub .., unary_bufs_sub .., binary_bufs_sub .., nullary_bufs_sub ..,
   unary_bufs_sub .., binary_bufs_sub .., ternary_bufs_sub .., unary_bufs_sub .., binary_bufs_sub .., binary_bufs_sub ..⟩

/-- The second layer's feature product  h W2. (One operation.) -/
abbrev ops7 : List (HloOp τ sig (Elt F)) :=
  [ binary main_v51 main_arg5 main_v84 ((fun l r => Host.dotGeneral dot_S51200x128_S128x64_S51200x64_1_0_0_1_n_n none l r) : (⟨S51200x128, .f32⟩ : BufTy).Contents (Elt F) → (⟨S128x64, .f32⟩ : BufTy).Contents (Elt F) → (⟨S51200x64, .f32⟩ : BufTy).Contents (Elt F)) ]
set_option maxRecDepth 8192 in
theorem ops7_sub : (ops7 : List (HloOp τ sig (Elt F))).Forall fun op => op.bufs ⊆ tcRefs τ sig :=
  (binary_bufs_sub ..)

/-- The second aggregation (64 columns). (16 operations.) -/
abbrev ops8 : List (HloOp τ sig (Elt F)) :=
  [ nullary main_c_17 (constantI S_ 32 0#32),
    unary main_c_17 main_v85 (broadcastInDim S1689600 ![] bcast_S_S1689600 : (⟨S_, .i32⟩ : BufTy).Contents (Elt F) → (⟨S1689600, .i32⟩ : BufTy).Contents (Elt F)),
    binary main_v57 main_v85 main_v86 (cmpi .slt : (⟨S1689600, .i32⟩ : BufTy).Contents (Elt F) → (⟨S1689600, .i32⟩ : BufTy).Contents (Elt F) → (⟨S1689600, .i1⟩ : BufTy).Contents (Elt F)),
    nullary main_c_18 (constantI S_ 32 51200#32),
    unary main_c_18 main_v87 (broadcastInDim S1689600 ![] bcast_S_S1689600 : (⟨S_, .i32⟩ : BufTy).Contents (Elt F) → (⟨S1689600, .i32⟩ : BufTy).Contents (Elt F)),
    binary main_v57 main_v87 main_v88 (addi : (⟨S1689600, .i32⟩ : BufTy).Contents (Elt F) → (⟨S1689600, .i32⟩ : BufTy).Contents (Elt F) → (⟨S1689600, .i32⟩ : BufTy).Contents (Elt F)),
    ternary main_v86 main_v88 main_v57 main_v89 (select : (⟨S1689600, .i1⟩ : BufTy).Contents (Elt F) → (⟨S1689600, .i32⟩ : BufTy).Contents (Elt F) → (⟨S1689600, .i32⟩ : BufTy).Contents (Elt F) → (⟨S1689600, .i32⟩ : BufTy).Contents (Elt F)),
    unary main_v89 main_v90 (broadcastInDim S1689600x1 ![0] bcast_S1689600_S1689600x1_0 : (⟨S1689600, .i32⟩ : BufTy).Contents (Elt F) → (⟨S1689600x1, .i32⟩ : BufTy).Contents (Elt F)),
    binary main_v84 main_v90 main_v91 ((fun x i => Host.gather gather_S51200x64_S1689600x1_S1689600x64_1_0_n_n_0_1_164 x i) : (⟨S51200x64, .f32⟩ : BufTy).Contents (Elt F) → (⟨S1689600x1, .i32⟩ : BufTy).Contents (Elt F) → (⟨S1689600x64, .f32⟩ : BufTy).Contents (Elt F)),
    unary main_v83 main_v92 (broadcastInDim S1689600x1 ![0] bcast_S1689600_S1689600x1_0 : (⟨S1689600, .f32⟩ : BufTy).Contents (Elt F) → (⟨S1689600x1, .f32⟩ : BufTy).Contents (Elt F)),
    unary main_v92 main_v93 (broadcastInDim S1689600x64 ![0, 1] bcast_S1689600x1_S1689600x64_0_1 : (⟨S1689600x1, .f32⟩ : BufTy).Contents (Elt F) → (⟨S1689600x64, .f32⟩ : BufTy).Contents (Elt F)),
    binary main_v91 main_v93 main_v94 (mulf : (⟨S1689600x64, .f32⟩ : BufTy).Contents (Elt F) → (⟨S1689600x64, .f32⟩ : BufTy).Contents (Elt F) → (⟨S1689600x64, .f32⟩ : BufTy).Contents (Elt F)),
    nullary main_cst_19 (constant S_ .f32 0x00000000#32),
    unary main_cst_19 main_v95 (broadcastInDim S51200x64 ![] bcast_S_S51200x64 : (⟨S_, .f32⟩ : BufTy).Contents (Elt F) → (⟨S51200x64, .f32⟩ : BufTy).Contents (Elt F)),
    unary main_v58 main_v96 (broadcastInDim S1689600x1 ![0] bcast_S1689600_S1689600x1_0 : (⟨S1689600, .i32⟩ : BufTy).Contents (Elt F) → (⟨S1689600x1, .i32⟩ : BufTy).Contents (Elt F)),
    ternary main_v95 main_v96 main_v94 main_v97 ((fun x i u => Host.scatterAdd scatter_S51200x64_S1689600x1_S1689600x64_1_0_0_1 x i u) : (⟨S51200x64, .f32⟩ : BufTy).Contents (Elt F) → (⟨S1689600x1, .i32⟩ : BufTy).Contents (Elt F) → (⟨S1689600x64, .f32⟩ : BufTy).Contents (Elt F) → (⟨S51200x64, .f32⟩ : BufTy).Contents (Elt F)) ]
set_option maxRecDepth 8192 in
theorem ops8_sub : (ops8 : List (HloOp τ sig (Elt F))).Forall fun op => op.bufs ⊆ tcRefs τ sig :=
  ⟨nullary_bufs_sub .., unary_bufs_sub .., binary_bufs_sub .., nullary_bufs_sub .., unary_bufs_sub .., binary_bufs_sub ..,
   ternary_bufs_sub .., unary_bufs_sub .., binary_bufs_sub .., unary_bufs_sub .., unary_bufs_sub .., binary_bufs_sub ..,
   nullary_bufs_sub .., unary_bufs_sub .., unary_bufs_sub .., ternary_bufs_sub ..⟩

/-- The second layer's bias. (3 operations.) -/
abbrev ops9 : List (HloOp τ sig (Elt F)) :=
  [ unary main_arg6 main_v98 (broadcastInDim S1x64 ![1] bcast_S64_S1x64_1 : (⟨S64, .f32⟩ : BufTy).Contents (Elt F) → (⟨S1x64, .f32⟩ : BufTy).Contents (Elt F)),
    unary main_v98 main_v99 (broadcastInDim S51200x64 ![0, 1] bcast_S1x64_S51200x64_0_1 : (⟨S1x64, .f32⟩ : BufTy).Contents (Elt F) → (⟨S51200x64, .f32⟩ : BufTy).Contents (Elt F)),
    binary main_v97 main_v99 main_v100 (addf : (⟨S51200x64, .f32⟩ : BufTy).Contents (Elt F) → (⟨S51200x64, .f32⟩ : BufTy).Contents (Elt F) → (⟨S51200x64, .f32⟩ : BufTy).Contents (Elt F)) ]
set_option maxRecDepth 8192 in
theorem ops9_sub : (ops9 : List (HloOp τ sig (Elt F))).Forall fun op => op.bufs ⊆ tcRefs τ sig :=
  ⟨unary_bufs_sub .., unary_bufs_sub .., binary_bufs_sub ..⟩

/-- mish after the second layer. (16 operations.) -/
abbrev ops10 : List (HloOp τ sig (Elt F)) :=
  [ TRef.nullary main_call3.cst (constant S_ .f32 0x00000000#32),
    TRef.unary main_call3.cst main_call3.v0 (broadcastInDim S51200x64 ![] bcast_S_S51200x64),
    TRef.binary (TRef.of main_v100 : TRef sig ⟨S51200x64, .f32⟩) main_call3.v0 main_call3.v1 maximumf,
    TRef.unary main_call3.cst main_call3.v2 (broadcastInDim S51200x64 ![] bcast_S_S51200x64),
    TRef.binary (TRef.of main_v100 : TRef sig ⟨S51200x64, .f32⟩) main_call3.v2 main_call3.v3 subf,
    TRef.binary main_call3.v3 main_call3.v3 main_call3.v4 (cmpf .une),
    TRef.unary main_call3.cst main_call3.v5 (broadcastInDim S51200x64 ![] bcast_S_S51200x64),
    TRef.binary (TRef.of main_v100 : TRef sig ⟨S51200x64, .f32⟩) main_call3.v5 main_call3.v6 addf,
    TRef.unary main_call3.v3 main_call3.v7 Host.absf,
    TRef.unary main_call3.v7 main_call3.v8 Host.negf,
    TRef.unary main_call3.v8 main_call3.v9 Host.exp,
    TRef.unary main_call3.v9 main_call3.v10 Host.log1p,
    TRef.binary main_call3.v1 main_call3.v10 main_call3.v11 addf,
    TRef.ternary main_call3.v4 main_call3.v6 main_call3.v11 main_call3.v12 select,
    unary main_v101 main_v102 (Host.tanh : (⟨S51200x64, .f32⟩ : BufTy).Contents (Elt F) → (⟨S51200x64, .f32⟩ : BufTy).Contents (Elt F)),
    binary main_v100 main_v102 main_v103 (mulf : (⟨S51200x64, .f32⟩ : BufTy).Contents (Elt F) → (⟨S51200x64, .f32⟩ : BufTy).Contents (Elt F) → (⟨S51200x64, .f32⟩ : BufTy).Contents (Elt F)) ]
set_option maxRecDepth 8192 in
theorem ops10_sub : (ops10 : List (HloOp τ sig (Elt F))).Forall fun op => op.bufs ⊆ tcRefs τ sig :=
  ⟨nullary_bufs_sub .., unary_bufs_sub .., binary_bufs_sub .., unary_bufs_sub .., binary_bufs_sub .., binary_bufs_sub ..,
   unary_bufs_sub .., binary_bufs_sub .., unary_bufs_sub .., unary_bufs_sub .., unary_bufs_sub .., unary_bufs_sub ..,
   binary_bufs_sub .., ternary_bufs_sub .., unary_bufs_sub .., binary_bufs_sub ..⟩

/-- The read-out: a dense layer to 8 columns, its bias, mish. (20 operations.) -/
abbrev ops11 : List (HloOp τ sig (Elt F)) :=
  [ binary main_v103 main_arg7 main_v104 ((fun l r => Host.dotGeneral dot_S51200x64_S64x8_S51200x8_1_0_0_1_n_n none l r) : (⟨S51200x64, .f32⟩ : BufTy).Contents (Elt F) → (⟨S64x8, .f32⟩ : BufTy).Contents (Elt F) → (⟨S51200x8, .f32⟩ : BufTy).Contents (Elt F)),
    unary main_arg8 main_v105 (broadcastInDim S1x8 ![1] bcast_S8_S1x8_1 : (⟨S8, .f32⟩ : BufTy).Contents (Elt F) → (⟨S1x8, .f32⟩ : BufTy).Contents (Elt F)),
    unary main_v105 main_v106 (broadcastInDim S51200x8 ![0, 1] bcast_S1x8_S51200x8_0_1 : (⟨S1x8, .f32⟩ : BufTy).Contents (Elt F) → (⟨S51200x8, .f32⟩ : BufTy).Contents (Elt F)),
    binary main_v104 main_v106 main_v107 (addf : (⟨S51200x8, .f32⟩ : BufTy).Contents (Elt F) → (⟨S51200x8, .f32⟩ : BufTy).Contents (Elt F) → (⟨S51200x8, .f32⟩ : BufTy).Contents (Elt F)),
    TRef.nullary main_call4.cst (constant S_ .f32 0x00000000#32),
    TRef.unary main_call4.cst main_call4.v0 (broadcastInDim S51200x8 ![] bcast_S_S51200x8),
    TRef.binary (TRef.of main_v107 : TRef sig ⟨S51200x8, .f32⟩) main_call4.v0 main_call4.v1 maximumf,
    TRef.unary main_call4.cst main_call4.v2 (broadcastInDim S51200x8 ![] bcast_S_S51200x8),
    TRef.binary (TRef.of main_v107 : TRef sig ⟨S51200x8, .f32⟩) main_call4.v2 main_call4.v3 subf,
    TRef.binary main_call4.v3 main_call4.v3 main_call4.v4 (cmpf .une),
    TRef.unary main_call4.cst main_call4.v5 (broadcastInDim S51200x8 ![] bcast_S_S51200x8),
    TRef.binary (TRef.of main_v107 : TRef sig ⟨S51200x8, .f32⟩) main_call4.v5 main_call4.v6 addf,
    TRef.unary main_call4.v3 main_call4.v7 Host.absf,
    TRef.unary main_call4.v7 main_call4.v8 Host.negf,
    TRef.unary main_call4.v8 main_call4.v9 Host.exp,
    TRef.unary main_call4.v9 main_call4.v10 Host.log1p,
    TRef.binary main_call4.v1 main_call4.v10 main_call4.v11 addf,
    TRef.ternary main_call4.v4 main_call4.v6 main_call4.v11 main_call4.v12 select,
    unary main_v108 main_v109 (Host.tanh : (⟨S51200x8, .f32⟩ : BufTy).Contents (Elt F) → (⟨S51200x8, .f32⟩ : BufTy).Contents (Elt F)),
    binary main_v107 main_v109 main_v110 (mulf : (⟨S51200x8, .f32⟩ : BufTy).Contents (Elt F) → (⟨S51200x8, .f32⟩ : BufTy).Contents (Elt F) → (⟨S51200x8, .f32⟩ : BufTy).Contents (Elt F)) ]
set_option maxRecDepth 8192 in
theorem ops11_sub : (ops11 : List (HloOp τ sig (Elt F))).Forall fun op => op.bufs ⊆ tcRefs τ sig :=
  ⟨binary_bufs_sub .., unary_bufs_sub .., unary_bufs_sub .., binary_bufs_sub .., nullary_bufs_sub .., unary_bufs_sub ..,
   binary_bufs_sub .., unary_bufs_sub .., binary_bufs_sub .., binary_bufs_sub .., unary_bufs_sub .., binary_bufs_sub ..,
   unary_bufs_sub .., unary_bufs_sub .., unary_bufs_sub .., unary_bufs_sub .., binary_bufs_sub .., ternary_bufs_sub ..,
   unary_bufs_sub .., binary_bufs_sub ..⟩

/-- The head: the 51200 × 8 features re-laid as 256 × 1600, a dense layer to 200 columns with its bias, and the batch normalisation over the 256 rows (column mean, biased column variance, the scale and the shift). (35 operations.) -/
abbrev ops12 : List (HloOp τ sig (Elt F)) :=
  [ reshape main_v110 main_v111 rfl shapeCasts_S51200x8_S256x1600,
    binary main_v111 main_arg9 main_v112 ((fun l r => Host.dotGeneral dot_S256x1600_S1600x200_S256x200_1_0_0_1_n_n none l r) : (⟨S256x1600, .f32⟩ : BufTy).Contents (Elt F) → (⟨S1600x200, .f32⟩ : BufTy).Contents (Elt F) → (⟨S256x200, .f32⟩ : BufTy).Contents (Elt F)),
    unary main_arg10 main_v113 (broadcastInDim S1x200 ![1] bcast_S200_S1x200_1 : (⟨S200, .f32⟩ : BufTy).Contents (Elt F) → (⟨S1x200, .f32⟩ : BufTy).Contents (Elt F)),
    unary main_v113 main_v114 (broadcastInDim S256x200 ![0, 1] bcast_S1x200_S256x200_0_1 : (⟨S1x200, .f32⟩ : BufTy).Contents (Elt F) → (⟨S256x200, .f32⟩ : BufTy).Contents (Elt F)),
    binary main_v112 main_v114 main_v115 (addf : (⟨S256x200, .f32⟩ : BufTy).Contents (Elt F) → (⟨S256x200, .f32⟩ : BufTy).Contents (Elt F) → (⟨S256x200, .f32⟩ : BufTy).Contents (Elt F)),
    nullary main_cst_20 (constant S_ .f32 0x00000000#32),
    binary main_v115 main_cst_20 main_v116 ((fun x v => Host.reduceAdd x v reducesTo_S256x200_S200_d0 h_S_) : (⟨S256x200, .f32⟩ : BufTy).Contents (Elt F) → (⟨S_, .f32⟩ : BufTy).Contents (Elt F) → (⟨S200, .f32⟩ : BufTy).Contents (Elt F)),
    nullary main_cst_21 (constant S_ .f32 0x43800000#32),
    unary main_cst_21 main_v117 (broadcastInDim S200 ![] bcast_S_S200 : (⟨S_, .f32⟩ : BufTy).Contents (Elt F) → (⟨S200, .f32⟩ : BufTy).Contents (Elt F)),
    binary main_v116 main_v117 main_v118 (Host.divf : (⟨S200, .f32⟩ : BufTy).Contents (Elt F) → (⟨S200, .f32⟩ : BufTy).Contents (Elt F) → (⟨S200, .f32⟩ : BufTy).Contents (Elt F)),
    unary main_v118 main_v119 (broadcastInDim S1x200 ![1] bcast_S200_S1x200_1 : (⟨S200, .f32⟩ : BufTy).Contents (Elt F) → (⟨S1x200, .f32⟩ : BufTy).Contents (Elt F)),
    unary main_v119 main_v120 (broadcastInDim S256x200 ![0, 1] bcast_S1x200_S256x200_0_1 : (⟨S1x200, .f32⟩ : BufTy).Contents (Elt F) → (⟨S256x200, .f32⟩ : BufTy).Contents (Elt F)),
    binary main_v115 main_v120 main_v121 (subf : (⟨S256x200, .f32⟩ : BufTy).Contents (Elt F) → (⟨S256x200, .f32⟩ : BufTy).Contents (Elt F) → (⟨S256x200, .f32⟩ : BufTy).Contents (Elt F)),
    binary main_v121 main_v121 main_v122 (mulf : (⟨S256x200, .f32⟩ : BufTy).Contents (Elt F) → (⟨S256x200, .f32⟩ : BufTy).Contents (Elt F) → (⟨S256x200, .f32⟩ : BufTy).Contents (Elt F)),
    nullary main_cst_22 (constant S_ .f32 0x00000000#32),
    binary main_v122 main_cst_22 main_v123 ((fun x v => Host.reduceAdd x v reducesTo_S256x200_S200_d0 h_S_) : (⟨S256x200, .f32⟩ : BufTy).Contents (Elt F) → (⟨S_, .f32⟩ : BufTy).Contents (Elt F) → (⟨S200, .f32⟩ : BufTy).Contents (Elt F)),
    nullary main_cst_23 (constant S_ .f32 0x43800000#32),
    unary main_cst_23 main_v124 (broadcastInDim S200 ![] bcast_S_S200 : (⟨S_, .f32⟩ : BufTy).Contents (Elt F) → (⟨S200, .f32⟩ : BufTy).Contents (Elt F)),
    binary main_v123 main_v124 main_v125 (Host.divf : (⟨S200, .f32⟩ : BufTy).Contents (Elt F) → (⟨S200, .f32⟩ : BufTy).Contents (Elt F) → (⟨S200, .f32⟩ : BufTy).Contents (Elt F)),
    unary main_v118 main_v126 (broadcastInDim S1x200 ![1] bcast_S200_S1x200_1 : (⟨S200, .f32⟩ : BufTy).Contents (Elt F) → (⟨S1x200, .f32⟩ : BufTy).Contents (Elt F)),
    unary main_v126 main_v127 (broadcastInDim S256x200 ![0, 1] bcast_S1x200_S256x200_0_1 : (⟨S1x200, .f32⟩ : BufTy).Contents (Elt F) → (⟨S256x200, .f32⟩ : BufTy).Contents (Elt F)),
    binary main_v115 main_v127 main_v128 (subf : (⟨S256x200, .f32⟩ : BufTy).Contents (Elt F) → (⟨S256x200, .f32⟩ : BufTy).Contents (Elt F) → (⟨S256x200, .f32⟩ : BufTy).Contents (Elt F)),
    nullary main_cst_24 (constant S_ .f32 0x3727C5AC#32),
    unary main_cst_24 main_v129 (broadcastInDim S200 ![] bcast_S_S200 : (⟨S_, .f32⟩ : BufTy).Contents (Elt F) → (⟨S200, .f32⟩ : BufTy).Contents (Elt F)),
    binary main_v125 main_v129 main_v130 (addf : (⟨S200, .f32⟩ : BufTy).Contents (Elt F) → (⟨S200, .f32⟩ : BufTy).Contents (Elt F) → (⟨S200, .f32⟩ : BufTy).Contents (Elt F)),
    unary main_v130 main_v131 (Host.rsqrt : (⟨S200, .f32⟩ : BufTy).Contents (Elt F) → (⟨S200, .f32⟩ : BufTy).Contents (Elt F)),
    unary main_v131 main_v132 (broadcastInDim S1x200 ![1] bcast_S200_S1x200_1 : (⟨S200, .f32⟩ : BufTy).Contents (Elt F) → (⟨S1x200, .f32⟩ : BufTy).Contents (Elt F)),
    unary main_v132 main_v133 (broadcastInDim S256x200 ![0, 1] bcast_S1x200_S256x200_0_1 : (⟨S1x200, .f32⟩ : BufTy).Contents (Elt F) → (⟨S256x200, .f32⟩ : BufTy).Contents (Elt F)),
    binary main_v128 main_v133 main_v134 (mulf : (⟨S256x200, .f32⟩ : BufTy).Contents (Elt F) → (⟨S256x200, .f32⟩ : BufTy).Contents (Elt F) → (⟨S256x200, .f32⟩ : BufTy).Contents (Elt F)),
    unary main_arg11 main_v135 (broadcastInDim S1x200 ![1] bcast_S200_S1x200_1 : (⟨S200, .f32⟩ : BufTy).Contents (Elt F) → (⟨S1x200, .f32⟩ : BufTy).Contents (Elt F)),
    unary main_v135 main_v136 (broadcastInDim S256x200 ![0, 1] bcast_S1x200_S256x200_0_1 : (⟨S1x200, .f32⟩ : BufTy).Contents (Elt F) → (⟨S256x200, .f32⟩ : BufTy).Contents (Elt F)),
    binary main_v134 main_v136 main_v137 (mulf : (⟨S256x200, .f32⟩ : BufTy).Contents (Elt F) → (⟨S256x200, .f32⟩ : BufTy).Contents (Elt F) → (⟨S256x200, .f32⟩ : BufTy).Contents (Elt F)),
    unary main_arg12 main_v138 (broadcastInDim S1x200 ![1] bcast_S200_S1x200_1 : (⟨S200, .f32⟩ : BufTy).Contents (Elt F) → (⟨S1x200, .f32⟩ : BufTy).Contents (Elt F)),
    unary main_v138 main_v139 (broadcastInDim S256x200 ![0, 1] bcast_S1x200_S256x200_0_1 : (⟨S1x200, .f32⟩ : BufTy).Contents (Elt F) → (⟨S256x200, .f32⟩ : BufTy).Contents (Elt F)),
    binary main_v137 main_v139 main_v140 (addf : (⟨S256x200, .f32⟩ : BufTy).Contents (Elt F) → (⟨S256x200, .f32⟩ : BufTy).Contents (Elt F) → (⟨S256x200, .f32⟩ : BufTy).Contents (Elt F)) ]
set_option maxRecDepth 8192 in
theorem ops12_sub : (ops12 : List (HloOp τ sig (Elt F))).Forall fun op => op.bufs ⊆ tcRefs τ sig :=
  ⟨reshape_bufs_sub .., binary_bufs_sub .., unary_bufs_sub .., unary_bufs_sub .., binary_bufs_sub .., nullary_bufs_sub ..,
   binary_bufs_sub .., nullary_bufs_sub .., unary_bufs_sub .., binary_bufs_sub .., unary_bufs_sub .., unary_bufs_sub ..,
   binary_bufs_sub .., binary_bufs_sub .., nullary_bufs_sub .., binary_bufs_sub .., nullary_bufs_sub .., unary_bufs_sub ..,
   binary_bufs_sub .., unary_bufs_sub .., unary_bufs_sub .., binary_bufs_sub .., nullary_bufs_sub .., unary_bufs_sub ..,
   binary_bufs_sub .., unary_bufs_sub .., unary_bufs_sub .., unary_bufs_sub .., binary_bufs_sub .., unary_bufs_sub ..,
   unary_bufs_sub .., binary_bufs_sub .., unary_bufs_sub .., unary_bufs_sub .., binary_bufs_sub ..⟩

/-- mish after the batch normalisation. (16 operations.) -/
abbrev ops13 : List (HloOp τ sig (Elt F)) :=
  [ TRef.nullary main_call5.cst (constant S_ .f32 0x00000000#32),
    TRef.unary main_call5.cst main_call5.v0 (broadcastInDim S256x200 ![] bcast_S_S256x200),
    TRef.binary (TRef.of main_v140 : TRef sig ⟨S256x200, .f32⟩) main_call5.v0 main_call5.v1 maximumf,
    TRef.unary main_call5.cst main_call5.v2 (broadcastInDim S256x200 ![] bcast_S_S256x200),
    TRef.binary (TRef.of main_v140 : TRef sig ⟨S256x200, .f32⟩) main_call5.v2 main_call5.v3 subf,
    TRef.binary main_call5.v3 main_call5.v3 main_call5.v4 (cmpf .une),
    TRef.unary main_call5.cst main_call5.v5 (broadcastInDim S256x200 ![] bcast_S_S256x200),
    TRef.binary (TRef.of main_v140 : TRef sig ⟨S256x200, .f32⟩) main_call5.v5 main_call5.v6 addf,
    TRef.unary main_call5.v3 main_call5.v7 Host.absf,
    TRef.unary main_call5.v7 main_call5.v8 Host.negf,
    TRef.unary main_call5.v8 main_call5.v9 Host.exp,
    TRef.unary main_call5.v9 main_call5.v10 Host.log1p,
    TRef.binary main_call5.v1 main_call5.v10 main_call5.v11 addf,
    TRef.ternary main_call5.v4 main_call5.v6 main_call5.v11 main_call5.v12 select,
    unary main_v141 main_v142 (Host.tanh : (⟨S256x200, .f32⟩ : BufTy).Contents (Elt F) → (⟨S256x200, .f32⟩ : BufTy).Contents (Elt F)),
    binary main_v140 main_v142 main_v143 (mulf : (⟨S256x200, .f32⟩ : BufTy).Contents (Elt F) → (⟨S256x200, .f32⟩ : BufTy).Contents (Elt F) → (⟨S256x200, .f32⟩ : BufTy).Contents (Elt F)) ]
set_option maxRecDepth 8192 in
theorem ops13_sub : (ops13 : List (HloOp τ sig (Elt F))).Forall fun op => op.bufs ⊆ tcRefs τ sig :=
  ⟨nullary_bufs_sub .., unary_bufs_sub .., binary_bufs_sub .., unary_bufs_sub .., binary_bufs_sub .., binary_bufs_sub ..,
   unary_bufs_sub .., binary_bufs_sub .., unary_bufs_sub .., unary_bufs_sub .., unary_bufs_sub .., unary_bufs_sub ..,
   binary_bufs_sub .., ternary_bufs_sub .., unary_bufs_sub .., binary_bufs_sub ..⟩

/-- The first classifier: a dense layer to 2 columns and its bias. (4 operations.) -/
abbrev ops14 : List (HloOp τ sig (Elt F)) :=
  [ binary main_v143 main_arg13 main_v144 ((fun l r => Host.dotGeneral dot_S256x200_S200x2_S256x2_1_0_0_1_n_n none l r) : (⟨S256x200, .f32⟩ : BufTy).Contents (Elt F) → (⟨S200x2, .f32⟩ : BufTy).Contents (Elt F) → (⟨S256x2, .f32⟩ : BufTy).Contents (Elt F)),
    unary main_arg14 main_v145 (broadcastInDim S1x2 ![1] bcast_S2_S1x2_1 : (⟨S2, .f32⟩ : BufTy).Contents (Elt F) → (⟨S1x2, .f32⟩ : BufTy).Contents (Elt F)),
    unary main_v145 main_v146 (broadcastInDim S256x2 ![0, 1] bcast_S1x2_S256x2_0_1 : (⟨S1x2, .f32⟩ : BufTy).Contents (Elt F) → (⟨S256x2, .f32⟩ : BufTy).Contents (Elt F)),
    binary main_v144 main_v146 main_v147 (addf : (⟨S256x2, .f32⟩ : BufTy).Contents (Elt F) → (⟨S256x2, .f32⟩ : BufTy).Contents (Elt F) → (⟨S256x2, .f32⟩ : BufTy).Contents (Elt F)) ]
set_option maxRecDepth 8192 in
theorem ops14_sub : (ops14 : List (HloOp τ sig (Elt F))).Forall fun op => op.bufs ⊆ tcRefs τ sig :=
  ⟨binary_bufs_sub .., unary_bufs_sub .., unary_bufs_sub .., binary_bufs_sub ..⟩

/-- The second classifier, first half:  2 h − h  and the dense layer to 64 columns. (5 operations.) -/
abbrev ops15 : List (HloOp τ sig (Elt F)) :=
  [ nullary main_cst_25 (constant S_ .f32 0x40000000#32),
    unary main_cst_25 main_v148 (broadcastInDim S256x200 ![] bcast_S_S256x200 : (⟨S_, .f32⟩ : BufTy).Contents (Elt F) → (⟨S256x200, .f32⟩ : BufTy).Contents (Elt F)),
    binary main_v148 main_v143 main_v149 (mulf : (⟨S256x200, .f32⟩ : BufTy).Contents (Elt F) → (⟨S256x200, .f32⟩ : BufTy).Contents (Elt F) → (⟨S256x200, .f32⟩ : BufTy).Contents (Elt F)),
    binary main_v149 main_v143 main_v150 (subf : (⟨S256x200, .f32⟩ : BufTy).Contents (Elt F) → (⟨S256x200, .f32⟩ : BufTy).Contents (Elt F) → (⟨S256x200, .f32⟩ : BufTy).Contents (Elt F)),
    binary main_v150 main_arg15 main_v151 ((fun l r => Host.dotGeneral dot_S256x200_S200x64_S256x64_1_0_0_1_n_n none l r) : (⟨S256x200, .f32⟩ : BufTy).Contents (Elt F) → (⟨S200x64, .f32⟩ : BufTy).Contents (Elt F) → (⟨S256x64, .f32⟩ : BufTy).Contents (Elt F)) ]
set_option maxRecDepth 8192 in
theorem ops15_sub : (ops15 : List (HloOp τ sig (Elt F))).Forall fun op => op.bufs ⊆ tcRefs τ sig :=
  ⟨nullary_bufs_sub .., unary_bufs_sub .., binary_bufs_sub .., binary_bufs_sub .., binary_bufs_sub ..⟩

/-- The second classifier, second half: the bias, the rectifier, the dense layer to 6 columns and its bias. (10 operations.) -/
abbrev ops16 : List (HloOp τ sig (Elt F)) :=
  [ unary main_arg16 main_v152 (broadcastInDim S1x64 ![1] bcast_S64_S1x64_1 : (⟨S64, .f32⟩ : BufTy).Contents (Elt F) → (⟨S1x64, .f32⟩ : BufTy).Contents (Elt F)),
    unary main_v152 main_v153 (broadcastInDim S256x64 ![0, 1] bcast_S1x64_S256x64_0_1 : (⟨S1x64, .f32⟩ : BufTy).Contents (Elt F) → (⟨S256x64, .f32⟩ : BufTy).Contents (Elt F)),
    binary main_v151 main_v153 main_v154 (addf : (⟨S256x64, .f32⟩ : BufTy).Contents (Elt F) → (⟨S256x64, .f32⟩ : BufTy).Contents (Elt F) → (⟨S256x64, .f32⟩ : BufTy).Contents (Elt F)),
    TRef.nullary main_call6.cst (constant S_ .f32 0x00000000#32),
    TRef.unary main_call6.cst main_call6.v0 (broadcastInDim S256x64 ![] bcast_S_S256x64),
    TRef.binary (TRef.of main_v154 : TRef sig ⟨S256x64, .f32⟩) main_call6.v0 main_call6.v1 maximumf,
    binary main_v155 main_arg17 main_v156 ((fun l r => Host.dotGeneral dot_S256x64_S64x6_S256x6_1_0_0_1_n_n none l r) : (⟨S256x64, .f32⟩ : BufTy).Contents (Elt F) → (⟨S64x6, .f32⟩ : BufTy).Contents (Elt F) → (⟨S256x6, .f32⟩ : BufTy).Contents (Elt F)),
    unary main_arg18 main_v157 (broadcastInDim S1x6 ![1] bcast_S6_S1x6_1 : (⟨S6, .f32⟩ : BufTy).Contents (Elt F) → (⟨S1x6, .f32⟩ : BufTy).Contents (Elt F)),
    unary main_v157 main_v158 (broadcastInDim S256x6 ![0, 1] bcast_S1x6_S256x6_0_1 : (⟨S1x6, .f32⟩ : BufTy).Contents (Elt F) → (⟨S256x6, .f32⟩ : BufTy).Contents (Elt F)),
    binary main_v156 main_v158 main_v159 (addf : (⟨S256x6, .f32⟩ : BufTy).Contents (Elt F) → (⟨S256x6, .f32⟩ : BufTy).Contents (Elt F) → (⟨S256x6, .f32⟩ : BufTy).Contents (Elt F)) ]
set_option maxRecDepth 8192 in
theorem ops16_sub : (ops16 : List (HloOp τ sig (Elt F))).Forall fun op => op.bufs ⊆ tcRefs τ sig :=
  ⟨unary_bufs_sub .., unary_bufs_sub .., binary_bufs_sub .., nullary_bufs_sub .., unary_bufs_sub .., binary_bufs_sub ..,
   binary_bufs_sub .., unary_bufs_sub .., unary_bufs_sub .., binary_bufs_sub ..⟩

end Cert.ReferenceIdeal.Stages

end
-- ==== Proof.LibAfterAppend.lean ====
/-
  Folding a line of host operations that is given as two lines joined.

  The buffer contents after `l₁ ++ l₂` are those after `l₂` from the contents after `l₁`; and a property that
  holds of every operation of both lines holds of every operation of the joined line. With these a long @main
  can be cut into stretches, each folded and read by itself. A buffer that no operation of a line writes keeps its
  contents through it; `not_written` decides that side condition for a literal line.
-/
import Idealize.ShloMosaic.Lib.StableHlo.Run

namespace Cert.Lib.AfterAppend

open Idealize.ShloMosaic Idealize.ShloMosaic.StableHlo

variable {τ : Topo} {sig : RefSig} {Val : EltTy → Type}

/-- The contents after two lines run one after the other. -/
theorem after_append (l₁ l₂ : List (HloOp τ sig Val)) (V : Valuation τ sig Val) :
    after (l₁ ++ l₂) V = after l₂ (after l₁ V) := by
  induction l₁ generalizing V with
  | nil => rfl
  | cons op l ih => exact ih (op.result V)

/-- What holds of every element of two lists holds of every element of their concatenation. -/
theorem forall_append {α : Type*} {p : α → Prop} {l₁ l₂ : List α} (h₁ : l₁.Forall p) (h₂ : l₂.Forall p) :
    (l₁ ++ l₂).Forall p :=
  List.forall_iff_forall_mem.mpr fun a ha =>
    (List.mem_append.mp ha).elim (List.forall_iff_forall_mem.mp h₁ a) (List.forall_iff_forall_mem.mp h₂ a)

/-- A buffer that none of a line's operations writes keeps its contents through the line. -/
theorem after_kept (ops : List (HloOp τ sig Val)) (V : Valuation τ sig Val) (b : Ref sig .tc)
    (h : ∀ op ∈ ops, Proc.devRef (τ := τ) .tc b ∉ op.writes) :
    after ops V (Proc.devRef .tc b) = V (Proc.devRef .tc b) :=
  after_of_forall_not_mem ops V h

end Cert.Lib.AfterAppend

/-- Closes `∀ op ∈ ops, Proc.devRef .tc b ∉ op.writes` for a literal line of the builders' operations, each of which writes
    one buffer, none of them `b`: the membership is decided operation by operation. -/
macro "not_written" : tactic =>
  `(tactic| (refine List.forall_iff_forall_mem.mp ?_
             simp only [List.Forall, Idealize.ShloMosaic.StableHlo.nullary_writes, Idealize.ShloMosaic.StableHlo.unary_writes,
               Idealize.ShloMosaic.StableHlo.binary_writes, Idealize.ShloMosaic.StableHlo.ternary_writes,
               Idealize.ShloMosaic.StableHlo.reshape_writes, Finset.mem_singleton]
             repeat' apply And.intro
             all_goals exact Idealize.ShloMosaic.StableHlo.devRef_ne_of_ne (by decide)))
-- ==== Proof.RefOps.lean ====
/-
  The reference program is the straight line of its operations.

  The program's @main is printed in four windows; each window is, by computation, the sequence of the stretches of
  operations it covers (an outlined function's body unfolds at its call), and @main is the four windows in order.
  So @main is the sequence of the whole line. No buffer of the program is scoped, and every operation touches
  TensorCore buffers only: with these the line's run is the fold of the operations' results over the launch contents.
-/
import proofs.«105513_j41961830482650_1_alg».proof.Proof.RefOpsTable
import proofs.«105513_j41961830482650_1_alg».proof.Proof.LibAfterAppend

noncomputable section

namespace Cert.ReferenceIdeal.Stages

open Cert.ReferenceIdeal Cert.ReferenceIdeal.Gen Idealize.ShloMosaic Idealize.ShloMosaic.TcCoe Idealize.SL.Sem Idealize.ShloMosaic.StableHlo
open Cert.Lib.AfterAppend

variable {F : FTy → Type} [FloatOps F]

/-- The whole line: the sixteen stretches in order. -/
abbrev ops : List (HloOp τ sig (Elt F)) :=
  ops1 ++ (ops2 ++ (ops3 ++ (ops4 ++ (ops5 ++ (ops6 ++ (ops7 ++ (ops8 ++ (ops9 ++ (ops10 ++ (ops11 ++ (ops12 ++
    (ops13 ++ (ops14 ++ (ops15 ++ ops16))))))))))))))

/-! ## @main is the line -/

set_option maxRecDepth 8192 in
set_option maxHeartbeats 4000000 in
/-- The first window: the first graph normalisation, x W1, the first aggregation and its bias. -/
theorem part0_eq (c : Dev nD) : main_part0 (F := F) c = seq (ops1 ++ (ops2 ++ (ops3 ++ ops4))) := rfl

set_option maxRecDepth 8192 in
set_option maxHeartbeats 4000000 in
/-- The second window: mish, the second graph normalisation, h W2, the second aggregation. -/
theorem part1_eq (c : Dev nD) : main_part1 (F := F) c = seq (ops5 ++ (ops6 ++ (ops7 ++ ops8))) := rfl

set_option maxRecDepth 8192 in
set_option maxHeartbeats 4000000 in
/-- The third window: the second bias and mish, the read-out, the head, the first classifier and the first half of the second. -/
theorem part2_eq (c : Dev nD) :
    main_part2 (F := F) c = seq (ops9 ++ (ops10 ++ (ops11 ++ (ops12 ++ (ops13 ++ (ops14 ++ ops15)))))) := rfl

set_option maxRecDepth 8192 in
set_option maxHeartbeats 4000000 in
/-- The fourth window: the rest of the second classifier. -/
theorem part3_eq (c : Dev nD) : main_part3 (F := F) c = seq ops16 := rfl

/-- @main is the whole line: its windows in order, each the sequence of its stretches, and a sequence of two lines
    joined is the two sequences one after the other. -/
theorem main_eq (c : Dev nD) : main (F := F) c = seq ops := by
  simp only [main, part0_eq, part1_eq, part2_eq, part3_eq, ops, seq_append, bind_assoc]

/-! ## Nothing is scoped, and every operation stays on the TensorCore's buffers -/

theorem scopedRefs_eq : (Finset.univ.filter fun b : Ref sig .tc => b.isScoped) = ∅ := by decide
theorem scopedSems_eq : (Finset.univ.filter fun sm : SemLoc sig => sm.isScoped .tc) = ∅ := by decide

/-- Every buffer of every operation of the whole line is a TensorCore buffer: it holds of each stretch, and what holds of
    every operation of two lines holds of every operation of their join. -/
theorem ops_sub : (ops : List (HloOp τ sig (Elt F))).Forall fun op => op.bufs ⊆ tcRefs τ sig :=
  forall_append ops1_sub <| forall_append ops2_sub <| forall_append ops3_sub <| forall_append ops4_sub <|
  forall_append ops5_sub <| forall_append ops6_sub <| forall_append ops7_sub <| forall_append ops8_sub <|
  forall_append ops9_sub <| forall_append ops10_sub <| forall_append ops11_sub <| forall_append ops12_sub <|
  forall_append ops13_sub <| forall_append ops14_sub <| forall_append ops15_sub ops16_sub

end Cert.ReferenceIdeal.Stages

end
-- ==== Proof.RefWritesTable.lean ====
/-
  Per stretch of the reference program's operations, the buffers its operations write, in order: one per operation.
  A buffer outside a stretch's list keeps its contents through the stretch.
-/
import proofs.«105513_j41961830482650_1_alg».proof.Proof.Gen.ReferenceIdeal

noncomputable section

namespace Cert.ReferenceIdeal.Stages

open Cert.ReferenceIdeal Idealize.ShloMosaic

/-- The buffers the 42 operations of stretch 1 write. -/
abbrev ops1_W : List (Ref sig .tc) :=
  [main_v0, main_v1, main_v2, main_v3, main_v4, main_v5, main_v6, main_cst,
   main_v7, main_v8, main_cst_0, main_v9, main_v10, main_v11, main_cst_1, main_v12,
   main_v13, main_v14, main_cst_2, main_call0_v0, main_call0_v1, main_v15, main_c, main_v16,
   main_v17, main_c_3, main_v18, main_v19, main_v20, main_v21, main_v22, main_v23,
   main_c_4, main_v24, main_v25, main_c_5, main_v26, main_v27, main_v28, main_v29,
   main_v30, main_v31]

/-- The buffer the one operation of stretch 2 writes. -/
abbrev ops2_W : List (Ref sig .tc) :=
  [main_v32]

/-- The buffers the 16 operations of stretch 3 write. -/
abbrev ops3_W : List (Ref sig .tc) :=
  [main_c_6, main_v33, main_v34, main_c_7, main_v35, main_v36, main_v37, main_v38,
   main_v39, main_v40, main_v41, main_v42, main_cst_8, main_v43, main_v44, main_v45]

/-- The buffers the 3 operations of stretch 4 write. -/
abbrev ops4_W : List (Ref sig .tc) :=
  [main_v46, main_v47, main_v48]

/-- The buffers the 16 operations of stretch 5 write. -/
abbrev ops5_W : List (Ref sig .tc) :=
  [main_call1_cst, main_call1_v0, main_call1_v1, main_call1_v2, main_call1_v3, main_call1_v4, main_call1_v5, main_call1_v6,
   main_call1_v7, main_call1_v8, main_call1_v9, main_call1_v10, main_call1_v11, main_v49, main_v50, main_v51]

/-- The buffers the 42 operations of stretch 6 write. -/
abbrev ops6_W : List (Ref sig .tc) :=
  [main_v52, main_v53, main_v54, main_v55, main_v56, main_v57, main_v58, main_cst_9,
   main_v59, main_v60, main_cst_10, main_v61, main_v62, main_v63, main_cst_11, main_v64,
   main_v65, main_v66, main_cst_12, main_call2_v0, main_call2_v1, main_v67, main_c_13, main_v68,
   main_v69, main_c_14, main_v70, main_v71, main_v72, main_v73, main_v74, main_v75,
   main_c_15, main_v76, main_v77, main_c_16, main_v78, main_v79, main_v80, main_v81,
   main_v82, main_v83]

/-- The buffer the one operation of stretch 7 writes. -/
abbrev ops7_W : List (Ref sig .tc) :=
  [main_v84]

/-- The buffers the 16 operations of stretch 8 write. -/
abbrev ops8_W : List (Ref sig .tc) :=
  [main_c_17, main_v85, main_v86, main_c_18, main_v87, main_v88, main_v89, main_v90,
   main_v91, main_v92, main_v93, main_v94, main_cst_19, main_v95, main_v96, main_v97]

/-- The buffers the 3 operations of stretch 9 write. -/
abbrev ops9_W : List (Ref sig .tc) :=
  [main_v98, main_v99, main_v100]

/-- The buffers the 16 operations of stretch 10 write. -/
abbrev ops10_W : List (Ref sig .tc) :=
  [main_call3_cst, main_call3_v0, main_call3_v1, main_call3_v2, main_call3_v3, main_call3_v4, main_call3_v5, main_call3_v6,
   main_call3_v7, main_call3_v8, main_call3_v9, main_call3_v10, main_call3_v11, main_v101, main_v102, main_v103]

/-- The buffers the 20 operations of stretch 11 write. -/
abbrev ops11_W : List (Ref sig .tc) :=
  [main_v104, main_v105, main_v106, main_v107, main_call4_cst, main_call4_v0, main_call4_v1, main_call4_v2,
   main_call4_v3, main_call4_v4, main_call4_v5, main_call4_v6, main_call4_v7, main_call4_v8, main_call4_v9, main_call4_v10,
   main_call4_v11, main_v108, main_v109, main_v110]

/-- The buffers the 35 operations of stretch 12 write. -/
abbrev ops12_W : List (Ref sig .tc) :=
  [main_v111, main_v112, main_v113, main_v114, main_v115, main_cst_20, main_v116, main_cst_21,
   main_v117, main_v118, main_v119, main_v120, main_v121, main_v122, main_cst_22, main_v123,
   main_cst_23, main_v124, main_v125, main_v126, main_v127, main_v128, main_cst_24, main_v129,
   main_v130, main_v131, main_v132, main_v133, main_v134, main_v135, main_v136, main_v137,
   main_v138, main_v139, main_v140]

/-- The buffers the 16 operations of stretch 13 write. -/
abbrev ops13_W : List (Ref sig .tc) :=
  [main_call5_cst, main_call5_v0, main_call5_v1, main_call5_v2, main_call5_v3, main_call5_v4, main_call5_v5, main_call5_v6,
   main_call5_v7, main_call5_v8, main_call5_v9, main_call5_v10, main_call5_v11, main_v141, main_v142, main_v143]

/-- The buffers the 4 operations of stretch 14 write. -/
abbrev ops14_W : List (Ref sig .tc) :=
  [main_v144, main_v145, main_v146, main_v147]

/-- The buffers the 5 operations of stretch 15 write. -/
abbrev ops15_W : List (Ref sig .tc) :=
  [main_cst_25, main_v148, main_v149, main_v150, main_v151]

/-- The buffers the 10 operations of stretch 16 write. -/
abbrev ops16_W : List (Ref sig .tc) :=
  [main_v152, main_v153, main_v154, main_call6_cst, main_call6_v0, main_v155, main_v156, main_v157,
   main_v158, main_v159]

end Cert.ReferenceIdeal.Stages

end
-- ==== Proof.RefStages.lean ====
/-
  The reference program's stages: what each stretch of its operations computes, as whole-array functions.

  A two-layer graph convolution and a dense head. From the edge list (sources in row 0, targets in row 1) and the edge
  weights: self loops are appended, the weighted in-degree d is scatter-added at the targets, and every edge gets the
  coefficient  d(source)^(-1/2) · w · d(target)^(-1/2)  (zero where a degree is not positive). A layer multiplies the
  features by its weight matrix, gathers the rows at the sources, scales them by the coefficient, scatter-adds them at
  the targets, adds its bias and applies mish,  z · tanh (softplus z). The read-out is a dense layer with mish; the head
  re-lays the 51200 × 8 features as 256 × 1600, applies a dense layer, a batch normalisation over the 256 rows and mish;
  two classifiers follow. Each function below is the composition of one stretch's operations, each operation written
  as in the program, so that the contents a stretch leaves in a buffer are, by computation, the function of the
  contents it found in the buffers it reads. The functions are generic in the float values.
-/
import proofs.«105513_j41961830482650_1_alg».proof.Proof.RefOpsTable
import proofs.«105513_j41961830482650_1_alg».proof.Proof.LibAfterAppend
import proofs.«105513_j41961830482650_1_alg».proof.Proof.RefWritesTable

noncomputable section

namespace Cert.ReferenceIdeal.Stages

open Cert.ReferenceIdeal Cert.ReferenceIdeal.Gen Idealize.ShloMosaic Idealize.ShloMosaic.TcCoe Idealize.SL.Sem Idealize.ShloMosaic.StableHlo
open Cert.Lib.AfterAppend

variable {F : FTy → Type} [FloatOps F]

/-- The contents of a buffer of shape S and element type e. -/
abbrev Arr (F : FTy → Type) (S : Shape) (e : EltTy) : Type := (⟨S, e⟩ : BufTy).Contents (Elt F)

/-! ## The graph normalisation (stretches 1 and 6) -/

/-- The source endpoints (row 0 of the edge list) with the self loops  0, 1, …, 51199  appended. -/
def rowIdx (ei : Arr F S2x1638400 .i32) : Arr F S1689600 .i32 :=
  concatenate S1689600 0
    [⟨S1638400, shapeCast S1638400 (extractStridedSlice S1x1638400 ![0, 0] ei slices_S2x1638400_S1x1638400_0_0)
        shapeCasts_S1x1638400_S1638400⟩,
     ⟨S51200, iotaInDim S51200 32 0⟩] concatenates_S1638400_S51200_S1689600_d0

/-- The target endpoints (row 1 of the edge list) with the self loops appended. -/
def colIdx (ei : Arr F S2x1638400 .i32) : Arr F S1689600 .i32 :=
  concatenate S1689600 0
    [⟨S1638400, shapeCast S1638400 (extractStridedSlice S1x1638400 ![1, 0] ei slices_S2x1638400_S1x1638400_1_0)
        shapeCasts_S1x1638400_S1638400⟩,
     ⟨S51200, iotaInDim S51200 32 0⟩] concatenates_S1638400_S51200_S1689600_d0

/-- The edge weights with a one appended per self loop. -/
def edgeWeight (w : Arr F S1638400 .f32) : Arr F S1689600 .f32 :=
  concatenate S1689600 0
    [⟨S1638400, w⟩, ⟨S51200, broadcastInDim S51200 ![] bcast_S_S51200 (constant S_ .f32 0x3F800000#32)⟩]
    concatenates_S1638400_S51200_S1689600_d0

/-- Zero at every node. -/
def zeroNodes : Arr F S51200 .f32 := broadcastInDim S51200 ![] bcast_S_S51200 (constant S_ .f32 0x00000000#32)

/-- An index vector as a one-column index table. -/
def idxColumn (i : Arr F S1689600 .i32) : Arr F S1689600x1 .i32 :=
  broadcastInDim S1689600x1 ![0] bcast_S1689600_S1689600x1_0 i

/-- The weighted in-degree: the weights scatter-added at the target endpoints into zeros. -/
def degree (ei : Arr F S2x1638400 .i32) (w : Arr F S1638400 .f32) : Arr F S51200 .f32 :=
  Host.scatterAdd scatter_S51200_S1689600x1_S1689600_n_0_0_1 zeroNodes (idxColumn (colIdx ei)) (edgeWeight w)

/-- d^(-1/2) where the degree d is positive, zero elsewhere. -/
def invSqrtDegree (ei : Arr F S2x1638400 .i32) (w : Arr F S1638400 .f32) : Arr F S51200 .f32 :=
  select (cmpf .ogt (degree ei w) zeroNodes) (Host.rsqrt (degree ei w)) zeroNodes

/-- An index made non-negative as array indexing does:  i + 51200  where  i < 0,  else  i. -/
def wrapIdx (i : Arr F S1689600 .i32) : Arr F S1689600 .i32 :=
  select (cmpi .slt i (broadcastInDim S1689600 ![] bcast_S_S1689600 (constantI S_ 32 0#32)))
    (addi i (broadcastInDim S1689600 ![] bcast_S_S1689600 (constantI S_ 32 51200#32))) i

/-- A vector over the nodes read at an endpoint of every edge. -/
def takeNodes (v : Arr F S51200 .f32) (i : Arr F S1689600 .i32) : Arr F S1689600 .f32 :=
  Host.gather gather_S51200_S1689600x1_S1689600_n_0_n_n_0_1_1 v (idxColumn (wrapIdx i))

/-- The edge coefficient  d(source)^(-1/2) · w · d(target)^(-1/2). -/
def norm (ei : Arr F S2x1638400 .i32) (w : Arr F S1638400 .f32) : Arr F S1689600 .f32 :=
  mulf (mulf (takeNodes (invSqrtDegree ei w) (rowIdx ei)) (edgeWeight w)) (takeNodes (invSqrtDegree ei w) (colIdx ei))

/-! ## The feature products (stretches 2 and 7) -/

/-- x W1. -/
def featW1 (x : Arr F S51200x200 .f32) (W : Arr F S200x128 .f32) : Arr F S51200x128 .f32 :=
  Host.dotGeneral dot_S51200x200_S200x128_S51200x128_1_0_0_1_n_n none x W

/-- h W2. -/
def featW2 (h : Arr F S51200x128 .f32) (W : Arr F S128x64 .f32) : Arr F S51200x64 .f32 :=
  Host.dotGeneral dot_S51200x128_S128x64_S51200x64_1_0_0_1_n_n none h W

/-! ## The aggregations (stretches 3 and 8) and the biases (stretches 4 and 9) -/

/-- The rows of a 128-column matrix gathered at the sources, scaled by the edge coefficient and scatter-added at the
    targets into zeros. -/
def aggregate128 (row col : Arr F S1689600 .i32) (nrm : Arr F S1689600 .f32) (xw : Arr F S51200x128 .f32) :
    Arr F S51200x128 .f32 :=
  Host.scatterAdd scatter_S51200x128_S1689600x1_S1689600x128_1_0_0_1
    (broadcastInDim S51200x128 ![] bcast_S_S51200x128 (constant S_ .f32 0x00000000#32))
    (idxColumn col)
    (mulf (Host.gather gather_S51200x128_S1689600x1_S1689600x128_1_0_n_n_0_1_1128 xw (idxColumn (wrapIdx row)))
      (broadcastInDim S1689600x128 ![0, 1] bcast_S1689600x1_S1689600x128_0_1
        (broadcastInDim S1689600x1 ![0] bcast_S1689600_S1689600x1_0 nrm)))

/-- The same for a 64-column matrix. -/
def aggregate64 (row col : Arr F S1689600 .i32) (nrm : Arr F S1689600 .f32) (hw : Arr F S51200x64 .f32) :
    Arr F S51200x64 .f32 :=
  Host.scatterAdd scatter_S51200x64_S1689600x1_S1689600x64_1_0_0_1
    (broadcastInDim S51200x64 ![] bcast_S_S51200x64 (constant S_ .f32 0x00000000#32))
    (idxColumn col)
    (mulf (Host.gather gather_S51200x64_S1689600x1_S1689600x64_1_0_n_n_0_1_164 hw (idxColumn (wrapIdx row)))
      (broadcastInDim S1689600x64 ![0, 1] bcast_S1689600x1_S1689600x64_0_1
        (broadcastInDim S1689600x1 ![0] bcast_S1689600_S1689600x1_0 nrm)))

/-- The first layer before its activation: the aggregate with the bias added to every row. -/
def layer1Pre (a : Arr F S51200x128 .f32) (b : Arr F S128 .f32) : Arr F S51200x128 .f32 :=
  addf a (broadcastInDim S51200x128 ![0, 1] bcast_S1x128_S51200x128_0_1 (broadcastInDim S1x128 ![1] bcast_S128_S1x128_1 b))

/-- The second layer before its activation. -/
def layer2Pre (a : Arr F S51200x64 .f32) (b : Arr F S64 .f32) : Arr F S51200x64 .f32 :=
  addf a (broadcastInDim S51200x64 ![0, 1] bcast_S1x64_S51200x64_0_1 (broadcastInDim S1x64 ![1] bcast_S64_S1x64_1 b))

/-! ## mish (stretches 5, 10, 13 and inside 11) -/

/-- Zero at every entry of a shape. -/
def zerosOf (S : Shape) (hb : S_.BroadcastsInDim S (![] : Fin 0 → Fin S.rank)) : Arr F S .f32 :=
  broadcastInDim S ![] hb (constant S_ .f32 0x00000000#32)

/-- softplus in its overflow-safe form:  max z 0 + log1p (exp (-|z − 0|)),  and  z + 0  where  z − 0  is not a number. -/
def softplusWhole (S : Shape) (hb : S_.BroadcastsInDim S (![] : Fin 0 → Fin S.rank)) (z : Arr F S .f32) : Arr F S .f32 :=
  select (cmpf .une (subf z (zerosOf S hb)) (subf z (zerosOf S hb))) (addf z (zerosOf S hb))
    (addf (maximumf z (zerosOf S hb)) (Host.log1p (Host.exp (Host.negf (Host.absf (subf z (zerosOf S hb)))))))

/-- mish:  z · tanh (softplus z). -/
def mishWhole (S : Shape) (hb : S_.BroadcastsInDim S (![] : Fin 0 → Fin S.rank)) (z : Arr F S .f32) : Arr F S .f32 :=
  mulf z (Host.tanh (softplusWhole S hb z))

/-- mish on the first layer's 51200 × 128 features. -/
def mishWhole128 (z : Arr F S51200x128 .f32) : Arr F S51200x128 .f32 := mishWhole S51200x128 bcast_S_S51200x128 z
/-- mish on the second layer's 51200 × 64 features. -/
def mishWhole64 (z : Arr F S51200x64 .f32) : Arr F S51200x64 .f32 := mishWhole S51200x64 bcast_S_S51200x64 z
/-- mish on the head's 256 × 200 features. -/
def mishWhole200 (z : Arr F S256x200 .f32) : Arr F S256x200 .f32 := mishWhole S256x200 bcast_S_S256x200 z

/-! ## The read-out (stretch 11) -/

/-- The read-out: a dense layer to 8 columns, its bias, mish. -/
def readout (h : Arr F S51200x64 .f32) (W : Arr F S64x8 .f32) (b : Arr F S8 .f32) : Arr F S51200x8 .f32 :=
  mishWhole S51200x8 bcast_S_S51200x8
    (addf (Host.dotGeneral dot_S51200x64_S64x8_S51200x8_1_0_0_1_n_n none h W)
      (broadcastInDim S51200x8 ![0, 1] bcast_S1x8_S51200x8_0_1 (broadcastInDim S1x8 ![1] bcast_S8_S1x8_1 b)))

/-! ## The head (stretch 12) -/

/-- A 200-vector as every row of a 256 × 200 matrix. -/
def rows200 (v : Arr F S200 .f32) : Arr F S256x200 .f32 :=
  broadcastInDim S256x200 ![0, 1] bcast_S1x200_S256x200_0_1 (broadcastInDim S1x200 ![1] bcast_S200_S1x200_1 v)

/-- The column sums of a 256 × 200 matrix divided by 256. -/
def colMean (y : Arr F S256x200 .f32) : Arr F S200 .f32 :=
  Host.divf (Host.reduceAdd y (constant S_ .f32 0x00000000#32) reducesTo_S256x200_S200_d0 h_S_)
    (broadcastInDim S200 ![] bcast_S_S200 (constant S_ .f32 0x43800000#32))

/-- The head's dense layer on the re-laid features, with its bias. -/
def headDense (r : Arr F S51200x8 .f32) (W : Arr F S1600x200 .f32) (b : Arr F S200 .f32) : Arr F S256x200 .f32 :=
  addf (Host.dotGeneral dot_S256x1600_S1600x200_S256x200_1_0_0_1_n_n none
    (shapeCast S256x1600 r shapeCasts_S51200x8_S256x1600) W) (rows200 b)

/-- Batch normalisation over the 256 rows:  (y − mean) · rsqrt (var + ε) · γ + β,  with the column mean and the biased
    column variance  mean ((y − mean)²). -/
def batchNorm (y : Arr F S256x200 .f32) (g b : Arr F S200 .f32) : Arr F S256x200 .f32 :=
  addf (mulf (mulf (subf y (rows200 (colMean y)))
      (rows200 (Host.rsqrt (addf (colMean (mulf (subf y (rows200 (colMean y))) (subf y (rows200 (colMean y)))))
        (broadcastInDim S200 ![] bcast_S_S200 (constant S_ .f32 0x3727C5AC#32))))))
    (rows200 g)) (rows200 b)

/-- The head before its activation. -/
def headPre (r : Arr F S51200x8 .f32) (W : Arr F S1600x200 .f32) (b g β : Arr F S200 .f32) : Arr F S256x200 .f32 :=
  batchNorm (headDense r W b) g β

/-! ## The classifiers (stretches 14, 15, 16) -/

/-- The first classifier: a dense layer to 2 columns and its bias. -/
def classifier1 (h : Arr F S256x200 .f32) (W : Arr F S200x2 .f32) (b : Arr F S2 .f32) : Arr F S256x2 .f32 :=
  addf (Host.dotGeneral dot_S256x200_S200x2_S256x2_1_0_0_1_n_n none h W)
    (broadcastInDim S256x2 ![0, 1] bcast_S1x2_S256x2_0_1 (broadcastInDim S1x2 ![1] bcast_S2_S1x2_1 b))

/-- The second classifier's first dense layer, on  2 h − h. -/
def classifier2Dense (h : Arr F S256x200 .f32) (W : Arr F S200x64 .f32) : Arr F S256x64 .f32 :=
  Host.dotGeneral dot_S256x200_S200x64_S256x64_1_0_0_1_n_n none
    (subf (mulf (broadcastInDim S256x200 ![] bcast_S_S256x200 (constant S_ .f32 0x40000000#32)) h) h) W

/-- The rest of the second classifier: the bias, the rectifier  max · 0,  a dense layer to 6 columns and its bias. -/
def classifier2Out (z : Arr F S256x64 .f32) (b : Arr F S64 .f32) (W : Arr F S64x6 .f32) (b' : Arr F S6 .f32) :
    Arr F S256x6 .f32 :=
  addf (Host.dotGeneral dot_S256x64_S64x6_S256x6_1_0_0_1_n_n none
      (maximumf (addf z (broadcastInDim S256x64 ![0, 1] bcast_S1x64_S256x64_0_1 (broadcastInDim S1x64 ![1] bcast_S64_S1x64_1 b)))
        (broadcastInDim S256x64 ![] bcast_S_S256x64 (constant S_ .f32 0x00000000#32))) W)
    (broadcastInDim S256x6 ![0, 1] bcast_S1x6_S256x6_0_1 (broadcastInDim S1x6 ![1] bcast_S6_S1x6_1 b'))

/-! ## What each stretch leaves

For any contents W the stretch starts from: the contents it leaves in a buffer a later stretch (or the result) reads is the
stage function of the contents it found in the buffers it reads — the fold of the operations' results, unrolled, is the
composition by computation. -/

section Leaves

variable (W : Valuation τ sig (Elt F))

set_option maxRecDepth 8192 in
set_option maxHeartbeats 2000000 in
/-- After the first graph normalisation: `main_v5`. -/
theorem ops1_v5 : after ops1 W (no_index (Proc.devRef .tc main_v5)) = rowIdx (W (main_arg1 : DevRef τ sig)) := by
  after_results_simp <;> rfl

set_option maxRecDepth 8192 in
set_option maxHeartbeats 2000000 in
/-- After the first graph normalisation: `main_v6`. -/
theorem ops1_v6 : after ops1 W (no_index (Proc.devRef .tc main_v6)) = colIdx (W (main_arg1 : DevRef τ sig)) := by
  after_results_simp <;> rfl

set_option maxRecDepth 8192 in
set_option maxHeartbeats 2000000 in
/-- After the first graph normalisation: `main_v31`. -/
theorem ops1_v31 : after ops1 W (no_index (Proc.devRef .tc main_v31)) = norm (W (main_arg1 : DevRef τ sig)) (W (main_arg2 : DevRef τ sig)) := by
  after_results_simp <;> rfl

set_option maxRecDepth 8192 in
set_option maxHeartbeats 2000000 in
/-- After the first feature product: `main_v32`. -/
theorem ops2_v32 : after ops2 W (no_index (Proc.devRef .tc main_v32)) = featW1 (W (main_arg0 : DevRef τ sig)) (W (main_arg3 : DevRef τ sig)) := by
  after_results_simp <;> rfl

set_option maxRecDepth 8192 in
set_option maxHeartbeats 2000000 in
/-- After the first aggregation: `main_v45`. -/
theorem ops3_v45 : after ops3 W (no_index (Proc.devRef .tc main_v45)) = aggregate128 (W (main_v5 : DevRef τ sig)) (W (main_v6 : DevRef τ sig)) (W (main_v31 : DevRef τ sig)) (W (main_v32 : DevRef τ sig)) := by
  after_results_simp <;> rfl

set_option maxRecDepth 8192 in
set_option maxHeartbeats 2000000 in
/-- After the first bias: `main_v48`. -/
theorem ops4_v48 : after ops4 W (no_index (Proc.devRef .tc main_v48)) = layer1Pre (W (main_v45 : DevRef τ sig)) (W (main_arg4 : DevRef τ sig)) := by
  after_results_simp <;> rfl

set_option maxRecDepth 8192 in
set_option maxHeartbeats 2000000 in
/-- After the first mish: `main_v51`. -/
theorem ops5_v51 : after ops5 W (no_index (Proc.devRef .tc main_v51)) = mishWhole128 (W (main_v48 : DevRef τ sig)) := by
  after_results_simp <;> rfl

set_option maxRecDepth 8192 in
set_option maxHeartbeats 2000000 in
/-- After the second graph normalisation: `main_v57`. -/
theorem ops6_v57 : after ops6 W (no_index (Proc.devRef .tc main_v57)) = rowIdx (W (main_arg1 : DevRef τ sig)) := by
  after_results_simp <;> rfl

set_option maxRecDepth 8192 in
set_option maxHeartbeats 2000000 in
/-- After the second graph normalisation: `main_v58`. -/
theorem ops6_v58 : after ops6 W (no_index (Proc.devRef .tc main_v58)) = colIdx (W (main_arg1 : DevRef τ sig)) := by
  after_results_simp <;> rfl

set_option maxRecDepth 8192 in
set_option maxHeartbeats 2000000 in
/-- After the second graph normalisation: `main_v83`. -/
theorem ops6_v83 : after ops6 W (no_index (Proc.devRef .tc main_v83)) = norm (W (main_arg1 : DevRef τ sig)) (W (main_arg2 : DevRef τ sig)) := by
  after_results_simp <;> rfl

set_option maxRecDepth 8192 in
set_option maxHeartbeats 2000000 in
/-- After the second feature product: `main_v84`. -/
theorem ops7_v84 : after ops7 W (no_index (Proc.devRef .tc main_v84)) = featW2 (W (main_v51 : DevRef τ sig)) (W (main_arg5 : DevRef τ sig)) := by
  after_results_simp <;> rfl

set_option maxRecDepth 8192 in
set_option maxHeartbeats 2000000 in
/-- After the second aggregation: `main_v97`. -/
theorem ops8_v97 : after ops8 W (no_index (Proc.devRef .tc main_v97)) = aggregate64 (W (main_v57 : DevRef τ sig)) (W (main_v58 : DevRef τ sig)) (W (main_v83 : DevRef τ sig)) (W (main_v84 : DevRef τ sig)) := by
  after_results_simp <;> rfl

set_option maxRecDepth 8192 in
set_option maxHeartbeats 2000000 in
/-- After the second bias: `main_v100`. -/
theorem ops9_v100 : after ops9 W (no_index (Proc.devRef .tc main_v100)) = layer2Pre (W (main_v97 : DevRef τ sig)) (W (main_arg6 : DevRef τ sig)) := by
  after_results_simp <;> rfl

set_option maxRecDepth 8192 in
set_option maxHeartbeats 2000000 in
/-- After the second mish: `main_v103`. -/
theorem ops10_v103 : after ops10 W (no_index (Proc.devRef .tc main_v103)) = mishWhole64 (W (main_v100 : DevRef τ sig)) := by
  after_results_simp <;> rfl

set_option maxRecDepth 8192 in
set_option maxHeartbeats 2000000 in
/-- After the read-out: `main_v110`. -/
theorem ops11_v110 : after ops11 W (no_index (Proc.devRef .tc main_v110)) = readout (W (main_v103 : DevRef τ sig)) (W (main_arg7 : DevRef τ sig)) (W (main_arg8 : DevRef τ sig)) := by
  after_results_simp <;> rfl

set_option maxRecDepth 8192 in
set_option maxHeartbeats 2000000 in
/-- After the head: `main_v140`. -/
theorem ops12_v140 : after ops12 W (no_index (Proc.devRef .tc main_v140)) = headPre (W (main_v110 : DevRef τ sig)) (W (main_arg9 : DevRef τ sig)) (W (main_arg10 : DevRef τ sig)) (W (main_arg11 : DevRef τ sig)) (W (main_arg12 : DevRef τ sig)) := by
  after_results_simp <;> rfl

set_option maxRecDepth 8192 in
set_option maxHeartbeats 2000000 in
/-- After the head's mish: `main_v143`. -/
theorem ops13_v143 : after ops13 W (no_index (Proc.devRef .tc main_v143)) = mishWhole200 (W (main_v140 : DevRef τ sig)) := by
  after_results_simp <;> rfl

set_option maxRecDepth 8192 in
set_option maxHeartbeats 2000000 in
/-- After the first classifier: `main_v147`. -/
theorem ops14_v147 : after ops14 W (no_index (Proc.devRef .tc main_v147)) = classifier1 (W (main_v143 : DevRef τ sig)) (W (main_arg13 : DevRef τ sig)) (W (main_arg14 : DevRef τ sig)) := by
  after_results_simp <;> rfl

set_option maxRecDepth 8192 in
set_option maxHeartbeats 2000000 in
/-- After the second classifier's first half: `main_v151`. -/
theorem ops15_v151 : after ops15 W (no_index (Proc.devRef .tc main_v151)) = classifier2Dense (W (main_v143 : DevRef τ sig)) (W (main_arg15 : DevRef τ sig)) := by
  after_results_simp <;> rfl

set_option maxRecDepth 8192 in
set_option maxHeartbeats 2000000 in
/-- After the second classifier's second half: `main_v159`. -/
theorem ops16_v159 : after ops16 W (no_index (Proc.devRef .tc main_v159)) = classifier2Out (W (main_v151 : DevRef τ sig)) (W (main_arg16 : DevRef τ sig)) (W (main_arg17 : DevRef τ sig)) (W (main_arg18 : DevRef τ sig)) := by
  after_results_simp <;> rfl

end Leaves

/-! ## What each stretch keeps

A stretch's operations write one buffer each; a buffer that is none of them keeps its contents through the stretch. -/

/-- Every operation of a literal line writes a buffer of the given list: operation by operation. -/
local macro "writes_line" : tactic =>
  `(tactic| (simp only [List.Forall]
             repeat' apply And.intro
             all_goals
               (simp only [nullary_writes, unary_writes, binary_writes, ternary_writes, reshape_writes,
                  Finset.singleton_subset_iff, List.mem_toFinset]
                exact List.mem_map_of_mem (by decide))))

set_option maxRecDepth 8192 in
theorem ops1_writes : (ops1 : List (HloOp τ sig (Elt F))).Forall fun op =>
    op.writes ⊆ (ops1_W.map (Proc.devRef (τ := τ) .tc)).toFinset := by writes_line
/-- A buffer that the first graph normalisation does not write keeps its contents through it. -/
theorem ops1_kept (W : Valuation τ sig (Elt F)) {r : Ref sig .tc} (h : r ∉ ops1_W) :
    after ops1 W (no_index (Proc.devRef .tc r)) = W (Proc.devRef .tc r) :=
  after_of_writes_sub ops1 W ops1_writes h

set_option maxRecDepth 8192 in
theorem ops2_writes : (ops2 : List (HloOp τ sig (Elt F))).Forall fun op =>
    op.writes ⊆ (ops2_W.map (Proc.devRef (τ := τ) .tc)).toFinset := by writes_line
/-- A buffer that the first feature product does not write keeps its contents through it. -/
theorem ops2_kept (W : Valuation τ sig (Elt F)) {r : Ref sig .tc} (h : r ∉ ops2_W) :
    after ops2 W (no_index (Proc.devRef .tc r)) = W (Proc.devRef .tc r) :=
  after_of_writes_sub ops2 W ops2_writes h

set_option maxRecDepth 8192 in
theorem ops3_writes : (ops3 : List (HloOp τ sig (Elt F))).Forall fun op =>
    op.writes ⊆ (ops3_W.map (Proc.devRef (τ := τ) .tc)).toFinset := by writes_line
/-- A buffer that the first aggregation does not write keeps its contents through it. -/
theorem ops3_kept (W : Valuation τ sig (Elt F)) {r : Ref sig .tc} (h : r ∉ ops3_W) :
    after ops3 W (no_index (Proc.devRef .tc r)) = W (Proc.devRef .tc r) :=
  after_of_writes_sub ops3 W ops3_writes h

set_option maxRecDepth 8192 in
theorem ops4_writes : (ops4 : List (HloOp τ sig (Elt F))).Forall fun op =>
    op.writes ⊆ (ops4_W.map (Proc.devRef (τ := τ) .tc)).toFinset := by writes_line
/-- A buffer that the first bias does not write keeps its contents through it. -/
theorem ops4_kept (W : Valuation τ sig (Elt F)) {r : Ref sig .tc} (h : r ∉ ops4_W) :
    after ops4 W (no_index (Proc.devRef .tc r)) = W (Proc.devRef .tc r) :=
  after_of_writes_sub ops4 W ops4_writes h

set_option maxRecDepth 8192 in
theorem ops5_writes : (ops5 : List (HloOp τ sig (Elt F))).Forall fun op =>
    op.writes ⊆ (ops5_W.map (Proc.devRef (τ := τ) .tc)).toFinset := by writes_line
/-- A buffer that the first mish does not write keeps its contents through it. -/
theorem ops5_kept (W : Valuation τ sig (Elt F)) {r : Ref sig .tc} (h : r ∉ ops5_W) :
    after ops5 W (no_index (Proc.devRef .tc r)) = W (Proc.devRef .tc r) :=
  after_of_writes_sub ops5 W ops5_writes h

set_option maxRecDepth 8192 in
theorem ops6_writes : (ops6 : List (HloOp τ sig (Elt F))).Forall fun op =>
    op.writes ⊆ (ops6_W.map (Proc.devRef (τ := τ) .tc)).toFinset := by writes_line
/-- A buffer that the second graph normalisation does not write keeps its contents through it. -/
theorem ops6_kept (W : Valuation τ sig (Elt F)) {r : Ref sig .tc} (h : r ∉ ops6_W) :
    after ops6 W (no_index (Proc.devRef .tc r)) = W (Proc.devRef .tc r) :=
  after_of_writes_sub ops6 W ops6_writes h

set_option maxRecDepth 8192 in
theorem ops7_writes : (ops7 : List (HloOp τ sig (Elt F))).Forall fun op =>
    op.writes ⊆ (ops7_W.map (Proc.devRef (τ := τ) .tc)).toFinset := by writes_line
/-- A buffer that the second feature product does not write keeps its contents through it. -/
theorem ops7_kept (W : Valuation τ sig (Elt F)) {r : Ref sig .tc} (h : r ∉ ops7_W) :
    after ops7 W (no_index (Proc.devRef .tc r)) = W (Proc.devRef .tc r) :=
  after_of_writes_sub ops7 W ops7_writes h

set_option maxRecDepth 8192 in
theorem ops8_writes : (ops8 : List (HloOp τ sig (Elt F))).Forall fun op =>
    op.writes ⊆ (ops8_W.map (Proc.devRef (τ := τ) .tc)).toFinset := by writes_line
/-- A buffer that the second aggregation does not write keeps its contents through it. -/
theorem ops8_kept (W : Valuation τ sig (Elt F)) {r : Ref sig .tc} (h : r ∉ ops8_W) :
    after ops8 W (no_index (Proc.devRef .tc r)) = W (Proc.devRef .tc r) :=
  after_of_writes_sub ops8 W ops8_writes h

set_option maxRecDepth 8192 in
theorem ops9_writes : (ops9 : List (HloOp τ sig (Elt F))).Forall fun op =>
    op.writes ⊆ (ops9_W.map (Proc.devRef (τ := τ) .tc)).toFinset := by writes_line
/-- A buffer that the second bias does not write keeps its contents through it. -/
theorem ops9_kept (W : Valuation τ sig (Elt F)) {r : Ref sig .tc} (h : r ∉ ops9_W) :
    after ops9 W (no_index (Proc.devRef .tc r)) = W (Proc.devRef .tc r) :=
  after_of_writes_sub ops9 W ops9_writes h

set_option maxRecDepth 8192 in
theorem ops10_writes : (ops10 : List (HloOp τ sig (Elt F))).Forall fun op =>
    op.writes ⊆ (ops10_W.map (Proc.devRef (τ := τ) .tc)).toFinset := by writes_line
/-- A buffer that the second mish does not write keeps its contents through it. -/
theorem ops10_kept (W : Valuation τ sig (Elt F)) {r : Ref sig .tc} (h : r ∉ ops10_W) :
    after ops10 W (no_index (Proc.devRef .tc r)) = W (Proc.devRef .tc r) :=
  after_of_writes_sub ops10 W ops10_writes h

set_option maxRecDepth 8192 in
theorem ops11_writes : (ops11 : List (HloOp τ sig (Elt F))).Forall fun op =>
    op.writes ⊆ (ops11_W.map (Proc.devRef (τ := τ) .tc)).toFinset := by writes_line
/-- A buffer that the read-out does not write keeps its contents through it. -/
theorem ops11_kept (W : Valuation τ sig (Elt F)) {r : Ref sig .tc} (h : r ∉ ops11_W) :
    after ops11 W (no_index (Proc.devRef .tc r)) = W (Proc.devRef .tc r) :=
  after_of_writes_sub ops11 W ops11_writes h

set_option maxRecDepth 8192 in
theorem ops12_writes : (ops12 : List (HloOp τ sig (Elt F))).Forall fun op =>
    op.writes ⊆ (ops12_W.map (Proc.devRef (τ := τ) .tc)).toFinset := by writes_line
/-- A buffer that the head does not write keeps its contents through it. -/
theorem ops12_kept (W : Valuation τ sig (Elt F)) {r : Ref sig .tc} (h : r ∉ ops12_W) :
    after ops12 W (no_index (Proc.devRef .tc r)) = W (Proc.devRef .tc r) :=
  after_of_writes_sub ops12 W ops12_writes h

set_option maxRecDepth 8192 in
theorem ops13_writes : (ops13 : List (HloOp τ sig (Elt F))).Forall fun op =>
    op.writes ⊆ (ops13_W.map (Proc.devRef (τ := τ) .tc)).toFinset := by writes_line
/-- A buffer that the head's mish does not write keeps its contents through it. -/
theorem ops13_kept (W : Valuation τ sig (Elt F)) {r : Ref sig .tc} (h : r ∉ ops13_W) :
    after ops13 W (no_index (Proc.devRef .tc r)) = W (Proc.devRef .tc r) :=
  after_of_writes_sub ops13 W ops13_writes h

set_option maxRecDepth 8192 in
theorem ops14_writes : (ops14 : List (HloOp τ sig (Elt F))).Forall fun op =>
    op.writes ⊆ (ops14_W.map (Proc.devRef (τ := τ) .tc)).toFinset := by writes_line
/-- A buffer that the first classifier does not write keeps its contents through it. -/
theorem ops14_kept (W : Valuation τ sig (Elt F)) {r : Ref sig .tc} (h : r ∉ ops14_W) :
    after ops14 W (no_index (Proc.devRef .tc r)) = W (Proc.devRef .tc r) :=
  after_of_writes_sub ops14 W ops14_writes h

set_option maxRecDepth 8192 in
theorem ops15_writes : (ops15 : List (HloOp τ sig (Elt F))).Forall fun op =>
    op.writes ⊆ (ops15_W.map (Proc.devRef (τ := τ) .tc)).toFinset := by writes_line
/-- A buffer that the second classifier's first half does not write keeps its contents through it. -/
theorem ops15_kept (W : Valuation τ sig (Elt F)) {r : Ref sig .tc} (h : r ∉ ops15_W) :
    after ops15 W (no_index (Proc.devRef .tc r)) = W (Proc.devRef .tc r) :=
  after_of_writes_sub ops15 W ops15_writes h

set_option maxRecDepth 8192 in
theorem ops16_writes : (ops16 : List (HloOp τ sig (Elt F))).Forall fun op =>
    op.writes ⊆ (ops16_W.map (Proc.devRef (τ := τ) .tc)).toFinset := by writes_line
/-- A buffer that the second classifier's second half does not write keeps its contents through it. -/
theorem ops16_kept (W : Valuation τ sig (Elt F)) {r : Ref sig .tc} (h : r ∉ ops16_W) :
    after ops16 W (no_index (Proc.devRef .tc r)) = W (Proc.devRef .tc r) :=
  after_of_writes_sub ops16 W ops16_writes h

end Cert.ReferenceIdeal.Stages

end
-- ==== Proof.RefRun.lean ====
/-
  The reference program's run, read back as functions of its arguments.

  The program is the line of its operations (the module that cuts it into stretches), so every weakly fair execution
  terminates with each buffer at the fold of the operations' results over the launch contents. The fold over the joined
  line is the folds over the stretches, one after the other; each stretch leaves in the buffers read later the stage
  function of what it found, and leaves alone what it does not write. Composing the sixteen stretches gives the two
  results as the network's functions of the nineteen arguments:

    h1 = mish (Â (x W1) + b1),   h2 = mish (Â (h1 W2) + b2),   r = mish (h2 W3 + b3),
    t  = mish (batchnorm (relaid r · W4 + b4; γ, β)),
    logits = t W5 + b5,          classes = max ((2 t − t) W6 + b6) 0 · W7 + b7,

  with Â the edge coefficients' gather–scale–scatter. The arguments themselves are written by no operation.
-/
import proofs.«105513_j41961830482650_1_alg».proof.Proof.RefOps
import proofs.«105513_j41961830482650_1_alg».proof.Proof.RefStages

noncomputable section

namespace Cert.ReferenceIdeal.Stages

open Cert.ReferenceIdeal Cert.ReferenceIdeal.Gen Idealize.ShloMosaic Idealize.ShloMosaic.TcCoe Idealize.SL.Sem Idealize.ShloMosaic.StableHlo
open Cert.Lib.AfterAppend

variable {F : FTy → Type} [FloatOps F]

/-! ## The results as functions of the arguments -/

/-- The first layer's output:  mish (Â (x W1) + b1). -/
def layer1 (x : Arr F S51200x200 .f32) (ei : Arr F S2x1638400 .i32) (w : Arr F S1638400 .f32) (W1 : Arr F S200x128 .f32) (b1 : Arr F S128 .f32) : Arr F S51200x128 .f32 :=
  mishWhole128 (layer1Pre (aggregate128 (rowIdx ei) (colIdx ei) (norm ei w) (featW1 x W1)) b1)

/-- The second layer's output:  mish (Â (h1 W2) + b2). -/
def layer2 (x : Arr F S51200x200 .f32) (ei : Arr F S2x1638400 .i32) (w : Arr F S1638400 .f32) (W1 : Arr F S200x128 .f32) (b1 : Arr F S128 .f32) (W2 : Arr F S128x64 .f32) (b2 : Arr F S64 .f32) : Arr F S51200x64 .f32 :=
  mishWhole64 (layer2Pre (aggregate64 (rowIdx ei) (colIdx ei) (norm ei w) (featW2 (layer1 x ei w W1 b1) W2)) b2)

/-- The head's output: the read-out of the second layer, re-laid, through the dense layer, the batch normalisation and mish. -/
def headOut (x : Arr F S51200x200 .f32) (ei : Arr F S2x1638400 .i32) (w : Arr F S1638400 .f32) (W1 : Arr F S200x128 .f32) (b1 : Arr F S128 .f32) (W2 : Arr F S128x64 .f32) (b2 : Arr F S64 .f32) (W3 : Arr F S64x8 .f32) (b3 : Arr F S8 .f32) (W4 : Arr F S1600x200 .f32) (b4 : Arr F S200 .f32) (g : Arr F S200 .f32) (β : Arr F S200 .f32) : Arr F S256x200 .f32 :=
  mishWhole200 (headPre (readout (layer2 x ei w W1 b1 W2 b2) W3 b3) W4 b4 g β)

/-- The first result: the first classifier on the head's output. -/
def refLogits (x : Arr F S51200x200 .f32) (ei : Arr F S2x1638400 .i32) (w : Arr F S1638400 .f32) (W1 : Arr F S200x128 .f32) (b1 : Arr F S128 .f32) (W2 : Arr F S128x64 .f32) (b2 : Arr F S64 .f32) (W3 : Arr F S64x8 .f32) (b3 : Arr F S8 .f32) (W4 : Arr F S1600x200 .f32) (b4 : Arr F S200 .f32) (g : Arr F S200 .f32) (β : Arr F S200 .f32) (W5 : Arr F S200x2 .f32) (b5 : Arr F S2 .f32) : Arr F S256x2 .f32 :=
  classifier1 (headOut x ei w W1 b1 W2 b2 W3 b3 W4 b4 g β) W5 b5

/-- The second result: the second classifier on the head's output. -/
def refCls (x : Arr F S51200x200 .f32) (ei : Arr F S2x1638400 .i32) (w : Arr F S1638400 .f32) (W1 : Arr F S200x128 .f32) (b1 : Arr F S128 .f32) (W2 : Arr F S128x64 .f32) (b2 : Arr F S64 .f32) (W3 : Arr F S64x8 .f32) (b3 : Arr F S8 .f32) (W4 : Arr F S1600x200 .f32) (b4 : Arr F S200 .f32) (g : Arr F S200 .f32) (β : Arr F S200 .f32) (W6 : Arr F S200x64 .f32) (b6 : Arr F S64 .f32) (W7 : Arr F S64x6 .f32) (b7 : Arr F S6 .f32) : Arr F S256x6 .f32 :=
  classifier2Out (classifier2Dense (headOut x ei w W1 b1 W2 b2 W3 b3 W4 b4 g β) W6) b6 W7 b7

/-! ## The fold over the whole line -/

section Fold

variable (V : Valuation τ sig (Elt F))

set_option maxRecDepth 8192 in
set_option maxHeartbeats 4000000 in
/-- The first result buffer after the whole line: stretch by stretch from the last, each buffer read is what the stretch
    before left or kept. -/
theorem after_ops_v147 :
    after ops V (Proc.devRef .tc main_v147) = refLogits (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) := by
  unfold refLogits headOut layer2 layer1
  simp (disch := decide) only [
    ops, after_append, ops1_v5, ops1_v6, ops1_v31, ops2_v32, ops3_v45, ops4_v48,
    ops5_v51, ops6_v57, ops6_v58, ops6_v83, ops7_v84, ops8_v97, ops9_v100, ops10_v103,
    ops11_v110, ops12_v140, ops13_v143, ops14_v147, ops15_v151, ops16_v159, ops1_kept, ops2_kept,
    ops3_kept, ops4_kept, ops5_kept, ops6_kept, ops7_kept, ops8_kept, ops9_kept, ops10_kept,
    ops11_kept, ops12_kept, ops13_kept, ops14_kept, ops15_kept, ops16_kept]

set_option maxRecDepth 8192 in
set_option maxHeartbeats 4000000 in
/-- The second result buffer after the whole line. -/
theorem after_ops_v159 :
    after ops V (Proc.devRef .tc main_v159) = refCls (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg15)) (V (Proc.devRef .tc main_arg16)) (V (Proc.devRef .tc main_arg17)) (V (Proc.devRef .tc main_arg18)) := by
  unfold refCls headOut layer2 layer1
  simp (disch := decide) only [
    ops, after_append, ops1_v5, ops1_v6, ops1_v31, ops2_v32, ops3_v45, ops4_v48,
    ops5_v51, ops6_v57, ops6_v58, ops6_v83, ops7_v84, ops8_v97, ops9_v100, ops10_v103,
    ops11_v110, ops12_v140, ops13_v143, ops14_v147, ops15_v151, ops16_v159, ops1_kept, ops2_kept,
    ops3_kept, ops4_kept, ops5_kept, ops6_kept, ops7_kept, ops8_kept, ops9_kept, ops10_kept,
    ops11_kept, ops12_kept, ops13_kept, ops14_kept, ops15_kept, ops16_kept]

/-- A buffer that no stretch writes keeps its contents through the whole line. -/
theorem after_ops_kept {r : Ref sig .tc}
    (h1 : r ∉ ops1_W) (h2 : r ∉ ops2_W) (h3 : r ∉ ops3_W) (h4 : r ∉ ops4_W) (h5 : r ∉ ops5_W) (h6 : r ∉ ops6_W) (h7 : r ∉ ops7_W) (h8 : r ∉ ops8_W) (h9 : r ∉ ops9_W) (h10 : r ∉ ops10_W) (h11 : r ∉ ops11_W) (h12 : r ∉ ops12_W) (h13 : r ∉ ops13_W) (h14 : r ∉ ops14_W) (h15 : r ∉ ops15_W) (h16 : r ∉ ops16_W) :
    after ops V (Proc.devRef .tc r) = V (Proc.devRef .tc r) := by
  simp only [ops, after_append,
    ops1_kept _ h1, ops2_kept _ h2, ops3_kept _ h3, ops4_kept _ h4, ops5_kept _ h5, ops6_kept _ h6,
    ops7_kept _ h7, ops8_kept _ h8, ops9_kept _ h9, ops10_kept _ h10, ops11_kept _ h11, ops12_kept _ h12,
    ops13_kept _ h13, ops14_kept _ h14, ops15_kept _ h15, ops16_kept _ h16]

end Fold

/-! ## The run -/

set_option maxRecDepth 8192 in
/-- Every operation of the line determines the contents it writes: stretch by stretch, operation by operation. -/
theorem ops_fresh : ∀ op ∈ (ops : List (HloOp τ sig (Elt F))), op.fresh = ∅ := by
  intro op h
  simp only [ops, List.mem_append] at h
  rcases h with h | h | h | h | h | h | h | h | h | h | h | h | h | h | h | h <;>
    ((repeat (cases h with | head => rfl | tail _ h => ?_)); exact nomatch h)

/-- An argument buffer is in no stretch's list of written buffers: sixteen decisions. -/
local macro "arg_kept" V:term : term =>
  `(after_ops_kept $V (by decide) (by decide) (by decide) (by decide) (by decide) (by decide) (by decide) (by decide) (by decide) (by decide) (by decide) (by decide) (by decide) (by decide) (by decide) (by decide))

set_option maxRecDepth 8192 in
/-- On every device, for any float values, from any memory with zero counters: every weakly fair execution of @main
    terminates with the two results at the network's functions of the arguments' launch contents, and the nineteen
    arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v147) = refLogits (m ((c.tc : Thread nD τ).loc main_arg0))
          (m ((c.tc : Thread nD τ).loc main_arg1))
          (m ((c.tc : Thread nD τ).loc main_arg2))
          (m ((c.tc : Thread nD τ).loc main_arg3))
          (m ((c.tc : Thread nD τ).loc main_arg4))
          (m ((c.tc : Thread nD τ).loc main_arg5))
          (m ((c.tc : Thread nD τ).loc main_arg6))
          (m ((c.tc : Thread nD τ).loc main_arg7))
          (m ((c.tc : Thread nD τ).loc main_arg8))
          (m ((c.tc : Thread nD τ).loc main_arg9))
          (m ((c.tc : Thread nD τ).loc main_arg10))
          (m ((c.tc : Thread nD τ).loc main_arg11))
          (m ((c.tc : Thread nD τ).loc main_arg12))
          (m ((c.tc : Thread nD τ).loc main_arg13))
          (m ((c.tc : Thread nD τ).loc main_arg14))
      ∧ r.2.mem ((c.tc : Thread nD τ).loc main_v159) = refCls (m ((c.tc : Thread nD τ).loc main_arg0))
          (m ((c.tc : Thread nD τ).loc main_arg1))
          (m ((c.tc : Thread nD τ).loc main_arg2))
          (m ((c.tc : Thread nD τ).loc main_arg3))
          (m ((c.tc : Thread nD τ).loc main_arg4))
          (m ((c.tc : Thread nD τ).loc main_arg5))
          (m ((c.tc : Thread nD τ).loc main_arg6))
          (m ((c.tc : Thread nD τ).loc main_arg7))
          (m ((c.tc : Thread nD τ).loc main_arg8))
          (m ((c.tc : Thread nD τ).loc main_arg9))
          (m ((c.tc : Thread nD τ).loc main_arg10))
          (m ((c.tc : Thread nD τ).loc main_arg11))
          (m ((c.tc : Thread nD τ).loc main_arg12))
          (m ((c.tc : Thread nD τ).loc main_arg15))
          (m ((c.tc : Thread nD τ).loc main_arg16))
          (m ((c.tc : Thread nD τ).loc main_arg17))
          (m ((c.tc : Thread nD τ).loc main_arg18))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18) :=
  (θ_run defs _ _).mono (fun _ h c =>
      ⟨(h c main_v147).trans (after_ops_v147 (launchContents m c)),
       (h c main_v159).trans (after_ops_v159 (launchContents m c)),
       (h c main_arg0).trans (arg_kept (launchContents m c)),
       (h c main_arg1).trans (arg_kept (launchContents m c)),
       (h c main_arg2).trans (arg_kept (launchContents m c)),
       (h c main_arg3).trans (arg_kept (launchContents m c)),
       (h c main_arg4).trans (arg_kept (launchContents m c)),
       (h c main_arg5).trans (arg_kept (launchContents m c)),
       (h c main_arg6).trans (arg_kept (launchContents m c)),
       (h c main_arg7).trans (arg_kept (launchContents m c)),
       (h c main_arg8).trans (arg_kept (launchContents m c)),
       (h c main_arg9).trans (arg_kept (launchContents m c)),
       (h c main_arg10).trans (arg_kept (launchContents m c)),
       (h c main_arg11).trans (arg_kept (launchContents m c)),
       (h c main_arg12).trans (arg_kept (launchContents m c)),
       (h c main_arg13).trans (arg_kept (launchContents m c)),
       (h c main_arg14).trans (arg_kept (launchContents m c)),
       (h c main_arg15).trans (arg_kept (launchContents m c)),
       (h c main_arg16).trans (arg_kept (launchContents m c)),
       (h c main_arg17).trans (arg_kept (launchContents m c)),
       (h c main_arg18).trans (arg_kept (launchContents m c))⟩)
    (run_seq scopedRefs_eq scopedSems_eq defs main (fun _ => ops) main_eq (fun _ => ops_sub) m ρ (fun _ => ops_fresh))

end Cert.ReferenceIdeal.Stages

end
-- ==== Proof.HostStages.lean ====
/-
  The host side of the graph convolution, as whole-array functions.

  Edges are the given ones followed by one self loop per node: `rowIdx` and `colIdx` are the source and target of
  each, `edgeWeight` the given weights followed by ones.  A node's degree is the sum of the weights of the edges
  arriving at it; `invSqrtDeg` is  deg^(-1/2)  where the degree is positive and 0 elsewhere; an edge's coefficient
  `edgeNorm` is  invSqrtDeg(source) · weight · invSqrtDeg(target).  `aggregate` sends a feature matrix h to
  the matrix whose row at node v is the sum over the edges e arriving at v of  coefficient(e) · h[source(e)].
-/
import proofs.«105513_j41961830482650_1_alg».proof.Proof.Gen.KernelIdeal

noncomputable section

namespace Cert.KernelIdeal.Values

open Idealize.ShloMosaic Cert.KernelIdeal Cert.KernelIdeal.Facts₀

variable {F : FTy → Type} [FloatOps F]

variable (F) in
/-- An index per edge. -/
abbrev IdxE := (⟨S1689600, .i32⟩ : BufTy).Contents (Elt F)
variable (F) in
/-- The same as one column. -/
abbrev ColE := (⟨S1689600x1, .i32⟩ : BufTy).Contents (Elt F)
variable (F) in
/-- A float per edge. -/
abbrev VecE := (⟨S1689600, .f32⟩ : BufTy).Contents (Elt F)
variable (F) in
/-- A float per node. -/
abbrev VecN := (⟨S51200, .f32⟩ : BufTy).Contents (Elt F)

/-- Row `r` of the edge list  [2, E]  as a vector, followed by the node numbers  0 … N-1  (the self loops). -/
def rowIdx (ei : (⟨S2x1638400, .i32⟩ : BufTy).Contents (Elt F)) : IdxE F :=
  concatenate S1689600 0 [⟨S1638400, shapeCast S1638400 (extractStridedSlice S1x1638400 ![0, 0] ei slices_S2x1638400_S1x1638400_0_0) shapeCasts_S1x1638400_S1638400⟩, ⟨S51200, iotaInDim S51200 32 0⟩] concatenates_S1638400_S51200_S1689600_d0

def colIdx (ei : (⟨S2x1638400, .i32⟩ : BufTy).Contents (Elt F)) : IdxE F :=
  concatenate S1689600 0 [⟨S1638400, shapeCast S1638400 (extractStridedSlice S1x1638400 ![1, 0] ei slices_S2x1638400_S1x1638400_1_0) shapeCasts_S1x1638400_S1638400⟩, ⟨S51200, iotaInDim S51200 32 0⟩] concatenates_S1638400_S51200_S1689600_d0

/-- The given edge weights followed by a one for every self loop. -/
def edgeWeight (ea : (⟨S1638400, .f32⟩ : BufTy).Contents (Elt F)) : VecE F :=
  concatenate S1689600 0 [⟨S1638400, ea⟩, ⟨S51200, broadcastInDim S51200 ![] bcast_S_S51200 (constant S_ .f32 0x3F800000#32)⟩] concatenates_S1638400_S51200_S1689600_d0

/-- An index vector as the one-column matrix the gather and the scatter take. -/
def asColumn (idx : IdxE F) : ColE F := broadcastInDim S1689600x1 ![0] bcast_S1689600_S1689600x1_0 idx

/-- A negative index counts from the end: add the number of nodes to it. -/
def wrapIdx (idx : IdxE F) : IdxE F :=
  select (cmpi .slt idx (broadcastInDim S1689600 ![] bcast_S_S1689600 (constantI S_ 32 0#32)))
    (addi idx (broadcastInDim S1689600 ![] bcast_S_S1689600 (constantI S_ 32 51200#32))) idx

/-- The weighted in-degree of every node. -/
def degree (col : IdxE F) (w : VecE F) : VecN F :=
  Host.scatterAdd scatter_S51200_S1689600x1_S1689600_n_0_0_1 (broadcastInDim S51200 ![] bcast_S_S51200 (constant S_ .f32 0x00000000#32)) (asColumn col) w

/-- deg^(-1/2) where the degree is positive, 0 elsewhere. -/
def invSqrtDeg (deg : VecN F) : VecN F :=
  select (cmpf .ogt deg (broadcastInDim S51200 ![] bcast_S_S51200 (constant S_ .f32 0x00000000#32))) (Host.rsqrt deg)
    (broadcastInDim S51200 ![] bcast_S_S51200 (id (constant S_ .f32 0x00000000#32)))

/-- Every edge's coefficient  invSqrtDeg(source) · weight · invSqrtDeg(target). -/
def edgeNorm (row col : IdxE F) (w : VecE F) : VecE F :=
  mulf (mulf (Host.gather gather_S51200_S1689600x1_S1689600_n_0_n_n_0_1_1 (invSqrtDeg (degree col w)) (asColumn (wrapIdx row))) w)
    (Host.gather gather_S51200_S1689600x1_S1689600_n_0_n_n_0_1_1 (invSqrtDeg (degree col w)) (asColumn (wrapIdx col)))

/-- The aggregation of 128-wide features along the edges. -/
def aggregate128 (h : (⟨S51200x128, .f32⟩ : BufTy).Contents (Elt F)) (row col : IdxE F) (nrm : VecE F) :
    (⟨S51200x128, .f32⟩ : BufTy).Contents (Elt F) :=
  Host.scatterAdd scatter_S51200x128_S1689600x1_S1689600x128_1_0_0_1
    (broadcastInDim S51200x128 ![] bcast_S_S51200x128 (constant S_ .f32 0x00000000#32)) (asColumn col)
    (mulf (Host.gather gather_S51200x128_S1689600x1_S1689600x128_1_0_n_n_0_1_1128 h (asColumn (wrapIdx row)))
      (broadcastInDim S1689600x128 ![0, 1] bcast_S1689600x1_S1689600x128_0_1 (broadcastInDim S1689600x1 ![0] bcast_S1689600_S1689600x1_0 nrm)))

/-- The aggregation of 64-wide features along the edges. -/
def aggregate64 (h : (⟨S51200x64, .f32⟩ : BufTy).Contents (Elt F)) (row col : IdxE F) (nrm : VecE F) :
    (⟨S51200x64, .f32⟩ : BufTy).Contents (Elt F) :=
  Host.scatterAdd scatter_S51200x64_S1689600x1_S1689600x64_1_0_0_1
    (broadcastInDim S51200x64 ![] bcast_S_S51200x64 (constant S_ .f32 0x00000000#32)) (asColumn col)
    (mulf (Host.gather gather_S51200x64_S1689600x1_S1689600x64_1_0_n_n_0_1_164 h (asColumn (wrapIdx row)))
      (broadcastInDim S1689600x64 ![0, 1] bcast_S1689600x1_S1689600x64_0_1 (broadcastInDim S1689600x1 ![0] bcast_S1689600_S1689600x1_0 nrm)))

end Cert.KernelIdeal.Values

end
-- ==== Proof.KernelStretches.lean ====
/-
  What each stretch of host operations of the idealized kernel's @main writes, as whole-array functions.

  The first stretch lays out the edges with their self loops, the weights and the degrees; the outlined `where` keeps
  deg^(-1/2) on the positive degrees; the third forms every edge's coefficient; each stretch between two regions aggregates
  the previous region's product along the edges and lays the next bias out as a row; the last re-lays the read-out as
  the  [256, 1600]  feature matrix and the head's vectors as rows.
-/
import proofs.«105513_j41961830482650_1_alg».proof.Proof.Gen.KernelIdeal.Frame
import proofs.«105513_j41961830482650_1_alg».proof.Proof.HostStages
import Idealize.ShloMosaic.Lib.StableHlo.Run

set_option maxRecDepth 16384

noncomputable section

namespace Cert.KernelIdeal.Values

open Idealize.ShloMosaic Idealize.ShloMosaic.TcCoe Idealize.SL.Sem Idealize.ShloMosaic.StableHlo
open Cert.KernelIdeal Cert.KernelIdeal.Gen Cert.KernelIdeal.Facts₀

variable {F : FTy → Type} [FloatOps F]
variable (m : (ℓ : Loc nD τ sig) → Buf (Elt F) ℓ) (ρ : Dev nD → PrngReg)

/-! ## What each stretch of host operations writes, from ANY contents `W` at its start -/

variable (W : Valuation τ sig (Elt F))

theorem s0_v5 : StableHlo.after hostOps0 W (Proc.devRef .tc main_v5) = rowIdx (W (Proc.devRef .tc main_arg1)) := by
  after_results
  rfl

theorem s0_v6 : StableHlo.after hostOps0 W (Proc.devRef .tc main_v6) = colIdx (W (Proc.devRef .tc main_arg1)) := by
  after_results
  rfl

theorem s0_v8 : StableHlo.after hostOps0 W (Proc.devRef .tc main_v8) = edgeWeight (W (Proc.devRef .tc main_arg2)) := by
  after_results
  rfl

theorem s0_v13 : StableHlo.after hostOps0 W (Proc.devRef .tc main_v13)
    = cmpf .ogt (degree (colIdx (W (Proc.devRef .tc main_arg1))) (edgeWeight (W (Proc.devRef .tc main_arg2))))
        (broadcastInDim S51200 ![] Facts₀.bcast_S_S51200 (constant S_ .f32 0x00000000#32)) := by
  after_results
  rfl

theorem s0_v14 : StableHlo.after hostOps0 W (Proc.devRef .tc main_v14)
    = Host.rsqrt (degree (colIdx (W (Proc.devRef .tc main_arg1))) (edgeWeight (W (Proc.devRef .tc main_arg2)))) := by
  after_results
  rfl

theorem s0_cst_2 : StableHlo.after hostOps0 W (Proc.devRef .tc main_cst_2) = constant S_ .f32 0x00000000#32 := by
  after_results

theorem s01_v15 : StableHlo.after hostOps0_1 W (Proc.devRef .tc main_v15)
    = select (W (Proc.devRef .tc main_v13)) (W (Proc.devRef .tc main_v14)) (broadcastInDim S51200 ![] Facts₀.bcast_S_S51200 (id (W (Proc.devRef .tc main_cst_2)))) := by
  after_results
  rfl

set_option maxHeartbeats 2000000 in
theorem s02_v31 : StableHlo.after hostOps0_2 W (Proc.devRef .tc main_v31)
    = mulf (mulf (Host.gather gather_S51200_S1689600x1_S1689600_n_0_n_n_0_1_1 (W (Proc.devRef .tc main_v15)) (asColumn (wrapIdx (W (Proc.devRef .tc main_v5))))) (W (Proc.devRef .tc main_v8)))
        (Host.gather gather_S51200_S1689600x1_S1689600_n_0_n_n_0_1_1 (W (Proc.devRef .tc main_v15)) (asColumn (wrapIdx (W (Proc.devRef .tc main_v6))))) := by
  after_results
  unfold asColumn wrapIdx
  rfl

set_option maxHeartbeats 2000000 in
theorem s1_v45 : StableHlo.after hostOps1 W (Proc.devRef .tc main_v45)
    = aggregate128 (W (Proc.devRef .tc main_v32)) (W (Proc.devRef .tc main_v5)) (W (Proc.devRef .tc main_v6)) (W (Proc.devRef .tc main_v31)) := by
  after_results
  unfold aggregate128 asColumn wrapIdx
  rfl

theorem s1_v46 : StableHlo.after hostOps1 W (Proc.devRef .tc main_v46) = shapeCast S1x128 (W (Proc.devRef .tc main_arg4)) Facts₀.shapeCasts_S128_S1x128 := by
  after_results
  rfl

set_option maxHeartbeats 2000000 in
theorem s3_v61 : StableHlo.after hostOps3 W (Proc.devRef .tc main_v61)
    = aggregate64 (W (Proc.devRef .tc main_v48)) (W (Proc.devRef .tc main_v5)) (W (Proc.devRef .tc main_v6)) (W (Proc.devRef .tc main_v31)) := by
  after_results
  unfold aggregate64 asColumn wrapIdx
  rfl

theorem s3_v62 : StableHlo.after hostOps3 W (Proc.devRef .tc main_v62) = shapeCast S1x64 (W (Proc.devRef .tc main_arg6)) Facts₀.shapeCasts_S64_S1x64 := by
  after_results
  rfl

theorem s4_v64 : StableHlo.after hostOps4 W (Proc.devRef .tc main_v64) = shapeCast S1x8 (W (Proc.devRef .tc main_arg8)) Facts₀.shapeCasts_S8_S1x8 := by
  after_results
  rfl

theorem s5_v66 : StableHlo.after hostOps5 W (Proc.devRef .tc main_v66) = shapeCast S256x1600 (W (Proc.devRef .tc main_v65)) Facts₀.shapeCasts_S51200x8_S256x1600 := by
  after_results
  rfl

theorem s5_v67 : StableHlo.after hostOps5 W (Proc.devRef .tc main_v67) = shapeCast S1x200 (W (Proc.devRef .tc main_arg10)) Facts₀.shapeCasts_S200_S1x200 := by
  after_results
  rfl

theorem s5_v68 : StableHlo.after hostOps5 W (Proc.devRef .tc main_v68) = shapeCast S1x200 (W (Proc.devRef .tc main_arg11)) Facts₀.shapeCasts_S200_S1x200 := by
  after_results
  rfl

theorem s5_v69 : StableHlo.after hostOps5 W (Proc.devRef .tc main_v69) = shapeCast S1x200 (W (Proc.devRef .tc main_arg12)) Facts₀.shapeCasts_S200_S1x200 := by
  after_results
  rfl

theorem s5_v70 : StableHlo.after hostOps5 W (Proc.devRef .tc main_v70) = shapeCast S1x2 (W (Proc.devRef .tc main_arg14)) Facts₀.shapeCasts_S2_S1x2 := by
  after_results
  rfl

theorem s5_v71 : StableHlo.after hostOps5 W (Proc.devRef .tc main_v71) = shapeCast S1x64 (W (Proc.devRef .tc main_arg16)) Facts₀.shapeCasts_S64_S1x64 := by
  after_results
  rfl

theorem s5_v72 : StableHlo.after hostOps5 W (Proc.devRef .tc main_v72) = shapeCast S1x6 (W (Proc.devRef .tc main_arg18)) Facts₀.shapeCasts_S6_S1x6 := by
  after_results
  rfl

end Cert.KernelIdeal.Values

end
-- ==== Proof.KernelCarry.lean ====
/-
  Buffers that the stretches and the regions of @main leave alone.

  Each host operation writes one buffer and each region writes only its output arrays, so an argument array, the two
  index vectors and the edge coefficients are found at every later boundary exactly as they were written: the fold of
  boundary contents `Gen.W0 … Gen.W13` read at such a buffer walks back unchanged, one step per boundary.
-/
import proofs.«105513_j41961830482650_1_alg».proof.Proof.Gen.KernelIdeal.Frame

set_option maxRecDepth 16384

noncomputable section

namespace Cert.KernelIdeal.Values

open Idealize.ShloMosaic Idealize.ShloMosaic.TcCoe Idealize.SL.Sem
open Cert.KernelIdeal Cert.KernelIdeal.Gen

variable {F : FTy → Type} [FloatOps F]
variable (m : (ℓ : Loc nD τ sig) → Buf (Elt F) ℓ) (ρ : Dev nD → PrngReg)

/-- Closes `∀ op ∈ ops, b ∉ op.writes` for a literal stretch none of whose operations writes `b`. -/
macro "keeps" ops:ident : tactic =>
  `(tactic| (refine List.forall_iff_forall_mem.mp ?_
             simp only [$ops:ident, List.Forall, StableHlo.nullary_writes, StableHlo.unary_writes, StableHlo.binary_writes,
               StableHlo.ternary_writes, StableHlo.quaternary_writes, StableHlo.reshape_writes, StableHlo.binaryIndexed_writes,
               Finset.mem_singleton]
             repeat' apply And.intro
             all_goals exact StableHlo.devRef_ne_of_ne (by decide)))

theorem W3_arg0_from0 (c : Dev nD) : W3 m ρ c (Proc.devRef .tc main_arg0) = W0 m ρ c (Proc.devRef .tc main_arg0) :=
  calc W3 m ρ c (Proc.devRef .tc main_arg0)
    _ = W2 m ρ c (Proc.devRef .tc main_arg0) := StableHlo.after_of_forall_not_mem (b := Proc.devRef .tc main_arg0) _ _ (by keeps hostOps0_2)
    _ = W1 m ρ c (Proc.devRef .tc main_arg0) := StableHlo.after_of_forall_not_mem (b := Proc.devRef .tc main_arg0) _ _ (by keeps hostOps0_1)
    _ = W0 m ρ c (Proc.devRef .tc main_arg0) := StableHlo.after_of_forall_not_mem (b := Proc.devRef .tc main_arg0) _ _ (by keeps hostOps0)

theorem W3_arg3_from0 (c : Dev nD) : W3 m ρ c (Proc.devRef .tc main_arg3) = W0 m ρ c (Proc.devRef .tc main_arg3) :=
  calc W3 m ρ c (Proc.devRef .tc main_arg3)
    _ = W2 m ρ c (Proc.devRef .tc main_arg3) := StableHlo.after_of_forall_not_mem (b := Proc.devRef .tc main_arg3) _ _ (by keeps hostOps0_2)
    _ = W1 m ρ c (Proc.devRef .tc main_arg3) := StableHlo.after_of_forall_not_mem (b := Proc.devRef .tc main_arg3) _ _ (by keeps hostOps0_1)
    _ = W0 m ρ c (Proc.devRef .tc main_arg3) := StableHlo.after_of_forall_not_mem (b := Proc.devRef .tc main_arg3) _ _ (by keeps hostOps0)

theorem W4_arg4_from0 (c : Dev nD) : W4 m ρ c (Proc.devRef .tc main_arg4) = W0 m ρ c (Proc.devRef .tc main_arg4) :=
  calc W4 m ρ c (Proc.devRef .tc main_arg4)
    _ = W3 m ρ c (Proc.devRef .tc main_arg4) := W4_of_ne m ρ c main_arg4 (by decide)
    _ = W2 m ρ c (Proc.devRef .tc main_arg4) := StableHlo.after_of_forall_not_mem (b := Proc.devRef .tc main_arg4) _ _ (by keeps hostOps0_2)
    _ = W1 m ρ c (Proc.devRef .tc main_arg4) := StableHlo.after_of_forall_not_mem (b := Proc.devRef .tc main_arg4) _ _ (by keeps hostOps0_1)
    _ = W0 m ρ c (Proc.devRef .tc main_arg4) := StableHlo.after_of_forall_not_mem (b := Proc.devRef .tc main_arg4) _ _ (by keeps hostOps0)

theorem W6_arg5_from0 (c : Dev nD) : W6 m ρ c (Proc.devRef .tc main_arg5) = W0 m ρ c (Proc.devRef .tc main_arg5) :=
  calc W6 m ρ c (Proc.devRef .tc main_arg5)
    _ = W5 m ρ c (Proc.devRef .tc main_arg5) := W6_of_ne m ρ c main_arg5 (by decide)
    _ = W4 m ρ c (Proc.devRef .tc main_arg5) := StableHlo.after_of_forall_not_mem (b := Proc.devRef .tc main_arg5) _ _ (by keeps hostOps1)
    _ = W3 m ρ c (Proc.devRef .tc main_arg5) := W4_of_ne m ρ c main_arg5 (by decide)
    _ = W2 m ρ c (Proc.devRef .tc main_arg5) := StableHlo.after_of_forall_not_mem (b := Proc.devRef .tc main_arg5) _ _ (by keeps hostOps0_2)
    _ = W1 m ρ c (Proc.devRef .tc main_arg5) := StableHlo.after_of_forall_not_mem (b := Proc.devRef .tc main_arg5) _ _ (by keeps hostOps0_1)
    _ = W0 m ρ c (Proc.devRef .tc main_arg5) := StableHlo.after_of_forall_not_mem (b := Proc.devRef .tc main_arg5) _ _ (by keeps hostOps0)

theorem W7_arg6_from0 (c : Dev nD) : W7 m ρ c (Proc.devRef .tc main_arg6) = W0 m ρ c (Proc.devRef .tc main_arg6) :=
  calc W7 m ρ c (Proc.devRef .tc main_arg6)
    _ = W6 m ρ c (Proc.devRef .tc main_arg6) := W7_of_ne m ρ c main_arg6 (by decide)
    _ = W5 m ρ c (Proc.devRef .tc main_arg6) := W6_of_ne m ρ c main_arg6 (by decide)
    _ = W4 m ρ c (Proc.devRef .tc main_arg6) := StableHlo.after_of_forall_not_mem (b := Proc.devRef .tc main_arg6) _ _ (by keeps hostOps1)
    _ = W3 m ρ c (Proc.devRef .tc main_arg6) := W4_of_ne m ρ c main_arg6 (by decide)
    _ = W2 m ρ c (Proc.devRef .tc main_arg6) := StableHlo.after_of_forall_not_mem (b := Proc.devRef .tc main_arg6) _ _ (by keeps hostOps0_2)
    _ = W1 m ρ c (Proc.devRef .tc main_arg6) := StableHlo.after_of_forall_not_mem (b := Proc.devRef .tc main_arg6) _ _ (by keeps hostOps0_1)
    _ = W0 m ρ c (Proc.devRef .tc main_arg6) := StableHlo.after_of_forall_not_mem (b := Proc.devRef .tc main_arg6) _ _ (by keeps hostOps0)

theorem W9_arg8_from0 (c : Dev nD) : W9 m ρ c (Proc.devRef .tc main_arg8) = W0 m ρ c (Proc.devRef .tc main_arg8) :=
  calc W9 m ρ c (Proc.devRef .tc main_arg8)
    _ = W8 m ρ c (Proc.devRef .tc main_arg8) := W9_of_ne m ρ c main_arg8 (by decide)
    _ = W7 m ρ c (Proc.devRef .tc main_arg8) := StableHlo.after_of_forall_not_mem (b := Proc.devRef .tc main_arg8) _ _ (by keeps hostOps3)
    _ = W6 m ρ c (Proc.devRef .tc main_arg8) := W7_of_ne m ρ c main_arg8 (by decide)
    _ = W5 m ρ c (Proc.devRef .tc main_arg8) := W6_of_ne m ρ c main_arg8 (by decide)
    _ = W4 m ρ c (Proc.devRef .tc main_arg8) := StableHlo.after_of_forall_not_mem (b := Proc.devRef .tc main_arg8) _ _ (by keeps hostOps1)
    _ = W3 m ρ c (Proc.devRef .tc main_arg8) := W4_of_ne m ρ c main_arg8 (by decide)
    _ = W2 m ρ c (Proc.devRef .tc main_arg8) := StableHlo.after_of_forall_not_mem (b := Proc.devRef .tc main_arg8) _ _ (by keeps hostOps0_2)
    _ = W1 m ρ c (Proc.devRef .tc main_arg8) := StableHlo.after_of_forall_not_mem (b := Proc.devRef .tc main_arg8) _ _ (by keeps hostOps0_1)
    _ = W0 m ρ c (Proc.devRef .tc main_arg8) := StableHlo.after_of_forall_not_mem (b := Proc.devRef .tc main_arg8) _ _ (by keeps hostOps0)

theorem W10_arg7_from0 (c : Dev nD) : W10 m ρ c (Proc.devRef .tc main_arg7) = W0 m ρ c (Proc.devRef .tc main_arg7) :=
  calc W10 m ρ c (Proc.devRef .tc main_arg7)
    _ = W9 m ρ c (Proc.devRef .tc main_arg7) := StableHlo.after_of_forall_not_mem (b := Proc.devRef .tc main_arg7) _ _ (by keeps hostOps4)
    _ = W8 m ρ c (Proc.devRef .tc main_arg7) := W9_of_ne m ρ c main_arg7 (by decide)
    _ = W7 m ρ c (Proc.devRef .tc main_arg7) := StableHlo.after_of_forall_not_mem (b := Proc.devRef .tc main_arg7) _ _ (by keeps hostOps3)
    _ = W6 m ρ c (Proc.devRef .tc main_arg7) := W7_of_ne m ρ c main_arg7 (by decide)
    _ = W5 m ρ c (Proc.devRef .tc main_arg7) := W6_of_ne m ρ c main_arg7 (by decide)
    _ = W4 m ρ c (Proc.devRef .tc main_arg7) := StableHlo.after_of_forall_not_mem (b := Proc.devRef .tc main_arg7) _ _ (by keeps hostOps1)
    _ = W3 m ρ c (Proc.devRef .tc main_arg7) := W4_of_ne m ρ c main_arg7 (by decide)
    _ = W2 m ρ c (Proc.devRef .tc main_arg7) := StableHlo.after_of_forall_not_mem (b := Proc.devRef .tc main_arg7) _ _ (by keeps hostOps0_2)
    _ = W1 m ρ c (Proc.devRef .tc main_arg7) := StableHlo.after_of_forall_not_mem (b := Proc.devRef .tc main_arg7) _ _ (by keeps hostOps0_1)
    _ = W0 m ρ c (Proc.devRef .tc main_arg7) := StableHlo.after_of_forall_not_mem (b := Proc.devRef .tc main_arg7) _ _ (by keeps hostOps0)

theorem W11_arg10_from0 (c : Dev nD) : W11 m ρ c (Proc.devRef .tc main_arg10) = W0 m ρ c (Proc.devRef .tc main_arg10) :=
  calc W11 m ρ c (Proc.devRef .tc main_arg10)
    _ = W10 m ρ c (Proc.devRef .tc main_arg10) := W11_of_ne m ρ c main_arg10 (by decide)
    _ = W9 m ρ c (Proc.devRef .tc main_arg10) := StableHlo.after_of_forall_not_mem (b := Proc.devRef .tc main_arg10) _ _ (by keeps hostOps4)
    _ = W8 m ρ c (Proc.devRef .tc main_arg10) := W9_of_ne m ρ c main_arg10 (by decide)
    _ = W7 m ρ c (Proc.devRef .tc main_arg10) := StableHlo.after_of_forall_not_mem (b := Proc.devRef .tc main_arg10) _ _ (by keeps hostOps3)
    _ = W6 m ρ c (Proc.devRef .tc main_arg10) := W7_of_ne m ρ c main_arg10 (by decide)
    _ = W5 m ρ c (Proc.devRef .tc main_arg10) := W6_of_ne m ρ c main_arg10 (by decide)
    _ = W4 m ρ c (Proc.devRef .tc main_arg10) := StableHlo.after_of_forall_not_mem (b := Proc.devRef .tc main_arg10) _ _ (by keeps hostOps1)
    _ = W3 m ρ c (Proc.devRef .tc main_arg10) := W4_of_ne m ρ c main_arg10 (by decide)
    _ = W2 m ρ c (Proc.devRef .tc main_arg10) := StableHlo.after_of_forall_not_mem (b := Proc.devRef .tc main_arg10) _ _ (by keeps hostOps0_2)
    _ = W1 m ρ c (Proc.devRef .tc main_arg10) := StableHlo.after_of_forall_not_mem (b := Proc.devRef .tc main_arg10) _ _ (by keeps hostOps0_1)
    _ = W0 m ρ c (Proc.devRef .tc main_arg10) := StableHlo.after_of_forall_not_mem (b := Proc.devRef .tc main_arg10) _ _ (by keeps hostOps0)

theorem W11_arg11_from0 (c : Dev nD) : W11 m ρ c (Proc.devRef .tc main_arg11) = W0 m ρ c (Proc.devRef .tc main_arg11) :=
  calc W11 m ρ c (Proc.devRef .tc main_arg11)
    _ = W10 m ρ c (Proc.devRef .tc main_arg11) := W11_of_ne m ρ c main_arg11 (by decide)
    _ = W9 m ρ c (Proc.devRef .tc main_arg11) := StableHlo.after_of_forall_not_mem (b := Proc.devRef .tc main_arg11) _ _ (by keeps hostOps4)
    _ = W8 m ρ c (Proc.devRef .tc main_arg11) := W9_of_ne m ρ c main_arg11 (by decide)
    _ = W7 m ρ c (Proc.devRef .tc main_arg11) := StableHlo.after_of_forall_not_mem (b := Proc.devRef .tc main_arg11) _ _ (by keeps hostOps3)
    _ = W6 m ρ c (Proc.devRef .tc main_arg11) := W7_of_ne m ρ c main_arg11 (by decide)
    _ = W5 m ρ c (Proc.devRef .tc main_arg11) := W6_of_ne m ρ c main_arg11 (by decide)
    _ = W4 m ρ c (Proc.devRef .tc main_arg11) := StableHlo.after_of_forall_not_mem (b := Proc.devRef .tc main_arg11) _ _ (by keeps hostOps1)
    _ = W3 m ρ c (Proc.devRef .tc main_arg11) := W4_of_ne m ρ c main_arg11 (by decide)
    _ = W2 m ρ c (Proc.devRef .tc main_arg11) := StableHlo.after_of_forall_not_mem (b := Proc.devRef .tc main_arg11) _ _ (by keeps hostOps0_2)
    _ = W1 m ρ c (Proc.devRef .tc main_arg11) := StableHlo.after_of_forall_not_mem (b := Proc.devRef .tc main_arg11) _ _ (by keeps hostOps0_1)
    _ = W0 m ρ c (Proc.devRef .tc main_arg11) := StableHlo.after_of_forall_not_mem (b := Proc.devRef .tc main_arg11) _ _ (by keeps hostOps0)

theorem W11_arg12_from0 (c : Dev nD) : W11 m ρ c (Proc.devRef .tc main_arg12) = W0 m ρ c (Proc.devRef .tc main_arg12) :=
  calc W11 m ρ c (Proc.devRef .tc main_arg12)
    _ = W10 m ρ c (Proc.devRef .tc main_arg12) := W11_of_ne m ρ c main_arg12 (by decide)
    _ = W9 m ρ c (Proc.devRef .tc main_arg12) := StableHlo.after_of_forall_not_mem (b := Proc.devRef .tc main_arg12) _ _ (by keeps hostOps4)
    _ = W8 m ρ c (Proc.devRef .tc main_arg12) := W9_of_ne m ρ c main_arg12 (by decide)
    _ = W7 m ρ c (Proc.devRef .tc main_arg12) := StableHlo.after_of_forall_not_mem (b := Proc.devRef .tc main_arg12) _ _ (by keeps hostOps3)
    _ = W6 m ρ c (Proc.devRef .tc main_arg12) := W7_of_ne m ρ c main_arg12 (by decide)
    _ = W5 m ρ c (Proc.devRef .tc main_arg12) := W6_of_ne m ρ c main_arg12 (by decide)
    _ = W4 m ρ c (Proc.devRef .tc main_arg12) := StableHlo.after_of_forall_not_mem (b := Proc.devRef .tc main_arg12) _ _ (by keeps hostOps1)
    _ = W3 m ρ c (Proc.devRef .tc main_arg12) := W4_of_ne m ρ c main_arg12 (by decide)
    _ = W2 m ρ c (Proc.devRef .tc main_arg12) := StableHlo.after_of_forall_not_mem (b := Proc.devRef .tc main_arg12) _ _ (by keeps hostOps0_2)
    _ = W1 m ρ c (Proc.devRef .tc main_arg12) := StableHlo.after_of_forall_not_mem (b := Proc.devRef .tc main_arg12) _ _ (by keeps hostOps0_1)
    _ = W0 m ρ c (Proc.devRef .tc main_arg12) := StableHlo.after_of_forall_not_mem (b := Proc.devRef .tc main_arg12) _ _ (by keeps hostOps0)

theorem W11_arg14_from0 (c : Dev nD) : W11 m ρ c (Proc.devRef .tc main_arg14) = W0 m ρ c (Proc.devRef .tc main_arg14) :=
  calc W11 m ρ c (Proc.devRef .tc main_arg14)
    _ = W10 m ρ c (Proc.devRef .tc main_arg14) := W11_of_ne m ρ c main_arg14 (by decide)
    _ = W9 m ρ c (Proc.devRef .tc main_arg14) := StableHlo.after_of_forall_not_mem (b := Proc.devRef .tc main_arg14) _ _ (by keeps hostOps4)
    _ = W8 m ρ c (Proc.devRef .tc main_arg14) := W9_of_ne m ρ c main_arg14 (by decide)
    _ = W7 m ρ c (Proc.devRef .tc main_arg14) := StableHlo.after_of_forall_not_mem (b := Proc.devRef .tc main_arg14) _ _ (by keeps hostOps3)
    _ = W6 m ρ c (Proc.devRef .tc main_arg14) := W7_of_ne m ρ c main_arg14 (by decide)
    _ = W5 m ρ c (Proc.devRef .tc main_arg14) := W6_of_ne m ρ c main_arg14 (by decide)
    _ = W4 m ρ c (Proc.devRef .tc main_arg14) := StableHlo.after_of_forall_not_mem (b := Proc.devRef .tc main_arg14) _ _ (by keeps hostOps1)
    _ = W3 m ρ c (Proc.devRef .tc main_arg14) := W4_of_ne m ρ c main_arg14 (by decide)
    _ = W2 m ρ c (Proc.devRef .tc main_arg14) := StableHlo.after_of_forall_not_mem (b := Proc.devRef .tc main_arg14) _ _ (by keeps hostOps0_2)
    _ = W1 m ρ c (Proc.devRef .tc main_arg14) := StableHlo.after_of_forall_not_mem (b := Proc.devRef .tc main_arg14) _ _ (by keeps hostOps0_1)
    _ = W0 m ρ c (Proc.devRef .tc main_arg14) := StableHlo.after_of_forall_not_mem (b := Proc.devRef .tc main_arg14) _ _ (by keeps hostOps0)

theorem W11_arg16_from0 (c : Dev nD) : W11 m ρ c (Proc.devRef .tc main_arg16) = W0 m ρ c (Proc.devRef .tc main_arg16) :=
  calc W11 m ρ c (Proc.devRef .tc main_arg16)
    _ = W10 m ρ c (Proc.devRef .tc main_arg16) := W11_of_ne m ρ c main_arg16 (by decide)
    _ = W9 m ρ c (Proc.devRef .tc main_arg16) := StableHlo.after_of_forall_not_mem (b := Proc.devRef .tc main_arg16) _ _ (by keeps hostOps4)
    _ = W8 m ρ c (Proc.devRef .tc main_arg16) := W9_of_ne m ρ c main_arg16 (by decide)
    _ = W7 m ρ c (Proc.devRef .tc main_arg16) := StableHlo.after_of_forall_not_mem (b := Proc.devRef .tc main_arg16) _ _ (by keeps hostOps3)
    _ = W6 m ρ c (Proc.devRef .tc main_arg16) := W7_of_ne m ρ c main_arg16 (by decide)
    _ = W5 m ρ c (Proc.devRef .tc main_arg16) := W6_of_ne m ρ c main_arg16 (by decide)
    _ = W4 m ρ c (Proc.devRef .tc main_arg16) := StableHlo.after_of_forall_not_mem (b := Proc.devRef .tc main_arg16) _ _ (by keeps hostOps1)
    _ = W3 m ρ c (Proc.devRef .tc main_arg16) := W4_of_ne m ρ c main_arg16 (by decide)
    _ = W2 m ρ c (Proc.devRef .tc main_arg16) := StableHlo.after_of_forall_not_mem (b := Proc.devRef .tc main_arg16) _ _ (by keeps hostOps0_2)
    _ = W1 m ρ c (Proc.devRef .tc main_arg16) := StableHlo.after_of_forall_not_mem (b := Proc.devRef .tc main_arg16) _ _ (by keeps hostOps0_1)
    _ = W0 m ρ c (Proc.devRef .tc main_arg16) := StableHlo.after_of_forall_not_mem (b := Proc.devRef .tc main_arg16) _ _ (by keeps hostOps0)

theorem W11_arg18_from0 (c : Dev nD) : W11 m ρ c (Proc.devRef .tc main_arg18) = W0 m ρ c (Proc.devRef .tc main_arg18) :=
  calc W11 m ρ c (Proc.devRef .tc main_arg18)
    _ = W10 m ρ c (Proc.devRef .tc main_arg18) := W11_of_ne m ρ c main_arg18 (by decide)
    _ = W9 m ρ c (Proc.devRef .tc main_arg18) := StableHlo.after_of_forall_not_mem (b := Proc.devRef .tc main_arg18) _ _ (by keeps hostOps4)
    _ = W8 m ρ c (Proc.devRef .tc main_arg18) := W9_of_ne m ρ c main_arg18 (by decide)
    _ = W7 m ρ c (Proc.devRef .tc main_arg18) := StableHlo.after_of_forall_not_mem (b := Proc.devRef .tc main_arg18) _ _ (by keeps hostOps3)
    _ = W6 m ρ c (Proc.devRef .tc main_arg18) := W7_of_ne m ρ c main_arg18 (by decide)
    _ = W5 m ρ c (Proc.devRef .tc main_arg18) := W6_of_ne m ρ c main_arg18 (by decide)
    _ = W4 m ρ c (Proc.devRef .tc main_arg18) := StableHlo.after_of_forall_not_mem (b := Proc.devRef .tc main_arg18) _ _ (by keeps hostOps1)
    _ = W3 m ρ c (Proc.devRef .tc main_arg18) := W4_of_ne m ρ c main_arg18 (by decide)
    _ = W2 m ρ c (Proc.devRef .tc main_arg18) := StableHlo.after_of_forall_not_mem (b := Proc.devRef .tc main_arg18) _ _ (by keeps hostOps0_2)
    _ = W1 m ρ c (Proc.devRef .tc main_arg18) := StableHlo.after_of_forall_not_mem (b := Proc.devRef .tc main_arg18) _ _ (by keeps hostOps0_1)
    _ = W0 m ρ c (Proc.devRef .tc main_arg18) := StableHlo.after_of_forall_not_mem (b := Proc.devRef .tc main_arg18) _ _ (by keeps hostOps0)

theorem W12_arg9_from0 (c : Dev nD) : W12 m ρ c (Proc.devRef .tc main_arg9) = W0 m ρ c (Proc.devRef .tc main_arg9) :=
  calc W12 m ρ c (Proc.devRef .tc main_arg9)
    _ = W11 m ρ c (Proc.devRef .tc main_arg9) := StableHlo.after_of_forall_not_mem (b := Proc.devRef .tc main_arg9) _ _ (by keeps hostOps5)
    _ = W10 m ρ c (Proc.devRef .tc main_arg9) := W11_of_ne m ρ c main_arg9 (by decide)
    _ = W9 m ρ c (Proc.devRef .tc main_arg9) := StableHlo.after_of_forall_not_mem (b := Proc.devRef .tc main_arg9) _ _ (by keeps hostOps4)
    _ = W8 m ρ c (Proc.devRef .tc main_arg9) := W9_of_ne m ρ c main_arg9 (by decide)
    _ = W7 m ρ c (Proc.devRef .tc main_arg9) := StableHlo.after_of_forall_not_mem (b := Proc.devRef .tc main_arg9) _ _ (by keeps hostOps3)
    _ = W6 m ρ c (Proc.devRef .tc main_arg9) := W7_of_ne m ρ c main_arg9 (by decide)
    _ = W5 m ρ c (Proc.devRef .tc main_arg9) := W6_of_ne m ρ c main_arg9 (by decide)
    _ = W4 m ρ c (Proc.devRef .tc main_arg9) := StableHlo.after_of_forall_not_mem (b := Proc.devRef .tc main_arg9) _ _ (by keeps hostOps1)
    _ = W3 m ρ c (Proc.devRef .tc main_arg9) := W4_of_ne m ρ c main_arg9 (by decide)
    _ = W2 m ρ c (Proc.devRef .tc main_arg9) := StableHlo.after_of_forall_not_mem (b := Proc.devRef .tc main_arg9) _ _ (by keeps hostOps0_2)
    _ = W1 m ρ c (Proc.devRef .tc main_arg9) := StableHlo.after_of_forall_not_mem (b := Proc.devRef .tc main_arg9) _ _ (by keeps hostOps0_1)
    _ = W0 m ρ c (Proc.devRef .tc main_arg9) := StableHlo.after_of_forall_not_mem (b := Proc.devRef .tc main_arg9) _ _ (by keeps hostOps0)

theorem W12_arg13_from0 (c : Dev nD) : W12 m ρ c (Proc.devRef .tc main_arg13) = W0 m ρ c (Proc.devRef .tc main_arg13) :=
  calc W12 m ρ c (Proc.devRef .tc main_arg13)
    _ = W11 m ρ c (Proc.devRef .tc main_arg13) := StableHlo.after_of_forall_not_mem (b := Proc.devRef .tc main_arg13) _ _ (by keeps hostOps5)
    _ = W10 m ρ c (Proc.devRef .tc main_arg13) := W11_of_ne m ρ c main_arg13 (by decide)
    _ = W9 m ρ c (Proc.devRef .tc main_arg13) := StableHlo.after_of_forall_not_mem (b := Proc.devRef .tc main_arg13) _ _ (by keeps hostOps4)
    _ = W8 m ρ c (Proc.devRef .tc main_arg13) := W9_of_ne m ρ c main_arg13 (by decide)
    _ = W7 m ρ c (Proc.devRef .tc main_arg13) := StableHlo.after_of_forall_not_mem (b := Proc.devRef .tc main_arg13) _ _ (by keeps hostOps3)
    _ = W6 m ρ c (Proc.devRef .tc main_arg13) := W7_of_ne m ρ c main_arg13 (by decide)
    _ = W5 m ρ c (Proc.devRef .tc main_arg13) := W6_of_ne m ρ c main_arg13 (by decide)
    _ = W4 m ρ c (Proc.devRef .tc main_arg13) := StableHlo.after_of_forall_not_mem (b := Proc.devRef .tc main_arg13) _ _ (by keeps hostOps1)
    _ = W3 m ρ c (Proc.devRef .tc main_arg13) := W4_of_ne m ρ c main_arg13 (by decide)
    _ = W2 m ρ c (Proc.devRef .tc main_arg13) := StableHlo.after_of_forall_not_mem (b := Proc.devRef .tc main_arg13) _ _ (by keeps hostOps0_2)
    _ = W1 m ρ c (Proc.devRef .tc main_arg13) := StableHlo.after_of_forall_not_mem (b := Proc.devRef .tc main_arg13) _ _ (by keeps hostOps0_1)
    _ = W0 m ρ c (Proc.devRef .tc main_arg13) := StableHlo.after_of_forall_not_mem (b := Proc.devRef .tc main_arg13) _ _ (by keeps hostOps0)

theorem W12_arg15_from0 (c : Dev nD) : W12 m ρ c (Proc.devRef .tc main_arg15) = W0 m ρ c (Proc.devRef .tc main_arg15) :=
  calc W12 m ρ c (Proc.devRef .tc main_arg15)
    _ = W11 m ρ c (Proc.devRef .tc main_arg15) := StableHlo.after_of_forall_not_mem (b := Proc.devRef .tc main_arg15) _ _ (by keeps hostOps5)
    _ = W10 m ρ c (Proc.devRef .tc main_arg15) := W11_of_ne m ρ c main_arg15 (by decide)
    _ = W9 m ρ c (Proc.devRef .tc main_arg15) := StableHlo.after_of_forall_not_mem (b := Proc.devRef .tc main_arg15) _ _ (by keeps hostOps4)
    _ = W8 m ρ c (Proc.devRef .tc main_arg15) := W9_of_ne m ρ c main_arg15 (by decide)
    _ = W7 m ρ c (Proc.devRef .tc main_arg15) := StableHlo.after_of_forall_not_mem (b := Proc.devRef .tc main_arg15) _ _ (by keeps hostOps3)
    _ = W6 m ρ c (Proc.devRef .tc main_arg15) := W7_of_ne m ρ c main_arg15 (by decide)
    _ = W5 m ρ c (Proc.devRef .tc main_arg15) := W6_of_ne m ρ c main_arg15 (by decide)
    _ = W4 m ρ c (Proc.devRef .tc main_arg15) := StableHlo.after_of_forall_not_mem (b := Proc.devRef .tc main_arg15) _ _ (by keeps hostOps1)
    _ = W3 m ρ c (Proc.devRef .tc main_arg15) := W4_of_ne m ρ c main_arg15 (by decide)
    _ = W2 m ρ c (Proc.devRef .tc main_arg15) := StableHlo.after_of_forall_not_mem (b := Proc.devRef .tc main_arg15) _ _ (by keeps hostOps0_2)
    _ = W1 m ρ c (Proc.devRef .tc main_arg15) := StableHlo.after_of_forall_not_mem (b := Proc.devRef .tc main_arg15) _ _ (by keeps hostOps0_1)
    _ = W0 m ρ c (Proc.devRef .tc main_arg15) := StableHlo.after_of_forall_not_mem (b := Proc.devRef .tc main_arg15) _ _ (by keeps hostOps0)

theorem W12_arg17_from0 (c : Dev nD) : W12 m ρ c (Proc.devRef .tc main_arg17) = W0 m ρ c (Proc.devRef .tc main_arg17) :=
  calc W12 m ρ c (Proc.devRef .tc main_arg17)
    _ = W11 m ρ c (Proc.devRef .tc main_arg17) := StableHlo.after_of_forall_not_mem (b := Proc.devRef .tc main_arg17) _ _ (by keeps hostOps5)
    _ = W10 m ρ c (Proc.devRef .tc main_arg17) := W11_of_ne m ρ c main_arg17 (by decide)
    _ = W9 m ρ c (Proc.devRef .tc main_arg17) := StableHlo.after_of_forall_not_mem (b := Proc.devRef .tc main_arg17) _ _ (by keeps hostOps4)
    _ = W8 m ρ c (Proc.devRef .tc main_arg17) := W9_of_ne m ρ c main_arg17 (by decide)
    _ = W7 m ρ c (Proc.devRef .tc main_arg17) := StableHlo.after_of_forall_not_mem (b := Proc.devRef .tc main_arg17) _ _ (by keeps hostOps3)
    _ = W6 m ρ c (Proc.devRef .tc main_arg17) := W7_of_ne m ρ c main_arg17 (by decide)
    _ = W5 m ρ c (Proc.devRef .tc main_arg17) := W6_of_ne m ρ c main_arg17 (by decide)
    _ = W4 m ρ c (Proc.devRef .tc main_arg17) := StableHlo.after_of_forall_not_mem (b := Proc.devRef .tc main_arg17) _ _ (by keeps hostOps1)
    _ = W3 m ρ c (Proc.devRef .tc main_arg17) := W4_of_ne m ρ c main_arg17 (by decide)
    _ = W2 m ρ c (Proc.devRef .tc main_arg17) := StableHlo.after_of_forall_not_mem (b := Proc.devRef .tc main_arg17) _ _ (by keeps hostOps0_2)
    _ = W1 m ρ c (Proc.devRef .tc main_arg17) := StableHlo.after_of_forall_not_mem (b := Proc.devRef .tc main_arg17) _ _ (by keeps hostOps0_1)
    _ = W0 m ρ c (Proc.devRef .tc main_arg17) := StableHlo.after_of_forall_not_mem (b := Proc.devRef .tc main_arg17) _ _ (by keeps hostOps0)

theorem W7_v5_from3 (c : Dev nD) : W7 m ρ c (Proc.devRef .tc main_v5) = W3 m ρ c (Proc.devRef .tc main_v5) :=
  calc W7 m ρ c (Proc.devRef .tc main_v5)
    _ = W6 m ρ c (Proc.devRef .tc main_v5) := W7_of_ne m ρ c main_v5 (by decide)
    _ = W5 m ρ c (Proc.devRef .tc main_v5) := W6_of_ne m ρ c main_v5 (by decide)
    _ = W4 m ρ c (Proc.devRef .tc main_v5) := StableHlo.after_of_forall_not_mem (b := Proc.devRef .tc main_v5) _ _ (by keeps hostOps1)
    _ = W3 m ρ c (Proc.devRef .tc main_v5) := W4_of_ne m ρ c main_v5 (by decide)

theorem W7_v6_from3 (c : Dev nD) : W7 m ρ c (Proc.devRef .tc main_v6) = W3 m ρ c (Proc.devRef .tc main_v6) :=
  calc W7 m ρ c (Proc.devRef .tc main_v6)
    _ = W6 m ρ c (Proc.devRef .tc main_v6) := W7_of_ne m ρ c main_v6 (by decide)
    _ = W5 m ρ c (Proc.devRef .tc main_v6) := W6_of_ne m ρ c main_v6 (by decide)
    _ = W4 m ρ c (Proc.devRef .tc main_v6) := StableHlo.after_of_forall_not_mem (b := Proc.devRef .tc main_v6) _ _ (by keeps hostOps1)
    _ = W3 m ρ c (Proc.devRef .tc main_v6) := W4_of_ne m ρ c main_v6 (by decide)

theorem W7_v31_from3 (c : Dev nD) : W7 m ρ c (Proc.devRef .tc main_v31) = W3 m ρ c (Proc.devRef .tc main_v31) :=
  calc W7 m ρ c (Proc.devRef .tc main_v31)
    _ = W6 m ρ c (Proc.devRef .tc main_v31) := W7_of_ne m ρ c main_v31 (by decide)
    _ = W5 m ρ c (Proc.devRef .tc main_v31) := W6_of_ne m ρ c main_v31 (by decide)
    _ = W4 m ρ c (Proc.devRef .tc main_v31) := StableHlo.after_of_forall_not_mem (b := Proc.devRef .tc main_v31) _ _ (by keeps hostOps1)
    _ = W3 m ρ c (Proc.devRef .tc main_v31) := W4_of_ne m ρ c main_v31 (by decide)

theorem W4_v5_from3 (c : Dev nD) : W4 m ρ c (Proc.devRef .tc main_v5) = W3 m ρ c (Proc.devRef .tc main_v5) :=
  calc W4 m ρ c (Proc.devRef .tc main_v5)
    _ = W3 m ρ c (Proc.devRef .tc main_v5) := W4_of_ne m ρ c main_v5 (by decide)

theorem W4_v6_from3 (c : Dev nD) : W4 m ρ c (Proc.devRef .tc main_v6) = W3 m ρ c (Proc.devRef .tc main_v6) :=
  calc W4 m ρ c (Proc.devRef .tc main_v6)
    _ = W3 m ρ c (Proc.devRef .tc main_v6) := W4_of_ne m ρ c main_v6 (by decide)

theorem W4_v31_from3 (c : Dev nD) : W4 m ρ c (Proc.devRef .tc main_v31) = W3 m ρ c (Proc.devRef .tc main_v31) :=
  calc W4 m ρ c (Proc.devRef .tc main_v31)
    _ = W3 m ρ c (Proc.devRef .tc main_v31) := W4_of_ne m ρ c main_v31 (by decide)

theorem W10_v63_from9 (c : Dev nD) : W10 m ρ c (Proc.devRef .tc main_v63) = W9 m ρ c (Proc.devRef .tc main_v63) :=
  calc W10 m ρ c (Proc.devRef .tc main_v63)
    _ = W9 m ρ c (Proc.devRef .tc main_v63) := StableHlo.after_of_forall_not_mem (b := Proc.devRef .tc main_v63) _ _ (by keeps hostOps4)

theorem W3_v5_from1 (c : Dev nD) : W3 m ρ c (Proc.devRef .tc main_v5) = W1 m ρ c (Proc.devRef .tc main_v5) :=
  calc W3 m ρ c (Proc.devRef .tc main_v5)
    _ = W2 m ρ c (Proc.devRef .tc main_v5) := StableHlo.after_of_forall_not_mem (b := Proc.devRef .tc main_v5) _ _ (by keeps hostOps0_2)
    _ = W1 m ρ c (Proc.devRef .tc main_v5) := StableHlo.after_of_forall_not_mem (b := Proc.devRef .tc main_v5) _ _ (by keeps hostOps0_1)

theorem W3_v6_from1 (c : Dev nD) : W3 m ρ c (Proc.devRef .tc main_v6) = W1 m ρ c (Proc.devRef .tc main_v6) :=
  calc W3 m ρ c (Proc.devRef .tc main_v6)
    _ = W2 m ρ c (Proc.devRef .tc main_v6) := StableHlo.after_of_forall_not_mem (b := Proc.devRef .tc main_v6) _ _ (by keeps hostOps0_2)
    _ = W1 m ρ c (Proc.devRef .tc main_v6) := StableHlo.after_of_forall_not_mem (b := Proc.devRef .tc main_v6) _ _ (by keeps hostOps0_1)

theorem W2_v5_from1 (c : Dev nD) : W2 m ρ c (Proc.devRef .tc main_v5) = W1 m ρ c (Proc.devRef .tc main_v5) :=
  calc W2 m ρ c (Proc.devRef .tc main_v5)
    _ = W1 m ρ c (Proc.devRef .tc main_v5) := StableHlo.after_of_forall_not_mem (b := Proc.devRef .tc main_v5) _ _ (by keeps hostOps0_1)

theorem W2_v6_from1 (c : Dev nD) : W2 m ρ c (Proc.devRef .tc main_v6) = W1 m ρ c (Proc.devRef .tc main_v6) :=
  calc W2 m ρ c (Proc.devRef .tc main_v6)
    _ = W1 m ρ c (Proc.devRef .tc main_v6) := StableHlo.after_of_forall_not_mem (b := Proc.devRef .tc main_v6) _ _ (by keeps hostOps0_1)

theorem W2_v8_from1 (c : Dev nD) : W2 m ρ c (Proc.devRef .tc main_v8) = W1 m ρ c (Proc.devRef .tc main_v8) :=
  calc W2 m ρ c (Proc.devRef .tc main_v8)
    _ = W1 m ρ c (Proc.devRef .tc main_v8) := StableHlo.after_of_forall_not_mem (b := Proc.devRef .tc main_v8) _ _ (by keeps hostOps0_1)

end Cert.KernelIdeal.Values

end
-- ==== Proof.Spec.lean ====
/-
  The mathematics both programs compute, on the extended reals.

  A graph-convolution network: two layers  h ↦ mish (Â (h W) + b)  with Â the symmetrically normalised adjacency
  (self loops added), a dense read-out  mish (h W_ro + b_ro), and a head on the re-laid features: a dense layer, a batch
  normalisation over the 256 rows (mean and biased variance per column), mish, and two linear classifiers.
  This module fixes the scalar and index-wise forms the two programs are compared through.
-/
import Idealize.ShloMosaic.PureOps.Ideal
import Idealize.ShloMosaic.Lib.ValueIdx

noncomputable section

namespace Cert.Spec

open Idealize.ShloMosaic Idealize.ShloMosaic.ValueIdx

/-- softplus  log (1 + eᶻ)  in its overflow-safe form  max z 0 + log1p (e^{-|z|}),  with |z| = max z (-z). -/
def softplusS (z : EReal) : EReal := max z 0 + Ideal.log1p (Ideal.exp (-(max z (-z))))

/-- mish  z · tanh (softplus z). -/
def mishS (z : EReal) : EReal := z * Ideal.tanh (softplusS z)

/-- The matrix product, entry by entry:  (A B)(r, c) = ∑ₖ A(r, k) · B(k, c). -/
def mm {M K N : ℕ} (A : (⟨2, ![M, K]⟩ : Shape).Idx → EReal) (B : (⟨2, ![K, N]⟩ : Shape).Idx → EReal) :
    (⟨2, ![M, N]⟩ : Shape).Idx → EReal :=
  fun i => ∑ k : Fin K, A (ix2 (i 0) k) * B (ix2 k (i 1))

/-- A bias row  [1, N]  added to every row of a matrix, then mish, entry by entry. -/
def biasMish {M N : ℕ} (X : (⟨2, ![M, N]⟩ : Shape).Idx → EReal) (b : (⟨2, ![1, N]⟩ : Shape).Idx → EReal) :
    (⟨2, ![M, N]⟩ : Shape).Idx → EReal :=
  fun i => mishS (X i + b (ix2 0 (i 1)))

end Cert.Spec

end
-- ==== Proof.LibPlainMatmul.lean ====
/-
  A plain two-dimensional matrix product into a zero accumulator, read at a row and a column.

  For dimension numbers that contract the left operand's columns with the right operand's rows, with no batch axis,
  entry `(r, c)` of the product of an `[M, K]` matrix and a `[K, N]` matrix accumulated into zero is the sum over
  `k` of `lhs (r, k) * rhs (k, c)` on the extended reals: the accumulator contributes `0`, and the contraction
  index, a rank-one index, is re-indexed by its one coordinate. Stated for any extents and float formats, with the
  dimension numbers given by their six lists, so that any printed record with these lists unifies.
-/
import Idealize.ShloMosaic.PureOps.Ideal.Laws
import Idealize.ShloMosaic.Lib.ValueIdx

namespace Cert.Lib.PlainMatmul

open Idealize.ShloMosaic Idealize.ShloMosaic.ValueIdx

set_option backward.isDefEq.respectTransparency.types false in
/-- The product of `[M, K]` by `[K, N]` into the zero splat, at `(r, c)`: `∑ k, lhs (r, k) * rhs (k, c)`. -/
theorem matmul_zero_apply {M K N : ℕ} {φ₁ φ₂ : FTy}
    (d : DotDims ⟨2, ![M, K]⟩ ⟨2, ![K, N]⟩ ⟨2, ![M, N]⟩)
    (hlc : d.lhsContracting = [1]) (hrc : d.rhsContracting = [0])
    (hln : d.lhsNonContracting = [0]) (hrn : d.rhsNonContracting = [1])
    (hlb : d.lhsBatch = []) (hrb : d.rhsBatch = [])
    (prec : Option ContractPrecision) (lhs : FVec Ideal ⟨2, ![M, K]⟩ φ₁) (rhs : FVec Ideal ⟨2, ![K, N]⟩ φ₂)
    (r : Fin M) (c : Fin N) :
    FloatOps.matmul d prec lhs rhs (constant ⟨2, ![M, N]⟩ .f32 0x00000000#32) (ix2 r c)
      = ∑ k : Fin K, lhs (ix2 r k) * rhs (ix2 k c) := by
  obtain ⟨lc, rc, ln, rn, lb, rb, wf⟩ := d
  dsimp only at hlc hrc hln hrn hlb hrb
  subst hlc hrc hln hrn hlb hrb
  rw [Ideal.matmul_constant_zero_apply]
  rw [← Equiv.sum_comp (contrEquiv1 (⟨[1], [0], [0], [1], [], [], wf⟩ : DotDims ⟨2, ![M, K]⟩ ⟨2, ![K, N]⟩ ⟨2, ![M, N]⟩) K rfl rfl).symm]
  refine Finset.sum_congr rfl fun k _ => ?_
  have hk := contrEquiv1_symm_val (⟨[1], [0], [0], [1], [], [], wf⟩ : DotDims ⟨2, ![M, K]⟩ ⟨2, ![K, N]⟩ ⟨2, ![M, N]⟩) K rfl rfl k
  have el : (⟨[1], [0], [0], [1], [], [], wf⟩ : DotDims ⟨2, ![M, K]⟩ ⟨2, ![K, N]⟩ ⟨2, ![M, N]⟩).lhsIdx (ix2 r c)
      ((contrEquiv1 (⟨[1], [0], [0], [1], [], [], wf⟩ : DotDims ⟨2, ![M, K]⟩ ⟨2, ![K, N]⟩ ⟨2, ![M, N]⟩) K rfl rfl).symm k) = ix2 r k :=
    funext fun a => Fin.ext (by
      match a with
      | ⟨0, h0⟩ =>
        unfold DotDims.lhsIdx
        rw [dif_neg (show ¬ (⟨0, h0⟩ : Fin 2) ∈ ([] : List (Fin 2)) from List.not_mem_nil),
          dif_pos (show (⟨0, h0⟩ : Fin 2) ∈ [(0 : Fin 2)] from List.mem_singleton.mpr rfl)]
        rfl
      | ⟨1, _⟩ => exact (DotDims.lhsIdx_val_of_single _ rfl _ _).trans hk)
  have er : (⟨[1], [0], [0], [1], [], [], wf⟩ : DotDims ⟨2, ![M, K]⟩ ⟨2, ![K, N]⟩ ⟨2, ![M, N]⟩).rhsIdx (ix2 r c)
      ((contrEquiv1 (⟨[1], [0], [0], [1], [], [], wf⟩ : DotDims ⟨2, ![M, K]⟩ ⟨2, ![K, N]⟩ ⟨2, ![M, N]⟩) K rfl rfl).symm k) = ix2 k c :=
    funext fun a => Fin.ext (by
      match a with
      | ⟨0, _⟩ => exact (DotDims.rhsIdx_val_of_single _ rfl _ _).trans hk
      | ⟨1, h1⟩ =>
        unfold DotDims.rhsIdx
        rw [dif_neg (show ¬ (⟨1, h1⟩ : Fin 2) ∈ ([] : List (Fin 2)) from List.not_mem_nil),
          dif_pos (show (⟨1, h1⟩ : Fin 2) ∈ [(1 : Fin 2)] from List.mem_singleton.mpr rfl)]
        rfl)
  rw [el, er]

end Cert.Lib.PlainMatmul
-- ==== Proof.Region0.lean ====
/-
  The first row-tiled matrix product of the network: the feature matrix  x  [51200, 200]  times the first layer's
  weights  W₁  [200, 128].

  The grid has eight points. Point  t  multiplies rows  6400·t … 6400·t + 6399  of  x  by the whole of  W₁  and writes
  the  [6400, 128]  product back to the same rows of the result. Entry  (p, q)  of a point's product is
  ∑ₖ x(6400·t + p, k) · W₁(k, q),  which is entry  (6400·t + p, q)  of the whole product  x W₁;  the eight row bands
  tile the 51200 rows, so the result array ends holding  x W₁  entry by entry.
-/
import proofs.«105513_j41961830482650_1_alg».proof.Proof.Gen.KernelIdeal.Frame
import proofs.«105513_j41961830482650_1_alg».proof.Proof.Spec
import proofs.«105513_j41961830482650_1_alg».proof.Proof.LibPlainMatmul
import Idealize.ShloMosaic.Lib.Pipeline.Value
import Idealize.ShloMosaic.Lib.Tactic

set_option maxRecDepth 16384

noncomputable section

open Idealize.ShloMosaic Idealize.ShloMosaic.TcCoe Idealize.ShloMosaic.ValueIdx
open Idealize.ShloMosaic.Pipeline (Dat)

namespace Cert.KernelIdeal.Values

open Cert.KernelIdeal Cert.KernelIdeal.Gen

variable (V : (c : Dev nD) → (b : Ref sig .tc) → Buf (Elt Ideal) ((c : Thread nD τ).loc b))

namespace Region0

/-- The zero offsets of a whole-block access, however they are spelt. -/
theorem hz0 : (![0, 0] : Fin 2 → Nat) = fun _ => 0 := funext fun a => by fin_cases a <;> rfl

/-- A point's product at row  p  and column  q :  ∑ₖ x₀(p, k) · x₁(k, q). -/
theorem pay0_apply (x0 : Vec Ideal S6400x200 .f32) (x1 : Vec Ideal S200x128 .f32) (p : Fin 6400) (q : Fin 128) :
    Gen.k0_pay1 (F := Ideal) x0 x1 (ix2 p q) = ∑ k : Fin 200, x0 (ix2 p k) * x1 (ix2 k q) := by
  unfold Gen.k0_pay1
  exact Cert.Lib.PlainMatmul.matmul_zero_apply dot_S6400x200_S200x128_S6400x128_1_0_0_1_n_n rfl rfl rfl rfl rfl rfl none x0 x1 p q

/-- A point's product at a block index  j  is the whole product  A B  at the array index  i,  when the point's left block
    holds row  i 0  of  A  in its row  j 0,  and its right block holds column  i 1  of  B  in its column  j 1. -/
theorem point0 (A : S51200x200.Idx → EReal) (B : S200x128.Idx → EReal)
    (x0 : Vec Ideal S6400x200 .f32) (x1 : Vec Ideal S200x128 .f32) (j : S6400x128.Idx) (i : S51200x128.Idx)
    (h0 : ∀ k : Fin 200, x0 (ix2 (j 0) k) = A (ix2 (i 0) k))
    (h1 : ∀ k : Fin 200, x1 (ix2 k (j 1)) = B (ix2 k (i 1))) :
    Gen.k0_pay1 (F := Ideal) x0 x1 j = Cert.Spec.mm A B i := by
  obtain ⟨p, q, rfl⟩ : ∃ (p : Fin 6400) (q : Fin 128), j = ix2 p q := ⟨j 0, j 1, eq_ix2 j⟩
  rw [pay0_apply]
  show _ = ∑ k : Fin 200, A (ix2 (i 0) k) * B (ix2 k (i 1))
  exact Finset.sum_congr rfl fun k _ => congrArg₂ (· * ·) (h0 k) (h1 k)

/-- The printed index maps over the grid: the left operand's and the result's blocks are band  t  of the rows, all
    columns; the right operand's block is the whole matrix. -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point  t  writes back is band  t  of the rows of  x W₁. -/
theorem flushed0_eq (c : Dev nD) (t : Fin cfg0.N) :
    (Gen.dat0 (F := Ideal) V c).flushed 2 t
      = ((cfg0.win 2).blk t).view.read (Elt Ideal) (Cert.Spec.mm (V c main_arg0) (V c main_arg3)) := by
  show (cfg0.win 2).cut (grid0.coords t) ((Gen.dat0 (F := Ideal) V c).after 2 t) = _
  rw [Gen.after0_2]
  unfold Gen.out0_2
  rw [View.canon_unit_zero hz0]
  simp only [View.ld_unit_zero (S := S6400x200) hz0, View.ld_unit_zero (S := S200x128) hz0]
  obtain ⟨e00, e01, e10, e11, e20, e21⟩ := idx_facts0 t
  funext j
  refine point0 (V c main_arg0) (V c main_arg3) (Gen.iblk0 V c 0 t) (Gen.iblk0 V c 1 t) _ _ (fun k => ?_) (fun k => ?_)
  · show V c main_arg0 (((cfg0.win 0).blk t).view.emb (ix2 (j 0) k)) = V c main_arg0 _
    refine congrArg _ (funext fun a => Fin.ext ?_)
    match a with
    | ⟨0, _⟩ =>
      show win0_0.index t (0 : Fin 2) * 6400 + 1 * (j 0).val = win0_2.index t (0 : Fin 2) * 6400 + 1 * (j 0).val
      rw [e00, e20]
    | ⟨1, _⟩ =>
      show win0_0.index t (1 : Fin 2) * 200 + 1 * k.val = k.val
      rw [e01]; omega
  · show V c main_arg3 (((cfg0.win 1).blk t).view.emb (ix2 k (j 1))) = V c main_arg3 _
    refine congrArg _ (funext fun a => Fin.ext ?_)
    match a with
    | ⟨0, _⟩ =>
      show win0_1.index t (0 : Fin 2) * 200 + 1 * k.val = k.val
      rw [e10]; omega
    | ⟨1, _⟩ =>
      show win0_1.index t (1 : Fin 2) * 128 + 1 * (j 1).val = win0_2.index t (1 : Fin 2) * 128 + 1 * (j 1).val
      rw [e11, e21]

/-- An index of the result is in point  t 's block iff its row is in band  t. -/
theorem mem_blk0 (t : Fin cfg0.N) (i : S51200x128.Idx) :
    i ∈ ((cfg0.win 2).blk t).view.set ↔ ∀ a : Fin 2, win0_2.index t a * S6400x128.size a ≤ (i a).val ∧ (i a).val < win0_2.index t a * S6400x128.size a + S6400x128.size a := by
  show i ∈ ((View.whole main_v32).slice (win0_2.rect t)).set ↔ _
  rw [View.set_slice_whole, Rect.mem_set_unit]
  exact Iff.rfl

/-- Every row lies in the band of the point  row / 6400. -/
theorem cover0 (i : S51200x128.Idx) :
    ∃ t : Fin cfg0.N, (cfg0.win 2).flush t = true ∧ i ∈ ((cfg0.win 2).blk t).view.set := by
  have hi0 : (i 0).val < 51200 := (i 0).isLt
  have hi1 : (i 1).val < 128 := (i 1).isLt
  have hN : cfg0.N = 8 := Gen.N_0
  let t : Fin cfg0.N := ⟨(i 0).val / 6400, by rw [hN]; omega⟩
  obtain ⟨e00, e01, e10, e11, e20, e21⟩ := idx_facts0 t
  refine ⟨t, Gen.flush0_2 t, ?_⟩
  rw [mem_blk0]
  intro a
  match a with
  | ⟨0, _⟩ =>
    show win0_2.index t (0 : Fin 2) * 6400 ≤ (i 0).val ∧ (i 0).val < win0_2.index t (0 : Fin 2) * 6400 + 6400
    rw [e20]; show (i 0).val / 6400 * 6400 ≤ (i 0).val ∧ (i 0).val < (i 0).val / 6400 * 6400 + 6400
    omega
  | ⟨1, _⟩ =>
    show win0_2.index t (1 : Fin 2) * 128 ≤ (i 1).val ∧ (i 1).val < win0_2.index t (1 : Fin 2) * 128 + 128
    rw [e21]; omega

end Region0

/-- THE RESULT of the first matrix product: the array ends holding  x W₁,  whatever the region found in it. -/
theorem region0_value (c : Dev nD) :
    (Gen.dat0 (F := Ideal) V c).arrAt 2 cfg0.N = Cert.Spec.mm (V c main_arg0) (V c main_arg3) :=
  (Gen.dat0 (F := Ideal) V c).arrAt_eq_of_cover 2 (Cert.Spec.mm (V c main_arg0) (V c main_arg3))
    (fun t _ => Region0.flushed0_eq V c t) Region0.cover0

end Cert.KernelIdeal.Values

end
-- ==== Proof.MishScalar.lean ====
/-
  One entry of the bias-and-mish bodies, as a function of one extended real.

  The bodies spell softplus as  max z 0 + log1p (exp (0 - |z - 0|))  behind a guard that selects  z + 0  where
  z - 0  differs from itself.  No extended real differs from itself, so the guard never fires; what remains is
  Cert.Spec.mishS.
-/
import Idealize.ShloMosaic.PureOps.Ideal
import Idealize.ShloMosaic.PureOps.Ideal.Laws
import proofs.«105513_j41961830482650_1_alg».proof.Proof.Spec

noncomputable section

namespace Cert.KernelIdeal.Values.Mish

open Idealize.ShloMosaic

/-- No extended real differs from itself: the comparison "ordered and not equal" of x with x is the zero bit. -/
theorem cmp_one_self (x : EReal) : Ideal.cmp .one x x = 0#1 := by
  simp [Ideal.cmp]

/-- The same for its unordered twin. -/
theorem cmp_une_self (x : EReal) : Ideal.cmp .une x x = 0#1 := by
  simp [Ideal.cmp]

/-- A select on the zero bit takes its second branch. -/
theorem select_zero {α : Type} (a b : α) : Scalar.select 0#1 a b = b := by
  simp [Scalar.select]

/-- The bodies' elementwise chain on one extended real  z  (the biased entry) is  mish z. -/
theorem mish_chain (z : EReal) :
    z * Ideal.tanh (Scalar.select (Ideal.cmp .one (z - 0) (z - 0)) (z + 0)
        (max z 0 + Ideal.log1p (Ideal.exp (0 - max (z - 0) (-(z - 0)))))) = Cert.Spec.mishS z := by
  rw [cmp_one_self, select_zero, sub_zero, zero_sub]
  rfl

end Cert.KernelIdeal.Values.Mish

end
-- ==== Proof.Region1.lean ====
/-
  Region 1: the first layer's bias and activation.

  The region's grid has eight points; point t loads rows 6400 t … 6400 t + 6399 of the matrix X, the whole bias row b,
  and stores  mish (X + b)  on those rows.  The eight row blocks fill the result, so the result array ends holding
  mish (X(r, c) + b(0, c))  at every (r, c):  Cert.Spec.biasMish X b.
-/
import proofs.«105513_j41961830482650_1_alg».proof.Proof.Gen.KernelIdeal.Frame
import proofs.«105513_j41961830482650_1_alg».proof.Proof.Spec
import proofs.«105513_j41961830482650_1_alg».proof.Proof.MishScalar
import Idealize.ShloMosaic.Lib.Pipeline.Value
import Idealize.ShloMosaic.Lib.ValueIdx
import Idealize.ShloMosaic.Lib.Tactic

noncomputable section

open Idealize.ShloMosaic Idealize.ShloMosaic.TcCoe Idealize.SL.Sem Idealize.ShloMosaic.ValueIdx
open Idealize.ShloMosaic.Pipeline (Dat)

namespace Cert.KernelIdeal.Values.Region1

open Cert.KernelIdeal Cert.KernelIdeal.Gen

variable (V : (c : Dev nD) → (b : Ref sig .tc) → Buf (Elt Ideal) ((c : Thread nD τ).loc b))

/-- The zero offsets of a body's whole-buffer loads and stores. -/
theorem zero_offsets1 : (![0, 0] : Fin 2 → Nat) = fun _ => 0 := funext fun a => by fin_cases a <;> rfl

/-! ## One entry of the body's result -/

/-- The bias row broadcast over the block's rows reads the bias at the entry's column. -/
theorem bias_row1 (b : S1x128.Idx → Ideal .f32) (p : Fin 6400) (q : Fin 128) :
    broadcastTo S6400x128 b broadcasts_S1x128_S6400x128 (ix2 p q) = b (ix2 0 q) :=
  broadcastTo_apply b _ (ix2 p q) (ix2 0 q) (fun a => by
    match a with
    | ⟨0, _⟩ => rfl
    | ⟨1, _⟩ => rfl)

/-- The body's stored value at row p, column q of its block: mish of the loaded entry plus the bias at q. -/
theorem pay1_apply (v0 : Vec Ideal S6400x128 .f32) (v2 : Vec Ideal S1x128 .f32) (p : Fin 6400) (q : Fin 128) :
    k1_pay1 (F := Ideal) v0 v2 (ix2 p q) = Cert.Spec.mishS (v0 (ix2 p q) + v2 (ix2 0 q)) := by
  unfold k1_pay1
  simp only [shapeCast_self, Ideal.ofBits_def, Ideal.ofBits_zero_f32]
  rw [← Mish.mish_chain, ← bias_row1 v2 p q]
  rfl

/-- The same entry, once the two loaded blocks are known to be pieces of a matrix A and a bias row b. -/
theorem pay1_point (x0 : Vec Ideal S6400x128 .f32) (x1 : Vec Ideal S1x128 .f32)
    (A : S51200x128.Idx → EReal) (b : S1x128.Idx → EReal) (p : Fin 6400) (q : Fin 128) (i : S51200x128.Idx)
    (h0 : x0 (ix2 p q) = A i) (h1 : x1 (ix2 0 q) = b (ix2 0 (i 1))) :
    k1_pay1 (F := Ideal) x0 x1 (ix2 p q) = Cert.Spec.biasMish A b i := by
  rw [pay1_apply, h0, h1]
  rfl

/-! ## From the blocks to the array -/

/-- The index maps over the grid: point t takes row block t of the matrix and of the result, and the whole bias row. -/
theorem idx_facts1 : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- What point t writes back is block t of  mish (X + b)  of the arrays as the region finds them. -/
theorem flushed1_eq (c : Dev nD) (t : Fin cfg1.N) :
    (dat1 (F := Ideal) V c).flushed 2 t
      = ((cfg1.win 2).blk t).view.read (Elt Ideal) (Cert.Spec.biasMish (V c main_v45) (V c main_v46)) := by
  show (cfg1.win 2).cut (grid1.coords t) ((dat1 (F := Ideal) V c).after 2 t) = _
  rw [after1_2]
  unfold out1_2
  rw [View.canon_unit_zero zero_offsets1]
  simp only [View.ld_unit_zero (S := S6400x128) zero_offsets1, View.ld_unit_zero (S := S1x128) zero_offsets1]
  obtain ⟨e0, e1, e2, e3, e4, e5⟩ := idx_facts1 t
  refine funext fun (j : S6400x128.Idx) => ?_
  obtain ⟨p, q, rfl⟩ : ∃ (p : Fin 6400) (q : Fin 128), j = ix2 p q := ⟨j 0, j 1, eq_ix2 j⟩
  show k1_pay1 (F := Ideal) (iblk1 V c 0 t) (iblk1 V c 1 t) (ix2 p q)
    = Cert.Spec.biasMish (V c main_v45) (V c main_v46) (((cfg1.win 2).blk t).view.emb (ix2 p q))
  refine pay1_point _ _ _ _ p q _ ?_ ?_
  · show V c main_v45 (((cfg1.win 0).blk t).view.emb (ix2 p q)) = V c main_v45 (((cfg1.win 2).blk t).view.emb (ix2 p q))
    refine congrArg _ (funext fun a => Fin.ext ?_)
    match a with
    | ⟨0, _⟩ => show win1_0.index t (0 : Fin 2) * 6400 + 1 * p.val = win1_2.index t (0 : Fin 2) * 6400 + 1 * p.val; omega
    | ⟨1, _⟩ => show win1_0.index t (1 : Fin 2) * 128 + 1 * q.val = win1_2.index t (1 : Fin 2) * 128 + 1 * q.val; omega
  · show V c main_v46 (((cfg1.win 1).blk t).view.emb (ix2 0 q)) = V c main_v46 (ix2 0 ((((cfg1.win 2).blk t).view.emb (ix2 p q)) 1))
    refine congrArg _ (funext fun a => Fin.ext ?_)
    match a with
    | ⟨0, _⟩ => show win1_1.index t (0 : Fin 2) * 1 + 1 * 0 = 0; omega
    | ⟨1, _⟩ => show win1_1.index t (1 : Fin 2) * 128 + 1 * q.val = win1_2.index t (1 : Fin 2) * 128 + 1 * q.val; omega

/-- An index of the result is in point t's block iff each coordinate is in the block's range on its axis. -/
theorem mem_blk1 (t : Fin cfg1.N) (i : S51200x128.Idx) :
    i ∈ ((cfg1.win 2).blk t).view.set ↔ ∀ a : Fin 2, win1_2.index t a * S6400x128.size a ≤ (i a).val
      ∧ (i a).val < win1_2.index t a * S6400x128.size a + S6400x128.size a := by
  show i ∈ ((View.whole main_v47).slice (win1_2.rect t)).set ↔ _
  rw [View.set_slice_whole, Rect.mem_set_unit]
  exact Iff.rfl

/-- Row r of the result lies in the block of point r / 6400: the eight row blocks fill the array. -/
theorem cover1 (i : S51200x128.Idx) :
    ∃ t : Fin cfg1.N, (cfg1.win 2).flush t = true ∧ i ∈ ((cfg1.win 2).blk t).view.set := by
  have hi0 : (i 0).val < 51200 := (i 0).isLt
  have hi1 : (i 1).val < 128 := (i 1).isLt
  have hN : cfg1.N = 8 := N_1
  have ht : (i 0).val / 6400 < cfg1.N := by rw [hN]; omega
  obtain ⟨-, -, -, -, e4, e5⟩ := idx_facts1 ⟨(i 0).val / 6400, ht⟩
  refine ⟨⟨(i 0).val / 6400, ht⟩, flush1_2 _, ?_⟩
  rw [mem_blk1]
  intro a
  match a with
  | ⟨0, _⟩ =>
    show win1_2.index ⟨(i 0).val / 6400, ht⟩ (0 : Fin 2) * 6400 ≤ (i 0).val
      ∧ (i 0).val < win1_2.index ⟨(i 0).val / 6400, ht⟩ (0 : Fin 2) * 6400 + 6400
    rw [e4]; show (i 0).val / 6400 * 6400 ≤ (i 0).val ∧ (i 0).val < (i 0).val / 6400 * 6400 + 6400; omega
  | ⟨1, _⟩ =>
    show win1_2.index ⟨(i 0).val / 6400, ht⟩ (1 : Fin 2) * 128 ≤ (i 1).val
      ∧ (i 1).val < win1_2.index ⟨(i 0).val / 6400, ht⟩ (1 : Fin 2) * 128 + 128
    rw [e5]; omega

end Cert.KernelIdeal.Values.Region1

namespace Cert.KernelIdeal.Values

open Cert.KernelIdeal Cert.KernelIdeal.Gen

variable (V : (c : Dev nD) → (b : Ref sig .tc) → Buf (Elt Ideal) ((c : Thread nD τ).loc b))

/-- THE ARRAY after region 1:  mish (X + b)  entry by entry, X and b the arrays the region finds. -/
theorem region1_value (c : Dev nD) :
    (dat1 (F := Ideal) V c).arrAt 2 cfg1.N = Cert.Spec.biasMish (V c main_v45) (V c main_v46) :=
  (dat1 (F := Ideal) V c).arrAt_eq_of_cover 2 _ (fun t _ => Region1.flushed1_eq V c t) Region1.cover1

end Cert.KernelIdeal.Values

end
-- ==== Proof.Region2.lean ====
/-
  The second row-tiled matrix product of the network: the first layer's output  h₁  [51200, 128]  times the second
  layer's weights  W₂  [128, 64].

  The grid has eight points. Point  t  multiplies rows  6400·t … 6400·t + 6399  of  h₁  by the whole of  W₂  and writes
  the  [6400, 64]  product back to the same rows of the result. Entry  (p, q)  of a point's product is
  ∑ₖ h₁(6400·t + p, k) · W₂(k, q),  which is entry  (6400·t + p, q)  of the whole product  h₁ W₂;  the eight row bands
  tile the 51200 rows, so the result array ends holding  h₁ W₂  entry by entry.
-/
import proofs.«105513_j41961830482650_1_alg».proof.Proof.Gen.KernelIdeal.Frame
import proofs.«105513_j41961830482650_1_alg».proof.Proof.Spec
import proofs.«105513_j41961830482650_1_alg».proof.Proof.LibPlainMatmul
import Idealize.ShloMosaic.Lib.Pipeline.Value
import Idealize.ShloMosaic.Lib.Tactic

set_option maxRecDepth 16384

noncomputable section

open Idealize.ShloMosaic Idealize.ShloMosaic.TcCoe Idealize.ShloMosaic.ValueIdx
open Idealize.ShloMosaic.Pipeline (Dat)

namespace Cert.KernelIdeal.Values

open Cert.KernelIdeal Cert.KernelIdeal.Gen

variable (V : (c : Dev nD) → (b : Ref sig .tc) → Buf (Elt Ideal) ((c : Thread nD τ).loc b))

namespace Region2

/-- The zero offsets of a whole-block access, however they are spelt. -/
theorem hz2 : (![0, 0] : Fin 2 → Nat) = fun _ => 0 := funext fun a => by fin_cases a <;> rfl

/-- A point's product at row  p  and column  q :  ∑ₖ x₀(p, k) · x₁(k, q)  (the left block is first re-cast to its own
    shape, which changes nothing). -/
theorem pay2_apply (x0 : Vec Ideal S6400x128 .f32) (x1 : Vec Ideal S128x64 .f32) (p : Fin 6400) (q : Fin 64) :
    Gen.k2_pay1 (F := Ideal) x0 x1 (ix2 p q) = ∑ k : Fin 128, x0 (ix2 p k) * x1 (ix2 k q) := by
  unfold Gen.k2_pay1
  rw [shapeCast_self]
  exact Cert.Lib.PlainMatmul.matmul_zero_apply dot_S6400x128_S128x64_S6400x64_1_0_0_1_n_n rfl rfl rfl rfl rfl rfl none x0 x1 p q

/-- A point's product at a block index  j  is the whole product  A B  at the array index  i,  when the point's left block
    holds row  i 0  of  A  in its row  j 0,  and its right block holds column  i 1  of  B  in its column  j 1. -/
theorem point2 (A : S51200x128.Idx → EReal) (B : S128x64.Idx → EReal)
    (x0 : Vec Ideal S6400x128 .f32) (x1 : Vec Ideal S128x64 .f32) (j : S6400x64.Idx) (i : S51200x64.Idx)
    (h0 : ∀ k : Fin 128, x0 (ix2 (j 0) k) = A (ix2 (i 0) k))
    (h1 : ∀ k : Fin 128, x1 (ix2 k (j 1)) = B (ix2 k (i 1))) :
    Gen.k2_pay1 (F := Ideal) x0 x1 j = Cert.Spec.mm A B i := by
  obtain ⟨p, q, rfl⟩ : ∃ (p : Fin 6400) (q : Fin 64), j = ix2 p q := ⟨j 0, j 1, eq_ix2 j⟩
  rw [pay2_apply]
  show _ = ∑ k : Fin 128, A (ix2 (i 0) k) * B (ix2 k (i 1))
  exact Finset.sum_congr rfl fun k _ => congrArg₂ (· * ·) (h0 k) (h1 k)

/-- The printed index maps over the grid: the left operand's and the result's blocks are band  t  of the rows, all
    columns; the right operand's block is the whole matrix. -/
theorem idx_facts2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- What point  t  writes back is band  t  of the rows of  h₁ W₂. -/
theorem flushed2_eq (c : Dev nD) (t : Fin cfg2.N) :
    (Gen.dat2 (F := Ideal) V c).flushed 2 t
      = ((cfg2.win 2).blk t).view.read (Elt Ideal) (Cert.Spec.mm (V c main_v47) (V c main_arg5)) := by
  show (cfg2.win 2).cut (grid2.coords t) ((Gen.dat2 (F := Ideal) V c).after 2 t) = _
  rw [Gen.after2_2]
  unfold Gen.out2_2
  rw [View.canon_unit_zero hz2]
  simp only [View.ld_unit_zero (S := S6400x128) hz2, View.ld_unit_zero (S := S128x64) hz2]
  obtain ⟨e00, e01, e10, e11, e20, e21⟩ := idx_facts2 t
  funext j
  refine point2 (V c main_v47) (V c main_arg5) (Gen.iblk2 V c 0 t) (Gen.iblk2 V c 1 t) _ _ (fun k => ?_) (fun k => ?_)
  · show V c main_v47 (((cfg2.win 0).blk t).view.emb (ix2 (j 0) k)) = V c main_v47 _
    refine congrArg _ (funext fun a => Fin.ext ?_)
    match a with
    | ⟨0, _⟩ =>
      show win2_0.index t (0 : Fin 2) * 6400 + 1 * (j 0).val = win2_2.index t (0 : Fin 2) * 6400 + 1 * (j 0).val
      rw [e00, e20]
    | ⟨1, _⟩ =>
      show win2_0.index t (1 : Fin 2) * 128 + 1 * k.val = k.val
      rw [e01]; omega
  · show V c main_arg5 (((cfg2.win 1).blk t).view.emb (ix2 k (j 1))) = V c main_arg5 _
    refine congrArg _ (funext fun a => Fin.ext ?_)
    match a with
    | ⟨0, _⟩ =>
      show win2_1.index t (0 : Fin 2) * 128 + 1 * k.val = k.val
      rw [e10]; omega
    | ⟨1, _⟩ =>
      show win2_1.index t (1 : Fin 2) * 64 + 1 * (j 1).val = win2_2.index t (1 : Fin 2) * 64 + 1 * (j 1).val
      rw [e11, e21]

/-- An index of the result is in point  t 's block iff its row is in band  t. -/
theorem mem_blk2 (t : Fin cfg2.N) (i : S51200x64.Idx) :
    i ∈ ((cfg2.win 2).blk t).view.set ↔ ∀ a : Fin 2, win2_2.index t a * S6400x64.size a ≤ (i a).val ∧ (i a).val < win2_2.index t a * S6400x64.size a + S6400x64.size a := by
  show i ∈ ((View.whole main_v48).slice (win2_2.rect t)).set ↔ _
  rw [View.set_slice_whole, Rect.mem_set_unit]
  exact Iff.rfl

/-- Every row lies in the band of the point  row / 6400. -/
theorem cover2 (i : S51200x64.Idx) :
    ∃ t : Fin cfg2.N, (cfg2.win 2).flush t = true ∧ i ∈ ((cfg2.win 2).blk t).view.set := by
  have hi0 : (i 0).val < 51200 := (i 0).isLt
  have hi1 : (i 1).val < 64 := (i 1).isLt
  have hN : cfg2.N = 8 := Gen.N_2
  let t : Fin cfg2.N := ⟨(i 0).val / 6400, by rw [hN]; omega⟩
  obtain ⟨e00, e01, e10, e11, e20, e21⟩ := idx_facts2 t
  refine ⟨t, Gen.flush2_2 t, ?_⟩
  rw [mem_blk2]
  intro a
  match a with
  | ⟨0, _⟩ =>
    show win2_2.index t (0 : Fin 2) * 6400 ≤ (i 0).val ∧ (i 0).val < win2_2.index t (0 : Fin 2) * 6400 + 6400
    rw [e20]; show (i 0).val / 6400 * 6400 ≤ (i 0).val ∧ (i 0).val < (i 0).val / 6400 * 6400 + 6400
    omega
  | ⟨1, _⟩ =>
    show win2_2.index t (1 : Fin 2) * 64 ≤ (i 1).val ∧ (i 1).val < win2_2.index t (1 : Fin 2) * 64 + 64
    rw [e21]; omega

end Region2

/-- THE RESULT of the second matrix product: the array ends holding  h₁ W₂,  whatever the region found in it. -/
theorem region2_value (c : Dev nD) :
    (Gen.dat2 (F := Ideal) V c).arrAt 2 cfg2.N = Cert.Spec.mm (V c main_v47) (V c main_arg5) :=
  (Gen.dat2 (F := Ideal) V c).arrAt_eq_of_cover 2 (Cert.Spec.mm (V c main_v47) (V c main_arg5))
    (fun t _ => Region2.flushed2_eq V c t) Region2.cover2

end Cert.KernelIdeal.Values

end
-- ==== Proof.Region3.lean ====
/-
  Region 3: the second layer's bias and activation.

  The region's grid has eight points; point t loads rows 6400 t … 6400 t + 6399 of the matrix X, the whole bias row b,
  and stores  mish (X + b)  on those rows.  The eight row blocks fill the result, so the result array ends holding
  mish (X(r, c) + b(0, c))  at every (r, c):  Cert.Spec.biasMish X b.
-/
import proofs.«105513_j41961830482650_1_alg».proof.Proof.Gen.KernelIdeal.Frame
import proofs.«105513_j41961830482650_1_alg».proof.Proof.Spec
import proofs.«105513_j41961830482650_1_alg».proof.Proof.MishScalar
import Idealize.ShloMosaic.Lib.Pipeline.Value
import Idealize.ShloMosaic.Lib.ValueIdx
import Idealize.ShloMosaic.Lib.Tactic

noncomputable section

open Idealize.ShloMosaic Idealize.ShloMosaic.TcCoe Idealize.SL.Sem Idealize.ShloMosaic.ValueIdx
open Idealize.ShloMosaic.Pipeline (Dat)

namespace Cert.KernelIdeal.Values.Region3

open Cert.KernelIdeal Cert.KernelIdeal.Gen

variable (V : (c : Dev nD) → (b : Ref sig .tc) → Buf (Elt Ideal) ((c : Thread nD τ).loc b))

/-- The zero offsets of a body's whole-buffer loads and stores. -/
theorem zero_offsets3 : (![0, 0] : Fin 2 → Nat) = fun _ => 0 := funext fun a => by fin_cases a <;> rfl

/-! ## One entry of the body's result -/

/-- The bias row broadcast over the block's rows reads the bias at the entry's column. -/
theorem bias_row3 (b : S1x64.Idx → Ideal .f32) (p : Fin 6400) (q : Fin 64) :
    broadcastTo S6400x64 b broadcasts_S1x64_S6400x64 (ix2 p q) = b (ix2 0 q) :=
  broadcastTo_apply b _ (ix2 p q) (ix2 0 q) (fun a => by
    match a with
    | ⟨0, _⟩ => rfl
    | ⟨1, _⟩ => rfl)

/-- The body's stored value at row p, column q of its block: mish of the loaded entry plus the bias at q. -/
theorem pay3_apply (v0 : Vec Ideal S6400x64 .f32) (v2 : Vec Ideal S1x64 .f32) (p : Fin 6400) (q : Fin 64) :
    k3_pay1 (F := Ideal) v0 v2 (ix2 p q) = Cert.Spec.mishS (v0 (ix2 p q) + v2 (ix2 0 q)) := by
  unfold k3_pay1
  simp only [shapeCast_self, Ideal.ofBits_def, Ideal.ofBits_zero_f32]
  rw [← Mish.mish_chain, ← bias_row3 v2 p q]
  rfl

/-- The same entry, once the two loaded blocks are known to be pieces of a matrix A and a bias row b. -/
theorem pay3_point (x0 : Vec Ideal S6400x64 .f32) (x1 : Vec Ideal S1x64 .f32)
    (A : S51200x64.Idx → EReal) (b : S1x64.Idx → EReal) (p : Fin 6400) (q : Fin 64) (i : S51200x64.Idx)
    (h0 : x0 (ix2 p q) = A i) (h1 : x1 (ix2 0 q) = b (ix2 0 (i 1))) :
    k3_pay1 (F := Ideal) x0 x1 (ix2 p q) = Cert.Spec.biasMish A b i := by
  rw [pay3_apply, h0, h1]
  rfl

/-! ## From the blocks to the array -/

/-- The index maps over the grid: point t takes row block t of the matrix and of the result, and the whole bias row. -/
theorem idx_facts3 : ∀ t : Fin cfg3.N,
    win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- What point t writes back is block t of  mish (X + b)  of the arrays as the region finds them. -/
theorem flushed3_eq (c : Dev nD) (t : Fin cfg3.N) :
    (dat3 (F := Ideal) V c).flushed 2 t
      = ((cfg3.win 2).blk t).view.read (Elt Ideal) (Cert.Spec.biasMish (V c main_v61) (V c main_v62)) := by
  show (cfg3.win 2).cut (grid3.coords t) ((dat3 (F := Ideal) V c).after 2 t) = _
  rw [after3_2]
  unfold out3_2
  rw [View.canon_unit_zero zero_offsets3]
  simp only [View.ld_unit_zero (S := S6400x64) zero_offsets3, View.ld_unit_zero (S := S1x64) zero_offsets3]
  obtain ⟨e0, e1, e2, e3, e4, e5⟩ := idx_facts3 t
  refine funext fun (j : S6400x64.Idx) => ?_
  obtain ⟨p, q, rfl⟩ : ∃ (p : Fin 6400) (q : Fin 64), j = ix2 p q := ⟨j 0, j 1, eq_ix2 j⟩
  show k3_pay1 (F := Ideal) (iblk3 V c 0 t) (iblk3 V c 1 t) (ix2 p q)
    = Cert.Spec.biasMish (V c main_v61) (V c main_v62) (((cfg3.win 2).blk t).view.emb (ix2 p q))
  refine pay3_point _ _ _ _ p q _ ?_ ?_
  · show V c main_v61 (((cfg3.win 0).blk t).view.emb (ix2 p q)) = V c main_v61 (((cfg3.win 2).blk t).view.emb (ix2 p q))
    refine congrArg _ (funext fun a => Fin.ext ?_)
    match a with
    | ⟨0, _⟩ => show win3_0.index t (0 : Fin 2) * 6400 + 1 * p.val = win3_2.index t (0 : Fin 2) * 6400 + 1 * p.val; omega
    | ⟨1, _⟩ => show win3_0.index t (1 : Fin 2) * 64 + 1 * q.val = win3_2.index t (1 : Fin 2) * 64 + 1 * q.val; omega
  · show V c main_v62 (((cfg3.win 1).blk t).view.emb (ix2 0 q)) = V c main_v62 (ix2 0 ((((cfg3.win 2).blk t).view.emb (ix2 p q)) 1))
    refine congrArg _ (funext fun a => Fin.ext ?_)
    match a with
    | ⟨0, _⟩ => show win3_1.index t (0 : Fin 2) * 1 + 1 * 0 = 0; omega
    | ⟨1, _⟩ => show win3_1.index t (1 : Fin 2) * 64 + 1 * q.val = win3_2.index t (1 : Fin 2) * 64 + 1 * q.val; omega

/-- An index of the result is in point t's block iff each coordinate is in the block's range on its axis. -/
theorem mem_blk3 (t : Fin cfg3.N) (i : S51200x64.Idx) :
    i ∈ ((cfg3.win 2).blk t).view.set ↔ ∀ a : Fin 2, win3_2.index t a * S6400x64.size a ≤ (i a).val
      ∧ (i a).val < win3_2.index t a * S6400x64.size a + S6400x64.size a := by
  show i ∈ ((View.whole main_v63).slice (win3_2.rect t)).set ↔ _
  rw [View.set_slice_whole, Rect.mem_set_unit]
  exact Iff.rfl

/-- Row r of the result lies in the block of point r / 6400: the eight row blocks fill the array. -/
theorem cover3 (i : S51200x64.Idx) :
    ∃ t : Fin cfg3.N, (cfg3.win 2).flush t = true ∧ i ∈ ((cfg3.win 2).blk t).view.set := by
  have hi0 : (i 0).val < 51200 := (i 0).isLt
  have hi1 : (i 1).val < 64 := (i 1).isLt
  have hN : cfg3.N = 8 := N_3
  have ht : (i 0).val / 6400 < cfg3.N := by rw [hN]; omega
  obtain ⟨-, -, -, -, e4, e5⟩ := idx_facts3 ⟨(i 0).val / 6400, ht⟩
  refine ⟨⟨(i 0).val / 6400, ht⟩, flush3_2 _, ?_⟩
  rw [mem_blk3]
  intro a
  match a with
  | ⟨0, _⟩ =>
    show win3_2.index ⟨(i 0).val / 6400, ht⟩ (0 : Fin 2) * 6400 ≤ (i 0).val
      ∧ (i 0).val < win3_2.index ⟨(i 0).val / 6400, ht⟩ (0 : Fin 2) * 6400 + 6400
    rw [e4]; show (i 0).val / 6400 * 6400 ≤ (i 0).val ∧ (i 0).val < (i 0).val / 6400 * 6400 + 6400; omega
  | ⟨1, _⟩ =>
    show win3_2.index ⟨(i 0).val / 6400, ht⟩ (1 : Fin 2) * 64 ≤ (i 1).val
      ∧ (i 1).val < win3_2.index ⟨(i 0).val / 6400, ht⟩ (1 : Fin 2) * 64 + 64
    rw [e5]; omega

end Cert.KernelIdeal.Values.Region3

namespace Cert.KernelIdeal.Values

open Cert.KernelIdeal Cert.KernelIdeal.Gen

variable (V : (c : Dev nD) → (b : Ref sig .tc) → Buf (Elt Ideal) ((c : Thread nD τ).loc b))

/-- THE ARRAY after region 3:  mish (X + b)  entry by entry, X and b the arrays the region finds. -/
theorem region3_value (c : Dev nD) :
    (dat3 (F := Ideal) V c).arrAt 2 cfg3.N = Cert.Spec.biasMish (V c main_v61) (V c main_v62) :=
  (dat3 (F := Ideal) V c).arrAt_eq_of_cover 2 _ (fun t _ => Region3.flushed3_eq V c t) Region3.cover3

end Cert.KernelIdeal.Values

end
-- ==== Proof.Region4.lean ====
/-
  Region 4: the dense read-out.

  The region's grid has eight points; point t loads rows 6400 t … 6400 t + 6399 of the matrix X, the whole weights W
  and the whole bias row b, and stores  mish (X W + b)  on those rows.  The eight row blocks fill the result, so the
  result array ends holding  mish (∑ₖ X(r, k) W(k, c) + b(0, c))  at every (r, c):  Cert.Spec.biasMish (Cert.Spec.mm X W) b.
-/
import proofs.«105513_j41961830482650_1_alg».proof.Proof.Gen.KernelIdeal.Frame
import proofs.«105513_j41961830482650_1_alg».proof.Proof.Spec
import proofs.«105513_j41961830482650_1_alg».proof.Proof.MishScalar
import proofs.«105513_j41961830482650_1_alg».proof.Proof.LibPlainMatmul
import Idealize.ShloMosaic.Lib.Pipeline.Value
import Idealize.ShloMosaic.Lib.ValueIdx
import Idealize.ShloMosaic.Lib.Tactic

noncomputable section

open Idealize.ShloMosaic Idealize.ShloMosaic.TcCoe Idealize.SL.Sem Idealize.ShloMosaic.ValueIdx
open Idealize.ShloMosaic.Pipeline (Dat)

namespace Cert.KernelIdeal.Values.Region4

open Cert.KernelIdeal Cert.KernelIdeal.Gen

variable (V : (c : Dev nD) → (b : Ref sig .tc) → Buf (Elt Ideal) ((c : Thread nD τ).loc b))

/-- The zero offsets of a body's whole-buffer loads and stores. -/
theorem zero_offsets4 : (![0, 0] : Fin 2 → Nat) = fun _ => 0 := funext fun a => by fin_cases a <;> rfl

/-! ## One entry of the body's result -/

/-- The bias row broadcast over the block's rows reads the bias at the entry's column. -/
theorem bias_row4 (b : S1x8.Idx → Ideal .f32) (p : Fin 6400) (q : Fin 8) :
    broadcastTo S6400x8 b broadcasts_S1x8_S6400x8 (ix2 p q) = b (ix2 0 q) :=
  broadcastTo_apply b _ (ix2 p q) (ix2 0 q) (fun a => by
    match a with
    | ⟨0, _⟩ => rfl
    | ⟨1, _⟩ => rfl)

/-- The body's stored value at row p, column q of its block: mish of row p of the loaded block times column q of
    the weights, plus the bias at q. -/
theorem pay4_apply (v0 : Vec Ideal S6400x64 .f32) (v2 : Vec Ideal S64x8 .f32) (v4 : Vec Ideal S1x8 .f32)
    (p : Fin 6400) (q : Fin 8) :
    k4_pay1 (F := Ideal) v0 v2 v4 (ix2 p q)
      = Cert.Spec.mishS ((∑ k : Fin 64, v0 (ix2 p k) * v2 (ix2 k q)) + v4 (ix2 0 q)) := by
  unfold k4_pay1
  simp only [shapeCast_self, Ideal.ofBits_def, Ideal.ofBits_zero_f32]
  rw [← Mish.mish_chain, ← bias_row4 v4 p q,
    ← Cert.Lib.PlainMatmul.matmul_zero_apply dot_S6400x64_S64x8_S6400x8_1_0_0_1_n_n rfl rfl rfl rfl rfl rfl none v0 v2 p q]
  rfl

/-- The same entry, once the three loaded blocks are known to be pieces of a matrix A, the weights W and a bias row b. -/
theorem pay4_point (x0 : Vec Ideal S6400x64 .f32) (x1 : Vec Ideal S64x8 .f32) (x2 : Vec Ideal S1x8 .f32)
    (A : S51200x64.Idx → EReal) (W : S64x8.Idx → EReal) (b : S1x8.Idx → EReal)
    (p : Fin 6400) (q : Fin 8) (i : S51200x8.Idx)
    (h0 : ∀ k : Fin 64, x0 (ix2 p k) = A (ix2 (i 0) k)) (h1 : ∀ k : Fin 64, x1 (ix2 k q) = W (ix2 k (i 1)))
    (h2 : x2 (ix2 0 q) = b (ix2 0 (i 1))) :
    k4_pay1 (F := Ideal) x0 x1 x2 (ix2 p q) = Cert.Spec.biasMish (Cert.Spec.mm A W) b i := by
  rw [pay4_apply, h2]
  simp only [h0, h1]
  rfl

/-! ## From the blocks to the array -/

/-- The index maps over the grid: point t takes row block t of the matrix and of the result, and the whole of the
    weights and of the bias row. -/
theorem idx_facts4 : ∀ t : Fin cfg4.N,
    win4_0.index t (0 : Fin 2) = t.val ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (0 : Fin 2) = t.val ∧ win4_3.index t (1 : Fin 2) = 0 :=
  (by decide +kernel : ∀ t : Fin grid4.N, _)

/-- What point t writes back is block t of  mish (X W + b)  of the arrays as the region finds them. -/
theorem flushed4_eq (c : Dev nD) (t : Fin cfg4.N) :
    (dat4 (F := Ideal) V c).flushed 3 t
      = ((cfg4.win 3).blk t).view.read (Elt Ideal)
          (Cert.Spec.biasMish (Cert.Spec.mm (V c main_v63) (V c main_arg7)) (V c main_v64)) := by
  show (cfg4.win 3).cut (grid4.coords t) ((dat4 (F := Ideal) V c).after 3 t) = _
  rw [after4_3]
  unfold out4_3
  rw [View.canon_unit_zero zero_offsets4]
  simp only [View.ld_unit_zero (S := S6400x64) zero_offsets4, View.ld_unit_zero (S := S64x8) zero_offsets4,
    View.ld_unit_zero (S := S1x8) zero_offsets4]
  obtain ⟨e0, e1, e2, e3, e4, e5, e6, e7⟩ := idx_facts4 t
  refine funext fun (j : S6400x8.Idx) => ?_
  obtain ⟨p, q, rfl⟩ : ∃ (p : Fin 6400) (q : Fin 8), j = ix2 p q := ⟨j 0, j 1, eq_ix2 j⟩
  show k4_pay1 (F := Ideal) (iblk4 V c 0 t) (iblk4 V c 1 t) (iblk4 V c 2 t) (ix2 p q)
    = Cert.Spec.biasMish (Cert.Spec.mm (V c main_v63) (V c main_arg7)) (V c main_v64)
        (((cfg4.win 3).blk t).view.emb (ix2 p q))
  refine pay4_point _ _ _ _ _ _ p q _ (fun k => ?_) (fun k => ?_) ?_
  · show V c main_v63 (((cfg4.win 0).blk t).view.emb (ix2 p k))
      = V c main_v63 (ix2 ((((cfg4.win 3).blk t).view.emb (ix2 p q)) 0) k)
    refine congrArg _ (funext fun a => Fin.ext ?_)
    match a with
    | ⟨0, _⟩ => show win4_0.index t (0 : Fin 2) * 6400 + 1 * p.val = win4_3.index t (0 : Fin 2) * 6400 + 1 * p.val; omega
    | ⟨1, _⟩ => show win4_0.index t (1 : Fin 2) * 64 + 1 * k.val = k.val; omega
  · show V c main_arg7 (((cfg4.win 1).blk t).view.emb (ix2 k q))
      = V c main_arg7 (ix2 k ((((cfg4.win 3).blk t).view.emb (ix2 p q)) 1))
    refine congrArg _ (funext fun a => Fin.ext ?_)
    match a with
    | ⟨0, _⟩ => show win4_1.index t (0 : Fin 2) * 64 + 1 * k.val = k.val; omega
    | ⟨1, _⟩ => show win4_1.index t (1 : Fin 2) * 8 + 1 * q.val = win4_3.index t (1 : Fin 2) * 8 + 1 * q.val; omega
  · show V c main_v64 (((cfg4.win 2).blk t).view.emb (ix2 0 q))
      = V c main_v64 (ix2 0 ((((cfg4.win 3).blk t).view.emb (ix2 p q)) 1))
    refine congrArg _ (funext fun a => Fin.ext ?_)
    match a with
    | ⟨0, _⟩ => show win4_2.index t (0 : Fin 2) * 1 + 1 * 0 = 0; omega
    | ⟨1, _⟩ => show win4_2.index t (1 : Fin 2) * 8 + 1 * q.val = win4_3.index t (1 : Fin 2) * 8 + 1 * q.val; omega

/-- An index of the result is in point t's block iff each coordinate is in the block's range on its axis. -/
theorem mem_blk4 (t : Fin cfg4.N) (i : S51200x8.Idx) :
    i ∈ ((cfg4.win 3).blk t).view.set ↔ ∀ a : Fin 2, win4_3.index t a * S6400x8.size a ≤ (i a).val
      ∧ (i a).val < win4_3.index t a * S6400x8.size a + S6400x8.size a := by
  show i ∈ ((View.whole main_v65).slice (win4_3.rect t)).set ↔ _
  rw [View.set_slice_whole, Rect.mem_set_unit]
  exact Iff.rfl

/-- Row r of the result lies in the block of point r / 6400: the eight row blocks fill the array. -/
theorem cover4 (i : S51200x8.Idx) :
    ∃ t : Fin cfg4.N, (cfg4.win 3).flush t = true ∧ i ∈ ((cfg4.win 3).blk t).view.set := by
  have hi0 : (i 0).val < 51200 := (i 0).isLt
  have hi1 : (i 1).val < 8 := (i 1).isLt
  have hN : cfg4.N = 8 := N_4
  have ht : (i 0).val / 6400 < cfg4.N := by rw [hN]; omega
  obtain ⟨-, -, -, -, -, -, e6, e7⟩ := idx_facts4 ⟨(i 0).val / 6400, ht⟩
  refine ⟨⟨(i 0).val / 6400, ht⟩, flush4_3 _, ?_⟩
  rw [mem_blk4]
  intro a
  match a with
  | ⟨0, _⟩ =>
    show win4_3.index ⟨(i 0).val / 6400, ht⟩ (0 : Fin 2) * 6400 ≤ (i 0).val
      ∧ (i 0).val < win4_3.index ⟨(i 0).val / 6400, ht⟩ (0 : Fin 2) * 6400 + 6400
    rw [e6]; show (i 0).val / 6400 * 6400 ≤ (i 0).val ∧ (i 0).val < (i 0).val / 6400 * 6400 + 6400; omega
  | ⟨1, _⟩ =>
    show win4_3.index ⟨(i 0).val / 6400, ht⟩ (1 : Fin 2) * 8 ≤ (i 1).val
      ∧ (i 1).val < win4_3.index ⟨(i 0).val / 6400, ht⟩ (1 : Fin 2) * 8 + 8
    rw [e7]; omega

end Cert.KernelIdeal.Values.Region4

namespace Cert.KernelIdeal.Values

open Cert.KernelIdeal Cert.KernelIdeal.Gen

variable (V : (c : Dev nD) → (b : Ref sig .tc) → Buf (Elt Ideal) ((c : Thread nD τ).loc b))

/-- THE ARRAY after region 4:  mish (X W + b)  entry by entry, X, W and b the arrays the region finds. -/
theorem region4_value (c : Dev nD) :
    (dat4 (F := Ideal) V c).arrAt 3 cfg4.N
      = Cert.Spec.biasMish (Cert.Spec.mm (V c main_v63) (V c main_arg7)) (V c main_v64) :=
  (dat4 (F := Ideal) V c).arrAt_eq_of_cover 3 _ (fun t _ => Region4.flushed4_eq V c t) Region4.cover4

end Cert.KernelIdeal.Values

end
-- ==== Proof.HeadSpec.lean ====
/-
  The dense head of the network, entry by entry on the extended reals.

  From the re-laid features  feat : [256, 1600]  the head takes a dense layer  z = feat · Wfc1 + bfc1  (the bias row added
  to every row), normalises every column of  z  over the 256 rows (the mean  mu  and the biased variance  var  of the
  column, both as a column sum divided by the word for 256; then  (z − mu) · rsqrt (var + ε) · γ + β  with  ε  the word
  for 1e-5), applies mish, and reads two linear classifiers off the result: the logits  mid · Wfc2 + bfc2,  and
  max (mid · Wd1 + bd1) 0 · Wd2 + bd2.  The order of the operations is the one both programs use, so comparing either
  program with these functions needs no algebraic law.
-/
import proofs.«105513_j41961830482650_1_alg».proof.Proof.Spec

noncomputable section

namespace Cert.Spec

open Idealize.ShloMosaic Idealize.ShloMosaic.ValueIdx

/-- The number of rows, 256, as the single-precision word both programs divide a column sum by. -/
def rowCount : EReal := Ideal.ofBits .f32 0x43800000#32

/-- The variance offset  ε ≈ 1e-5  as the single-precision word both programs add. -/
def bnEps : EReal := Ideal.ofBits .f32 0x3727C5AC#32

/-- The dense layer:  z (r, j) = ∑ₖ feat (r, k) · Wfc1 (k, j) + bfc1 (0, j). -/
def headZ (feat : (⟨2, ![256, 1600]⟩ : Shape).Idx → EReal) (Wfc1 : (⟨2, ![1600, 200]⟩ : Shape).Idx → EReal)
    (bfc1 : (⟨2, ![1, 200]⟩ : Shape).Idx → EReal) : (⟨2, ![256, 200]⟩ : Shape).Idx → EReal :=
  fun i => mm feat Wfc1 i + bfc1 (ix2 0 (i 1))

/-- The mean of column  j  over the 256 rows. -/
def colMean (z : (⟨2, ![256, 200]⟩ : Shape).Idx → EReal) (j : Fin 200) : EReal :=
  Ideal.div (∑ r : Fin 256, z (ix2 r j)) rowCount

/-- The biased variance of column  j  over the 256 rows. -/
def colVar (z : (⟨2, ![256, 200]⟩ : Shape).Idx → EReal) (j : Fin 200) : EReal :=
  Ideal.div (∑ r : Fin 256, (z (ix2 r j) - colMean z j) * (z (ix2 r j) - colMean z j)) rowCount

/-- The column normalisation with scale row  γ  and shift row  β:
    (z (r, j) − mu j) · rsqrt (var j + ε) · γ (0, j) + β (0, j). -/
def colNorm (z : (⟨2, ![256, 200]⟩ : Shape).Idx → EReal) (γ β : (⟨2, ![1, 200]⟩ : Shape).Idx → EReal) :
    (⟨2, ![256, 200]⟩ : Shape).Idx → EReal :=
  fun i => (z i - colMean z (i 1)) * Ideal.rsqrt (colVar z (i 1) + bnEps) * γ (ix2 0 (i 1)) + β (ix2 0 (i 1))

/-- The head's hidden layer: mish of the normalised dense layer. -/
def headMid (feat : (⟨2, ![256, 1600]⟩ : Shape).Idx → EReal) (Wfc1 : (⟨2, ![1600, 200]⟩ : Shape).Idx → EReal)
    (bfc1 γ β : (⟨2, ![1, 200]⟩ : Shape).Idx → EReal) : (⟨2, ![256, 200]⟩ : Shape).Idx → EReal :=
  fun i => mishS (colNorm (headZ feat Wfc1 bfc1) γ β i)

/-- The first classifier:  mid · Wfc2 + bfc2. -/
def headLogits (feat : (⟨2, ![256, 1600]⟩ : Shape).Idx → EReal) (Wfc1 : (⟨2, ![1600, 200]⟩ : Shape).Idx → EReal)
    (bfc1 γ β : (⟨2, ![1, 200]⟩ : Shape).Idx → EReal) (Wfc2 : (⟨2, ![200, 2]⟩ : Shape).Idx → EReal)
    (bfc2 : (⟨2, ![1, 2]⟩ : Shape).Idx → EReal) : (⟨2, ![256, 2]⟩ : Shape).Idx → EReal :=
  fun i => mm (headMid feat Wfc1 bfc1 γ β) Wfc2 i + bfc2 (ix2 0 (i 1))

/-- The second classifier's hidden layer:  max (mid · Wd1 + bd1) 0. -/
def headD1 (feat : (⟨2, ![256, 1600]⟩ : Shape).Idx → EReal) (Wfc1 : (⟨2, ![1600, 200]⟩ : Shape).Idx → EReal)
    (bfc1 γ β : (⟨2, ![1, 200]⟩ : Shape).Idx → EReal) (Wd1 : (⟨2, ![200, 64]⟩ : Shape).Idx → EReal)
    (bd1 : (⟨2, ![1, 64]⟩ : Shape).Idx → EReal) : (⟨2, ![256, 64]⟩ : Shape).Idx → EReal :=
  fun i => max (mm (headMid feat Wfc1 bfc1 γ β) Wd1 i + bd1 (ix2 0 (i 1))) 0

/-- The second classifier:  max (mid · Wd1 + bd1) 0 · Wd2 + bd2. -/
def headCls (feat : (⟨2, ![256, 1600]⟩ : Shape).Idx → EReal) (Wfc1 : (⟨2, ![1600, 200]⟩ : Shape).Idx → EReal)
    (bfc1 γ β : (⟨2, ![1, 200]⟩ : Shape).Idx → EReal) (Wd1 : (⟨2, ![200, 64]⟩ : Shape).Idx → EReal)
    (bd1 : (⟨2, ![1, 64]⟩ : Shape).Idx → EReal) (Wd2 : (⟨2, ![64, 6]⟩ : Shape).Idx → EReal)
    (bd2 : (⟨2, ![1, 6]⟩ : Shape).Idx → EReal) : (⟨2, ![256, 6]⟩ : Shape).Idx → EReal :=
  fun i => mm (headD1 feat Wfc1 bfc1 γ β Wd1 bd1) Wd2 i + bd2 (ix2 0 (i 1))

end Cert.Spec

end
-- ==== Proof.LibFirstAxisFolds.lean ====
/-
  Folds along the FIRST axis of a rank-2 array at the ideal values, in the form a kernel's own text takes.

  A kernel that keeps the long axis of a matrix on the leading coordinate takes a column's sum or maximum by a
  `vector.multi_reduction` over axis 0. Read at a column `p` the result is the sum over the rows `k` of the entries
  `(k, p)`, or the fold of `max` over them from minus infinity. The two facts a printed reduction carries besides its
  operand (its float type is one the operation is defined at; its accumulator is the operation's neutral word) are taken
  in the spelling a printed kernel gives them, for any extents, so the lemmas rewrite a kernel's value as it stands.
-/
import Idealize.ShloMosaic.PureOps.Ideal.Laws
import Idealize.ShloMosaic.Lib.ValueIdx
import Idealize.ShloMosaic.Lib.Pipeline.Value

noncomputable section

namespace Cert.Lib.FirstAxisFolds

open Idealize.ShloMosaic Idealize.ShloMosaic.ValueIdx

/-- A sum along the first axis from zero, read at its column: the sum down the column. -/
theorem colsum_apply {a b : ℕ} (src : FVec Ideal ⟨2, ![a, b]⟩ .f32)
    (h : (⟨2, ![a, b]⟩ : Shape).Reduces [0] ⟨1, ![b]⟩) (hφ : FTy.f32 = FTy.f32 ∨ FTy.f32 = FTy.bf16)
    (hacc : (0x00000000#32 : BitVec FTy.f32.bits) = 0x00000000#32) (p : Fin b) :
    multiReduction .add [0] ⟨1, ![b]⟩ src 0x00000000#32 h hφ hacc (ix1 p) = ∑ k : Fin a, src (ix2 k p) := by
  refine (Ideal.multiReduction_add_single src 0x00000000#32 h hφ hacc (ix1 p)).trans ?_
  refine Finset.sum_congr rfl fun k _ => ?_
  exact congrArg src (funext fun d => Fin.ext (by match d with | ⟨0, _⟩ => rfl | ⟨1, _⟩ => rfl))

/-- A maximum along the first axis from minus infinity, read at its column: the fold of `max` down the column. -/
theorem colmax_apply {a b : ℕ} (src : FVec Ideal ⟨2, ![a, b]⟩ .f32)
    (h : (⟨2, ![a, b]⟩ : Shape).Reduces [0] ⟨1, ![b]⟩) (hφ : FTy.f32 = FTy.f32 ∨ FTy.f32 = FTy.bf16)
    (hacc : (0xFF800000#32 : BitVec FTy.f32.bits) = 0xFF800000#32) (p : Fin b) :
    multiReduction .maximumf [0] ⟨1, ![b]⟩ src 0xFF800000#32 h hφ hacc (ix1 p)
      = (Finset.univ : Finset (Fin a)).fold max (⊥ : EReal) (fun k => src (ix2 k p)) := by
  refine (Ideal.multiReduction_maximumf_single src 0xFF800000#32 h hφ hacc (ix1 p)).trans ?_
  have hbot : (FloatOps.ofBits (F := Ideal) .f32 0xFF800000#32 : EReal) = ⊥ := by
    show Ideal.ofBits .f32 0xFF800000#32 = ⊥
    simp [Ideal.ofBits, Ideal.ieee]
  rw [hbot]
  refine congrArg (fun f => (Finset.univ : Finset (Fin a)).fold max (⊥ : EReal) f) (funext fun k => ?_)
  exact congrArg src (funext fun d => Fin.ext (by match d with | ⟨0, _⟩ => rfl | ⟨1, _⟩ => rfl))

end Cert.Lib.FirstAxisFolds

end
-- ==== Proof.Head1.lean ====
/-
  The head's normalised dense layer as the kernel body computes it, read at a row and a column.

  The body forms  z = feat · Wfc1 + bfc1  by a matrix product into zero and a broadcast bias row, takes each column's
  sum over the 256 rows by a reduction along the first axis, divides by the word for 256 to get the column mean, does the
  same with the squared deviations to get the biased variance, and combines  (z − mu) · rsqrt (var + ε) · γ + β  with the
  rows  mu, var, γ, β  broadcast over the rows.  Every operation is read at the index  (r, j):  the pointwise ones are
  the extended reals' own, a broadcast row reads its column, a column reduction is the sum down the column, the matrix
  product is the sum over the contracted index.  The result is the specification's  colNorm (headZ …)  term for term.
-/
import proofs.«105513_j41961830482650_1_alg».proof.Proof.Gen.KernelIdeal.Skeleton
import proofs.«105513_j41961830482650_1_alg».proof.Proof.HeadSpec
import proofs.«105513_j41961830482650_1_alg».proof.Proof.LibPlainMatmul
import proofs.«105513_j41961830482650_1_alg».proof.Proof.LibFirstAxisFolds
import Idealize.ShloMosaic.Lib.ValueLayout

set_option maxRecDepth 16384

noncomputable section

namespace Cert.KernelIdeal.Values.Head

open Idealize.ShloMosaic Idealize.ShloMosaic.ValueIdx
open Cert.KernelIdeal Cert.KernelIdeal.Gen Cert.Spec
open Cert.Lib.PlainMatmul Cert.Lib.FirstAxisFolds

section Pointwise
variable {s : Shape} {φ : FTy}

/-- A reciprocal square root at an index is that of the element … -/
theorem rsqrt_apply (a : FVec Ideal s φ) (i : s.Idx) : rsqrt a i = Ideal.rsqrt (a i) := rfl
/-- … an exponential the exponential … -/
theorem exp_apply (a : FVec Ideal s φ) (i : s.Idx) : exp a i = Ideal.exp (a i) := rfl
/-- … log (1 + ·) likewise … -/
theorem log1p_apply (a : FVec Ideal s φ) (i : s.Idx) : log1p a i = Ideal.log1p (a i) := rfl
/-- … the hyperbolic tangent likewise … -/
theorem tanh_apply (a : FVec Ideal s φ) (i : s.Idx) : tanh a i = Ideal.tanh (a i) := rfl
/-- … and an absolute value is the larger of the element and its negation. -/
theorem absf_apply (a : FVec Ideal s φ) (i : s.Idx) : absf a i = max (a i) (-(a i)) := rfl

end Pointwise

/-- The body's normalised dense layer at row  r  and column  j  is the specification's. -/
theorem pay4_apply (v0 : Vec Ideal S256x1600 .f32) (v2 : Vec Ideal S1600x200 .f32) (v4 v26 v30 : Vec Ideal S1x200 .f32)
    (r : Fin 256) (j : Fin 200) :
    k5_pay4 (F := Ideal) v0 v2 v4 v26 v30 (ix2 r j) = colNorm (headZ v0 v2 v4) v26 v30 (ix2 r j) := by
  unfold k5_pay4
  have hm := fun A B r c => matmul_zero_apply dot_S256x1600_S1600x200_S256x200_1_0_0_1_n_n rfl rfl rfl rfl rfl rfl none
    (φ₁ := .f32) (φ₂ := .f32) A B r c
  simp only [shapeCast_self, addf_apply, mulf_apply, subf_apply, divf_apply, rsqrt_apply, broadcast_apply,
    broadcastTo_1b_ab_apply, shapeCast_a_1a_apply, hm]
  rw [colsum_apply, colsum_apply]
  simp only [addf_apply, mulf_apply, subf_apply, divf_apply, broadcast_apply,
    broadcastTo_1b_ab_apply, shapeCast_a_1a_apply, hm]
  rw [colsum_apply]
  simp only [addf_apply, broadcastTo_1b_ab_apply, hm]
  rfl

end Cert.KernelIdeal.Values.Head

end
-- ==== Proof.Head2.lean ====
/-
  The head's hidden layer as the kernel body computes it: mish of the normalised dense layer, read at an index.

  The body writes  softplus y  as  max y 0 + log1p (exp (0 − |y − 0|))  and guards it by a test "y − 0 differs from itself",
  which no extended real satisfies, so the guarded branch  y + 0  is never taken;  y − 0 = y  and  0 − a = −a  on the
  extended reals, and  |y| = max y (−y).  What is left is  y · tanh (max y 0 + log1p (exp (−(max y (−y))))),  the
  specification's mish.
-/
import proofs.«105513_j41961830482650_1_alg».proof.Proof.Head1

set_option maxRecDepth 16384

noncomputable section

namespace Cert.KernelIdeal.Values.Head

open Idealize.ShloMosaic Idealize.ShloMosaic.ValueIdx
open Cert.KernelIdeal Cert.KernelIdeal.Gen Cert.Spec
open Cert.Lib.PlainMatmul Cert.Lib.FirstAxisFolds

/-- No extended real differs from itself: the comparison "ordered and not equal" of a value with itself is the bit 0. -/
theorem cmp_one_self (x : EReal) : Ideal.cmp .one x x = 0#1 := by
  simp [Ideal.cmp]

/-- The body's guarded mish of a scalar is the specification's mish. -/
theorem mish_guarded (z : EReal) :
    z * Ideal.tanh (Scalar.select (Ideal.cmp .one (z - Ideal.ofBits .f32 0x00000000#32) (z - Ideal.ofBits .f32 0x00000000#32))
        (z + Ideal.ofBits .f32 0x00000000#32)
        (max z (Ideal.ofBits .f32 0x00000000#32)
          + Ideal.log1p (Ideal.exp (Ideal.ofBits .f32 0x00000000#32
              - max (z - Ideal.ofBits .f32 0x00000000#32) (-(z - Ideal.ofBits .f32 0x00000000#32))))))
      = mishS z := by
  rw [cmp_one_self, select_zero, Ideal.ofBits_zero_f32, sub_zero, zero_sub]
  rfl

/-- The body's hidden layer at row  r  and column  j  is the specification's. -/
theorem pay1_apply (v0 : Vec Ideal S256x1600 .f32) (v2 : Vec Ideal S1600x200 .f32) (v4 v26 v30 : Vec Ideal S1x200 .f32)
    (r : Fin 256) (j : Fin 200) :
    k5_pay1 (F := Ideal) (k5_pay4 v0 v2 v4 v26 v30) (k5_pay5 v0 v2 v4 v26 v30) (k5_pay7 v0 v2 v4 v26 v30)
        (k5_pay8 v0 v2 v4 v26 v30) (k5_pay9 v0 v2 v4 v26 v30) (ix2 r j)
      = headMid v0 v2 v4 v26 v30 (ix2 r j) := by
  unfold k5_pay1 k5_pay5 k5_pay7 k5_pay8 k5_pay9 k5_pay6
  simp only [mulf_apply, tanh_apply, select_apply, cmpf_apply, subf_apply, addf_apply, maximumf_apply, log1p_apply,
    exp_apply, absf_apply, broadcast_apply]
  rw [pay4_apply]
  exact mish_guarded _

end Cert.KernelIdeal.Values.Head

end
-- ==== Proof.Head3.lean ====
/-
  The head's two classifiers as the kernel body computes them, read at a row and a column.

  The logits are the hidden layer times  Wfc2  (a matrix product into zero) plus the broadcast bias row  bfc2.  The class
  scores are  max (hidden · Wd1 + bd1) 0  times  Wd2  plus  bd2;  the zero of the maximum is the zero word.  With the
  hidden layer read as the specification's  headMid  these are  headLogits  and  headCls  term for term.
-/
import proofs.«105513_j41961830482650_1_alg».proof.Proof.Head2

set_option maxRecDepth 16384

noncomputable section

namespace Cert.KernelIdeal.Values.Head

open Idealize.ShloMosaic Idealize.ShloMosaic.ValueIdx
open Cert.KernelIdeal Cert.KernelIdeal.Gen Cert.Spec
open Cert.Lib.PlainMatmul Cert.Lib.FirstAxisFolds

/-- The body's first output at row  r  and column  q  is the specification's logits. -/
theorem pay2_apply (v0 : Vec Ideal S256x1600 .f32) (v2 : Vec Ideal S1600x200 .f32) (v4 v26 v30 : Vec Ideal S1x200 .f32)
    (v50 : Vec Ideal S200x2 .f32) (v52 : Vec Ideal S1x2 .f32) (r : Fin 256) (q : Fin 2) :
    k5_pay2 (F := Ideal) (k5_pay4 v0 v2 v4 v26 v30) (k5_pay5 v0 v2 v4 v26 v30) (k5_pay7 v0 v2 v4 v26 v30)
        (k5_pay8 v0 v2 v4 v26 v30) (k5_pay9 v0 v2 v4 v26 v30) v50 v52 (ix2 r q)
      = headLogits v0 v2 v4 v26 v30 v50 v52 (ix2 r q) := by
  unfold k5_pay2
  have hm := fun A B r c => matmul_zero_apply dot_S256x200_S200x2_S256x2_1_0_0_1_n_n rfl rfl rfl rfl rfl rfl none
    (φ₁ := .f32) (φ₂ := .f32) A B r c
  simp only [shapeCast_self, addf_apply, broadcastTo_1b_ab_apply, hm, pay1_apply]
  rfl

/-- The body's second output at row  r  and column  q  is the specification's class scores. -/
theorem pay3_apply (v0 : Vec Ideal S256x1600 .f32) (v2 : Vec Ideal S1600x200 .f32) (v4 v26 v30 : Vec Ideal S1x200 .f32)
    (v57 : Vec Ideal S200x64 .f32) (v59 : Vec Ideal S1x64 .f32) (v65 : Vec Ideal S64x6 .f32) (v67 : Vec Ideal S1x6 .f32)
    (r : Fin 256) (q : Fin 6) :
    k5_pay3 (F := Ideal) (k5_pay4 v0 v2 v4 v26 v30) (k5_pay5 v0 v2 v4 v26 v30) (k5_pay7 v0 v2 v4 v26 v30)
        (k5_pay8 v0 v2 v4 v26 v30) (k5_pay9 v0 v2 v4 v26 v30) v57 v59 v65 v67 (ix2 r q)
      = headCls v0 v2 v4 v26 v30 v57 v59 v65 v67 (ix2 r q) := by
  unfold k5_pay3
  have hm1 := fun A B r c => matmul_zero_apply dot_S256x200_S200x64_S256x64_1_0_0_1_n_n rfl rfl rfl rfl rfl rfl none
    (φ₁ := .f32) (φ₂ := .f32) A B r c
  have hm2 := fun A B r c => matmul_zero_apply dot_S256x64_S64x6_S256x6_1_0_0_1_n_n rfl rfl rfl rfl rfl rfl none
    (φ₁ := .f32) (φ₂ := .f32) A B r c
  simp only [shapeCast_self, addf_apply, maximumf_apply, broadcast_apply, broadcastTo_1b_ab_apply, hm1, hm2, pay1_apply]
  simp only [Scalar.ofBits, Ideal.ofBits_def, Ideal.ofBits_zero_f32]
  rfl

end Cert.KernelIdeal.Values.Head

end
-- ==== Proof.Region5.lean ====
/-
  The value of the head region of the kernel: its two result arrays, for any contents the region is entered with.

  The region's grid has one point, and every window's block there is its whole array (all index maps are zero and every
  block has the array's extents).  So each input block the body loads is the array the region found, what the body
  leaves in an output's buffer is the payload of its one store (a store through the whole-buffer rectangle), and the one
  write-back writes that buffer over the whole result array.  With the payloads read entry by entry this gives the two
  results as the specification's  headLogits  and  headCls  of the eleven input arrays.
-/
import proofs.«105513_j41961830482650_1_alg».proof.Proof.Gen.KernelIdeal.Frame
import proofs.«105513_j41961830482650_1_alg».proof.Proof.HeadSpec
import proofs.«105513_j41961830482650_1_alg».proof.Proof.Head3
import Idealize.ShloMosaic.Lib.Pipeline.Value
import Idealize.ShloMosaic.Lib.Tactic

set_option maxRecDepth 16384

noncomputable section

namespace Cert.KernelIdeal.Values

open Idealize.ShloMosaic Idealize.ShloMosaic.TcCoe Idealize.SL.Sem Idealize.ShloMosaic.ValueIdx
open Idealize.ShloMosaic.Pipeline (Dat)
open Cert.KernelIdeal Cert.KernelIdeal.Gen Cert.Spec

variable (V : (c : Dev nD) → (b : Ref sig .tc) → Buf (Elt Ideal) ((c : Thread nD τ).loc b))

namespace Head

/-- The zero offsets of a whole-array rectangle, as the constant function. -/
theorem zero_offsets : (![0, 0] : Fin 2 → Nat) = fun _ => 0 := funext fun a => by fin_cases a <;> rfl

/-- Window 0's block at the one grid point is its whole array. -/
theorem blk5_0 (c : Dev nD) (t : Fin cfg5.N) : iblk5 (F := Ideal) V c 0 t = (V c main_v66 : S256x1600.Idx → EReal) := by
  unfold iblk5
  have hz' : (fun a => win5_0.index t a * main_v66.ty.shape.size a) = fun _ => 0 := by
    obtain rfl := fin_N5 t
    exact funext fun a => by fin_cases a <;> decide
  exact Memref.read_access_unit_zero (Elt Ideal) main_v66 hz' (fun a => by rw [congrFun hz' a]; simp) (V c main_v66)

/-- Window 1's block at the one grid point is its whole array. -/
theorem blk5_1 (c : Dev nD) (t : Fin cfg5.N) : iblk5 (F := Ideal) V c 1 t = (V c main_arg9 : S1600x200.Idx → EReal) := by
  unfold iblk5
  have hz' : (fun a => win5_1.index t a * main_arg9.ty.shape.size a) = fun _ => 0 := by
    obtain rfl := fin_N5 t
    exact funext fun a => by fin_cases a <;> decide
  exact Memref.read_access_unit_zero (Elt Ideal) main_arg9 hz' (fun a => by rw [congrFun hz' a]; simp) (V c main_arg9)

/-- Window 2's block at the one grid point is its whole array. -/
theorem blk5_2 (c : Dev nD) (t : Fin cfg5.N) : iblk5 (F := Ideal) V c 2 t = (V c main_v67 : S1x200.Idx → EReal) := by
  unfold iblk5
  have hz' : (fun a => win5_2.index t a * main_v67.ty.shape.size a) = fun _ => 0 := by
    obtain rfl := fin_N5 t
    exact funext fun a => by fin_cases a <;> decide
  exact Memref.read_access_unit_zero (Elt Ideal) main_v67 hz' (fun a => by rw [congrFun hz' a]; simp) (V c main_v67)

/-- Window 3's block at the one grid point is its whole array. -/
theorem blk5_3 (c : Dev nD) (t : Fin cfg5.N) : iblk5 (F := Ideal) V c 3 t = (V c main_v68 : S1x200.Idx → EReal) := by
  unfold iblk5
  have hz' : (fun a => win5_3.index t a * main_v68.ty.shape.size a) = fun _ => 0 := by
    obtain rfl := fin_N5 t
    exact funext fun a => by fin_cases a <;> decide
  exact Memref.read_access_unit_zero (Elt Ideal) main_v68 hz' (fun a => by rw [congrFun hz' a]; simp) (V c main_v68)

/-- Window 4's block at the one grid point is its whole array. -/
theorem blk5_4 (c : Dev nD) (t : Fin cfg5.N) : iblk5 (F := Ideal) V c 4 t = (V c main_v69 : S1x200.Idx → EReal) := by
  unfold iblk5
  have hz' : (fun a => win5_4.index t a * main_v69.ty.shape.size a) = fun _ => 0 := by
    obtain rfl := fin_N5 t
    exact funext fun a => by fin_cases a <;> decide
  exact Memref.read_access_unit_zero (Elt Ideal) main_v69 hz' (fun a => by rw [congrFun hz' a]; simp) (V c main_v69)

/-- Window 5's block at the one grid point is its whole array. -/
theorem blk5_5 (c : Dev nD) (t : Fin cfg5.N) : iblk5 (F := Ideal) V c 5 t = (V c main_arg13 : S200x2.Idx → EReal) := by
  unfold iblk5
  have hz' : (fun a => win5_5.index t a * main_arg13.ty.shape.size a) = fun _ => 0 := by
    obtain rfl := fin_N5 t
    exact funext fun a => by fin_cases a <;> decide
  exact Memref.read_access_unit_zero (Elt Ideal) main_arg13 hz' (fun a => by rw [congrFun hz' a]; simp) (V c main_arg13)

/-- Window 6's block at the one grid point is its whole array. -/
theorem blk5_6 (c : Dev nD) (t : Fin cfg5.N) : iblk5 (F := Ideal) V c 6 t = (V c main_v70 : S1x2.Idx → EReal) := by
  unfold iblk5
  have hz' : (fun a => win5_6.index t a * main_v70.ty.shape.size a) = fun _ => 0 := by
    obtain rfl := fin_N5 t
    exact funext fun a => by fin_cases a <;> decide
  exact Memref.read_access_unit_zero (Elt Ideal) main_v70 hz' (fun a => by rw [congrFun hz' a]; simp) (V c main_v70)

/-- Window 7's block at the one grid point is its whole array. -/
theorem blk5_7 (c : Dev nD) (t : Fin cfg5.N) : iblk5 (F := Ideal) V c 7 t = (V c main_arg15 : S200x64.Idx → EReal) := by
  unfold iblk5
  have hz' : (fun a => win5_7.index t a * main_arg15.ty.shape.size a) = fun _ => 0 := by
    obtain rfl := fin_N5 t
    exact funext fun a => by fin_cases a <;> decide
  exact Memref.read_access_unit_zero (Elt Ideal) main_arg15 hz' (fun a => by rw [congrFun hz' a]; simp) (V c main_arg15)

/-- Window 8's block at the one grid point is its whole array. -/
theorem blk5_8 (c : Dev nD) (t : Fin cfg5.N) : iblk5 (F := Ideal) V c 8 t = (V c main_v71 : S1x64.Idx → EReal) := by
  unfold iblk5
  have hz' : (fun a => win5_8.index t a * main_v71.ty.shape.size a) = fun _ => 0 := by
    obtain rfl := fin_N5 t
    exact funext fun a => by fin_cases a <;> decide
  exact Memref.read_access_unit_zero (Elt Ideal) main_v71 hz' (fun a => by rw [congrFun hz' a]; simp) (V c main_v71)

/-- Window 9's block at the one grid point is its whole array. -/
theorem blk5_9 (c : Dev nD) (t : Fin cfg5.N) : iblk5 (F := Ideal) V c 9 t = (V c main_arg17 : S64x6.Idx → EReal) := by
  unfold iblk5
  have hz' : (fun a => win5_9.index t a * main_arg17.ty.shape.size a) = fun _ => 0 := by
    obtain rfl := fin_N5 t
    exact funext fun a => by fin_cases a <;> decide
  exact Memref.read_access_unit_zero (Elt Ideal) main_arg17 hz' (fun a => by rw [congrFun hz' a]; simp) (V c main_arg17)

/-- Window 10's block at the one grid point is its whole array. -/
theorem blk5_10 (c : Dev nD) (t : Fin cfg5.N) : iblk5 (F := Ideal) V c 10 t = (V c main_v72 : S1x6.Idx → EReal) := by
  unfold iblk5
  have hz' : (fun a => win5_10.index t a * main_v72.ty.shape.size a) = fun _ => 0 := by
    obtain rfl := fin_N5 t
    exact funext fun a => by fin_cases a <;> decide
  exact Memref.read_access_unit_zero (Elt Ideal) main_v72 hz' (fun a => by rw [congrFun hz' a]; simp) (V c main_v72)

/-- What the body leaves in the logits' buffer, as a function of the input blocks, is the specification's logits. -/
theorem out11_eq (x0 : Vec Ideal S256x1600 .f32) (x1 : Vec Ideal S1600x200 .f32) (x2 x3 x4 : Vec Ideal S1x200 .f32)
    (x5 : Vec Ideal S200x2 .f32) (x6 : Vec Ideal S1x2 .f32) (x7 : Vec Ideal S200x64 .f32) (x8 : Vec Ideal S1x64 .f32)
    (x9 : Vec Ideal S64x6 .f32) (x10 : Vec Ideal S1x6 .f32) :
    out5_11 (F := Ideal) x0 x1 x2 x3 x4 x5 x6 x7 x8 x9 x10 = headLogits x0 x1 x2 x3 x4 x5 x6 := by
  unfold out5_11
  rw [View.canon_unit_zero zero_offsets]
  simp only [View.ld_unit_zero (S := S256x1600) zero_offsets, View.ld_unit_zero (S := S1600x200) zero_offsets, View.ld_unit_zero (S := S1x200) zero_offsets, View.ld_unit_zero (S := S200x2) zero_offsets, View.ld_unit_zero (S := S1x2) zero_offsets, View.ld_unit_zero (S := S200x64) zero_offsets, View.ld_unit_zero (S := S1x64) zero_offsets, View.ld_unit_zero (S := S64x6) zero_offsets, View.ld_unit_zero (S := S1x6) zero_offsets]
  funext i
  obtain ⟨r, q, rfl⟩ : ∃ (r : Fin 256) (q : Fin 2), i = ix2 r q := ⟨i 0, i 1, eq_ix2 i⟩
  exact pay2_apply x0 x1 x2 x3 x4 x5 x6 r q

/-- What the body leaves in the class scores' buffer is the specification's class scores. -/
theorem out12_eq (x0 : Vec Ideal S256x1600 .f32) (x1 : Vec Ideal S1600x200 .f32) (x2 x3 x4 : Vec Ideal S1x200 .f32)
    (x5 : Vec Ideal S200x2 .f32) (x6 : Vec Ideal S1x2 .f32) (x7 : Vec Ideal S200x64 .f32) (x8 : Vec Ideal S1x64 .f32)
    (x9 : Vec Ideal S64x6 .f32) (x10 : Vec Ideal S1x6 .f32) :
    out5_12 (F := Ideal) x0 x1 x2 x3 x4 x5 x6 x7 x8 x9 x10 = headCls x0 x1 x2 x3 x4 x7 x8 x9 x10 := by
  unfold out5_12
  rw [View.canon_unit_zero zero_offsets]
  simp only [View.ld_unit_zero (S := S256x1600) zero_offsets, View.ld_unit_zero (S := S1600x200) zero_offsets, View.ld_unit_zero (S := S1x200) zero_offsets, View.ld_unit_zero (S := S200x2) zero_offsets, View.ld_unit_zero (S := S1x2) zero_offsets, View.ld_unit_zero (S := S200x64) zero_offsets, View.ld_unit_zero (S := S1x64) zero_offsets, View.ld_unit_zero (S := S64x6) zero_offsets, View.ld_unit_zero (S := S1x6) zero_offsets]
  funext i
  obtain ⟨r, q, rfl⟩ : ∃ (r : Fin 256) (q : Fin 6), i = ix2 r q := ⟨i 0, i 1, eq_ix2 i⟩
  exact pay3_apply x0 x1 x2 x3 x4 x7 x8 x9 x10 r q

/-- The one write-back of window 11 writes the specification's array: the block is the whole array. -/
theorem flushed5_11 (c : Dev nD) (t : Fin cfg5.N) :
    (dat5 V c).flushed 11 t = ((cfg5.win 11).blk t).view.read (Elt Ideal)
      (headLogits (V c main_v66) (V c main_arg9) (V c main_v67) (V c main_v68) (V c main_v69) (V c main_arg13) (V c main_v70) : Buf (Elt Ideal) ((c : Thread nD τ).loc main_v73_0)) := by
  show (cfg5.win 11).cut (grid5.coords t) ((dat5 V c).after 11 t) = _
  rw [after5_11, blk5_0, blk5_1, blk5_2, blk5_3, blk5_4, blk5_5, blk5_6, blk5_7, blk5_8, blk5_9, blk5_10, out11_eq]
  have hz' : (fun a => win5_11.index t a * main_v73_0.ty.shape.size a) = fun _ => 0 := by
    obtain rfl := fin_N5 t
    exact funext fun a => by fin_cases a <;> decide
  exact (Memref.read_access_unit_zero (Elt Ideal) main_v73_0 hz' (fun a => by rw [congrFun hz' a]; simp) _).symm

/-- The one write-back of window 12 writes the specification's array: the block is the whole array. -/
theorem flushed5_12 (c : Dev nD) (t : Fin cfg5.N) :
    (dat5 V c).flushed 12 t = ((cfg5.win 12).blk t).view.read (Elt Ideal)
      (headCls (V c main_v66) (V c main_arg9) (V c main_v67) (V c main_v68) (V c main_v69) (V c main_arg15) (V c main_v71) (V c main_arg17) (V c main_v72) : Buf (Elt Ideal) ((c : Thread nD τ).loc main_v73_1)) := by
  show (cfg5.win 12).cut (grid5.coords t) ((dat5 V c).after 12 t) = _
  rw [after5_12, blk5_0, blk5_1, blk5_2, blk5_3, blk5_4, blk5_5, blk5_6, blk5_7, blk5_8, blk5_9, blk5_10, out12_eq]
  have hz' : (fun a => win5_12.index t a * main_v73_1.ty.shape.size a) = fun _ => 0 := by
    obtain rfl := fin_N5 t
    exact funext fun a => by fin_cases a <;> decide
  exact (Memref.read_access_unit_zero (Elt Ideal) main_v73_1 hz' (fun a => by rw [congrFun hz' a]; simp) _).symm

end Head

open Head

/-- The array of window 11 ends holding the specification's array: the one point's block covers it. -/
theorem region5_logits (c : Dev nD) :
    (dat5 (F := Ideal) V c).arrAt 11 cfg5.N = headLogits (V c main_v66) (V c main_arg9) (V c main_v67) (V c main_v68) (V c main_v69) (V c main_arg13) (V c main_v70) :=
  (dat5 V c).arrAt_eq_of_cover 11 _ (fun t _ => flushed5_11 V c t) fun i =>
    ⟨t5_0, flush5_11 t5_0, by
      show i ∈ ((View.whole main_v73_0).slice (win5_11.rect t5_0)).set
      rw [View.set_slice_whole, Rect.mem_set_unit]
      intro a
      have h0 : (i 0 : Nat) < 256 := (i 0).isLt
      have h1 : (i 1 : Nat) < 2 := (i 1).isLt
      match a with
      | ⟨0, _⟩ =>
        show win5_11.index t5_0 0 * win5_11.size 0 ≤ (i 0 : Nat) ∧ (i 0 : Nat) < win5_11.index t5_0 0 * win5_11.size 0 + win5_11.xsize (grid5.coords t5_0) 0
        rw [show win5_11.index t5_0 0 * win5_11.size 0 = 0 from by decide +kernel, show win5_11.xsize (grid5.coords t5_0) 0 = 256 from by decide +kernel]; omega
      | ⟨1, _⟩ =>
        show win5_11.index t5_0 1 * win5_11.size 1 ≤ (i 1 : Nat) ∧ (i 1 : Nat) < win5_11.index t5_0 1 * win5_11.size 1 + win5_11.xsize (grid5.coords t5_0) 1
        rw [show win5_11.index t5_0 1 * win5_11.size 1 = 0 from by decide +kernel, show win5_11.xsize (grid5.coords t5_0) 1 = 2 from by decide +kernel]; omega⟩

/-- The array of window 12 ends holding the specification's array: the one point's block covers it. -/
theorem region5_cls (c : Dev nD) :
    (dat5 (F := Ideal) V c).arrAt 12 cfg5.N = headCls (V c main_v66) (V c main_arg9) (V c main_v67) (V c main_v68) (V c main_v69) (V c main_arg15) (V c main_v71) (V c main_arg17) (V c main_v72) :=
  (dat5 V c).arrAt_eq_of_cover 12 _ (fun t _ => flushed5_12 V c t) fun i =>
    ⟨t5_0, flush5_12 t5_0, by
      show i ∈ ((View.whole main_v73_1).slice (win5_12.rect t5_0)).set
      rw [View.set_slice_whole, Rect.mem_set_unit]
      intro a
      have h0 : (i 0 : Nat) < 256 := (i 0).isLt
      have h1 : (i 1 : Nat) < 6 := (i 1).isLt
      match a with
      | ⟨0, _⟩ =>
        show win5_12.index t5_0 0 * win5_12.size 0 ≤ (i 0 : Nat) ∧ (i 0 : Nat) < win5_12.index t5_0 0 * win5_12.size 0 + win5_12.xsize (grid5.coords t5_0) 0
        rw [show win5_12.index t5_0 0 * win5_12.size 0 = 0 from by decide +kernel, show win5_12.xsize (grid5.coords t5_0) 0 = 256 from by decide +kernel]; omega
      | ⟨1, _⟩ =>
        show win5_12.index t5_0 1 * win5_12.size 1 ≤ (i 1 : Nat) ∧ (i 1 : Nat) < win5_12.index t5_0 1 * win5_12.size 1 + win5_12.xsize (grid5.coords t5_0) 1
        rw [show win5_12.index t5_0 1 * win5_12.size 1 = 0 from by decide +kernel, show win5_12.xsize (grid5.coords t5_0) 1 = 6 from by decide +kernel]; omega⟩

end Cert.KernelIdeal.Values

end
-- ==== Proof.KernelClosed.lean ====
/-
  The idealized kernel's two results as functions of its nineteen arguments, on the extended reals.

  Layer 1:  h₁ = mish (Â (x W₁) + b₁),  layer 2:  h₂ = mish (Â (h₁ W₂) + b₂),  read-out:  r = mish (h₂ W_ro + b_ro),
  re-laid row-major as the  [256, 1600]  feature matrix, then the head (`HeadSpec`).  Â is the aggregation along the
  edges with the coefficients of `HostStages`; a bias vector enters as a one-row matrix.
-/
import proofs.«105513_j41961830482650_1_alg».proof.Proof.HostStages
import proofs.«105513_j41961830482650_1_alg».proof.Proof.HeadSpec

noncomputable section

namespace Cert.KernelIdeal.Values

open Idealize.ShloMosaic Cert.KernelIdeal Cert.KernelIdeal.Facts₀

/-- A whole array of the kernel program's shape `S` and element type `e`, at the ideal instance. -/
abbrev ArrI (S : Shape) (e : EltTy) : Type := (⟨S, e⟩ : BufTy).Contents (Elt Ideal)

variable (x : ArrI S51200x200 .f32) (ei : ArrI S2x1638400 .i32) (ea : ArrI S1638400 .f32)
  (W1 : ArrI S200x128 .f32) (b1 : ArrI S128 .f32) (W2 : ArrI S128x64 .f32) (b2 : ArrI S64 .f32)
  (Wro : ArrI S64x8 .f32) (bro : ArrI S8 .f32) (Wfc1 : ArrI S1600x200 .f32) (bfc1 γ β : ArrI S200 .f32)
  (Wfc2 : ArrI S200x2 .f32) (bfc2 : ArrI S2 .f32) (Wd1 : ArrI S200x64 .f32) (bd1 : ArrI S64 .f32)
  (Wd2 : ArrI S64x6 .f32) (bd2 : ArrI S6 .f32)

/-- Every edge's coefficient, from the edge list and the weights. -/
def coeffK : ArrI S1689600 .f32 := edgeNorm (rowIdx ei) (colIdx ei) (edgeWeight ea)

/-- Layer 1. -/
def layer1K : ArrI S51200x128 .f32 :=
  Cert.Spec.biasMish (aggregate128 (Cert.Spec.mm x W1) (rowIdx ei) (colIdx ei) (coeffK ei ea))
    (shapeCast S1x128 b1 Facts₀.shapeCasts_S128_S1x128)

/-- Layer 2. -/
def layer2K : ArrI S51200x64 .f32 :=
  Cert.Spec.biasMish (aggregate64 (Cert.Spec.mm (layer1K x ei ea W1 b1) W2) (rowIdx ei) (colIdx ei) (coeffK ei ea))
    (shapeCast S1x64 b2 Facts₀.shapeCasts_S64_S1x64)

/-- The read-out. -/
def readoutK : ArrI S51200x8 .f32 :=
  Cert.Spec.biasMish (Cert.Spec.mm (layer2K x ei ea W1 b1 W2 b2) Wro) (shapeCast S1x8 bro Facts₀.shapeCasts_S8_S1x8)

/-- The read-out re-laid as one row of 1600 features per graph. -/
def featK : ArrI S256x1600 .f32 :=
  shapeCast S256x1600 (readoutK x ei ea W1 b1 W2 b2 Wro bro) Facts₀.shapeCasts_S51200x8_S256x1600

/-- The class logits. -/
def logitsK : ArrI S256x2 .f32 :=
  Cert.Spec.headLogits (featK x ei ea W1 b1 W2 b2 Wro bro) Wfc1 (shapeCast S1x200 bfc1 Facts₀.shapeCasts_S200_S1x200)
    (shapeCast S1x200 γ Facts₀.shapeCasts_S200_S1x200) (shapeCast S1x200 β Facts₀.shapeCasts_S200_S1x200)
    Wfc2 (shapeCast S1x2 bfc2 Facts₀.shapeCasts_S2_S1x2)

/-- The domain-classifier logits. -/
def clsK : ArrI S256x6 .f32 :=
  Cert.Spec.headCls (featK x ei ea W1 b1 W2 b2 Wro bro) Wfc1 (shapeCast S1x200 bfc1 Facts₀.shapeCasts_S200_S1x200)
    (shapeCast S1x200 γ Facts₀.shapeCasts_S200_S1x200) (shapeCast S1x200 β Facts₀.shapeCasts_S200_S1x200)
    Wd1 (shapeCast S1x64 bd1 Facts₀.shapeCasts_S64_S1x64) Wd2 (shapeCast S1x6 bd2 Facts₀.shapeCasts_S6_S1x6)

end Cert.KernelIdeal.Values

end
-- ==== Proof.KernelValue.lean ====
/-
  The idealized kernel's run ends at the closed forms of `KernelClosed`.

  Boundary by boundary through @main: the first stretches leave the index vectors and every edge's coefficient; region 0
  leaves  x W₁  (the row blocks of a matrix product are the products of the row blocks), the next stretch aggregates it
  along the edges, region 1 adds the bias row and applies mish; regions 2 and 3 repeat this for the second layer, region 4
  is the read-out, the last stretch re-lays it, and region 5 is the head on whole arrays.  Each argument is read at a
  later boundary as launched, because nothing in between writes it.
-/
import proofs.«105513_j41961830482650_1_alg».proof.Proof.KernelStretches
import proofs.«105513_j41961830482650_1_alg».proof.Proof.KernelCarry
import proofs.«105513_j41961830482650_1_alg».proof.Proof.Region0
import proofs.«105513_j41961830482650_1_alg».proof.Proof.Region1
import proofs.«105513_j41961830482650_1_alg».proof.Proof.Region2
import proofs.«105513_j41961830482650_1_alg».proof.Proof.Region3
import proofs.«105513_j41961830482650_1_alg».proof.Proof.Region4
import proofs.«105513_j41961830482650_1_alg».proof.Proof.Region5
import proofs.«105513_j41961830482650_1_alg».proof.Proof.KernelRun
import proofs.«105513_j41961830482650_1_alg».proof.Proof.KernelClosed

set_option maxRecDepth 16384

noncomputable section

namespace Cert.KernelIdeal.Values

open Idealize.ShloMosaic Idealize.ShloMosaic.TcCoe Idealize.SL.Sem Idealize.ShloMosaic.StableHlo
open Cert.KernelIdeal Cert.KernelIdeal.Gen Cert.KernelIdeal.Facts₀

variable (m : (ℓ : Loc nD τ sig) → Buf (Elt Ideal) ℓ) (ρ : Dev nD → PrngReg)

/-- The edge list, as launched. -/
abbrev eiOf (c : Dev nD) := m ((c : Thread nD τ).loc main_arg1)
/-- The edge weights, as launched. -/
abbrev eaOf (c : Dev nD) := m ((c : Thread nD τ).loc main_arg2)

theorem W3_v5 (c : Dev nD) : W3 m ρ c (Proc.devRef .tc main_v5) = rowIdx (eiOf m c) :=
  (W3_v5_from1 m ρ c).trans (s0_v5 (W0 m ρ c))

theorem W3_v6 (c : Dev nD) : W3 m ρ c (Proc.devRef .tc main_v6) = colIdx (eiOf m c) :=
  (W3_v6_from1 m ρ c).trans (s0_v6 (W0 m ρ c))

theorem W2_v15 (c : Dev nD) : W2 m ρ c (Proc.devRef .tc main_v15) = invSqrtDeg (degree (colIdx (eiOf m c)) (edgeWeight (eaOf m c))) := by
  refine (s01_v15 (W1 m ρ c)).trans ?_
  rw [show W1 m ρ c (Proc.devRef .tc main_v13) = _ from s0_v13 (W0 m ρ c), show W1 m ρ c (Proc.devRef .tc main_v14) = _ from s0_v14 (W0 m ρ c),
    show W1 m ρ c (Proc.devRef .tc main_cst_2) = _ from s0_cst_2 (W0 m ρ c)]
  rfl

theorem W3_v31 (c : Dev nD) : W3 m ρ c (Proc.devRef .tc main_v31)
    = edgeNorm (rowIdx (eiOf m c)) (colIdx (eiOf m c)) (edgeWeight (eaOf m c)) := by
  refine (s02_v31 (W2 m ρ c)).trans ?_
  rw [W2_v15 m ρ c, W2_v5_from1 m ρ c, W2_v6_from1 m ρ c, W2_v8_from1 m ρ c,
    show W1 m ρ c (Proc.devRef .tc main_v5) = _ from s0_v5 (W0 m ρ c), show W1 m ρ c (Proc.devRef .tc main_v6) = _ from s0_v6 (W0 m ρ c),
    show W1 m ρ c (Proc.devRef .tc main_v8) = _ from s0_v8 (W0 m ρ c)]
  rfl

/-- Region 0 leaves  x · W₁. -/
theorem W4_v32 (c : Dev nD) : W4 m ρ c (Proc.devRef .tc main_v32)
    = Cert.Spec.mm (m ((c : Thread nD τ).loc main_arg0)) (m ((c : Thread nD τ).loc main_arg3)) := by
  refine (W4_arr m ρ c 2).trans ?_
  rw [region0_value (V3 m ρ) c]
  show Cert.Spec.mm (W3 m ρ c (Proc.devRef .tc main_arg0)) (W3 m ρ c (Proc.devRef .tc main_arg3)) = _
  rw [W3_arg0_from0 m ρ c, W3_arg3_from0 m ρ c]

theorem W5_v45 (c : Dev nD) : W5 m ρ c (Proc.devRef .tc main_v45)
    = aggregate128 (Cert.Spec.mm (m ((c : Thread nD τ).loc main_arg0)) (m ((c : Thread nD τ).loc main_arg3)))
        (rowIdx (eiOf m c)) (colIdx (eiOf m c)) (edgeNorm (rowIdx (eiOf m c)) (colIdx (eiOf m c)) (edgeWeight (eaOf m c))) := by
  refine (s1_v45 (W4 m ρ c)).trans ?_
  rw [W4_v32 m ρ c, W4_v5_from3 m ρ c, W4_v6_from3 m ρ c, W4_v31_from3 m ρ c, W3_v5 m ρ c, W3_v6 m ρ c, W3_v31 m ρ c]

/-- Region 1 leaves layer 1. -/
theorem W6_v47 (c : Dev nD) : W6 m ρ c (Proc.devRef .tc main_v47) = layer1K (m ((c : Thread nD τ).loc main_arg0)) (m ((c : Thread nD τ).loc main_arg1)) (m ((c : Thread nD τ).loc main_arg2)) (m ((c : Thread nD τ).loc main_arg3)) (m ((c : Thread nD τ).loc main_arg4)) := by
  refine (W6_arr m ρ c 2).trans ?_
  rw [region1_value (V5 m ρ) c]
  show Cert.Spec.biasMish (W5 m ρ c (Proc.devRef .tc main_v45)) (W5 m ρ c (Proc.devRef .tc main_v46)) = _
  rw [W5_v45 m ρ c, show W5 m ρ c (Proc.devRef .tc main_v46) = _ from s1_v46 (W4 m ρ c), W4_arg4_from0 m ρ c]
  rfl

/-- Region 2 leaves  h₁ · W₂. -/
theorem W7_v48 (c : Dev nD) : W7 m ρ c (Proc.devRef .tc main_v48) = Cert.Spec.mm (layer1K (m ((c : Thread nD τ).loc main_arg0)) (m ((c : Thread nD τ).loc main_arg1)) (m ((c : Thread nD τ).loc main_arg2)) (m ((c : Thread nD τ).loc main_arg3)) (m ((c : Thread nD τ).loc main_arg4))) (m ((c : Thread nD τ).loc main_arg5)) := by
  refine (W7_arr m ρ c 2).trans ?_
  rw [region2_value (V6 m ρ) c]
  show Cert.Spec.mm (W6 m ρ c (Proc.devRef .tc main_v47)) (W6 m ρ c (Proc.devRef .tc main_arg5)) = _
  rw [W6_v47 m ρ c, W6_arg5_from0 m ρ c]

theorem W8_v61 (c : Dev nD) : W8 m ρ c (Proc.devRef .tc main_v61)
    = aggregate64 (Cert.Spec.mm (layer1K (m ((c : Thread nD τ).loc main_arg0)) (m ((c : Thread nD τ).loc main_arg1)) (m ((c : Thread nD τ).loc main_arg2)) (m ((c : Thread nD τ).loc main_arg3)) (m ((c : Thread nD τ).loc main_arg4))) (m ((c : Thread nD τ).loc main_arg5))) (rowIdx (eiOf m c)) (colIdx (eiOf m c)) (coeffK (eiOf m c) (eaOf m c)) := by
  refine (s3_v61 (W7 m ρ c)).trans ?_
  rw [W7_v48 m ρ c, W7_v5_from3 m ρ c, W7_v6_from3 m ρ c, W7_v31_from3 m ρ c, W3_v5 m ρ c, W3_v6 m ρ c, W3_v31 m ρ c]
  rfl

/-- Region 3 leaves layer 2. -/
theorem W9_v63 (c : Dev nD) : W9 m ρ c (Proc.devRef .tc main_v63) = layer2K (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine (W9_arr m ρ c 2).trans ?_
  rw [region3_value (V8 m ρ) c]
  show Cert.Spec.biasMish (W8 m ρ c (Proc.devRef .tc main_v61)) (W8 m ρ c (Proc.devRef .tc main_v62)) = _
  rw [W8_v61 m ρ c, show W8 m ρ c (Proc.devRef .tc main_v62) = _ from s3_v62 (W7 m ρ c), W7_arg6_from0 m ρ c]
  rfl

/-- Region 4 leaves the read-out. -/
theorem W11_v65 (c : Dev nD) : W11 m ρ c (Proc.devRef .tc main_v65) = readoutK (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  refine (W11_arr m ρ c 3).trans ?_
  rw [region4_value (V10 m ρ) c]
  show Cert.Spec.biasMish (Cert.Spec.mm (W10 m ρ c (Proc.devRef .tc main_v63)) (W10 m ρ c (Proc.devRef .tc main_arg7))) (W10 m ρ c (Proc.devRef .tc main_v64)) = _
  rw [W10_v63_from9 m ρ c, W9_v63 m ρ c, W10_arg7_from0 m ρ c, show W10 m ρ c (Proc.devRef .tc main_v64) = _ from s4_v64 (W9 m ρ c), W9_arg8_from0 m ρ c]
  rfl

/-- The last stretch re-lays the read-out as the feature matrix and the head's vectors as rows. -/
theorem W12_v66 (c : Dev nD) : W12 m ρ c (Proc.devRef .tc main_v66) = featK (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  refine (s5_v66 (W11 m ρ c)).trans ?_
  rw [W11_v65 m ρ c]
  rfl

theorem W12_v67 (c : Dev nD) : W12 m ρ c (Proc.devRef .tc main_v67) = shapeCast S1x200 (m ((c : Thread nD τ).loc main_arg10)) Facts₀.shapeCasts_S200_S1x200 := by
  refine (s5_v67 (W11 m ρ c)).trans ?_
  rw [W11_arg10_from0 m ρ c]

theorem W12_v68 (c : Dev nD) : W12 m ρ c (Proc.devRef .tc main_v68) = shapeCast S1x200 (m ((c : Thread nD τ).loc main_arg11)) Facts₀.shapeCasts_S200_S1x200 := by
  refine (s5_v68 (W11 m ρ c)).trans ?_
  rw [W11_arg11_from0 m ρ c]

theorem W12_v69 (c : Dev nD) : W12 m ρ c (Proc.devRef .tc main_v69) = shapeCast S1x200 (m ((c : Thread nD τ).loc main_arg12)) Facts₀.shapeCasts_S200_S1x200 := by
  refine (s5_v69 (W11 m ρ c)).trans ?_
  rw [W11_arg12_from0 m ρ c]

theorem W12_v70 (c : Dev nD) : W12 m ρ c (Proc.devRef .tc main_v70) = shapeCast S1x2 (m ((c : Thread nD τ).loc main_arg14)) Facts₀.shapeCasts_S2_S1x2 := by
  refine (s5_v70 (W11 m ρ c)).trans ?_
  rw [W11_arg14_from0 m ρ c]

theorem W12_v71 (c : Dev nD) : W12 m ρ c (Proc.devRef .tc main_v71) = shapeCast S1x64 (m ((c : Thread nD τ).loc main_arg16)) Facts₀.shapeCasts_S64_S1x64 := by
  refine (s5_v71 (W11 m ρ c)).trans ?_
  rw [W11_arg16_from0 m ρ c]

theorem W12_v72 (c : Dev nD) : W12 m ρ c (Proc.devRef .tc main_v72) = shapeCast S1x6 (m ((c : Thread nD τ).loc main_arg18)) Facts₀.shapeCasts_S6_S1x6 := by
  refine (s5_v72 (W11 m ρ c)).trans ?_
  rw [W11_arg18_from0 m ρ c]

/-- Region 5 leaves the class logits … -/
theorem W13_v73_0 (c : Dev nD) : W13 m ρ c (Proc.devRef .tc main_v73_0)
    = logitsK (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) := by
  refine (W13_arr m ρ c 11).trans ?_
  rw [region5_logits (V12 m ρ) c]
  show Cert.Spec.headLogits (W12 m ρ c (Proc.devRef .tc main_v66)) (W12 m ρ c (Proc.devRef .tc main_arg9)) (W12 m ρ c (Proc.devRef .tc main_v67)) (W12 m ρ c (Proc.devRef .tc main_v68))
    (W12 m ρ c (Proc.devRef .tc main_v69)) (W12 m ρ c (Proc.devRef .tc main_arg13)) (W12 m ρ c (Proc.devRef .tc main_v70)) = _
  rw [W12_v66 m ρ c, W12_arg9_from0 m ρ c, W12_v67 m ρ c, W12_v68 m ρ c, W12_v69 m ρ c, W12_arg13_from0 m ρ c, W12_v70 m ρ c]
  rfl

/-- … and the domain-classifier logits. -/
theorem W13_v73_1 (c : Dev nD) : W13 m ρ c (Proc.devRef .tc main_v73_1)
    = clsK (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg15)) (m ((c : Thread nD τ).loc main_arg16)) (m ((c : Thread nD τ).loc main_arg17)) (m ((c : Thread nD τ).loc main_arg18)) := by
  refine (W13_arr m ρ c 12).trans ?_
  rw [region5_cls (V12 m ρ) c]
  show Cert.Spec.headCls (W12 m ρ c (Proc.devRef .tc main_v66)) (W12 m ρ c (Proc.devRef .tc main_arg9)) (W12 m ρ c (Proc.devRef .tc main_v67)) (W12 m ρ c (Proc.devRef .tc main_v68))
    (W12 m ρ c (Proc.devRef .tc main_v69)) (W12 m ρ c (Proc.devRef .tc main_arg15)) (W12 m ρ c (Proc.devRef .tc main_v71)) (W12 m ρ c (Proc.devRef .tc main_arg17)) (W12 m ρ c (Proc.devRef .tc main_v72)) = _
  rw [W12_v66 m ρ c, W12_arg9_from0 m ρ c, W12_v67 m ρ c, W12_v68 m ρ c, W12_v69 m ρ c, W12_arg15_from0 m ρ c, W12_v71 m ρ c,
    W12_arg17_from0 m ρ c, W12_v72 m ρ c]
  rfl

/-- Every weakly fair execution of the idealized kernel terminates, nothing faulting, with the class logits and the
    domain-classifier logits of its arguments in the two result arrays and the arguments as launched. -/
theorem run_closed : θ_run defs (onTc (τ := τ) (main (F := Ideal))) ⟨m, fun _ => 0, ρ⟩ (fun r => ∀ c : Dev nD,
      r.2.mem ((c.tc : Thread nD τ).loc main_v73_0) = logitsK (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14))
      ∧ r.2.mem ((c.tc : Thread nD τ).loc main_v73_1) = clsK (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg15)) (m ((c : Thread nD τ).loc main_arg16)) (m ((c : Thread nD τ).loc main_arg17)) (m ((c : Thread nD τ).loc main_arg18))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)) :=
  (θ_run defs _ _).mono (fun _ h c => ⟨(h c).1.trans (W13_v73_0 m ρ c), (h c).2.1.trans (W13_v73_1 m ρ c), (h c).2.2⟩) (run_W13 (F := Ideal) m ρ)

end Cert.KernelIdeal.Values

end
-- ==== Proof.RealValued.lean ====
/-
  Real-valued extended reals.

  On the extended reals the laws that let a factor or a summand be cancelled  (2·x − x = x)  hold only away from the
  two infinities. This module names the property "x is a real number", shows that every operation the network is
  built from keeps it (sums, products, maxima, finite sums, the exponential, the hyperbolic tangent, log1p of a
  nonnegative real, the reciprocal square root of a positive real, division by a nonzero real), reads the three
  single-precision words the programs use as real numbers, and closes softplus and mish under it.
-/
import proofs.«105513_j41961830482650_1_alg».proof.Proof.Spec
import Mathlib.Data.EReal.Operations
import Mathlib.Data.EReal.Inv
import Mathlib.Analysis.SpecialFunctions.Exp
import Mathlib.Analysis.SpecialFunctions.Sqrt

noncomputable section

namespace Cert.Spec

open Idealize.ShloMosaic

/-- An extended real that is a real number. -/
def IsReal (x : EReal) : Prop := ∃ r : ℝ, x = (r : EReal)

/-- A family of extended reals all of whose members are real numbers (an array that is real at every index). -/
def RealValued {ι : Type} (f : ι → EReal) : Prop := ∀ i, IsReal (f i)

theorem isReal_coe (r : ℝ) : IsReal (r : EReal) := ⟨r, rfl⟩

/-- Being a real number is being neither infinity. -/
theorem isReal_iff (x : EReal) : IsReal x ↔ x ≠ ⊤ ∧ x ≠ ⊥ := by
  constructor
  · rintro ⟨r, rfl⟩; exact ⟨EReal.coe_ne_top r, EReal.coe_ne_bot r⟩
  · rintro ⟨ht, hb⟩
    induction x using EReal.rec with
    | bot => exact absurd rfl hb
    | coe r => exact ⟨r, rfl⟩
    | top => exact absurd rfl ht

theorem IsReal.ne_top {x : EReal} (h : IsReal x) : x ≠ ⊤ := ((isReal_iff x).mp h).1
theorem IsReal.ne_bot {x : EReal} (h : IsReal x) : x ≠ ⊥ := ((isReal_iff x).mp h).2
theorem isReal_of_ne {x : EReal} (ht : x ≠ ⊤) (hb : x ≠ ⊥) : IsReal x := (isReal_iff x).mpr ⟨ht, hb⟩

theorem isReal_zero : IsReal (0 : EReal) := ⟨0, rfl⟩
theorem isReal_one : IsReal (1 : EReal) := ⟨1, rfl⟩

theorem IsReal.add {x y : EReal} (hx : IsReal x) (hy : IsReal y) : IsReal (x + y) := by
  obtain ⟨a, rfl⟩ := hx; obtain ⟨b, rfl⟩ := hy; exact ⟨a + b, (EReal.coe_add a b).symm⟩

theorem IsReal.neg {x : EReal} (hx : IsReal x) : IsReal (-x) := by
  obtain ⟨a, rfl⟩ := hx; exact ⟨-a, (EReal.coe_neg a).symm⟩

theorem IsReal.sub {x y : EReal} (hx : IsReal x) (hy : IsReal y) : IsReal (x - y) := by
  obtain ⟨a, rfl⟩ := hx; obtain ⟨b, rfl⟩ := hy; exact ⟨a - b, (EReal.coe_sub a b).symm⟩

theorem IsReal.mul {x y : EReal} (hx : IsReal x) (hy : IsReal y) : IsReal (x * y) := by
  obtain ⟨a, rfl⟩ := hx; obtain ⟨b, rfl⟩ := hy; exact ⟨a * b, (EReal.coe_mul a b).symm⟩

theorem IsReal.max {x y : EReal} (hx : IsReal x) (hy : IsReal y) : IsReal (max x y) := by
  rcases max_choice x y with h | h <;> rw [h] <;> assumption

theorem IsReal.min {x y : EReal} (hx : IsReal x) (hy : IsReal y) : IsReal (min x y) := by
  rcases min_choice x y with h | h <;> rw [h] <;> assumption

/-- A finite sum of real numbers is a real number. -/
theorem isReal_sum {ι : Type} (s : Finset ι) (f : ι → EReal) (h : ∀ i ∈ s, IsReal (f i)) : IsReal (∑ i ∈ s, f i) := by
  classical
  induction s using Finset.induction_on with
  | empty => rw [Finset.sum_empty]; exact isReal_zero
  | insert a s ha ih =>
    rw [Finset.sum_insert ha]
    exact (h a (Finset.mem_insert_self a s)).add (ih fun i hi => h i (Finset.mem_insert_of_mem hi))

/-- A finite sum of products of real numbers is a real number. -/
theorem isReal_sum_mul {ι : Type} (s : Finset ι) (f g : ι → EReal) (hf : ∀ i ∈ s, IsReal (f i)) (hg : ∀ i ∈ s, IsReal (g i)) :
    IsReal (∑ i ∈ s, f i * g i) :=
  isReal_sum s _ fun i hi => (hf i hi).mul (hg i hi)

/-- A finite sum of real numbers, with the real sum named. -/
theorem coe_real_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem IsReal.exp {x : EReal} (hx : IsReal x) : IsReal (Ideal.exp x) := by
  obtain ⟨a, rfl⟩ := hx; exact ⟨Real.exp a, rfl⟩

/-- The exponential of a real number is a positive real number. -/
theorem exp_real_pos (a : ℝ) : ∃ r : ℝ, 0 < r ∧ Ideal.exp (a : EReal) = (r : EReal) := ⟨Real.exp a, Real.exp_pos a, rfl⟩

theorem IsReal.tanh {x : EReal} (hx : IsReal x) : IsReal (Ideal.tanh x) := by
  obtain ⟨a, rfl⟩ := hx; exact ⟨Real.tanh a, rfl⟩

/-- log1p of a nonnegative real number is a real number. -/
theorem isReal_log1p_coe {a : ℝ} (ha : 0 ≤ a) : IsReal (Ideal.log1p (a : EReal)) := by
  refine ⟨Real.log (1 + a), ?_⟩
  show Ideal.log ((1 : EReal) + (a : EReal)) = _
  rw [← EReal.coe_one, ← EReal.coe_add, Ideal.log_coe, if_neg (by linarith)]

/-- The reciprocal square root of a positive real number is a real number. -/
theorem isReal_rsqrt_coe {a : ℝ} (ha : 0 < a) : IsReal (Ideal.rsqrt (a : EReal)) := by
  refine ⟨(Real.sqrt a)⁻¹, ?_⟩
  rw [Ideal.rsqrt_coe, if_neg (not_lt.mpr ha.le), if_neg ha.ne']

/-- Division of a real number by a nonzero real number is a real number. -/
theorem IsReal.div_coe {x : EReal} (hx : IsReal x) {b : ℝ} (hb : b ≠ 0) : IsReal (Ideal.div x (b : EReal)) := by
  obtain ⟨a, rfl⟩ := hx
  rw [Ideal.div_coe hb]
  exact (isReal_coe a).mul (isReal_coe _)

/-- Division of the real  a  by the nonzero real  b  is the real  a / b. -/
theorem div_real_real (a : ℝ) {b : ℝ} (hb : b ≠ 0) : Ideal.div (a : EReal) (b : EReal) = ((a / b : ℝ) : EReal) := by
  rw [Ideal.div_coe hb, ← EReal.coe_mul]; congr 1; rw [one_div, div_eq_mul_inv]

/-! ## The three single-precision words -/

/-- The word  0x40000000  is the real number 2. -/
theorem two_word : Ideal.ofBits .f32 0x40000000#32 = ((2 : ℝ) : EReal) := by
  simp [Ideal.ofBits, Ideal.ieee]
  exact_mod_cast (by norm_num : (8388608 : ℝ) * ((2 : ℝ) ^ 22)⁻¹ = 2)

/-- The word  0x43800000  is the real number 256. -/
theorem rowCount_word : Ideal.ofBits .f32 0x43800000#32 = ((256 : ℝ) : EReal) := by
  simp [Ideal.ofBits, Ideal.ieee]
  exact_mod_cast (by norm_num : (8388608 : ℝ) * ((2 : ℝ) ^ 15)⁻¹ = 256)

/-- The word  0x3727C5AC  (about 1e-5) is a positive real number. -/
theorem eps_word : ∃ e : ℝ, 0 < e ∧ Ideal.ofBits .f32 0x3727C5AC#32 = (e : EReal) := by
  simp [Ideal.ofBits, Ideal.ieee]
  refine ⟨(10995116 : ℝ) * ((2 : ℝ) ^ 40)⁻¹, by positivity, ?_⟩
  norm_cast

/-! ## Softplus, mish, and the cancellation the comparison needs -/

/-- Softplus of a real number is a real number:  max z 0  is one, and  log1p  is applied to the exponential of a real
    number, which is positive. -/
theorem IsReal.softplusS {z : EReal} (hz : IsReal z) : IsReal (softplusS z) := by
  unfold Cert.Spec.softplusS
  refine (hz.max isReal_zero).add ?_
  obtain ⟨b, hb⟩ := hz.max hz.neg
  rw [hb, ← EReal.coe_neg, Ideal.exp_coe]
  exact isReal_log1p_coe (Real.exp_pos _).le

/-- Mish of a real number is a real number. -/
theorem IsReal.mishS {z : EReal} (hz : IsReal z) : IsReal (mishS z) := by
  unfold Cert.Spec.mishS
  exact hz.mul hz.softplusS.tanh

/-- Twice a real number less the number is the number  (false at the infinities, where  ⊤ − ⊤ = ⊥);  the factor 2 as
    the single-precision word  0x40000000. -/
theorem two_mul_sub_self {x : EReal} (hx : IsReal x) : Ideal.ofBits .f32 0x40000000#32 * x - x = x := by
  obtain ⟨a, rfl⟩ := hx
  rw [two_word, ← EReal.coe_mul, ← EReal.coe_sub]
  congr 1; ring

/-- The same with the factor written  2. -/
theorem two_mul_sub_self' {x : EReal} (hx : IsReal x) : (2 : EReal) * x - x = x := by
  obtain ⟨a, rfl⟩ := hx
  rw [show (2 : EReal) = ((2 : ℝ) : EReal) from by norm_cast, ← EReal.coe_mul, ← EReal.coe_sub]
  congr 1; ring

end Cert.Spec

end
-- ==== Proof.FiniteInputs.lean ====
/-
  The precondition, read: every float argument array is real-valued.

  The precondition is one bit: the conjunction, over the eighteen float argument arrays, of "every entry  x  has
  |x| < +∞"  (an  and-reduction of the entrywise comparison of  |x|  with the word for +∞, folded with  and).  A
  conjunction that is 1 has every conjunct 1; an  and-reduction over all axes that is 1 has every entry 1; and
  max x (−x) < ⊤  on the extended reals says that  x  is neither infinity, that is, a real number.
-/
import proofs.«105513_j41961830482650_1_alg».proof.Pre_finite_inputs
import proofs.«105513_j41961830482650_1_alg».proof.Proof.RealValued
import Idealize.ShloMosaic.Lib.ReduceAll
import Idealize.ShloMosaic.Lib.ValueIdx
import Idealize.ShloMosaic.PureOps.Ideal.Laws

noncomputable section

namespace Cert.Spec

open Idealize.ShloMosaic Idealize.ShloMosaic.ValueIdx

/-- The rank-zero shape has one index. -/
instance subsingleton_scalar_idx : Subsingleton (⟨0, ![]⟩ : Shape).Idx := ⟨fun a b => funext fun d => d.elim0⟩

/-- The word  0x7F800000  is +∞. -/
theorem inf_word : Ideal.ofBits .f32 0x7F800000#32 = (⊤ : EReal) := by
  simp [Ideal.ofBits, Ideal.ieee]

/-- An extended real whose absolute value  max x (−x)  compares below +∞ is a real number. -/
theorem isReal_of_abs_lt_inf (x : EReal)
    (h : Ideal.cmp .olt (max x (-x)) (Ideal.ofBits .f32 0x7F800000#32) = 1#1) : IsReal x := by
  rw [inf_word] at h
  have hlt : max x (-x) < ⊤ := by
    by_contra hn
    simp [Ideal.cmp, hn] at h
  induction x using EReal.rec with
  | bot => simp at hlt
  | coe r => exact ⟨r, rfl⟩
  | top => simp at hlt

/-- One conjunct of the precondition: the and-reduction, over all axes, of  |x| < +∞  entry by entry is 1; so the array
    is real-valued. -/
theorem realValued_of_all {s : Shape} {axes : List (Fin s.rank)} (x : FVec Ideal s .f32)
    (bc : (⟨0, ![]⟩ : Shape).BroadcastsInDim s (![] : Fin 0 → Fin s.rank)) (hr : s.ReducesTo axes ⟨0, ![]⟩)
    (hu : 0 < (⟨0, ![]⟩ : Shape).numel)
    (e : Host.reduce IntOp.andi
        (cmpf .olt (Host.absf x) (broadcastInDim s ![] bc (constant (F := Ideal) ⟨0, ![]⟩ .f32 0x7F800000#32)))
        (constantI ⟨0, ![]⟩ 1 1#1) hr hu ix0 = 1#1) :
    RealValued x := fun i =>
  isReal_of_abs_lt_inf (x i) (Host.reduce_andi_all _ _ hr hu ix0 e i)

open Cert.Pre_finite_inputs in
/-- THE PRECONDITION, READ: if the finiteness predicate of the nineteen argument arrays is the one bit, each of the eighteen
    float arrays is real-valued (the integer edge list  a1  is unconstrained). -/
theorem realValued_of_finite_inputs [Cert.Pre_finite_inputs.Facts] (a0 : FVec Ideal S51200x200 .f32) (a1 : IVec S2x1638400 32) (a2 : FVec Ideal S1638400 .f32) (a3 : FVec Ideal S200x128 .f32) (a4 : FVec Ideal S128 .f32) (a5 : FVec Ideal S128x64 .f32) (a6 : FVec Ideal S64 .f32) (a7 : FVec Ideal S64x8 .f32) (a8 : FVec Ideal S8 .f32) (a9 : FVec Ideal S1600x200 .f32) (a10 : FVec Ideal S200 .f32) (a11 : FVec Ideal S200 .f32) (a12 : FVec Ideal S200 .f32) (a13 : FVec Ideal S200x2 .f32) (a14 : FVec Ideal S2 .f32) (a15 : FVec Ideal S200x64 .f32) (a16 : FVec Ideal S64 .f32) (a17 : FVec Ideal S64x6 .f32) (a18 : FVec Ideal S6 .f32)
    (h : Cert.Pre_finite_inputs.fn (F := Ideal) a0 a1 a2 a3 a4 a5 a6 a7 a8 a9 a10 a11 a12 a13 a14 a15 a16 a17 a18 = fun _ => 1#1) :
    RealValued a0 ∧ RealValued a2 ∧ RealValued a3 ∧ RealValued a4 ∧ RealValued a5 ∧ RealValued a6 ∧ RealValued a7 ∧ RealValued a8 ∧ RealValued a9 ∧ RealValued a10 ∧ RealValued a11 ∧ RealValued a12 ∧ RealValued a13 ∧ RealValued a14 ∧ RealValued a15 ∧ RealValued a16 ∧ RealValued a17 ∧ RealValued a18 := by
  have h0 := congrFun h ix0
  dsimp only [Cert.Pre_finite_inputs.fn, Cert.Pre_finite_inputs.fn_part1, Cert.Pre_finite_inputs.fn_part2,
    Cert.Pre_finite_inputs.fn_part3, Cert.Pre_finite_inputs.fn_part4, Cert.Pre_finite_inputs.fn_part5] at h0
  obtain ⟨h0, e_a18⟩ := IntOp.andi_eq_one.mp h0
  obtain ⟨h0, e_a17⟩ := IntOp.andi_eq_one.mp h0
  obtain ⟨h0, e_a16⟩ := IntOp.andi_eq_one.mp h0
  obtain ⟨h0, e_a15⟩ := IntOp.andi_eq_one.mp h0
  obtain ⟨h0, e_a14⟩ := IntOp.andi_eq_one.mp h0
  obtain ⟨h0, e_a13⟩ := IntOp.andi_eq_one.mp h0
  obtain ⟨h0, e_a12⟩ := IntOp.andi_eq_one.mp h0
  obtain ⟨h0, e_a11⟩ := IntOp.andi_eq_one.mp h0
  obtain ⟨h0, e_a10⟩ := IntOp.andi_eq_one.mp h0
  obtain ⟨h0, e_a9⟩ := IntOp.andi_eq_one.mp h0
  obtain ⟨h0, e_a8⟩ := IntOp.andi_eq_one.mp h0
  obtain ⟨h0, e_a7⟩ := IntOp.andi_eq_one.mp h0
  obtain ⟨h0, e_a6⟩ := IntOp.andi_eq_one.mp h0
  obtain ⟨h0, e_a5⟩ := IntOp.andi_eq_one.mp h0
  obtain ⟨h0, e_a4⟩ := IntOp.andi_eq_one.mp h0
  obtain ⟨h0, e_a3⟩ := IntOp.andi_eq_one.mp h0
  obtain ⟨e_a0, e_a2⟩ := IntOp.andi_eq_one.mp h0
  exact ⟨realValued_of_all _ _ _ _ e_a0,
    realValued_of_all _ _ _ _ e_a2,
    realValued_of_all _ _ _ _ e_a3,
    realValued_of_all _ _ _ _ e_a4,
    realValued_of_all _ _ _ _ e_a5,
    realValued_of_all _ _ _ _ e_a6,
    realValued_of_all _ _ _ _ e_a7,
    realValued_of_all _ _ _ _ e_a8,
    realValued_of_all _ _ _ _ e_a9,
    realValued_of_all _ _ _ _ e_a10,
    realValued_of_all _ _ _ _ e_a11,
    realValued_of_all _ _ _ _ e_a12,
    realValued_of_all _ _ _ _ e_a13,
    realValued_of_all _ _ _ _ e_a14,
    realValued_of_all _ _ _ _ e_a15,
    realValued_of_all _ _ _ _ e_a16,
    realValued_of_all _ _ _ _ e_a17,
    realValued_of_all _ _ _ _ e_a18⟩

end Cert.Spec

end
-- ==== Proof.LibPlainDotGeneral.lean ====
/-
  A plain two-dimensional matrix product computed on the host, read at a row and a column.

  For dimension numbers that contract the left operand's columns with the right operand's rows, with no batch axis,
  entry `(r, c)` of the `dot_general` of an `[M, K]` matrix and a `[K, N]` matrix is, on the extended reals, the sum
  over `k` of `lhs (r, k) * rhs (k, c)`, whatever the precision and schedule keys: the contraction index, a rank-one
  index, is re-indexed by its one coordinate. Stated for any extents and float formats, with the dimension numbers
  given by their six lists, so that any printed record with these lists unifies. The counterpart, for the host's
  product, of the same reading of a kernel's matrix unit into a zero accumulator.
-/
import Idealize.ShloMosaic.PureOps.Ideal.Laws
import Idealize.ShloMosaic.Lib.ValueIdx

namespace Cert.Lib.PlainDotGeneral

open Idealize.ShloMosaic Idealize.ShloMosaic.ValueIdx

set_option backward.isDefEq.respectTransparency.types false in
/-- The host product of `[M, K]` by `[K, N]`, at `(r, c)`: `∑ k, lhs (r, k) * rhs (k, c)`. -/
theorem dotGeneral_apply {M K N : ℕ} {φ₁ φ₂ : FTy}
    (d : DotDims ⟨2, ![M, K]⟩ ⟨2, ![K, N]⟩ ⟨2, ![M, N]⟩)
    (hlc : d.lhsContracting = [1]) (hrc : d.rhsContracting = [0])
    (hln : d.lhsNonContracting = [0]) (hrn : d.rhsNonContracting = [1])
    (hlb : d.lhsBatch = []) (hrb : d.rhsBatch = [])
    (prec : Option ContractPrecision) (sched : HostSchedule)
    (lhs : FVec Ideal ⟨2, ![M, K]⟩ φ₁) (rhs : FVec Ideal ⟨2, ![K, N]⟩ φ₂)
    (r : Fin M) (c : Fin N) :
    FloatOps.dotGeneral d prec sched lhs rhs (ix2 r c) = ∑ k : Fin K, lhs (ix2 r k) * rhs (ix2 k c) := by
  obtain ⟨lc, rc, ln, rn, lb, rb, wf⟩ := d
  dsimp only at hlc hrc hln hrn hlb hrb
  subst hlc hrc hln hrn hlb hrb
  rw [Ideal.dotGeneral_apply]
  rw [← Equiv.sum_comp (contrEquiv1 (⟨[1], [0], [0], [1], [], [], wf⟩ : DotDims ⟨2, ![M, K]⟩ ⟨2, ![K, N]⟩ ⟨2, ![M, N]⟩) K rfl rfl).symm]
  refine Finset.sum_congr rfl fun k _ => ?_
  have hk := contrEquiv1_symm_val (⟨[1], [0], [0], [1], [], [], wf⟩ : DotDims ⟨2, ![M, K]⟩ ⟨2, ![K, N]⟩ ⟨2, ![M, N]⟩) K rfl rfl k
  have el : (⟨[1], [0], [0], [1], [], [], wf⟩ : DotDims ⟨2, ![M, K]⟩ ⟨2, ![K, N]⟩ ⟨2, ![M, N]⟩).lhsIdx (ix2 r c)
      ((contrEquiv1 (⟨[1], [0], [0], [1], [], [], wf⟩ : DotDims ⟨2, ![M, K]⟩ ⟨2, ![K, N]⟩ ⟨2, ![M, N]⟩) K rfl rfl).symm k) = ix2 r k :=
    funext fun a => Fin.ext (by
      match a with
      | ⟨0, h0⟩ =>
        unfold DotDims.lhsIdx
        rw [dif_neg (show ¬ (⟨0, h0⟩ : Fin 2) ∈ ([] : List (Fin 2)) from List.not_mem_nil),
          dif_pos (show (⟨0, h0⟩ : Fin 2) ∈ [(0 : Fin 2)] from List.mem_singleton.mpr rfl)]
        rfl
      | ⟨1, _⟩ => exact (DotDims.lhsIdx_val_of_single _ rfl _ _).trans hk)
  have er : (⟨[1], [0], [0], [1], [], [], wf⟩ : DotDims ⟨2, ![M, K]⟩ ⟨2, ![K, N]⟩ ⟨2, ![M, N]⟩).rhsIdx (ix2 r c)
      ((contrEquiv1 (⟨[1], [0], [0], [1], [], [], wf⟩ : DotDims ⟨2, ![M, K]⟩ ⟨2, ![K, N]⟩ ⟨2, ![M, N]⟩) K rfl rfl).symm k) = ix2 k c :=
    funext fun a => Fin.ext (by
      match a with
      | ⟨0, _⟩ => exact (DotDims.rhsIdx_val_of_single _ rfl _ _).trans hk
      | ⟨1, h1⟩ =>
        unfold DotDims.rhsIdx
        rw [dif_neg (show ¬ (⟨1, h1⟩ : Fin 2) ∈ ([] : List (Fin 2)) from List.not_mem_nil),
          dif_pos (show (⟨1, h1⟩ : Fin 2) ∈ [(1 : Fin 2)] from List.mem_singleton.mpr rfl)]
        rfl)
  rw [el, er]

end Cert.Lib.PlainDotGeneral
-- ==== Proof.BridgeHost.lean ====
/-
  The two programs' host stages are the same functions, and a layer's feature product is the matrix product.

  The kernel's program and the reference build the graph's coefficients with the same host operations: the edge
  endpoints with the self loops appended, the weights with ones appended, the weighted in-degree, its inverse square
  root, the coefficient of every edge, and the gather–scale–scatter aggregation. Each program spells them over its own
  shape names and its own dimension records; the shapes are the same literals and the records the same lists, so the
  functions are equal by unfolding their names. And on the extended reals the host product of an  [M, K]  matrix by a
  [K, N]  matrix has, at (r, c), the sum over k of  lhs (r, k) · rhs (k, c).
-/
import proofs.«105513_j41961830482650_1_alg».proof.Proof.RefStages
import proofs.«105513_j41961830482650_1_alg».proof.Proof.HostStages
import proofs.«105513_j41961830482650_1_alg».proof.Proof.Spec
import proofs.«105513_j41961830482650_1_alg».proof.Proof.LibPlainDotGeneral

noncomputable section

namespace Cert.Bridge

open Idealize.ShloMosaic Idealize.ShloMosaic.ValueIdx

/-! ## The feature products are matrix products (on the extended reals) -/

/-- x W1, entry by entry. -/
theorem featW1_eq (x : (⟨Cert.ReferenceIdeal.S51200x200, .f32⟩ : BufTy).Contents (Elt Ideal))
    (W : (⟨Cert.ReferenceIdeal.S200x128, .f32⟩ : BufTy).Contents (Elt Ideal)) :
    Cert.ReferenceIdeal.Stages.featW1 x W = Cert.Spec.mm x W := by
  funext i
  obtain ⟨r, c, rfl⟩ : ∃ (r : Fin 51200) (c : Fin 128), i = ix2 r c := ⟨i 0, i 1, eq_ix2 i⟩
  exact Cert.Lib.PlainDotGeneral.dotGeneral_apply _ rfl rfl rfl rfl rfl rfl none .single x W r c

/-- h W2, entry by entry. -/
theorem featW2_eq (h : (⟨Cert.ReferenceIdeal.S51200x128, .f32⟩ : BufTy).Contents (Elt Ideal))
    (W : (⟨Cert.ReferenceIdeal.S128x64, .f32⟩ : BufTy).Contents (Elt Ideal)) :
    Cert.ReferenceIdeal.Stages.featW2 h W = Cert.Spec.mm h W := by
  funext i
  obtain ⟨r, c, rfl⟩ : ∃ (r : Fin 51200) (c : Fin 64), i = ix2 r c := ⟨i 0, i 1, eq_ix2 i⟩
  exact Cert.Lib.PlainDotGeneral.dotGeneral_apply _ rfl rfl rfl rfl rfl rfl none .single h W r c

/-! ## The graph's host stages, spelt by either program -/

section Same

variable {F : FTy → Type} [FloatOps F]

/-- The source endpoints with the self loops appended. -/
theorem rowIdx_eq (e : (⟨Cert.KernelIdeal.S2x1638400, .i32⟩ : BufTy).Contents (Elt F)) : Cert.KernelIdeal.Values.rowIdx e = Cert.ReferenceIdeal.Stages.rowIdx e := rfl

/-- The target endpoints with the self loops appended. -/
theorem colIdx_eq (e : (⟨Cert.KernelIdeal.S2x1638400, .i32⟩ : BufTy).Contents (Elt F)) : Cert.KernelIdeal.Values.colIdx e = Cert.ReferenceIdeal.Stages.colIdx e := rfl

/-- The weights with a one per self loop appended. -/
theorem edgeWeight_eq (a : (⟨Cert.KernelIdeal.S1638400, .f32⟩ : BufTy).Contents (Elt F)) : Cert.KernelIdeal.Values.edgeWeight a = Cert.ReferenceIdeal.Stages.edgeWeight a := rfl

/-- An index vector as a one-column table. -/
theorem asColumn_eq (i : (⟨Cert.KernelIdeal.S1689600, .i32⟩ : BufTy).Contents (Elt F)) : Cert.KernelIdeal.Values.asColumn i = Cert.ReferenceIdeal.Stages.idxColumn i := rfl

/-- A negative index counted from the end. -/
theorem wrapIdx_eq (i : (⟨Cert.KernelIdeal.S1689600, .i32⟩ : BufTy).Contents (Elt F)) : Cert.KernelIdeal.Values.wrapIdx i = Cert.ReferenceIdeal.Stages.wrapIdx i := rfl

/-- The weighted in-degree. -/
theorem degree_eq (e : (⟨Cert.KernelIdeal.S2x1638400, .i32⟩ : BufTy).Contents (Elt F)) (a : (⟨Cert.KernelIdeal.S1638400, .f32⟩ : BufTy).Contents (Elt F)) :
    Cert.KernelIdeal.Values.degree (Cert.KernelIdeal.Values.colIdx e) (Cert.KernelIdeal.Values.edgeWeight a) = Cert.ReferenceIdeal.Stages.degree e a := rfl

/-- The inverse square root of the degree, zero where the degree is not positive. -/
theorem invSqrtDeg_eq (e : (⟨Cert.KernelIdeal.S2x1638400, .i32⟩ : BufTy).Contents (Elt F)) (a : (⟨Cert.KernelIdeal.S1638400, .f32⟩ : BufTy).Contents (Elt F)) :
    Cert.KernelIdeal.Values.invSqrtDeg (Cert.KernelIdeal.Values.degree (Cert.KernelIdeal.Values.colIdx e) (Cert.KernelIdeal.Values.edgeWeight a)) = Cert.ReferenceIdeal.Stages.invSqrtDegree e a := rfl

/-- The edge coefficient. -/
theorem edgeNorm_eq (e : (⟨Cert.KernelIdeal.S2x1638400, .i32⟩ : BufTy).Contents (Elt F)) (a : (⟨Cert.KernelIdeal.S1638400, .f32⟩ : BufTy).Contents (Elt F)) :
    Cert.KernelIdeal.Values.edgeNorm (Cert.KernelIdeal.Values.rowIdx e) (Cert.KernelIdeal.Values.colIdx e) (Cert.KernelIdeal.Values.edgeWeight a) = Cert.ReferenceIdeal.Stages.norm e a := rfl

/-- The aggregation of a 128-column matrix along the edges. -/
theorem aggregate128_eq (h : (⟨Cert.KernelIdeal.S51200x128, .f32⟩ : BufTy).Contents (Elt F)) (row col : (⟨Cert.KernelIdeal.S1689600, .i32⟩ : BufTy).Contents (Elt F)) (nrm : (⟨Cert.KernelIdeal.S1689600, .f32⟩ : BufTy).Contents (Elt F)) :
    Cert.KernelIdeal.Values.aggregate128 h row col nrm = Cert.ReferenceIdeal.Stages.aggregate128 row col nrm h := rfl

/-- The aggregation of a 64-column matrix along the edges. -/
theorem aggregate64_eq (h : (⟨Cert.KernelIdeal.S51200x64, .f32⟩ : BufTy).Contents (Elt F)) (row col : (⟨Cert.KernelIdeal.S1689600, .i32⟩ : BufTy).Contents (Elt F)) (nrm : (⟨Cert.KernelIdeal.S1689600, .f32⟩ : BufTy).Contents (Elt F)) :
    Cert.KernelIdeal.Values.aggregate64 h row col nrm = Cert.ReferenceIdeal.Stages.aggregate64 row col nrm h := rfl

end Same

end Cert.Bridge

end
-- ==== Proof.LibHostRows.lean ====
/-
  The host's two bias-row broadcasts read at coordinates, for any element type and any extents.

  A host program adds a bias vector to every row of a matrix in two steps: the vector `[b]` is laid along a new
  leading unit axis (`broadcast_in_dim`, dims = [1], into `[1, b]`), and that unit row is repeated down the rows
  (`broadcast_in_dim`, dims = [0, 1], into `[a, b]`).  Read at `(u, c)` the first is the vector at `c`; read at
  `(p, c)` the second is the unit row at `(0, c)`.  (The column counterparts, dims = [0] and a column repeated along
  the row, are the host keepdims forms.)
-/
import Idealize.ShloMosaic.Lib.ValueIdx
import Idealize.ShloMosaic.Lib.Pipeline.Value
import Idealize.ShloMosaic.Lib.ValueLayout

noncomputable section

namespace Cert.Lib.HostRows

open Idealize.ShloMosaic Idealize.ShloMosaic.ValueIdx

/-- A vector laid along a unit row reads, at `(u, c)`, the vector at `c`. -/
theorem bcast_b_1b_apply {α : Type} {b : ℕ} (h : (⟨1, ![b]⟩ : Shape).BroadcastsInDim ⟨2, ![1, b]⟩ ![1])
    (x : (⟨1, ![b]⟩ : Shape).Idx → α) (u : Fin 1) (c : Fin b) :
    broadcastInDim ⟨2, ![1, b]⟩ ![1] h x (ix2 u c) = x (ix1 c) :=
  broadcastInDim_apply ![1] h x (ix2 u c) (ix1 c) (fun k => by
    match k with
    | ⟨0, _⟩ =>
      show c.val = if b = 1 then 0 else c.val
      split_ifs with h1
      · have := c.isLt; omega
      · rfl)

/-- A unit row repeated down the rows reads, at `(p, c)`, the row at `c`. -/
theorem bcast_1b_ab_apply {α : Type} {a b : ℕ} (h : (⟨2, ![1, b]⟩ : Shape).BroadcastsInDim ⟨2, ![a, b]⟩ ![0, 1])
    (x : (⟨2, ![1, b]⟩ : Shape).Idx → α) (p : Fin a) (c : Fin b) :
    broadcastInDim ⟨2, ![a, b]⟩ ![0, 1] h x (ix2 p c) = x (ix2 (0 : Fin 1) c) :=
  broadcastInDim_apply ![0, 1] h x (ix2 p c) (ix2 (0 : Fin 1) c) (fun k => by
    match k with
    | ⟨0, _⟩ =>
      show (0 : ℕ) = if (1 : ℕ) = 1 then 0 else p.val
      rfl
    | ⟨1, _⟩ =>
      show c.val = if b = 1 then 0 else c.val
      split_ifs with h1
      · have := c.isLt; omega
      · rfl)

end Cert.Lib.HostRows

end
-- ==== Proof.BridgeLayers.lean ====
/-
  The reference's bias-and-activation stages, entry by entry.

  The reference adds a bias vector to every row of a matrix by laying the vector along a unit row and repeating the row,
  then applies mish with softplus spelt  max z 0 + log1p (exp (-|z - 0|))  behind a guard that selects  z + 0  where
  z - 0  differs from itself.  On the extended reals the guard never fires, the two broadcasts read the bias at the
  entry's column, and the vector reshaped to a row reads the same entry; so each stage is  Cert.Spec.biasMish  of its
  matrix and of the bias as a row, and the read-out is that of the matrix product.
-/
import proofs.«105513_j41961830482650_1_alg».proof.Proof.RefStages
import proofs.«105513_j41961830482650_1_alg».proof.Proof.Spec
import proofs.«105513_j41961830482650_1_alg».proof.Proof.MishScalar
import proofs.«105513_j41961830482650_1_alg».proof.Proof.LibHostRows
import proofs.«105513_j41961830482650_1_alg».proof.Proof.LibPlainDotGeneral
import Idealize.ShloMosaic.Lib.Pipeline.Value
import Idealize.ShloMosaic.Lib.ValueIdx

noncomputable section

open Idealize.ShloMosaic Idealize.ShloMosaic.ValueIdx

namespace Cert.Bridge.Layers

open Cert.ReferenceIdeal Cert.ReferenceIdeal.Gen Cert.ReferenceIdeal.Stages

/-! ## mish, entry by entry -/

/-- The reference's elementwise chain on one extended real  z  is  mish z. -/
theorem mish_chain_host (z : EReal) :
    z * Ideal.tanh (Scalar.select (Ideal.cmp .une (z - 0) (z - 0)) (z + 0)
        (max z 0 + Ideal.log1p (Ideal.exp (-(max (z - 0) (-(z - 0))))))) = Cert.Spec.mishS z := by
  rw [Cert.KernelIdeal.Values.Mish.cmp_une_self, Cert.KernelIdeal.Values.Mish.select_zero, sub_zero]
  rfl

/-- The zero splat reads zero at every entry. -/
theorem zerosOf_apply (S : Shape) (hb : S_.BroadcastsInDim S (![] : Fin 0 → Fin S.rank)) (i : S.Idx) :
    zerosOf (F := Ideal) S hb i = 0 := by
  unfold zerosOf
  rw [broadcastInDim_apply (![] : Fin 0 → Fin S.rank) hb _ i ix0 (fun a => a.elim0)]
  exact (constant_apply _ _).trans Ideal.ofBits_zero_f32

/-- mish of a whole array, at an entry, is mish of the entry. -/
theorem mishWhole_apply (S : Shape) (hb : S_.BroadcastsInDim S (![] : Fin 0 → Fin S.rank)) (z : Arr Ideal S .f32)
    (i : S.Idx) : mishWhole (F := Ideal) S hb z i = Cert.Spec.mishS (z i) := by
  rw [← mish_chain_host, ← zerosOf_apply S hb i]
  rfl

/-! ## The bias rows -/

/-- A vector reshaped to a one-row matrix reads, at (0, c), the vector at c. -/
theorem row_of_vector {n : ℕ} (b : (⟨1, ![n]⟩ : Shape).Idx → EReal)
    (h : (⟨1, ![n]⟩ : Shape).ShapeCasts ⟨2, ![1, n]⟩) (c : Fin n) :
    shapeCast ⟨2, ![1, n]⟩ b h (ix2 0 c) = b (ix1 c) :=
  (shapeCast_addUnit_apply ![n] b h (ix2 0 c)).trans
    (congrArg b (funext fun a => by match a with | ⟨0, _⟩ => rfl))

/-- The first layer before its activation, at (r, c): the matrix's entry plus the bias at c. -/
theorem layer1Pre_apply (X : Arr Ideal S51200x128 .f32) (b : Arr Ideal S128 .f32) (r : Fin 51200) (c : Fin 128) :
    layer1Pre (F := Ideal) X b (ix2 r c) = X (ix2 r c) + b (ix1 c) := by
  unfold layer1Pre
  rw [addf_apply, Cert.Lib.HostRows.bcast_1b_ab_apply, Cert.Lib.HostRows.bcast_b_1b_apply]

/-- The second layer before its activation, at (r, c). -/
theorem layer2Pre_apply (X : Arr Ideal S51200x64 .f32) (b : Arr Ideal S64 .f32) (r : Fin 51200) (c : Fin 64) :
    layer2Pre (F := Ideal) X b (ix2 r c) = X (ix2 r c) + b (ix1 c) := by
  unfold layer2Pre
  rw [addf_apply, Cert.Lib.HostRows.bcast_1b_ab_apply, Cert.Lib.HostRows.bcast_b_1b_apply]

end Cert.Bridge.Layers

namespace Cert.Bridge

open Cert.ReferenceIdeal Cert.ReferenceIdeal.Gen Cert.ReferenceIdeal.Stages

/-- The first layer's bias and activation:  mish (X + b)  with the bias vector as a row. -/
theorem mishWhole128_layer1Pre (X : Arr Ideal S51200x128 .f32) (b : Arr Ideal S128 .f32)
    (h : S128.ShapeCasts S1x128) :
    mishWhole128 (F := Ideal) (layer1Pre X b) = Cert.Spec.biasMish X (shapeCast S1x128 b h) := by
  funext i
  obtain ⟨r, c, rfl⟩ : ∃ (r : Fin 51200) (c : Fin 128), i = ix2 r c := ⟨i 0, i 1, eq_ix2 i⟩
  unfold mishWhole128
  rw [Layers.mishWhole_apply, Layers.layer1Pre_apply, ← Layers.row_of_vector b h c]
  rfl

/-- The second layer's bias and activation. -/
theorem mishWhole64_layer2Pre (X : Arr Ideal S51200x64 .f32) (b : Arr Ideal S64 .f32)
    (h : S64.ShapeCasts S1x64) :
    mishWhole64 (F := Ideal) (layer2Pre X b) = Cert.Spec.biasMish X (shapeCast S1x64 b h) := by
  funext i
  obtain ⟨r, c, rfl⟩ : ∃ (r : Fin 51200) (c : Fin 64), i = ix2 r c := ⟨i 0, i 1, eq_ix2 i⟩
  unfold mishWhole64
  rw [Layers.mishWhole_apply, Layers.layer2Pre_apply, ← Layers.row_of_vector b h c]
  rfl

/-- The read-out:  mish (h W + b)  with the bias vector as a row. -/
theorem readout_eq (x : Arr Ideal S51200x64 .f32) (W : Arr Ideal S64x8 .f32) (b : Arr Ideal S8 .f32)
    (h : S8.ShapeCasts S1x8) :
    readout (F := Ideal) x W b = Cert.Spec.biasMish (Cert.Spec.mm x W) (shapeCast S1x8 b h) := by
  funext i
  obtain ⟨r, c, rfl⟩ : ∃ (r : Fin 51200) (c : Fin 8), i = ix2 r c := ⟨i 0, i 1, eq_ix2 i⟩
  have hd : Host.dotGeneral (F := Ideal) (φ₁ := .f32) (φ₂ := .f32) dot_S51200x64_S64x8_S51200x8_1_0_0_1_n_n none x W (ix2 r c)
      = ∑ k : Fin 64, x (ix2 r k) * W (ix2 k c) :=
    Cert.Lib.PlainDotGeneral.dotGeneral_apply (φ₁ := .f32) (φ₂ := .f32) dot_S51200x64_S64x8_S51200x8_1_0_0_1_n_n rfl rfl rfl rfl rfl rfl none .single x W r c
  unfold readout
  rw [Layers.mishWhole_apply, addf_apply, Cert.Lib.HostRows.bcast_1b_ab_apply, Cert.Lib.HostRows.bcast_b_1b_apply,
    hd, ← Layers.row_of_vector b h c]
  rfl

end Cert.Bridge

end
-- ==== Proof.FinalLayers.lean ====
/-
  The reference's layers are the kernel's closed forms.

  The reference's first layer is  mish  of its pre-activation, the aggregate of  x W1  with the bias added: the bias and
  the activation are  biasMish  with the bias as a row, the host product is the matrix product, and the aggregation,
  the endpoints and the edge coefficients are the same host functions in either program's spelling. So the reference's
  layer 1 is the kernel's closed form of layer 1; layer 2 follows from it the same way, and the read-out from layer 2.
-/
import proofs.«105513_j41961830482650_1_alg».proof.Proof.KernelClosed
import proofs.«105513_j41961830482650_1_alg».proof.Proof.BridgeHost
import proofs.«105513_j41961830482650_1_alg».proof.Proof.BridgeLayers
import proofs.«105513_j41961830482650_1_alg».proof.Proof.RefRun

noncomputable section

namespace Cert.Bridge

open Idealize.ShloMosaic
open Cert.KernelIdeal.Values (ArrI coeffK layer1K layer2K readoutK featK)

variable (x : ArrI Cert.KernelIdeal.S51200x200 .f32) (ei : ArrI Cert.KernelIdeal.S2x1638400 .i32)
  (ea : ArrI Cert.KernelIdeal.S1638400 .f32) (W1 : ArrI Cert.KernelIdeal.S200x128 .f32) (b1 : ArrI Cert.KernelIdeal.S128 .f32)
  (W2 : ArrI Cert.KernelIdeal.S128x64 .f32) (b2 : ArrI Cert.KernelIdeal.S64 .f32)
  (Wro : ArrI Cert.KernelIdeal.S64x8 .f32) (bro : ArrI Cert.KernelIdeal.S8 .f32)

/-- The reference's first layer is the kernel's closed form. -/
theorem layer1_eq : Cert.ReferenceIdeal.Stages.layer1 x ei ea W1 b1 = layer1K x ei ea W1 b1 := by
  unfold Cert.ReferenceIdeal.Stages.layer1 Cert.KernelIdeal.Values.layer1K Cert.KernelIdeal.Values.coeffK
  rw [mishWhole128_layer1Pre _ _ Cert.KernelIdeal.Facts₀.shapeCasts_S128_S1x128, featW1_eq, edgeNorm_eq, aggregate128_eq,
    rowIdx_eq, colIdx_eq]

/-- The reference's second layer is the kernel's closed form. -/
theorem layer2_eq : Cert.ReferenceIdeal.Stages.layer2 x ei ea W1 b1 W2 b2 = layer2K x ei ea W1 b1 W2 b2 := by
  unfold Cert.ReferenceIdeal.Stages.layer2 Cert.KernelIdeal.Values.layer2K Cert.KernelIdeal.Values.coeffK
  rw [mishWhole64_layer2Pre _ _ Cert.KernelIdeal.Facts₀.shapeCasts_S64_S1x64, featW2_eq, layer1_eq, edgeNorm_eq,
    aggregate64_eq, rowIdx_eq, colIdx_eq]

/-- The reference's read-out of its second layer is the kernel's closed form. -/
theorem readout_layer2_eq :
    Cert.ReferenceIdeal.Stages.readout (Cert.ReferenceIdeal.Stages.layer2 x ei ea W1 b1 W2 b2) Wro bro
      = readoutK x ei ea W1 b1 W2 b2 Wro bro := by
  unfold Cert.KernelIdeal.Values.readoutK
  rw [readout_eq _ _ _ Cert.KernelIdeal.Facts₀.shapeCasts_S8_S1x8, layer2_eq]

end Cert.Bridge

end
-- ==== Proof.BridgeHead.lean ====
/-
  The reference's head is the specification's head.

  The reference re-lays the 51200 × 8 read-out as 256 × 1600 by the row-major cast, multiplies by  Wfc1,  adds the bias
  (a vector broadcast to every row), normalises every column over the 256 rows (the column sum from zero divided by the
  word for 256 as the mean, the same of the squared deviations as the biased variance, then
  (y − mean) · rsqrt (var + ε) · γ + β),  applies mish, and reads the two classifiers off the result.  Each whole-array
  operation is read at an index: a pointwise one is the extended reals' own, a broadcast vector reads its column, the
  column reduction is the sum down the column, a host product is the sum over the contracted index.  A bias or scale
  vector  v  enters the specification as the unit row that the cast of  v  to  [1, n]  is; that row at  (0, j)  is  v j.
  The reference's mish guards softplus by a test no extended real satisfies.  Its second classifier multiplies  2 h − h
  by the weights, which is  h  wherever  h  is a real number (not at an infinity, where  ⊤ − ⊤ = ⊥),  so that comparison
  is stated for a hidden layer that is real at every index.
-/
import proofs.«105513_j41961830482650_1_alg».proof.Proof.RefStages
import proofs.«105513_j41961830482650_1_alg».proof.Proof.HeadSpec
import proofs.«105513_j41961830482650_1_alg».proof.Proof.RealValued
import proofs.«105513_j41961830482650_1_alg».proof.Proof.LibPlainDotGeneral
import proofs.«105513_j41961830482650_1_alg».proof.Proof.LibHostRows
import Idealize.ShloMosaic.Lib.IdealHost
import Idealize.ShloMosaic.Lib.ValueLayout

set_option maxRecDepth 16384

noncomputable section

namespace Cert.Bridge

open Idealize.ShloMosaic Idealize.ShloMosaic.ValueIdx
open Cert.ReferenceIdeal Cert.ReferenceIdeal.Gen Cert.ReferenceIdeal.Stages
open Cert.Lib.PlainDotGeneral Cert.Lib.HostRows

section Pointwise
variable {s : Shape} {φ : FTy}
/-- The host's reciprocal square root at an index is that of the element … -/
theorem hostRsqrt_apply (a : FVec Ideal s φ) (i : s.Idx) : Host.rsqrt a i = Ideal.rsqrt (a i) := rfl
/-- … its exponential the exponential … -/
theorem hostExp_apply (a : FVec Ideal s φ) (i : s.Idx) : Host.exp a i = Ideal.exp (a i) := rfl
/-- … its log (1 + ·) likewise … -/
theorem hostLog1p_apply (a : FVec Ideal s φ) (i : s.Idx) : Host.log1p a i = Ideal.log1p (a i) := rfl
/-- … its hyperbolic tangent likewise … -/
theorem hostTanh_apply (a : FVec Ideal s φ) (i : s.Idx) : Host.tanh a i = Ideal.tanh (a i) := rfl
/-- … its negation the negation … -/
theorem hostNegf_apply (a : FVec Ideal s φ) (i : s.Idx) : Host.negf a i = -(a i) := rfl
/-- … and its absolute value the larger of the element and its negation. -/
theorem hostAbsf_apply (a : FVec Ideal s φ) (i : s.Idx) : Host.absf a i = max (a i) (-(a i)) := rfl
end Pointwise

/-! ## mish -/

/-- No extended real is "unordered or different" from itself. -/
theorem cmp_une_self (x : EReal) : Ideal.cmp .une x x = 0#1 := by
  simp [Ideal.cmp]

/-- The reference's guarded mish of a scalar is the specification's mish: the guard "z − 0 differs from itself" never
    holds,  z − 0 = z,  and  |z| = max z (−z). -/
theorem mish_ref (z : EReal) :
    z * Ideal.tanh (Scalar.select (Ideal.cmp .une (z - Ideal.ofBits .f32 0x00000000#32) (z - Ideal.ofBits .f32 0x00000000#32))
        (z + Ideal.ofBits .f32 0x00000000#32)
        (max z (Ideal.ofBits .f32 0x00000000#32)
          + Ideal.log1p (Ideal.exp (-(max (z - Ideal.ofBits .f32 0x00000000#32) (-(z - Ideal.ofBits .f32 0x00000000#32)))))))
      = Cert.Spec.mishS z := by
  rw [cmp_une_self, select_zero, Ideal.ofBits_zero_f32, sub_zero]
  rfl

/-- The reference's whole-array mish at an index is mish of the entry. -/
theorem mishWhole_apply (S : Shape) (hb : S_.BroadcastsInDim S (![] : Fin 0 → Fin S.rank)) (z : Arr Ideal S .f32) (i : S.Idx) :
    mishWhole S hb z i = Cert.Spec.mishS (z i) := by
  unfold mishWhole softplusWhole zerosOf
  simp only [mulf_apply, hostTanh_apply, select_apply, cmpf_apply, subf_apply, addf_apply, maximumf_apply,
    hostLog1p_apply, hostExp_apply, hostNegf_apply, hostAbsf_apply, broadcastInDim_scalar_apply, constant_apply]
  exact mish_ref _

/-! ## The dense layer and the normalisation -/

/-- A vector as every row of a 256-row matrix reads, at  (p, j),  the vector at  j. -/
theorem rows200_apply (v : Arr Ideal S200 .f32) (p : Fin 256) (j : Fin 200) :
    rows200 v (ix2 p j) = v (ix1 j) := by
  unfold rows200
  rw [bcast_1b_ab_apply, bcast_b_1b_apply]

/-- The reference's column mean (the column sum from zero, divided by the word for 256) is the specification's. -/
theorem colMean_apply (y : Arr Ideal S256x200 .f32) (j : Fin 200) :
    Stages.colMean y (ix1 j) = Cert.Spec.colMean y j := by
  unfold Stages.colMean Cert.Spec.colMean Cert.Spec.rowCount
  have hR : S256x200.Reduces [0] S200 := by decide
  rw [hostDivf_apply, hostReduceAdd_apply, Ideal.hostReduceAdd_single reducesTo_S256x200_S200_d0 hR,
    broadcastInDim_scalar_apply, constant_apply, constant_apply, Ideal.ofBits_zero_f32, zero_add]
  refine congrArg (fun s => Ideal.div s _) (Finset.sum_congr rfl fun k _ => ?_)
  exact congrArg y (funext fun d => Fin.ext (by match d with | ⟨0, _⟩ => rfl | ⟨1, _⟩ => rfl))

/-- The reference's biased column variance, the column mean of the squared deviations, is the specification's. -/
theorem colVar_apply (y : Arr Ideal S256x200 .f32) (j : Fin 200) :
    Stages.colMean (mulf (subf y (rows200 (Stages.colMean y))) (subf y (rows200 (Stages.colMean y)))) (ix1 j)
      = Cert.Spec.colVar y j := by
  rw [colMean_apply]
  unfold Cert.Spec.colVar
  refine congrArg (fun s => Ideal.div s _) (Finset.sum_congr rfl fun k _ => ?_)
  rw [mulf_apply, subf_apply, rows200_apply, colMean_apply]

/-- A vector re-laid as a unit row reads, at  (0, j),  the vector at  j. -/
theorem row_apply {n : ℕ} (v : (⟨1, ![n]⟩ : Shape).Idx → EReal) (h : (⟨1, ![n]⟩ : Shape).ShapeCasts ⟨2, ![1, n]⟩) (j : Fin n) :
    shapeCast ⟨2, ![1, n]⟩ v h (ix2 (0 : Fin 1) j) = v (ix1 j) := shapeCast_a_1a_apply v h 0 j

/-- The reference's dense layer on the re-laid features is the specification's, the bias entering as a unit row. -/
theorem headDense_apply (r : Arr Ideal S51200x8 .f32) (W : Arr Ideal S1600x200 .f32) (b : Arr Ideal S200 .f32)
    (hc : S51200x8.ShapeCasts S256x1600) (h1 : S200.ShapeCasts S1x200) (p : Fin 256) (j : Fin 200) :
    headDense r W b (ix2 p j) = Cert.Spec.headZ (shapeCast S256x1600 r hc) W (shapeCast S1x200 b h1) (ix2 p j) := by
  have hd := dotGeneral_apply dot_S256x1600_S1600x200_S256x200_1_0_0_1_n_n rfl rfl rfl rfl rfl rfl none .single
    (φ₁ := .f32) (φ₂ := .f32)
  show _ = (∑ k : Fin 1600, shapeCast S256x1600 r hc (ix2 p k) * W (ix2 k j)) + shapeCast S1x200 b h1 (ix2 (0 : Fin 1) j)
  rw [row_apply]
  unfold headDense
  rw [addf_apply, rows200_apply]
  exact congrArg (· + b (ix1 j)) (hd _ W p j)

/-- The reference's batch normalisation is the specification's column normalisation,  γ  and  β  entering as unit rows. -/
theorem batchNorm_apply (y : Arr Ideal S256x200 .f32) (g b : Arr Ideal S200 .f32) (h1 : S200.ShapeCasts S1x200)
    (p : Fin 256) (j : Fin 200) :
    batchNorm y g b (ix2 p j) = Cert.Spec.colNorm y (shapeCast S1x200 g h1) (shapeCast S1x200 b h1) (ix2 p j) := by
  show _ = (y (ix2 p j) - Cert.Spec.colMean y j) * Ideal.rsqrt (Cert.Spec.colVar y j + Cert.Spec.bnEps)
      * shapeCast S1x200 g h1 (ix2 (0 : Fin 1) j) + shapeCast S1x200 b h1 (ix2 (0 : Fin 1) j)
  rw [row_apply, row_apply]
  unfold batchNorm
  rw [addf_apply, mulf_apply, mulf_apply, subf_apply, rows200_apply, rows200_apply, rows200_apply, rows200_apply,
    hostRsqrt_apply, addf_apply, colVar_apply, colMean_apply, broadcastInDim_scalar_apply, constant_apply]
  rfl

/-! ## The three comparisons -/

/-- The reference's hidden layer of the head is the specification's, at the re-laid features and the unit rows. -/
theorem head_mid (r : Arr Ideal S51200x8 .f32) (W : Arr Ideal S1600x200 .f32) (b g β : Arr Ideal S200 .f32)
    (hc : S51200x8.ShapeCasts S256x1600) (h1 : S200.ShapeCasts S1x200) :
    mishWhole200 (headPre r W b g β)
      = Cert.Spec.headMid (shapeCast S256x1600 r hc) W (shapeCast S1x200 b h1) (shapeCast S1x200 g h1) (shapeCast S1x200 β h1) := by
  have hZ : headDense r W b = Cert.Spec.headZ (shapeCast S256x1600 r hc) W (shapeCast S1x200 b h1) := funext fun i' => by
    obtain ⟨p', j', rfl⟩ : ∃ (p' : Fin 256) (j' : Fin 200), i' = ix2 p' j' := ⟨i' 0, i' 1, eq_ix2 i'⟩
    exact headDense_apply r W b hc h1 p' j'
  funext i
  obtain ⟨p, j, rfl⟩ : ∃ (p : Fin 256) (j : Fin 200), i = ix2 p j := ⟨i 0, i 1, eq_ix2 i⟩
  unfold mishWhole200 headPre
  rw [mishWhole_apply, batchNorm_apply _ _ _ h1, hZ]
  rfl

/-- The first classifier at an index: the product with the weights plus the bias, the bias as a unit row. -/
theorem classifier1_apply (h : Arr Ideal S256x200 .f32) (W : Arr Ideal S200x2 .f32) (b : Arr Ideal S2 .f32)
    (h2 : S2.ShapeCasts S1x2) (p : Fin 256) (q : Fin 2) :
    classifier1 h W b (ix2 p q) = Cert.Spec.mm h W (ix2 p q) + shapeCast S1x2 b h2 (ix2 (0 : Fin 1) q) := by
  have hd := dotGeneral_apply dot_S256x200_S200x2_S256x2_1_0_0_1_n_n rfl rfl rfl rfl rfl rfl none .single
    (φ₁ := .f32) (φ₂ := .f32)
  rw [row_apply]
  unfold classifier1
  rw [addf_apply, bcast_1b_ab_apply, bcast_b_1b_apply]
  exact congrArg (· + b (ix1 q)) (hd h W p q)

/-- The reference's logits are the specification's. -/
theorem head_logits (r : Arr Ideal S51200x8 .f32) (W : Arr Ideal S1600x200 .f32) (b g β : Arr Ideal S200 .f32)
    (Wfc2 : Arr Ideal S200x2 .f32) (bfc2 : Arr Ideal S2 .f32)
    (hc : S51200x8.ShapeCasts S256x1600) (h1 : S200.ShapeCasts S1x200) (h2 : S2.ShapeCasts S1x2) :
    classifier1 (mishWhole200 (headPre r W b g β)) Wfc2 bfc2
      = Cert.Spec.headLogits (shapeCast S256x1600 r hc) W (shapeCast S1x200 b h1) (shapeCast S1x200 g h1)
          (shapeCast S1x200 β h1) Wfc2 (shapeCast S1x2 bfc2 h2) := by
  rw [head_mid r W b g β hc h1]
  funext i
  obtain ⟨p, q, rfl⟩ : ∃ (p : Fin 256) (q : Fin 2), i = ix2 p q := ⟨i 0, i 1, eq_ix2 i⟩
  exact classifier1_apply _ Wfc2 bfc2 h2 p q

/-- The second classifier's first product, formed on  2 h − h,  is the product on  h  when  h  is real at every index:
    twice a real number less the number is the number. -/
theorem classifier2Dense_apply (h : Arr Ideal S256x200 .f32) (W : Arr Ideal S200x64 .f32)
    (hr : ∀ i, Cert.Spec.IsReal (h i)) (p : Fin 256) (q : Fin 64) :
    classifier2Dense h W (ix2 p q) = Cert.Spec.mm h W (ix2 p q) := by
  have hd := dotGeneral_apply dot_S256x200_S200x64_S256x64_1_0_0_1_n_n rfl rfl rfl rfl rfl rfl none .single
    (φ₁ := .f32) (φ₂ := .f32)
  unfold classifier2Dense
  refine (hd _ W p q).trans ?_
  show _ = ∑ k : Fin 200, h (ix2 p k) * W (ix2 k q)
  refine Finset.sum_congr rfl fun k _ => ?_
  rw [subf_apply, mulf_apply, broadcastInDim_scalar_apply, constant_apply, Cert.Spec.two_mul_sub_self (hr _)]

/-- The rest of the second classifier at an index: the rectified biased entries times the weights, plus the bias. -/
theorem classifier2Out_apply (z : Arr Ideal S256x64 .f32) (b : Arr Ideal S64 .f32) (W : Arr Ideal S64x6 .f32)
    (b' : Arr Ideal S6 .f32) (h64 : S64.ShapeCasts S1x64) (h6 : S6.ShapeCasts S1x6) (p : Fin 256) (q : Fin 6) :
    classifier2Out z b W b' (ix2 p q)
      = (∑ k : Fin 64, max (z (ix2 p k) + shapeCast S1x64 b h64 (ix2 (0 : Fin 1) k)) 0 * W (ix2 k q))
        + shapeCast S1x6 b' h6 (ix2 (0 : Fin 1) q) := by
  have hd := dotGeneral_apply dot_S256x64_S64x6_S256x6_1_0_0_1_n_n rfl rfl rfl rfl rfl rfl none .single
    (φ₁ := .f32) (φ₂ := .f32)
  simp only [row_apply]
  unfold classifier2Out
  rw [addf_apply, bcast_1b_ab_apply, bcast_b_1b_apply]
  refine congrArg (· + b' (ix1 q)) ((hd _ W p q).trans (Finset.sum_congr rfl fun k _ => ?_))
  rw [maximumf_apply, addf_apply, bcast_1b_ab_apply, bcast_b_1b_apply, broadcastInDim_scalar_apply, constant_apply,
    Ideal.ofBits_zero_f32]

/-- The reference's class scores are the specification's, when the hidden layer is real at every index. -/
theorem head_cls (r : Arr Ideal S51200x8 .f32) (W : Arr Ideal S1600x200 .f32) (b g β : Arr Ideal S200 .f32)
    (Wd1 : Arr Ideal S200x64 .f32) (bd1 : Arr Ideal S64 .f32) (Wd2 : Arr Ideal S64x6 .f32) (bd2 : Arr Ideal S6 .f32)
    (hc : S51200x8.ShapeCasts S256x1600) (h1 : S200.ShapeCasts S1x200) (h64 : S64.ShapeCasts S1x64) (h6 : S6.ShapeCasts S1x6)
    (hreal : ∀ i, Cert.Spec.IsReal (Cert.Spec.headMid (shapeCast S256x1600 r hc) W (shapeCast S1x200 b h1)
      (shapeCast S1x200 g h1) (shapeCast S1x200 β h1) i)) :
    classifier2Out (classifier2Dense (mishWhole200 (headPre r W b g β)) Wd1) bd1 Wd2 bd2
      = Cert.Spec.headCls (shapeCast S256x1600 r hc) W (shapeCast S1x200 b h1) (shapeCast S1x200 g h1)
          (shapeCast S1x200 β h1) Wd1 (shapeCast S1x64 bd1 h64) Wd2 (shapeCast S1x6 bd2 h6) := by
  rw [head_mid r W b g β hc h1]
  have hD : classifier2Dense (Cert.Spec.headMid (shapeCast S256x1600 r hc) W (shapeCast S1x200 b h1)
      (shapeCast S1x200 g h1) (shapeCast S1x200 β h1)) Wd1
      = Cert.Spec.mm (Cert.Spec.headMid (shapeCast S256x1600 r hc) W (shapeCast S1x200 b h1)
      (shapeCast S1x200 g h1) (shapeCast S1x200 β h1)) Wd1 := funext fun i' => by
    obtain ⟨p', q', rfl⟩ : ∃ (p' : Fin 256) (q' : Fin 64), i' = ix2 p' q' := ⟨i' 0, i' 1, eq_ix2 i'⟩
    exact classifier2Dense_apply _ Wd1 hreal p' q'
  funext i
  obtain ⟨p, q, rfl⟩ : ∃ (p : Fin 256) (q : Fin 6), i = ix2 p q := ⟨i 0, i 1, eq_ix2 i⟩
  rw [classifier2Out_apply _ _ _ _ h64 h6, hD]
  rfl

end Cert.Bridge

end
-- ==== Proof.RealSpec.lean ====
/-
  The network's layers keep arrays real-valued.

  A matrix product of real-valued matrices is real-valued (a finite sum of products of real numbers), and so is a bias row
  added before mish. In the head, the variance of a column of a real-valued matrix is a NONNEGATIVE real number (a sum of
  256 squares of real numbers divided by 256), so adding the positive offset  ε  gives a positive real number, whose
  reciprocal square root is a real number: the column normalisation, and mish of it, are real-valued. The two classifiers
  then add and multiply real numbers only.
-/
import proofs.«105513_j41961830482650_1_alg».proof.Proof.Spec
import proofs.«105513_j41961830482650_1_alg».proof.Proof.HeadSpec
import proofs.«105513_j41961830482650_1_alg».proof.Proof.RealValued

noncomputable section

namespace Cert.Spec

open Idealize.ShloMosaic Idealize.ShloMosaic.ValueIdx

/-- The product of two real-valued matrices is real-valued. -/
theorem RealValued.mm {M K N : ℕ} {A : (⟨2, ![M, K]⟩ : Shape).Idx → EReal} {B : (⟨2, ![K, N]⟩ : Shape).Idx → EReal}
    (hA : RealValued A) (hB : RealValued B) : RealValued (mm A B) :=
  fun i => isReal_sum_mul _ _ _ (fun k _ => hA (ix2 (i 0) k)) (fun k _ => hB (ix2 k (i 1)))

/-- A real-valued bias row added to a real-valued matrix, then mish, is real-valued. -/
theorem RealValued.biasMish {M N : ℕ} {X : (⟨2, ![M, N]⟩ : Shape).Idx → EReal} {b : (⟨2, ![1, N]⟩ : Shape).Idx → EReal}
    (hX : RealValued X) (hb : RealValued b) : RealValued (biasMish X b) :=
  fun i => ((hX i).add (hb (ix2 0 (i 1)))).mishS

section Head

variable {feat : (⟨2, ![256, 1600]⟩ : Shape).Idx → EReal} {Wfc1 : (⟨2, ![1600, 200]⟩ : Shape).Idx → EReal}
  {bfc1 γ β : (⟨2, ![1, 200]⟩ : Shape).Idx → EReal} {z : (⟨2, ![256, 200]⟩ : Shape).Idx → EReal}

/-- The dense layer of real-valued arrays is real-valued. -/
theorem RealValued.headZ (hf : RealValued feat) (hW : RealValued Wfc1) (hb : RealValued bfc1) :
    RealValued (headZ feat Wfc1 bfc1) :=
  fun i => ((hf.mm hW) i).add (hb (ix2 0 (i 1)))

/-- The mean of a column of a real-valued matrix is a real number. -/
theorem isReal_colMean (hz : RealValued z) (j : Fin 200) : IsReal (colMean z j) := by
  unfold colMean rowCount
  rw [rowCount_word]
  exact (isReal_sum _ _ fun r _ => hz (ix2 r j)).div_coe (by norm_num)

/-- The variance of a column of a real-valued matrix is a nonnegative real number. -/
theorem colVar_nonneg (hz : RealValued z) (j : Fin 200) : ∃ v : ℝ, 0 ≤ v ∧ colVar z j = (v : EReal) := by
  obtain ⟨μ, hμ⟩ := isReal_colMean hz j
  choose zr hzr using fun r : Fin 256 => hz (ix2 r j)
  refine ⟨(∑ r : Fin 256, (zr r - μ) * (zr r - μ)) / 256,
    div_nonneg (Finset.sum_nonneg fun r _ => mul_self_nonneg _) (by norm_num), ?_⟩
  unfold colVar
  rw [hμ]
  unfold rowCount
  rw [rowCount_word,
    show (∑ r : Fin 256, (z (ix2 r j) - (μ : EReal)) * (z (ix2 r j) - (μ : EReal)))
        = ((∑ r : Fin 256, (zr r - μ) * (zr r - μ) : ℝ) : EReal) from by
      rw [coe_real_sum]
      exact Finset.sum_congr rfl fun r _ => by rw [hzr r, ← EReal.coe_sub, ← EReal.coe_mul]]
  exact div_real_real _ (by norm_num)

/-- Hence the reciprocal square root of the variance plus  ε  is a real number. -/
theorem isReal_rsqrt_colVar (hz : RealValued z) (j : Fin 200) : IsReal (Ideal.rsqrt (colVar z j + bnEps)) := by
  obtain ⟨v, hv0, hv⟩ := colVar_nonneg hz j
  obtain ⟨e, he0, he⟩ := eps_word
  unfold bnEps
  rw [hv, he, ← EReal.coe_add]
  exact isReal_rsqrt_coe (by linarith)

/-- The column normalisation of a real-valued matrix with real-valued scale and shift rows is real-valued. -/
theorem RealValued.colNorm (hz : RealValued z) (hγ : RealValued γ) (hβ : RealValued β) : RealValued (colNorm z γ β) :=
  fun i => ((((hz i).sub (isReal_colMean hz (i 1))).mul (isReal_rsqrt_colVar hz (i 1))).mul (hγ (ix2 0 (i 1)))).add
    (hβ (ix2 0 (i 1)))

/-- The head's hidden layer is real-valued. -/
theorem RealValued.headMid (hf : RealValued feat) (hW : RealValued Wfc1) (hb : RealValued bfc1) (hγ : RealValued γ)
    (hβ : RealValued β) : RealValued (headMid feat Wfc1 bfc1 γ β) :=
  fun i => (RealValued.colNorm (RealValued.headZ hf hW hb) hγ hβ i).mishS

variable {Wfc2 : (⟨2, ![200, 2]⟩ : Shape).Idx → EReal} {bfc2 : (⟨2, ![1, 2]⟩ : Shape).Idx → EReal}
  {Wd1 : (⟨2, ![200, 64]⟩ : Shape).Idx → EReal} {bd1 : (⟨2, ![1, 64]⟩ : Shape).Idx → EReal}
  {Wd2 : (⟨2, ![64, 6]⟩ : Shape).Idx → EReal} {bd2 : (⟨2, ![1, 6]⟩ : Shape).Idx → EReal}

/-- The first classifier is real-valued. -/
theorem RealValued.headLogits (hf : RealValued feat) (hW : RealValued Wfc1) (hb : RealValued bfc1) (hγ : RealValued γ)
    (hβ : RealValued β) (hW2 : RealValued Wfc2) (hb2 : RealValued bfc2) :
    RealValued (headLogits feat Wfc1 bfc1 γ β Wfc2 bfc2) :=
  fun i => (((RealValued.headMid hf hW hb hγ hβ).mm hW2) i).add (hb2 (ix2 0 (i 1)))

/-- The second classifier's hidden layer is real-valued. -/
theorem RealValued.headD1 (hf : RealValued feat) (hW : RealValued Wfc1) (hb : RealValued bfc1) (hγ : RealValued γ)
    (hβ : RealValued β) (hWd : RealValued Wd1) (hbd : RealValued bd1) :
    RealValued (headD1 feat Wfc1 bfc1 γ β Wd1 bd1) :=
  fun i => ((((RealValued.headMid hf hW hb hγ hβ).mm hWd) i).add (hbd (ix2 0 (i 1)))).max isReal_zero

/-- The second classifier is real-valued. -/
theorem RealValued.headCls (hf : RealValued feat) (hW : RealValued Wfc1) (hb : RealValued bfc1) (hγ : RealValued γ)
    (hβ : RealValued β) (hWd : RealValued Wd1) (hbd : RealValued bd1) (hWd2 : RealValued Wd2) (hbd2 : RealValued bd2) :
    RealValued (headCls feat Wfc1 bfc1 γ β Wd1 bd1 Wd2 bd2) :=
  fun i => (((RealValued.headD1 hf hW hb hγ hβ hWd hbd).mm hWd2) i).add (hbd2 (ix2 0 (i 1)))

end Head

end Cert.Spec

end
-- ==== Proof.LibSoftmaxRow.lean ====
/-
  Row softmax on the extended reals, for any row length and any value vectors.

  A row of scores `s : Fin n → EReal` is shifted by a number `m`, exponentiated (`p k = exp (s k - m)`, with
  `exp ⊥ = 0`, `exp ⊤ = ⊤`) and normalised by the row sum `l = ∑ k, p k`. Two spellings of the normalisation occur:
  dividing every entry by `l`, and multiplying it by the reciprocal `1 / l`; and a weighted sum `∑ k, w k * v k` may be
  normalised entry by entry before the sum or once after it. On the extended reals these agree as soon as `l` is not
  zero — division by zero has its own corner — and multiplication by `l⁻¹`, a nonnegative number that is never `⊤`,
  distributes over any sum, infinite terms included. When every score is a real number and the shift is not `⊤` each
  `s k - m` is not `⊥`, so each `p k` is positive and `l` is positive: that is the only use of finiteness.
-/
import Idealize.ShloMosaic.PureOps.Ideal

namespace Cert.Lib.SoftmaxRow

open Idealize.ShloMosaic

/-- A finite nonnegative factor comes out of a finite sum of extended reals, whatever the terms. -/
theorem sum_mul_of_nonneg_of_ne_top {ι : Type*} (t : Finset ι) (a : ι → EReal) {c : EReal} (h0 : 0 ≤ c) (ht : c ≠ ⊤) :
    (∑ k ∈ t, a k) * c = ∑ k ∈ t, a k * c := by
  classical
  induction t using Finset.induction_on with
  | empty => simp
  | insert k t hk ih =>
    rw [Finset.sum_insert hk, Finset.sum_insert hk, EReal.right_distrib_of_nonneg_of_ne_top h0 ht, ih]

/-- A dot product whose left factors were each scaled by a finite nonnegative `c` is the dot product scaled by `c`. -/
theorem scaled_dot {n : Nat} (a b : Fin n → EReal) {c : EReal} (h0 : 0 ≤ c) (ht : c ≠ ⊤) :
    ∑ d, (a d * c) * b d = (∑ d, a d * b d) * c := by
  rw [sum_mul_of_nonneg_of_ne_top _ _ h0 ht]
  exact Finset.sum_congr rfl fun d _ => mul_right_comm _ _ _

theorem exp_nonneg (x : EReal) : 0 ≤ Ideal.exp x := by
  induction x using EReal.rec with
  | bot => exact le_of_eq Ideal.exp_bot.symm
  | coe r => rw [Ideal.exp_coe]; exact EReal.coe_nonneg.2 (Real.exp_pos r).le
  | top => rw [Ideal.exp_top]; exact le_top

theorem exp_pos_of_ne_bot {x : EReal} (h : x ≠ ⊥) : 0 < Ideal.exp x := by
  induction x using EReal.rec with
  | bot => exact absurd rfl h
  | coe r => rw [Ideal.exp_coe]; exact EReal.coe_pos.2 (Real.exp_pos r)
  | top => rw [Ideal.exp_top]; exact EReal.zero_lt_top

/-- A real number minus anything but `⊤` is not `⊥`. -/
theorem coe_sub_ne_bot (r : ℝ) {m : EReal} (hm : m ≠ ⊤) : (r : EReal) - m ≠ ⊥ := by
  induction m using EReal.rec with
  | bot => simp
  | coe q => rw [← EReal.coe_sub]; exact EReal.coe_ne_bot _
  | top => exact absurd rfl hm

/-- The running maximum of a row none of whose entries is `⊤`, started below `⊤`, is not `⊤`. -/
theorem fold_max_ne_top {n : Nat} {b : EReal} (hb : b ≠ ⊤) (s : Fin n → EReal) (hs : ∀ k, s k ≠ ⊤) :
    (Finset.univ : Finset (Fin n)).fold max b s ≠ ⊤ := by
  apply ne_of_lt
  rw [Finset.fold_max_lt]
  exact ⟨lt_top_iff_ne_top.2 hb, fun k _ => lt_top_iff_ne_top.2 (hs k)⟩

section Row

variable {n : Nat} (s : Fin n → EReal) (m : EReal)

/-- The row sum of the shifted exponentials is positive when the row is not empty, its scores are real and the shift
    is not `⊤`. -/
theorem rowsum_pos (hn : 0 < n) (hs : ∀ k, ∃ r : ℝ, s k = r) (hm : m ≠ ⊤) :
    0 < ∑ k, Ideal.exp (s k - m) := by
  have h0 : 0 < Ideal.exp (s ⟨0, hn⟩ - m) := by
    obtain ⟨r, hr⟩ := hs ⟨0, hn⟩
    rw [hr]
    exact exp_pos_of_ne_bot (coe_sub_ne_bot r hm)
  exact lt_of_lt_of_le h0
    (Finset.single_le_sum (f := fun k => Ideal.exp (s k - m)) (fun k _ => exp_nonneg _) (Finset.mem_univ _))

/-- An entry times the reciprocal of a nonzero row sum is the entry divided by the row sum. -/
theorem mul_one_div {l : EReal} (hl : l ≠ 0) (p : EReal) : p * Ideal.div 1 l = Ideal.div p l := by
  unfold Ideal.div
  rw [if_neg hl, if_neg hl, one_mul]

/-- A weighted sum normalised once after the sum, by the reciprocal of a positive row sum, is the sum of the
    entrywise-normalised weights times the values — for any values, infinite ones included. -/
theorem sum_mul_one_div {l : EReal} (hl : 0 < l) (p v : Fin n → EReal) :
    (∑ k, p k * v k) * Ideal.div 1 l = ∑ k, Ideal.div (p k) l * v k := by
  have hl0 : l ≠ 0 := hl.ne'
  have e1 : Ideal.div 1 l = l⁻¹ := by unfold Ideal.div; rw [if_neg hl0, one_mul]
  rw [e1, sum_mul_of_nonneg_of_ne_top _ _ (EReal.inv_nonneg_of_nonneg hl.le) (EReal.inv_lt_top l).ne]
  refine Finset.sum_congr rfl fun k _ => ?_
  unfold Ideal.div
  rw [if_neg hl0]
  exact mul_right_comm _ _ _

end Row

end Cert.Lib.SoftmaxRow
-- ==== Proof.LibGraphRows.lean ====
/-
  GATHER AND SCATTER-ADD ALONG THE ROWS OF A MATRIX, READ AT COORDINATES, and the one law of a graph convolution.

  A row gather `x[idx]` of a matrix `[N, C]` (or of a vector `[N]`) at `E` start indices held as a column `[E, 1]` reads,
  for edge `e`, row `clampRow (idx (e, 0))`: the start index read as a signed integer and clamped into `[0, N - 1]`.
  A scatter-add of `E` update rows into the rows of `[N, C]` sends update `(e, c)` to `(idx (e, 0), c)` when the start
  index, read signed and NOT clamped, is a row of the matrix, and drops it otherwise. So an update that lands in row
  `r` has start index exactly `r`, which is a fixed point of jnp's negative-index wrap and of the gather's clamp: the
  degree normalisation gathered at the destination of an edge that lands in row `r` is the normalisation of row `r`.
  That is what lets the factor `dinv r` out of the sum over the edges into `r` — a finite nonnegative factor comes out
  of any finite sum of extended reals (`scaled_sum`); `dinv` is `rsqrt` of a positive degree, or zero.

  Every statement takes the dimension numbers by their lists, so that any printed record with these lists unifies.
-/
import Idealize.ShloMosaic.PureOps.Ideal
import Idealize.ShloMosaic.PureOps.Ideal.Laws
import Idealize.ShloMosaic.PureOps.Contract
import Idealize.ShloMosaic.Lib.ValueIdx
import Idealize.ShloMosaic.Lib.Pipeline.Value
import proofs.«105513_j41961830482650_1_alg».proof.Proof.LibSoftmaxRow

namespace Cert.Lib.GraphRows

open Idealize.ShloMosaic Idealize.ShloMosaic.ValueIdx

/-- The row a start index selects in a gather: read signed, clamped into `[0, N - 1]`. -/
def clampRow {N w : ℕ} (hN : 0 < N) (b : BitVec w) : Fin N := ⟨min b.toInt.toNat (N - 1), by omega⟩

/-- A start index that IS a row (read signed) is the row the gather selects. -/
theorem clampRow_of_toInt {N w : ℕ} (hN : 0 < N) (b : BitVec w) (r : Fin N) (h : b.toInt = (r.val : ℤ)) :
    clampRow hN b = r := by
  apply Fin.ext
  show min b.toInt.toNat (N - 1) = r.val
  rw [h, Int.toNat_natCast]
  have := r.isLt
  omega

/-! ## Row gathers -/

set_option backward.isDefEq.respectTransparency.types false in
/-- A row gather of a matrix `[N, C]` at start indices `[E, 1]`: result `(e, c)` reads the operand at
    `(clampRow (idx (e, 0)), c)`. -/
theorem gatherRows_operandIdx {N E C w : ℕ} (hN : 0 < N)
    (d : GatherDims ⟨2, ![N, C]⟩ ⟨2, ![E, 1]⟩ ⟨2, ![E, C]⟩)
    (h1 : d.offsetDims = [1]) (h2 : d.collapsedSliceDims = [0]) (h3 : d.operandBatchingDims = [])
    (h4 : d.startIndicesBatchingDims = []) (h5 : d.startIndexMap = [0]) (h6 : d.indexVectorDim = 1)
    (h7 : d.sliceSizes = ![1, C]) (idx : IVec ⟨2, ![E, 1]⟩ w) (e : Fin E) (c : Fin C) :
    d.operandIdx (ix2 e c) idx = ix2 (clampRow hN (idx (ix2 e (0 : Fin 1)))) c := by
  obtain ⟨od, cs, ob, sb, sim, iv, ss, wf⟩ := d
  dsimp only at h1 h2 h3 h4 h5 h6 h7
  subst h1 h2 h3 h4 h5 h6 h7
  funext a
  refine Fin.ext ?_
  match a with
  | ⟨0, _⟩ =>
    show GatherDims.start _ (ix2 e c) idx 0 + GatherDims.batchCoord _ (ix2 e c) 0 + GatherDims.offCoord _ (ix2 e c) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (List.mem_singleton.mpr rfl)]
    have hsi : GatherDims.siIdx (⟨[1], [0], [], [], [0], 1, ![1, C], wf⟩ : GatherDims ⟨2, ![N, C]⟩ ⟨2, ![E, 1]⟩ ⟨2, ![E, C]⟩) (ix2 e c)
        ⟨List.idxOf (0 : Fin 2) [(0 : Fin 2)], List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show GatherDims.start _ (ix2 e c) idx 1 + GatherDims.batchCoord _ (ix2 e c) 1 + GatherDims.offCoord _ (ix2 e c) 1 = c.val
    rw [GatherDims.batchCoord_eq_zero _ _ _ List.not_mem_nil]
    unfold GatherDims.start
    rw [dif_neg (show ¬ (1 : Fin 2) ∈ [(0 : Fin 2)] by decide)]
    unfold GatherDims.offCoord
    rw [dif_pos ((GatherDims.mem_sKept _ _).2 ⟨show ¬ (1 : Fin 2) ∈ [(0 : Fin 2)] by decide, List.not_mem_nil⟩)]
    simp only [Nat.zero_add]
    rfl

set_option backward.isDefEq.respectTransparency.types false in
/-- A gather of a vector `[N]` at start indices `[E, 1]`: result `e` reads the operand at `clampRow (idx (e, 0))`. -/
theorem gatherVec_operandIdx {N E w : ℕ} (hN : 0 < N)
    (d : GatherDims ⟨1, ![N]⟩ ⟨2, ![E, 1]⟩ ⟨1, ![E]⟩)
    (h1 : d.offsetDims = []) (h2 : d.collapsedSliceDims = [0]) (h3 : d.operandBatchingDims = [])
    (h4 : d.startIndicesBatchingDims = []) (h5 : d.startIndexMap = [0]) (h6 : d.indexVectorDim = 1)
    (h7 : d.sliceSizes = ![1]) (idx : IVec ⟨2, ![E, 1]⟩ w) (e : Fin E) :
    d.operandIdx (ix1 e) idx = ix1 (clampRow hN (idx (ix2 e (0 : Fin 1)))) := by
  obtain ⟨od, cs, ob, sb, sim, iv, ss, wf⟩ := d
  dsimp only at h1 h2 h3 h4 h5 h6 h7
  subst h1 h2 h3 h4 h5 h6 h7
  funext a
  refine Fin.ext ?_
  match a with
  | ⟨0, _⟩ =>
    show GatherDims.start _ (ix1 e) idx 0 + GatherDims.batchCoord _ (ix1 e) 0 + GatherDims.offCoord _ (ix1 e) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (List.mem_singleton.mpr rfl)]
    have hsi : GatherDims.siIdx (⟨[], [0], [], [], [0], 1, ![1], wf⟩ : GatherDims ⟨1, ![N]⟩ ⟨2, ![E, 1]⟩ ⟨1, ![E]⟩) (ix1 e)
        ⟨List.idxOf (0 : Fin 1) [(0 : Fin 1)], List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl

/-! ## The row scatter -/

/-- The row scatter's dimension numbers as a literal record. -/
private abbrev rowScatter (N E C : ℕ) (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ := ⟨[1], [0], [0], 1, wf⟩

set_option backward.isDefEq.respectTransparency.types false in
private theorem rowScatter_lands {N E C w : ℕ} (wf : ScatterDims.WF ⟨2, ![N, C]⟩ ⟨2, ![E, 1]⟩ ⟨2, ![E, C]⟩ [1] [0] [0] 1)
    (idx : IVec ⟨2, ![E, 1]⟩ w) (e : Fin E) (c : Fin C) (i : (⟨2, ![N, C]⟩ : Shape).Idx)
    (h : (rowScatter N E C wf).resultIdx? (ix2 e c) idx = some i) :
    (idx (ix2 e (0 : Fin 1))).toInt = ((i 0).val : ℤ) ∧ (i 1).val = c.val := by
  have hs0 : (rowScatter N E C wf).start (ix2 e c) idx 0 = (idx (ix2 e (0 : Fin 1))).toInt := by
    unfold ScatterDims.start
    rw [dif_pos (List.mem_singleton.mpr rfl)]
    have hsi : (rowScatter N E C wf).siIdx (ix2 e c)
        ⟨List.idxOf (0 : Fin 2) [(0 : Fin 2)], List.idxOf_lt_length_iff.2 (List.mem_singleton.mpr rfl)⟩ = ix2 e (0 : Fin 1) := by
      funext b; refine Fin.ext ?_
      match b with
      | ⟨0, _⟩ => rfl
      | ⟨1, _⟩ => rfl
    rw [hsi]
  have hw0 : (rowScatter N E C wf).window (ix2 e c) 0 = 0 := by
    unfold ScatterDims.window
    rw [dif_neg (by simp [ScatterDims.sKept, Shape.kept])]
  have hs1 : (rowScatter N E C wf).start (ix2 e c) idx 1 = 0 := by
    unfold ScatterDims.start
    rw [dif_neg (show ¬ (1 : Fin 2) ∈ [(0 : Fin 2)] by decide)]
  have hw1 : (rowScatter N E C wf).window (ix2 e c) 1 = c.val := by
    unfold ScatterDims.window
    rw [dif_pos (by simp [ScatterDims.sKept, Shape.kept])]
    rfl
  unfold ScatterDims.resultIdx? at h
  split at h
  · rename_i hb
    have hi := Option.some.inj h
    have e0 : ((rowScatter N E C wf).start (ix2 e c) idx 0 + ((rowScatter N E C wf).window (ix2 e c) 0 : ℕ)).toNat = (i 0).val :=
      congrArg Fin.val (congrFun hi 0)
    have e1 : ((rowScatter N E C wf).start (ix2 e c) idx 1 + ((rowScatter N E C wf).window (ix2 e c) 1 : ℕ)).toNat = (i 1).val :=
      congrArg Fin.val (congrFun hi 1)
    have hb0 := (hb 0).1
    rw [hs0, hw0] at e0 hb0
    rw [hs1, hw1] at e1
    simp only [Nat.cast_zero, add_zero] at e0 hb0
    constructor
    · rw [← e0]; exact (Int.toNat_of_nonneg hb0).symm
    · rw [← e1]; simp
  · exact absurd h (by simp)

/-- A row scatter into `[N, C]` at scatter indices `[E, 1]`: update `(e, c)` lands at `i` only if its start index, read
    signed, is the row of `i`, and then in column `c`. -/
theorem scatterRows_lands {N E C w : ℕ}
    (d : ScatterDims ⟨2, ![N, C]⟩ ⟨2, ![E, 1]⟩ ⟨2, ![E, C]⟩)
    (h1 : d.updateWindowDims = [1]) (h2 : d.insertedWindowDims = [0]) (h3 : d.scatterDimsToOperandDims = [0])
    (h4 : d.indexVectorDim = 1) (idx : IVec ⟨2, ![E, 1]⟩ w) (e : Fin E) (c : Fin C)
    (i : (⟨2, ![N, C]⟩ : Shape).Idx) (h : d.resultIdx? (ix2 e c) idx = some i) :
    (idx (ix2 e (0 : Fin 1))).toInt = ((i 0).val : ℤ) ∧ (i 1).val = c.val := by
  obtain ⟨uw, iw, sd, iv, wf⟩ := d
  dsimp only at h1 h2 h3 h4
  subst h1 h2 h3 h4
  exact rowScatter_lands wf idx e c i h

/-! ## A gather, a scatter-add and a splat constant read at an index (by definition, stated once for abstract shapes) -/

/-- A gather reads the operand at the gather's operand index. -/
theorem gather_apply {α : Type} {s si t : Shape} {w : ℕ} (d : GatherDims s si t) (x : s.Idx → α) (idx : IVec si w)
    (j : t.Idx) : Host.gather d x idx j = x (d.operandIdx j idx) := rfl

/-- On the extended reals a scatter-add is the operand's element plus the sum of the updates that land on it. -/
theorem scatterAdd_apply {s si su : Shape} {φ : FTy} {w : ℕ} (d : ScatterDims s si su) (x : FVec Ideal s φ)
    (idx : IVec si w) (upd : FVec Ideal su φ) (i : s.Idx) :
    Host.scatterAdd d x idx upd i
      = x i + ∑ j ∈ Finset.univ.filter (fun j => d.resultIdx? j idx = some i), upd j := rfl

/-- A scalar constant broadcast to any shape reads the constant. -/
theorem splat_apply {t : Shape} {φ : FTy} (dims : Fin (⟨0, ![]⟩ : Shape).rank → Fin t.rank)
    (h : (⟨0, ![]⟩ : Shape).BroadcastsInDim t dims) (b : BitVec φ.bits) (j : t.Idx) :
    broadcastInDim t dims h (constant (F := Ideal) ⟨0, ![]⟩ φ b) j = Ideal.ofBits φ b := rfl

/-- A gathered array widened to another float format reads the operand at the gather's operand index. -/
theorem extf_gather_apply {s si t : Shape} {φ ψ : FTy} {w : ℕ} (d : GatherDims s si t) (x : FVec Ideal s φ)
    (idx : IVec si w) (hb : φ.bits < ψ.bits) (j : t.Idx) :
    extf ψ (Host.gather d x idx) hb j = x (d.operandIdx j idx) := rfl

/-- A gathered array times another, elementwise. -/
theorem mulf_gather_apply {s si t : Shape} {φ : FTy} {w : ℕ} (d : GatherDims s si t) (x : FVec Ideal s φ)
    (idx : IVec si w) (y : FVec Ideal t φ) (j : t.Idx) :
    mulf (Host.gather d x idx) y j = x (d.operandIdx j idx) * y j := rfl

/-! ## jnp's wrap of a negative index -/

/-- `where(v < z, v + n, v)` with `z` the zero word leaves a nonnegative index as it is. -/
theorem wrap_of_nonneg {w : ℕ} (v z n : BitVec w) (hz : z.toInt = 0) (h : 0 ≤ v.toInt) :
    Scalar.select (IntOp.cmpi .slt v z) (IntOp.addi v n) v = v := by
  have : IntOp.cmpi .slt v z = 0#1 := by
    show BitVec.ofBool (v.slt z) = 0#1
    have hs : v.slt z = false := by
      rw [BitVec.slt_eq_decide, hz]
      exact decide_eq_false (not_lt.mpr h)
    rw [hs]; rfl
  rw [this]
  exact select_zero _ _

/-! ## The normalisation factor and the law -/

/-- `where(deg > 0, rsqrt deg, 0)` is a finite nonnegative number, whatever `deg` is. -/
theorem dinv_bounds (d : EReal) :
    0 ≤ Scalar.select (Ideal.cmp .ogt d 0) (Ideal.rsqrt d) (0 : EReal)
      ∧ Scalar.select (Ideal.cmp .ogt d 0) (Ideal.rsqrt d) (0 : EReal) ≠ ⊤ := by
  by_cases h : (0 : EReal) < d
  · have hc : Ideal.cmp .ogt d 0 = 1#1 := by
      show BitVec.ofBool (decide ((0 : EReal) < d)) = 1#1
      rw [decide_eq_true h]; rfl
    rw [hc, select_one]
    induction d using EReal.rec with
    | bot => exact absurd h (by simp)
    | top => rw [Ideal.rsqrt_top]; exact ⟨le_refl _, EReal.zero_ne_top⟩
    | coe r =>
      have hr : 0 < r := by exact_mod_cast h
      rw [Ideal.rsqrt_coe, if_neg (not_lt.mpr hr.le), if_neg hr.ne']
      exact ⟨EReal.coe_nonneg.mpr (inv_nonneg.mpr (Real.sqrt_nonneg r)), EReal.coe_ne_top _⟩
  · have hc : Ideal.cmp .ogt d 0 = 0#1 := by
      show BitVec.ofBool (decide ((0 : EReal) < d)) = 0#1
      rw [decide_eq_false h]; rfl
    rw [hc, select_zero]
    exact ⟨le_refl _, EReal.zero_ne_top⟩

/-- THE LAW: a sum of messages `a j * s j` scaled afterwards by a finite nonnegative `c` is the sum of the messages each
    scaled by `s j * t j`, when `t j = c` on the summed set. (Both sums start from the zero the scatter adds into.) -/
theorem scaled_sum {ι : Type*} (L : Finset ι) (a s t : ι → EReal) (c : EReal) (h0 : 0 ≤ c) (ht : c ≠ ⊤)
    (hc : ∀ j ∈ L, t j = c) :
    (0 + ∑ j ∈ L, a j * s j) * c = 0 + ∑ j ∈ L, a j * (s j * t j) := by
  rw [zero_add, zero_add, Cert.Lib.SoftmaxRow.sum_mul_of_nonneg_of_ne_top _ _ h0 ht]
  exact Finset.sum_congr rfl fun j hj => by rw [hc j hj, mul_assoc]

/-! ## One graph convolution, both ways -/

set_option backward.isDefEq.respectTransparency.types false in
/-- A GRAPH CONVOLUTION AT NODE `r`, COLUMN `q`. With `h` the dense transform `[N, C]`, `dinv` the normalisation of the
    nodes, `srcI` / `dstNI` the wrapped source and destination start indices the gathers read and `dstI` the raw
    destination indices the scatter reads: summing into `(r, q)` the rows of `h` ALREADY SCALED by `dinv` of their own node
    and scaling the sum by `dinv r` afterwards is summing the rows of `h` each times
    `norm e = dinv[src e] * dinv[dst e]` — because an edge that lands in row `r` has destination `r`, a fixed point of
    the wrap (`hwrap`) and of the gather's clamp. -/
theorem conv_at {N E C w : ℕ} (hN : 0 < N)
    (sc : ScatterDims ⟨2, ![N, C]⟩ ⟨2, ![E, 1]⟩ ⟨2, ![E, C]⟩)
    (s1 : sc.updateWindowDims = [1]) (s2 : sc.insertedWindowDims = [0]) (s3 : sc.scatterDimsToOperandDims = [0])
    (s4 : sc.indexVectorDim = 1)
    (g : GatherDims ⟨2, ![N, C]⟩ ⟨2, ![E, 1]⟩ ⟨2, ![E, C]⟩)
    (g1 : g.offsetDims = [1]) (g2 : g.collapsedSliceDims = [0]) (g3 : g.operandBatchingDims = [])
    (g4 : g.startIndicesBatchingDims = []) (g5 : g.startIndexMap = [0]) (g6 : g.indexVectorDim = 1)
    (g7 : g.sliceSizes = ![1, C])
    (gv : GatherDims ⟨1, ![N]⟩ ⟨2, ![E, 1]⟩ ⟨1, ![E]⟩)
    (v1 : gv.offsetDims = []) (v2 : gv.collapsedSliceDims = [0]) (v3 : gv.operandBatchingDims = [])
    (v4 : gv.startIndicesBatchingDims = []) (v5 : gv.startIndexMap = [0]) (v6 : gv.indexVectorDim = 1)
    (v7 : gv.sliceSizes = ![1])
    (dinv : (⟨1, ![N]⟩ : Shape).Idx → EReal) (hd : ∀ i, 0 ≤ dinv i ∧ dinv i ≠ ⊤)
    (h : (⟨2, ![N, C]⟩ : Shape).Idx → EReal)
    (srcI dstI dstNI : IVec ⟨2, ![E, 1]⟩ w)
    (hwrap : ∀ e : Fin E, 0 ≤ (dstI (ix2 e (0 : Fin 1))).toInt → dstNI (ix2 e (0 : Fin 1)) = dstI (ix2 e (0 : Fin 1)))
    (r : Fin N) (q : Fin C) :
    (0 + ∑ j ∈ Finset.univ.filter (fun j => sc.resultIdx? j dstI = some (ix2 r q)),
        (h (g.operandIdx j srcI) * dinv (ix1 ((g.operandIdx j srcI) 0)))) * dinv (ix1 r)
      = 0 + ∑ j ∈ Finset.univ.filter (fun j => sc.resultIdx? j dstI = some (ix2 r q)),
          h (g.operandIdx j srcI)
            * (dinv (gv.operandIdx (ix1 (j 0)) srcI) * dinv (gv.operandIdx (ix1 (j 0)) dstNI)) := by
  have key := scaled_sum (Finset.univ.filter (fun j => sc.resultIdx? j dstI = some (ix2 r q)))
    (fun j => h (g.operandIdx j srcI)) (fun j => dinv (ix1 ((g.operandIdx j srcI) 0)))
    (fun j => dinv (gv.operandIdx (ix1 (j 0)) dstNI)) (dinv (ix1 r)) (hd _).1 (hd _).2 (by
      intro j hj
      have hl := (Finset.mem_filter.mp hj).2
      rw [eq_ix2 j] at hl
      obtain ⟨hrow, -⟩ := scatterRows_lands sc s1 s2 s3 s4 dstI (j 0) (j 1) (ix2 r q) hl
      have hrow' : (dstI (ix2 (j 0) (0 : Fin 1))).toInt = (r.val : ℤ) := hrow
      have hnn : 0 ≤ (dstI (ix2 (j 0) (0 : Fin 1))).toInt := by rw [hrow']; exact Int.natCast_nonneg _
      show dinv (gv.operandIdx (ix1 (j 0)) dstNI) = dinv (ix1 r)
      rw [gatherVec_operandIdx hN gv v1 v2 v3 v4 v5 v6 v7 dstNI (j 0), hwrap (j 0) hnn,
        clampRow_of_toInt hN _ r hrow'])
  refine key.trans ?_
  refine congrArg (0 + ·) (Finset.sum_congr rfl fun j _ => ?_)
  show h (g.operandIdx j srcI) * (dinv (ix1 ((g.operandIdx j srcI) 0)) * dinv (gv.operandIdx (ix1 (j 0)) dstNI)) = _
  have e0 : g.operandIdx j srcI = ix2 (clampRow hN (srcI (ix2 (j 0) (0 : Fin 1)))) (j 1) :=
    (congrArg (fun j' => g.operandIdx j' srcI) (eq_ix2 j)).trans
      (gatherRows_operandIdx hN g g1 g2 g3 g4 g5 g6 g7 srcI (j 0) (j 1))
  have e1 : ix1 ((g.operandIdx j srcI) 0) = gv.operandIdx (ix1 (j 0)) srcI :=
    (congrArg (fun z : (⟨2, ![N, C]⟩ : Shape).Idx => ix1 (z 0)) e0).trans
      (gatherVec_operandIdx hN gv v1 v2 v3 v4 v5 v6 v7 srcI (j 0)).symm
  exact congrArg (fun z => h (g.operandIdx j srcI) * (dinv z * dinv (gv.operandIdx (ix1 (j 0)) dstNI))) e1

end Cert.Lib.GraphRows
-- ==== Proof.RealHost.lean ====
/-
  The host side of the graph convolution keeps arrays real-valued.

  An entry of a gather is an entry of its operand, whatever the index array holds; an entry of a scatter-add is the
  operand's entry plus a finite sum of update entries, whatever the index array holds; an entry of a concatenation is an
  entry of one of its pieces; an entry of a select is an entry of one of its branches. So the edge weights (the given ones
  followed by ones), the degrees (sums of weights), the edge coefficients and the two aggregations are real-valued as soon
  as the weights and the features are. The normalisation  deg^(-1/2) where deg > 0, else 0  is a real number for ANY degree:
  it is nonnegative and not +∞.
-/
import proofs.«105513_j41961830482650_1_alg».proof.Proof.HostStages
import proofs.«105513_j41961830482650_1_alg».proof.Proof.RealValued
import proofs.«105513_j41961830482650_1_alg».proof.Proof.LibGraphRows

noncomputable section

namespace Cert.Spec

open Idealize.ShloMosaic

/-! ## The array operations, one by one -/

/-- A gather of a real-valued array is real-valued. -/
theorem RealValued.gather {s si t : Shape} {w : ℕ} (d : GatherDims s si t) {x : s.Idx → EReal} (hx : RealValued x)
    (idx : IVec si w) : RealValued (Host.gather d x idx) :=
  fun j => hx (d.operandIdx j idx)

/-- A scatter-add of real-valued updates into a real-valued array is real-valued. -/
theorem RealValued.scatterAdd {s si su : Shape} {φ : FTy} {w : ℕ} (d : ScatterDims s si su) {x : FVec Ideal s φ}
    {upd : FVec Ideal su φ} (hx : RealValued x) (hu : RealValued upd) (idx : IVec si w) :
    RealValued (Host.scatterAdd d x idx upd) := fun i => by
  rw [Cert.Lib.GraphRows.scatterAdd_apply]
  exact (hx i).add (isReal_sum _ _ fun j _ => hu j)

/-- A broadcast of a real-valued array is real-valued. -/
theorem RealValued.broadcastInDim {s t : Shape} (dims : Fin s.rank → Fin t.rank) (h : s.BroadcastsInDim t dims)
    {x : s.Idx → EReal} (hx : RealValued x) : RealValued (broadcastInDim t dims h x) :=
  fun _ => hx _

/-- A concatenation of real-valued arrays is real-valued. -/
theorem RealValued.concatenate (t : Shape) (a : Fin t.rank) (xs : List ((s : Shape) × (s.Idx → EReal)))
    (h : Shape.Concatenates (xs.map (·.1)) t a) (hxs : ∀ p ∈ xs, RealValued p.2) :
    RealValued (concatenate t a xs h) := fun j => by
  unfold Idealize.ShloMosaic.concatenate
  exact hxs _ (List.getElem_mem _) _

/-- The entrywise product of real-valued arrays is real-valued. -/
theorem RealValued.mulf {s : Shape} {φ : FTy} {x y : FVec Ideal s φ} (hx : RealValued x) (hy : RealValued y) :
    RealValued (mulf x y) :=
  fun i => (hx i).mul (hy i)

/-- An entrywise select between real-valued arrays is real-valued. -/
theorem RealValued.select {s : Shape} (c : IVec s 1) {a b : s.Idx → EReal} (ha : RealValued a) (hb : RealValued b) :
    RealValued (select c a b) := fun i => by
  show IsReal (Scalar.select (c i) (a i) (b i))
  unfold Scalar.select
  split
  · exact ha i
  · exact hb i

/-- The word  0x3F800000  is the real number 1. -/
theorem one_word : Ideal.ofBits .f32 0x3F800000#32 = ((1 : ℝ) : EReal) := by
  simp [Ideal.ofBits, Ideal.ieee]
  exact_mod_cast (by norm_num : (8388608 : ℝ) * ((2 : ℝ) ^ 23)⁻¹ = 1)

/-- A splat of the word for 1 is real-valued. -/
theorem realValued_splat_one {t : Shape} (dims : Fin (⟨0, ![]⟩ : Shape).rank → Fin t.rank)
    (h : (⟨0, ![]⟩ : Shape).BroadcastsInDim t dims) :
    RealValued (Idealize.ShloMosaic.broadcastInDim t dims h (constant (F := Ideal) ⟨0, ![]⟩ .f32 0x3F800000#32)) := fun j => by
  rw [Cert.Lib.GraphRows.splat_apply, one_word]; exact isReal_coe 1

/-- A splat of the zero word is real-valued. -/
theorem realValued_splat_zero {t : Shape} (dims : Fin (⟨0, ![]⟩ : Shape).rank → Fin t.rank)
    (h : (⟨0, ![]⟩ : Shape).BroadcastsInDim t dims) :
    RealValued (Idealize.ShloMosaic.broadcastInDim t dims h (constant (F := Ideal) ⟨0, ![]⟩ .f32 0x00000000#32)) := fun j => by
  rw [Cert.Lib.GraphRows.splat_apply, Ideal.ofBits_zero_f32]; exact isReal_zero

/-- deg^(-1/2) where deg > 0, else 0,  is a real number whatever  deg  is: it is nonnegative and not +∞. -/
theorem isReal_dinv (d : EReal) : IsReal (Scalar.select (Ideal.cmp .ogt d 0) (Ideal.rsqrt d) (0 : EReal)) := by
  obtain ⟨h0, ht⟩ := Cert.Lib.GraphRows.dinv_bounds d
  exact isReal_of_ne ht (fun hb => by rw [hb] at h0; simp at h0)

end Cert.Spec

namespace Cert.KernelIdeal.Values

open Idealize.ShloMosaic Cert.KernelIdeal Cert.KernelIdeal.Facts₀ Cert.Spec

/-! ## The graph's arrays -/

/-- The edge weights, the given ones followed by ones, are real-valued when the given ones are. -/
theorem realValued_edgeWeight {ea : (⟨S1638400, .f32⟩ : BufTy).Contents (Elt Ideal)} (hea : RealValued ea) :
    RealValued (edgeWeight (F := Ideal) ea) := by
  unfold edgeWeight
  refine RealValued.concatenate _ _ _ _ fun p hp => ?_
  simp only [List.mem_cons, List.not_mem_nil, or_false] at hp
  rcases hp with rfl | rfl
  · exact hea
  · exact realValued_splat_one (t := S51200) ![] bcast_S_S51200

/-- The degrees are real-valued when the weights are, whatever the targets are. -/
theorem realValued_degree (col : IdxE Ideal) {w : VecE Ideal} (hw : RealValued w) : RealValued (degree (F := Ideal) col w) := by
  unfold degree
  exact RealValued.scatterAdd _ (realValued_splat_zero _ _) hw _

/-- The normalisation is real-valued whatever the degrees are. -/
theorem realValued_invSqrtDeg (deg : VecN Ideal) : RealValued (invSqrtDeg (F := Ideal) deg) := fun i => by
  show IsReal (Scalar.select (Ideal.cmp .ogt (deg i) (Ideal.ofBits .f32 0x00000000#32)) (Ideal.rsqrt (deg i))
    (Ideal.ofBits .f32 0x00000000#32))
  rw [Ideal.ofBits_zero_f32]
  exact isReal_dinv (deg i)

/-- The edge coefficients are real-valued when the weights are, whatever the sources and targets are. -/
theorem realValued_edgeNorm (row col : IdxE Ideal) {w : VecE Ideal} (hw : RealValued w) :
    RealValued (edgeNorm (F := Ideal) row col w) := by
  unfold edgeNorm
  exact ((RealValued.gather _ (realValued_invSqrtDeg _) _).mulf hw).mulf (RealValued.gather _ (realValued_invSqrtDeg _) _)

/-- The aggregation of 128-wide real-valued features with real-valued coefficients is real-valued. -/
theorem realValued_aggregate128 {h : (⟨S51200x128, .f32⟩ : BufTy).Contents (Elt Ideal)} (hh : RealValued h) (row col : IdxE Ideal)
    {nrm : VecE Ideal} (hn : RealValued nrm) : RealValued (aggregate128 (F := Ideal) h row col nrm) := by
  unfold aggregate128
  exact RealValued.scatterAdd _ (realValued_splat_zero _ _)
    ((RealValued.gather _ hh _).mulf (RealValued.broadcastInDim _ _ (RealValued.broadcastInDim _ _ hn))) _

/-- The aggregation of 64-wide real-valued features with real-valued coefficients is real-valued. -/
theorem realValued_aggregate64 {h : (⟨S51200x64, .f32⟩ : BufTy).Contents (Elt Ideal)} (hh : RealValued h) (row col : IdxE Ideal)
    {nrm : VecE Ideal} (hn : RealValued nrm) : RealValued (aggregate64 (F := Ideal) h row col nrm) := by
  unfold aggregate64
  exact RealValued.scatterAdd _ (realValued_splat_zero _ _)
    ((RealValued.gather _ hh _).mulf (RealValued.broadcastInDim _ _ (RealValued.broadcastInDim _ _ hn))) _

end Cert.KernelIdeal.Values

end
-- ==== Proof.RealChain.lean ====
/-
  The kernel's closed forms keep arrays real-valued.

  With every float argument real-valued: the edge coefficients are real-valued (whatever the edge list holds), a matrix
  product of real-valued matrices is, an aggregation of real-valued rows with real-valued coefficients is, a bias row
  (a vector re-laid as one row: its entries are the vector's) added before mish is. So layer 1, layer 2, the read-out
  and its re-laying as the 256 × 1600 feature matrix (whose entries are the read-out's) are real-valued, and with them
  the head's hidden layer, in which the column variance plus ε is a positive real number.
-/
import proofs.«105513_j41961830482650_1_alg».proof.Proof.KernelClosed
import proofs.«105513_j41961830482650_1_alg».proof.Proof.RealSpec
import proofs.«105513_j41961830482650_1_alg».proof.Proof.RealHost

noncomputable section

namespace Cert.Bridge

open Idealize.ShloMosaic Cert.Spec

/-- A re-laid array's entries are entries of its source: real-valued when the source is. -/
theorem realValued_of_relaid {s t : Shape} {x : s.Idx → EReal} (hx : RealValued x) (h : s.ShapeCasts t) :
    RealValued (shapeCast t x h) :=
  fun j => hx (Shape.reshapeEquiv h j)

end Cert.Bridge

namespace Cert.KernelIdeal.Values

open Idealize.ShloMosaic Cert.KernelIdeal Cert.KernelIdeal.Facts₀ Cert.Spec

variable {x : ArrI S51200x200 .f32} (ei : ArrI S2x1638400 .i32) {ea : ArrI S1638400 .f32}
  {W1 : ArrI S200x128 .f32} {b1 : ArrI S128 .f32} {W2 : ArrI S128x64 .f32} {b2 : ArrI S64 .f32}
  {Wro : ArrI S64x8 .f32} {bro : ArrI S8 .f32} {Wfc1 : ArrI S1600x200 .f32} {bfc1 γ β : ArrI S200 .f32}

/-- The edge coefficients are real-valued when the weights are. -/
theorem realValued_coeffK (hea : RealValued ea) : RealValued (coeffK ei ea) :=
  realValued_edgeNorm _ _ (realValued_edgeWeight hea)

/-- Layer 1 is real-valued. -/
theorem realValued_layer1K (hx : RealValued x) (hea : RealValued ea) (hW1 : RealValued W1) (hb1 : RealValued b1) :
    RealValued (layer1K x ei ea W1 b1) :=
  RealValued.biasMish (realValued_aggregate128 (hx.mm hW1) _ _ (realValued_coeffK ei hea)) (Cert.Bridge.realValued_of_relaid hb1 _)

/-- Layer 2 is real-valued. -/
theorem realValued_layer2K (hx : RealValued x) (hea : RealValued ea) (hW1 : RealValued W1) (hb1 : RealValued b1)
    (hW2 : RealValued W2) (hb2 : RealValued b2) : RealValued (layer2K x ei ea W1 b1 W2 b2) :=
  RealValued.biasMish
    (realValued_aggregate64 ((realValued_layer1K ei hx hea hW1 hb1).mm hW2) _ _ (realValued_coeffK ei hea))
    (Cert.Bridge.realValued_of_relaid hb2 _)

/-- The read-out is real-valued. -/
theorem realValued_readoutK (hx : RealValued x) (hea : RealValued ea) (hW1 : RealValued W1) (hb1 : RealValued b1)
    (hW2 : RealValued W2) (hb2 : RealValued b2) (hWro : RealValued Wro) (hbro : RealValued bro) :
    RealValued (readoutK x ei ea W1 b1 W2 b2 Wro bro) :=
  RealValued.biasMish ((realValued_layer2K ei hx hea hW1 hb1 hW2 hb2).mm hWro) (Cert.Bridge.realValued_of_relaid hbro _)

/-- The feature matrix, the read-out re-laid, is real-valued. -/
theorem realValued_featK (hx : RealValued x) (hea : RealValued ea) (hW1 : RealValued W1) (hb1 : RealValued b1)
    (hW2 : RealValued W2) (hb2 : RealValued b2) (hWro : RealValued Wro) (hbro : RealValued bro) :
    RealValued (featK x ei ea W1 b1 W2 b2 Wro bro) :=
  Cert.Bridge.realValued_of_relaid (realValued_readoutK ei hx hea hW1 hb1 hW2 hb2 hWro hbro) _

/-- The head's hidden layer on the feature matrix is real-valued. -/
theorem realValued_headMidK (hx : RealValued x) (hea : RealValued ea) (hW1 : RealValued W1) (hb1 : RealValued b1)
    (hW2 : RealValued W2) (hb2 : RealValued b2) (hWro : RealValued Wro) (hbro : RealValued bro)
    (hWfc1 : RealValued Wfc1) (hbfc1 : RealValued bfc1) (hγ : RealValued γ) (hβ : RealValued β) :
    RealValued (Cert.Spec.headMid (featK x ei ea W1 b1 W2 b2 Wro bro) Wfc1
      (shapeCast S1x200 bfc1 Facts₀.shapeCasts_S200_S1x200) (shapeCast S1x200 γ Facts₀.shapeCasts_S200_S1x200)
      (shapeCast S1x200 β Facts₀.shapeCasts_S200_S1x200)) :=
  RealValued.headMid (realValued_featK ei hx hea hW1 hb1 hW2 hb2 hWro hbro) hWfc1 (Cert.Bridge.realValued_of_relaid hbfc1 _)
    (Cert.Bridge.realValued_of_relaid hγ _) (Cert.Bridge.realValued_of_relaid hβ _)

end Cert.KernelIdeal.Values

end
-- ==== Proof.Final.lean ====
/-
  The kernel's closed forms are the reference's results.

  The reference's two results are its classifiers on its head's hidden layer, which is mish of the batch-normalised
  dense layer of its read-out re-laid. The read-out of the reference's second layer is the kernel's closed form of the
  read-out; the reference's head on a read-out is the entrywise head on the read-out re-laid as 256 × 1600, the biases
  and the scale and shift entering as rows. So the reference's logits are the kernel's closed form of the logits. The
  second classifier multiplies the hidden layer by two and subtracts it again, which returns the hidden layer only where
  it is a real number: with every float argument real-valued the hidden layer is, and the reference's second result is
  the kernel's closed form of it as well.
-/
import proofs.«105513_j41961830482650_1_alg».proof.Proof.FinalLayers
import proofs.«105513_j41961830482650_1_alg».proof.Proof.BridgeHead
import proofs.«105513_j41961830482650_1_alg».proof.Proof.RealChain

noncomputable section

namespace Cert.Bridge

open Idealize.ShloMosaic Cert.Spec
open Cert.KernelIdeal.Values (ArrI coeffK layer1K layer2K readoutK featK logitsK clsK)

variable (x : ArrI Cert.KernelIdeal.S51200x200 .f32) (ei : ArrI Cert.KernelIdeal.S2x1638400 .i32)
  (ea : ArrI Cert.KernelIdeal.S1638400 .f32) (W1 : ArrI Cert.KernelIdeal.S200x128 .f32) (b1 : ArrI Cert.KernelIdeal.S128 .f32)
  (W2 : ArrI Cert.KernelIdeal.S128x64 .f32) (b2 : ArrI Cert.KernelIdeal.S64 .f32)
  (Wro : ArrI Cert.KernelIdeal.S64x8 .f32) (bro : ArrI Cert.KernelIdeal.S8 .f32)
  (Wfc1 : ArrI Cert.KernelIdeal.S1600x200 .f32) (bfc1 γ β : ArrI Cert.KernelIdeal.S200 .f32)
  (Wfc2 : ArrI Cert.KernelIdeal.S200x2 .f32) (bfc2 : ArrI Cert.KernelIdeal.S2 .f32)
  (Wd1 : ArrI Cert.KernelIdeal.S200x64 .f32) (bd1 : ArrI Cert.KernelIdeal.S64 .f32)
  (Wd2 : ArrI Cert.KernelIdeal.S64x6 .f32) (bd2 : ArrI Cert.KernelIdeal.S6 .f32)

/-- The kernel's closed form of the logits is the reference's first result. -/
theorem logitsK_eq_refLogits :
    logitsK x ei ea W1 b1 W2 b2 Wro bro Wfc1 bfc1 γ β Wfc2 bfc2
      = Cert.ReferenceIdeal.Stages.refLogits x ei ea W1 b1 W2 b2 Wro bro Wfc1 bfc1 γ β Wfc2 bfc2 := by
  unfold Cert.ReferenceIdeal.Stages.refLogits Cert.ReferenceIdeal.Stages.headOut
  rw [readout_layer2_eq,
    head_logits _ _ _ _ _ _ _ Cert.KernelIdeal.Facts₀.shapeCasts_S51200x8_S256x1600 Cert.KernelIdeal.Facts₀.shapeCasts_S200_S1x200
      Cert.KernelIdeal.Facts₀.shapeCasts_S2_S1x2]
  rfl

/-- With every float argument real-valued, the kernel's closed form of the second result is the reference's. -/
theorem clsK_eq_refCls (hx : RealValued x) (hea : RealValued ea) (hW1 : RealValued W1) (hb1 : RealValued b1)
    (hW2 : RealValued W2) (hb2 : RealValued b2) (hWro : RealValued Wro) (hbro : RealValued bro)
    (hWfc1 : RealValued Wfc1) (hbfc1 : RealValued bfc1) (hγ : RealValued γ) (hβ : RealValued β) :
    clsK x ei ea W1 b1 W2 b2 Wro bro Wfc1 bfc1 γ β Wd1 bd1 Wd2 bd2
      = Cert.ReferenceIdeal.Stages.refCls x ei ea W1 b1 W2 b2 Wro bro Wfc1 bfc1 γ β Wd1 bd1 Wd2 bd2 := by
  unfold Cert.ReferenceIdeal.Stages.refCls Cert.ReferenceIdeal.Stages.headOut
  rw [readout_layer2_eq,
    head_cls _ _ _ _ _ _ _ _ _ Cert.KernelIdeal.Facts₀.shapeCasts_S51200x8_S256x1600 Cert.KernelIdeal.Facts₀.shapeCasts_S200_S1x200
      Cert.KernelIdeal.Facts₀.shapeCasts_S64_S1x64 Cert.KernelIdeal.Facts₀.shapeCasts_S6_S1x6
      (Cert.KernelIdeal.Values.realValued_headMidK ei hx hea hW1 hb1 hW2 hb2 hWro hbro hWfc1 hbfc1 hγ hβ)]
  rfl

end Cert.Bridge

end
-- ==== Proof.lean ====
/-
  The certificate of the graph-convolution network: the kernel, its idealization and the reference.

  From a feature matrix  x,  an edge list with weights and the layers' parameters both programs compute

    h₁ = mish (Â (x W₁) + b₁),   h₂ = mish (Â (h₁ W₂) + b₂),   r = mish (h₂ W_ro + b_ro),

  Â  the aggregation along the edges (one self loop per node added) with the symmetric degree normalisation; then, on
  r  re-laid as 256 rows of 1600 features, a dense layer, a batch normalisation over the 256 rows, mish, and two
  classifiers on the result  t :  the logits  t W + b,  and  max (t W' + b') 0 · W'' + b''.

  The kernel computes the matrix products, the bias-and-mish steps, the read-out and the whole head in six row-tiled
  regions, with the aggregations between them as whole-array operations; the reference is one line of whole-array
  operations. On the extended reals the two agree entry by entry: a row-tiled product is the product, the eight row
  bands tile the rows, and both programs apply the head's operations in one order. The one place where the two differ
  as terms is the second classifier's input, which the reference forms as  2·t − t  and the kernel as  t.  These agree
  exactly where  t  is a real number  (⊤ − ⊤ = ⊥),  and  t  is real-valued: the precondition says that every float
  argument is, and every operation of the network keeps real-valued arrays real-valued — a column's variance is a
  nonnegative real number, so with the positive offset  ε  its reciprocal square root is a real number; the degree
  normalisation  deg^(-1/2) where deg > 0, else 0  is a real number whatever the degree is.

  The frames of the kernel and of its idealization are the generated ones; the reference's is its run with the two
  results dropped. The idealization rewrote no operation, so it preserves the kernel by definition.
-/
import proofs.«105513_j41961830482650_1_alg».proof.Defs
import proofs.«105513_j41961830482650_1_alg».proof.Proof.Gen.Kernel
import proofs.«105513_j41961830482650_1_alg».proof.Proof.Gen.Kernel.Skeleton
import proofs.«105513_j41961830482650_1_alg».proof.Proof.Gen.Kernel.Launch
import proofs.«105513_j41961830482650_1_alg».proof.Proof.Gen.Kernel.Points
import proofs.«105513_j41961830482650_1_alg».proof.Proof.Gen.Kernel.Frame
import proofs.«105513_j41961830482650_1_alg».proof.Proof.Gen.KernelIdeal
import proofs.«105513_j41961830482650_1_alg».proof.Proof.Gen.KernelIdeal.Skeleton
import proofs.«105513_j41961830482650_1_alg».proof.Proof.Gen.KernelIdeal.Launch
import proofs.«105513_j41961830482650_1_alg».proof.Proof.Gen.KernelIdeal.Points
import proofs.«105513_j41961830482650_1_alg».proof.Proof.Gen.KernelIdeal.Frame
import proofs.«105513_j41961830482650_1_alg».proof.Proof.Gen.ReferenceIdeal
import proofs.«105513_j41961830482650_1_alg».proof.Proof.Gen.Pre_finite_inputs
import proofs.«105513_j41961830482650_1_alg».proof.Proof.RefRun
import proofs.«105513_j41961830482650_1_alg».proof.Proof.KernelValue
import proofs.«105513_j41961830482650_1_alg».proof.Proof.FiniteInputs
import proofs.«105513_j41961830482650_1_alg».proof.Proof.Final
import Idealize.ShloMosaic.Adequacy
import Idealize.ShloMosaic.Init

noncomputable section

namespace Cert.Proof

open Idealize.ShloMosaic Idealize.SL.Sem

/-- The word-level kernel runs and leaves its arguments as they were: its generated frame. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- The reference is a line of host operations: its run, with the two results dropped. -/
theorem frame_referenceIdeal : Cert.frame_ReferenceIdeal := fun m ρ _ =>
  (θ_run Cert.ReferenceIdeal.defs _ _).mono (fun _ h c => (h c).2.2) (Cert.ReferenceIdeal.Stages.run (F := Ideal) m ρ)

/-- The idealization rewrote no operation. -/
theorem preserves : Cert.preserves_Kernel_KernelIdeal := trivial

set_option maxHeartbeats 4000000 in
/-- On the extended reals both programs end with the network's two results of their (agreeing) arguments: the kernel's run
    gives them as the closed functions of its arguments, the reference's run as its own stage functions, and the two
    agree where every float argument is real-valued, which is what the precondition says. -/
theorem algebraic : Cert.algebraic_KernelIdeal_ReferenceIdeal := by
  intro m ρ m' ρ' hpre hagree
  refine ⟨fun c => Cert.KernelIdeal.Values.logitsK (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)),
    fun c => Cert.KernelIdeal.Values.clsK (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)),
    Cert.KernelIdeal.Values.run_closed m ρ, ?_⟩
  refine (θ_run Cert.ReferenceIdeal.defs _ _).mono (fun r h c => ?_) (Cert.ReferenceIdeal.Stages.run (F := Ideal) m' ρ')
  obtain ⟨h147, h159, hargs⟩ := h c
  obtain ⟨e0, e1, e2, e3, e4, e5, e6, e7, e8, e9, e10, e11, e12, e13, e14, e15, e16, e17, e18⟩ := hagree c
  obtain ⟨r0, r2, r3, r4, r5, r6, r7, r8, r9, r10, r11, r12, r13, r14, r15, r16, r17, r18⟩ :=
    Cert.Spec.realValued_of_finite_inputs _ _ _ _ _ _ _ _ _ _ _ _ _ _ _ _ _ _ _ (hpre c)
  refine ⟨?_, ?_, hargs⟩
  · rw [h147, e0, e1, e2, e3, e4, e5, e6, e7, e8, e9, e10, e11, e12, e13, e14]
    exact (Cert.Bridge.logitsK_eq_refLogits _ _ _ _ _ _ _ _ _ _ _ _ _ _ _).symm
  · rw [h159, e0, e1, e2, e3, e4, e5, e6, e7, e8, e9, e10, e11, e12, e15, e16, e17, e18]
    exact (Cert.Bridge.clsK_eq_refCls _ _ _ _ _ _ _ _ _ _ _ _ _ _ _ _ _ r0 r2 r3 r4 r5 r6 r7 r8 r9 r10 r11 r12).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
